-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)) (v2 : (c : Dev Cert.KernelIdeal.nD) → Buf (Elt Ideal) ((c.tc : Thread Cert.KernelIdeal.nD Cert.KernelIdeal.τ).loc Cert.KernelIdeal.main_v15_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_v15_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_v128) = v1 c
          ∧ r.2.mem ((c.tc : Thread Cert.ReferenceIdeal.nD Cert.ReferenceIdeal.τ).loc Cert.ReferenceIdeal.main_v135) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x72 : Shape := ⟨2, ![32768, 72]⟩
abbrev S32768x2 : Shape := ⟨2, ![32768, 2]⟩
abbrev S32768x256 : Shape := ⟨2, ![32768, 256]⟩
abbrev S1x1024 : Shape := ⟨2, ![1, 1024]⟩
abbrev S256x1024 : Shape := ⟨2, ![256, 1024]⟩
abbrev S1024 : Shape := ⟨1, ![1024]⟩
abbrev S64x1024 : Shape := ⟨2, ![64, 1024]⟩
abbrev S8x1024 : Shape := ⟨2, ![8, 1024]⟩
abbrev S256x256 : Shape := ⟨2, ![256, 256]⟩
abbrev S256 : Shape := ⟨1, ![256]⟩
abbrev S256x8 : Shape := ⟨2, ![256, 8]⟩
abbrev S8 : Shape := ⟨1, ![8]⟩
abbrev S_ : Shape := ⟨0, ![]⟩

class Facts : Prop where
  bcast_S_S32768x72 : S_.BroadcastsInDim S32768x72 (![] : Fin 0 → Fin S32768x72.rank)
  reducesTo_S32768x72_S_d0_1 : S32768x72.ReducesTo [0, 1] S_
  h_S_ : 0 < S_.numel
  bcast_S_S32768x2 : S_.BroadcastsInDim S32768x2 (![] : Fin 0 → Fin S32768x2.rank)
  reducesTo_S32768x2_S_d0_1 : S32768x2.ReducesTo [0, 1] S_
  bcast_S_S32768x256 : S_.BroadcastsInDim S32768x256 (![] : Fin 0 → Fin S32768x256.rank)
  reducesTo_S32768x256_S_d0_1 : S32768x256.ReducesTo [0, 1] S_
  bcast_S_S1x1024 : S_.BroadcastsInDim S1x1024 (![] : Fin 0 → Fin S1x1024.rank)
  reducesTo_S1x1024_S_d0_1 : S1x1024.ReducesTo [0, 1] S_
  bcast_S_S256x1024 : S_.BroadcastsInDim S256x1024 (![] : Fin 0 → Fin S256x1024.rank)
  reducesTo_S256x1024_S_d0_1 : S256x1024.ReducesTo [0, 1] S_
  bcast_S_S1024 : S_.BroadcastsInDim S1024 (![] : Fin 0 → Fin S1024.rank)
  reducesTo_S1024_S_d0 : S1024.ReducesTo [0] S_
  bcast_S_S64x1024 : S_.BroadcastsInDim S64x1024 (![] : Fin 0 → Fin S64x1024.rank)
  reducesTo_S64x1024_S_d0_1 : S64x1024.ReducesTo [0, 1] S_
  bcast_S_S8x1024 : S_.BroadcastsInDim S8x1024 (![] : Fin 0 → Fin S8x1024.rank)
  reducesTo_S8x1024_S_d0_1 : S8x1024.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x8 : S_.BroadcastsInDim S256x8 (![] : Fin 0 → Fin S256x8.rank)
  reducesTo_S256x8_S_d0_1 : S256x8.ReducesTo [0, 1] S_
  bcast_S_S8 : S_.BroadcastsInDim S8 (![] : Fin 0 → Fin S8.rank)
  reducesTo_S8_S_d0 : S8.ReducesTo [0] S_

variable [Facts]

def fn_part5 {F : FTy → Type} [FloatOps F] (main_arg18 : FVec F S8 .f32) (main_v83 : IVec S_ 1) (main_v84 : FVec F S256x8 .f32) (main_cst_32 : FVec F S_ .f32) : IVec S_ 1 :=
  let main_v85 : FVec F S256x8 .f32 := broadcastInDim S256x8 ![] bcast_S_S256x8 main_cst_32
  let main_v86 : IVec S256x8 1 := cmpf .olt main_v84 main_v85
  let main_c_33 : IVec S_ 1 := constantI S_ 1 1#1
  let main_v87 : IVec S_ 1 := (fun x v => Host.reduce IntOp.andi x v reducesTo_S256x8_S_d0_1 h_S_) main_v86 main_c_33
  let main_v88 : IVec S_ 1 := andi main_v83 main_v87
  let main_v89 : FVec F S8 .f32 := Host.absf main_arg18
  let main_cst_34 : FVec F S_ .f32 := constant S_ .f32 0x7F800000#32
  let main_v90 : FVec F S8 .f32 := broadcastInDim S8 ![] bcast_S_S8 main_cst_34
  let main_v91 : IVec S8 1 := cmpf .olt main_v89 main_v90
  let main_c_35 : IVec S_ 1 := constantI S_ 1 1#1
  let main_v92 : IVec S_ 1 := (fun x v => Host.reduce IntOp.andi x v reducesTo_S8_S_d0 h_S_) main_v91 main_c_35
  let main_v93 : IVec S_ 1 := andi main_v88 main_v92
  main_v93

def fn_part4 {F : FTy → Type} [FloatOps F] (main_arg14 : FVec F S256 .f32) (main_arg15 : FVec F S256x8 .f32) (main_arg16 : FVec F S8 .f32) (main_arg17 : FVec F S256x8 .f32) (main_arg18 : FVec F S8 .f32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256x8 .f32 := Host.absf main_arg15
  let main_cst_28 : FVec F S_ .f32 := constant S_ .f32 0x7F800000#32
  let main_v75 : FVec F S256x8 .f32 := broadcastInDim S256x8 ![] bcast_S_S256x8 main_cst_28
  let main_v76 : IVec S256x8 1 := cmpf .olt main_v74 main_v75
  let main_c_29 : IVec S_ 1 := constantI S_ 1 1#1
  let main_v77 : IVec S_ 1 := (fun x v => Host.reduce IntOp.andi x v reducesTo_S256x8_S_d0_1 h_S_) main_v76 main_c_29
  let main_v78 : IVec S_ 1 := andi main_v73 main_v77
  let main_v79 : FVec F S8 .f32 := Host.absf main_arg16
  let main_cst_30 : FVec F S_ .f32 := constant S_ .f32 0x7F800000#32
  let main_v80 : FVec F S8 .f32 := broadcastInDim S8 ![] bcast_S_S8 main_cst_30
  let main_v81 : IVec S8 1 := cmpf .olt main_v79 main_v80
  let main_c_31 : IVec S_ 1 := constantI S_ 1 1#1
  let main_v82 : IVec S_ 1 := (fun x v => Host.reduce IntOp.andi x v reducesTo_S8_S_d0 h_S_) main_v81 main_c_31
  let main_v83 : IVec S_ 1 := andi main_v78 main_v82
  let main_v84 : FVec F S256x8 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S256x1024 .f32) (main_arg12 : FVec F S1024 .f32) (main_arg13 : FVec F S256x256 .f32) (main_arg14 : FVec F S256 .f32) (main_arg15 : FVec F S256x8 .f32) (main_arg16 : FVec F S8 .f32) (main_arg17 : FVec F S256x8 .f32) (main_arg18 : FVec F S8 .f32) (main_v48 : IVec S_ 1) (main_v49 : FVec F S8x1024 .f32) (main_v50 : FVec F S8x1024 .f32) : IVec S_ 1 :=
  let main_v51 : IVec S8x1024 1 := cmpf .olt main_v49 main_v50
  let main_c_19 : IVec S_ 1 := constantI S_ 1 1#1
  let main_v52 : IVec S_ 1 := (fun x v => Host.reduce IntOp.andi x v reducesTo_S8x1024_S_d0_1 h_S_) main_v51 main_c_19
  let main_v53 : IVec S_ 1 := andi main_v48 main_v52
  let main_v54 : FVec F S256x1024 .f32 := Host.absf main_arg11
  let main_cst_20 : FVec F S_ .f32 := constant S_ .f32 0x7F800000#32
  let main_v55 : FVec F S256x1024 .f32 := broadcastInDim S256x1024 ![] bcast_S_S256x1024 main_cst_20
  let main_v56 : IVec S256x1024 1 := cmpf .olt main_v54 main_v55
  let main_c_21 : IVec S_ 1 := constantI S_ 1 1#1
  let main_v57 : IVec S_ 1 := (fun x v => Host.reduce IntOp.andi x v reducesTo_S256x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S256x256 .f32 := Host.absf main_arg13
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg14 main_arg15 main_arg16 main_arg17 main_arg18 main_v63 main_v67

def fn_part2 {F : FTy → Type} [FloatOps F] (main_arg7 : FVec F S64x1024 .f32) (main_arg8 : FVec F S256x1024 .f32) (main_arg9 : FVec F S1024 .f32) (main_arg10 : FVec F S8x1024 .f32) (main_arg11 : FVec F S256x1024 .f32) (main_arg12 : FVec F S1024 .f32) (main_arg13 : FVec F S256x256 .f32) (main_arg14 : FVec F S256 .f32) (main_arg15 : FVec F S256x8 .f32) (main_arg16 : FVec F S8 .f32) (main_arg17 : FVec F S256x8 .f32) (main_arg18 : FVec F S8 .f32) (main_v33 : IVec S_ 1) : IVec S_ 1 :=
  let main_v34 : FVec F S64x1024 .f32 := Host.absf main_arg7
  let main_cst_12 : FVec F S_ .f32 := constant S_ .f32 0x7F800000#32
  let main_v35 : FVec F S64x1024 .f32 := broadcastInDim S64x1024 ![] bcast_S_S64x1024 main_cst_12
  let main_v36 : IVec S64x1024 1 := cmpf .olt main_v34 main_v35
  let main_c_13 : IVec S_ 1 := constantI S_ 1 1#1
  let main_v37 : IVec S_ 1 := (fun x v => Host.reduce IntOp.andi x v reducesTo_S64x1024_S_d0_1 h_S_) main_v36 main_c_13
  let main_v38 : IVec S_ 1 := andi main_v33 main_v37
  let main_v39 : FVec F S256x1024 .f32 := Host.absf main_arg8
  let main_cst_14 : FVec F S_ .f32 := constant S_ .f32 0x7F800000#32
  let main_v40 : FVec F S256x1024 .f32 := broadcastInDim S256x1024 ![] bcast_S_S256x1024 main_cst_14
  let main_v41 : IVec S256x1024 1 := cmpf .olt main_v39 main_v40
  let main_c_15 : IVec S_ 1 := constantI S_ 1 1#1
  let main_v42 : IVec S_ 1 := (fun x v => Host.reduce IntOp.andi x v reducesTo_S256x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S8x1024 .f32 := Host.absf main_arg10
  let main_cst_18 : FVec F S_ .f32 := constant S_ .f32 0x7F800000#32
  let main_v50 : FVec F S8x1024 .f32 := broadcastInDim S8x1024 ![] bcast_S_S8x1024 main_cst_18
  fn_part3 (F := F) main_arg11 main_arg12 main_arg13 main_arg14 main_arg15 main_arg16 main_arg17 main_arg18 main_v48 main_v49 main_v50

def fn_part1 {F : FTy → Type} [FloatOps F] (main_arg4 : FVec F S1x1024 .f32) (main_arg5 : FVec F S256x1024 .f32) (main_arg6 : FVec F S1024 .f32) (main_arg7 : FVec F S64x1024 .f32) (main_arg8 : FVec F S256x1024 .f32) (main_arg9 : FVec F S1024 .f32) (main_arg10 : FVec F S8x1024 .f32) (main_arg11 : FVec F S256x1024 .f32) (main_arg12 : FVec F S1024 .f32) (main_arg13 : FVec F S256x256 .f32) (main_arg14 : FVec F S256 .f32) (main_arg15 : FVec F S256x8 .f32) (main_arg16 : FVec F S8 .f32) (main_arg17 : FVec F S256x8 .f32) (main_arg18 : FVec F S8 .f32) (main_v13 : IVec S_ 1) (main_v16 : IVec S32768x256 1) : IVec S_ 1 :=
  let main_c_5 : IVec S_ 1 := constantI S_ 1 1#1
  let main_v17 : IVec S_ 1 := (fun x v => Host.reduce IntOp.andi x v reducesTo_S32768x256_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S256x1024 .f32 := Host.absf main_arg5
  let main_cst_8 : FVec F S_ .f32 := constant S_ .f32 0x7F800000#32
  let main_v25 : FVec F S256x1024 .f32 := broadcastInDim S256x1024 ![] bcast_S_S256x1024 main_cst_8
  let main_v26 : IVec S256x1024 1 := cmpf .olt main_v24 main_v25
  let main_c_9 : IVec S_ 1 := constantI S_ 1 1#1
  let main_v27 : IVec S_ 1 := (fun x v => Host.reduce IntOp.andi x v reducesTo_S256x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S32768x72 .f32) (main_arg1 : FVec F S32768x2 .f32) (main_arg2 : FVec F S32768x256 .f32) (main_arg3 : FVec F S32768x256 .f32) (main_arg4 : FVec F S1x1024 .f32) (main_arg5 : FVec F S256x1024 .f32) (main_arg6 : FVec F S1024 .f32) (main_arg7 : FVec F S64x1024 .f32) (main_arg8 : FVec F S256x1024 .f32) (main_arg9 : FVec F S1024 .f32) (main_arg10 : FVec F S8x1024 .f32) (main_arg11 : FVec F S256x1024 .f32) (main_arg12 : FVec F S1024 .f32) (main_arg13 : FVec F S256x256 .f32) (main_arg14 : FVec F S256 .f32) (main_arg15 : FVec F S256x8 .f32) (main_arg16 : FVec F S8 .f32) (main_arg17 : FVec F S256x8 .f32) (main_arg18 : FVec F S8 .f32) : IVec S_ 1 :=
  let main_v0 : FVec F S32768x72 .f32 := Host.absf main_arg0
  let main_cst : FVec F S_ .f32 := constant S_ .f32 0x7F800000#32
  let main_v1 : FVec F S32768x72 .f32 := broadcastInDim S32768x72 ![] bcast_S_S32768x72 main_cst
  let main_v2 : IVec S32768x72 1 := cmpf .olt main_v0 main_v1
  let main_c : IVec S_ 1 := constantI S_ 1 1#1
  let main_v3 : IVec S_ 1 := (fun x v => Host.reduce IntOp.andi x v reducesTo_S32768x72_S_d0_1 h_S_) main_v2 main_c
  let main_v4 : FVec F S32768x2 .f32 := Host.absf main_arg1
  let main_cst_0 : FVec F S_ .f32 := constant S_ .f32 0x7F800000#32
  let main_v5 : FVec F S32768x2 .f32 := broadcastInDim S32768x2 ![] bcast_S_S32768x2 main_cst_0
  let main_v6 : IVec S32768x2 1 := cmpf .olt main_v4 main_v5
  let main_c_1 : IVec S_ 1 := constantI S_ 1 1#1
  let main_v7 : IVec S_ 1 := (fun x v => Host.reduce IntOp.andi x v reducesTo_S32768x2_S_d0_1 h_S_) main_v6 main_c_1
  let main_v8 : IVec S_ 1 := andi main_v3 main_v7
  let main_v9 : FVec F S32768x256 .f32 := Host.absf main_arg2
  let main_cst_2 : FVec F S_ .f32 := constant S_ .f32 0x7F800000#32
  let main_v10 : FVec F S32768x256 .f32 := broadcastInDim S32768x256 ![] bcast_S_S32768x256 main_cst_2
  let main_v11 : IVec S32768x256 1 := cmpf .olt main_v9 main_v10
  let main_c_3 : IVec S_ 1 := constantI S_ 1 1#1
  let main_v12 : IVec S_ 1 := (fun x v => Host.reduce IntOp.andi x v reducesTo_S32768x256_S_d0_1 h_S_) main_v11 main_c_3
  let main_v13 : IVec S_ 1 := andi main_v8 main_v12
  let main_v14 : FVec F S32768x256 .f32 := Host.absf main_arg3
  let main_cst_4 : FVec F S_ .f32 := constant S_ .f32 0x7F800000#32
  let main_v15 : FVec F S32768x256 .f32 := broadcastInDim S32768x256 ![] bcast_S_S32768x256 main_cst_4
  let main_v16 : IVec S32768x256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S32768x72 : Shape := ⟨2, ![32768, 72]⟩
abbrev S32768x2 : Shape := ⟨2, ![32768, 2]⟩
abbrev S32768x256 : Shape := ⟨2, ![32768, 256]⟩
abbrev S1x1024 : Shape := ⟨2, ![1, 1024]⟩
abbrev S256x1024 : Shape := ⟨2, ![256, 1024]⟩
abbrev S1024 : Shape := ⟨1, ![1024]⟩
abbrev S64x1024 : Shape := ⟨2, ![64, 1024]⟩
abbrev S8x1024 : Shape := ⟨2, ![8, 1024]⟩
abbrev S256x256 : Shape := ⟨2, ![256, 256]⟩
abbrev S256 : Shape := ⟨1, ![256]⟩
abbrev S256x8 : Shape := ⟨2, ![256, 8]⟩
abbrev S8 : Shape := ⟨1, ![8]⟩
abbrev S1x256 : Shape := ⟨2, ![1, 256]⟩
abbrev S1x8 : Shape := ⟨2, ![1, 8]⟩
abbrev S32768x16 : Shape := ⟨2, ![32768, 16]⟩
abbrev S512x72 : Shape := ⟨2, ![512, 72]⟩
abbrev S512x2 : Shape := ⟨2, ![512, 2]⟩
abbrev S512x256 : Shape := ⟨2, ![512, 256]⟩
abbrev S512x16 : Shape := ⟨2, ![512, 16]⟩
abbrev S512x64 : Shape := ⟨2, ![512, 64]⟩
abbrev S512x8 : Shape := ⟨2, ![512, 8]⟩
abbrev S512x1 : Shape := ⟨2, ![512, 1]⟩
abbrev S512x1024 : Shape := ⟨2, ![512, 1024]⟩

abbrev nBuf : Space → Nat
  | .hbm => 37
  | .vmem => 29
  | .smem => 0
  | _ => 0

abbrev bufTy : (tb : Table) → Fin (tcTables nBuf tb) → BufTy
  | .hbm, ⟨0, _⟩ => ⟨S32768x72, .f32⟩
  | .hbm, ⟨1, _⟩ => ⟨S32768x2, .f32⟩
  | .hbm, ⟨2, _⟩ => ⟨S32768x256, .f32⟩
  | .hbm, ⟨3, _⟩ => ⟨S32768x256, .f32⟩
  | .hbm, ⟨4, _⟩ => ⟨S1x1024, .f32⟩
  | .hbm, ⟨5, _⟩ => ⟨S256x1024, .f32⟩
  | .hbm, ⟨6, _⟩ => ⟨S1024, .f32⟩
  | .hbm, ⟨7, _⟩ => ⟨S64x1024, .f32⟩
  | .hbm, ⟨8, _⟩ => ⟨S256x1024, .f32⟩
  | .hbm, ⟨9, _⟩ => ⟨S1024, .f32⟩
  | .hbm, ⟨10, _⟩ => ⟨S8x1024, .f32⟩
  | .hbm, ⟨11, _⟩ => ⟨S256x1024, .f32⟩
  | .hbm, ⟨12, _⟩ => ⟨S1024, .f32⟩
  | .hbm, ⟨13, _⟩ => ⟨S256x256, .f32⟩
  | .hbm, ⟨14, _⟩ => ⟨S256, .f32⟩
  | .hbm, ⟨15, _⟩ => ⟨S256x8, .f32⟩
  | .hbm, ⟨16, _⟩ => ⟨S8, .f32⟩
  | .hbm, ⟨17, _⟩ => ⟨S256x8, .f32⟩
  | .hbm, ⟨18, _⟩ => ⟨S8, .f32⟩
  | .hbm, ⟨19, _⟩ => ⟨S1x1024, .bf16⟩
  | .hbm, ⟨20, _⟩ => ⟨S256x1024, .bf16⟩
  | .hbm, ⟨21, _⟩ => ⟨S64x1024, .bf16⟩
  | .hbm, ⟨22, _⟩ => ⟨S256x1024, .bf16⟩
  | .hbm, ⟨23, _⟩ => ⟨S8x1024, .bf16⟩
  | .hbm, ⟨24, _⟩ => ⟨S256x1024, .bf16⟩
  | .hbm, ⟨25, _⟩ => ⟨S256x256, .bf16⟩
  | .hbm, ⟨26, _⟩ => ⟨S256x8, .bf16⟩
  | .hbm, ⟨27, _⟩ => ⟨S256x8, .bf16⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S1x256, .f32⟩
  | .hbm, ⟨32, _⟩ => ⟨S1x8, .f32⟩
  | .hbm, ⟨33, _⟩ => ⟨S1x8, .f32⟩
  | .hbm, ⟨34, _⟩ => ⟨S32768x16, .f32⟩
  | .hbm, ⟨35, _⟩ => ⟨S32768x256, .f32⟩
  | .hbm, ⟨36, _⟩ => ⟨S32768x256, .f32⟩
  | .local _ .vmem, ⟨0, _⟩ => ⟨S512x72, .f32⟩
  | .local _ .vmem, ⟨1, _⟩ => ⟨S512x72, .f32⟩
  | .local _ .vmem, ⟨2, _⟩ => ⟨S512x2, .f32⟩
  | .local _ .vmem, ⟨3, _⟩ => ⟨S512x2, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S1x1024, .bf16⟩
  | .local _ .vmem, ⟨9, _⟩ => ⟨S256x1024, .bf16⟩
  | .local _ .vmem, ⟨10, _⟩ => ⟨S1x1024, .f32⟩
  | .local _ .vmem, ⟨11, _⟩ => ⟨S64x1024, .bf16⟩
  | .local _ .vmem, ⟨12, _⟩ => ⟨S256x1024, .bf16⟩
  | .local _ .vmem, ⟨13, _⟩ => ⟨S1x1024, .f32⟩
  | .local _ .vmem, ⟨14, _⟩ => ⟨S8x1024, .bf16⟩
  | .local _ .vmem, ⟨15, _⟩ => ⟨S256x1024, .bf16⟩
  | .local _ .vmem, ⟨16, _⟩ => ⟨S1x1024, .f32⟩
  | .local _ .vmem, ⟨17, _⟩ => ⟨S256x256, .bf16⟩
  | .local _ .vmem, ⟨18, _⟩ => ⟨S1x256, .f32⟩
  | .local _ .vmem, ⟨19, _⟩ => ⟨S256x8, .bf16⟩
  | .local _ .vmem, ⟨20, _⟩ => ⟨S1x8, .f32⟩
  | .local _ .vmem, ⟨21, _⟩ => ⟨S256x8, .bf16⟩
  | .local _ .vmem, ⟨22, _⟩ => ⟨S1x8, .f32⟩
  | .local _ .vmem, ⟨23, _⟩ => ⟨S512x16, .f32⟩
  | .local _ .vmem, ⟨24, _⟩ => ⟨S512x16, .f32⟩
  | .local _ .vmem, ⟨25, _⟩ => ⟨S512x256, .f32⟩
  | .local _ .vmem, ⟨26, _⟩ => ⟨S512x256, .f32⟩
  | .local _ .vmem, ⟨27, _⟩ => ⟨S512x256, .f32⟩
  | .local _ .vmem, ⟨28, _⟩ => ⟨S512x256, .f32⟩
  | _, _ => ⟨S32768x72, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15_0 : Ref sig .tc := ⟨.hbm, 34, rfl⟩
abbrev main_v15_1 : Ref sig .tc := ⟨.hbm, 35, rfl⟩
abbrev main_v15_2 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg19_1 : Ref sig .tc := ⟨.vmem, 24, rfl⟩
abbrev cc0_stg20_0 : Ref sig .tc := ⟨.vmem, 25, rfl⟩
abbrev cc0_stg20_1 : Ref sig .tc := ⟨.vmem, 26, rfl⟩
abbrev cc0_stg21_0 : Ref sig .tc := ⟨.vmem, 27, rfl⟩
abbrev cc0_stg21_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem19_0 : DmaSem sig := 23
abbrev cc0_sem19_1 : DmaSem sig := 24
abbrev cc0_sem20_0 : DmaSem sig := 25
abbrev cc0_sem20_1 : DmaSem sig := 26
abbrev cc0_sem21_0 : DmaSem sig := 27
abbrev cc0_sem21_1 : DmaSem sig := 28

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x72 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x8 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x8 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256x8 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x8 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S512x16 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

class Facts₀ : Prop where
  bitsLt_bf16_f32 : FTy.bits .bf16 < FTy.bits .f32
  shapeCasts_S1024_S1x1024 : S1024.ShapeCasts S1x1024
  shapeCasts_S256_S1x256 : S256.ShapeCasts S1x256
  shapeCasts_S8_S1x8 : S8.ShapeCasts S1x8
  inb_S512x72_S512x72_0_0 : ∀ a, (![0, 0] : Fin 2 → Nat) a + S512x72.size a ≤ S512x72.size a
  h_S512x72 : 0 < S512x72.numel
  slices_S512x72_o0_0_S512x64 : S512x72.Slices ![0, 0] S512x64
  slices_S512x72_o0_64_S512x8 : S512x72.Slices ![0, 64] S512x8
  inb_S512x2_S512x2_0_0 : ∀ a, (![0, 0] : Fin 2 → Nat) a + S512x2.size a ≤ S512x2.size a
  h_S512x2 : 0 < S512x2.numel
  inb_S512x256_S512x256_0_0 : ∀ a, (![0, 0] : Fin 2 → Nat) a + S512x256.size a ≤ S512x256.size a
  h_S512x256 : 0 < S512x256.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  broadcasts_S1x1024_S512x1024 : S1x1024.Broadcasts S512x1024
  slices_S512x1024_o0_0_S512x256 : S512x1024.Slices ![0, 0] S512x256
  slices_S512x1024_o0_256_S512x256 : S512x1024.Slices ![0, 256] S512x256
  slices_S512x1024_o0_512_S512x256 : S512x1024.Slices ![0, 512] S512x256
  slices_S512x1024_o0_768_S512x256 : S512x1024.Slices ![0, 768] S512x256
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  slices_S512x2_o0_0_S512x1 : S512x2.Slices ![0, 0] S512x1
  broadcasts_S512x1_S512x256 : S512x1.Broadcasts S512x256
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  slices_S512x2_o0_1_S512x1 : S512x2.Slices ![0, 1] S512x1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S256x8_S256x8_0_0 : ∀ a, (![0, 0] : Fin 2 → Nat) a + S256x8.size a ≤ S256x8.size a
  h_S256x8 : 0 < S256x8.numel
  shapeCasts_S256x8_S256x8 : S256x8.ShapeCasts S256x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S512x8 : S1x8.Broadcasts S512x8
  concatenates_S512x8_S512x8_S512x16_d1 : Shape.Concatenates [S512x8, S512x8] S512x16 1
  inb_S512x16_S512x16_0_0 : ∀ a, (![0, 0] : Fin 2 → Nat) a + S512x16.size a ≤ S512x16.size a
  h_S512x16 : 0 < S512x16.numel
  dot_S512x1_S1x1024_S512x1024_1_0_0_1_n_n_wf : DotDims.WF S512x1 S1x1024 S512x1024 [1] [0] [0] [1] [] []
  dot_S512x256_S256x1024_S512x1024_1_0_0_1_n_n_wf : DotDims.WF S512x256 S256x1024 S512x1024 [1] [0] [0] [1] [] []
  dot_S512x64_S64x1024_S512x1024_1_0_0_1_n_n_wf : DotDims.WF S512x64 S64x1024 S512x1024 [1] [0] [0] [1] [] []
  dot_S512x8_S8x1024_S512x1024_1_0_0_1_n_n_wf : DotDims.WF S512x8 S8x1024 S512x1024 [1] [0] [0] [1] [] []
  dot_S512x256_S256x256_S512x256_1_0_0_1_n_n_wf : DotDims.WF S512x256 S256x256 S512x256 [1] [0] [0] [1] [] []
  dot_S512x256_S256x8_S512x8_1_0_0_1_n_n_wf : DotDims.WF S512x256 S256x8 S512x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x72.size a ≤ S32768x72.size a
  hwx0_0 : ∀ i : grid0.Coords, EltTy.bits .f32 = 32 ∨ (Rect.block (s := S32768x72) S512x72.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2.size a ≤ S32768x2.size a
  hwx0_1 : ∀ i : grid0.Coords, EltTy.bits .f32 = 32 ∨ (Rect.block (s := S32768x2) S512x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S32768x256.size a
  hwx0_2 : ∀ i : grid0.Coords, EltTy.bits .f32 = 32 ∨ (Rect.block (s := S32768x256) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S32768x256.size a
  hwx0_3 : ∀ i : grid0.Coords, EltTy.bits .f32 = 32 ∨ (Rect.block (s := S32768x256) S512x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .bf16 = 32 ∨ (Rect.block (s := S1x1024) S1x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S256x1024.size a
  hwx0_5 : ∀ i : grid0.Coords, EltTy.bits .bf16 = 32 ∨ (Rect.block (s := S256x1024) S256x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x1024.size a ≤ S64x1024.size a
  hwx0_7 : ∀ i : grid0.Coords, EltTy.bits .bf16 = 32 ∨ (Rect.block (s := S64x1024) S64x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S256x1024.size a
  hwx0_8 : ∀ i : grid0.Coords, EltTy.bits .bf16 = 32 ∨ (Rect.block (s := S256x1024) S256x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S8x1024.size a ≤ S8x1024.size a
  hwx0_10 : ∀ i : grid0.Coords, EltTy.bits .bf16 = 32 ∨ (Rect.block (s := S8x1024) S8x1024.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x1024.size a ≤ S256x1024.size a
  hwx0_11 : ∀ i : grid0.Coords, EltTy.bits .bf16 = 32 ∨ (Rect.block (s := S256x1024) S256x1024.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1024.size a ≤ S1x1024.size a
  hwx0_12 : ∀ i : grid0.Coords, EltTy.bits .f32 = 32 ∨ (Rect.block (s := S1x1024) S1x1024.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256x256.size a ≤ S256x256.size a
  hwx0_13 : ∀ i : grid0.Coords, EltTy.bits .bf16 = 32 ∨ (Rect.block (s := S256x256) S256x256.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x256.size a ≤ S1x256.size a
  hwx0_14 : ∀ i : grid0.Coords, EltTy.bits .f32 = 32 ∨ (Rect.block (s := S1x256) S1x256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S256x8.size a ≤ S256x8.size a
  hwx0_15 : ∀ i : grid0.Coords, EltTy.bits .bf16 = 32 ∨ (Rect.block (s := S256x8) S256x8.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x8.size a ≤ S1x8.size a
  hwx0_16 : ∀ i : grid0.Coords, EltTy.bits .f32 = 32 ∨ (Rect.block (s := S1x8) S1x8.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S256x8.size a ≤ S256x8.size a
  hwx0_17 : ∀ i : grid0.Coords, EltTy.bits .bf16 = 32 ∨ (Rect.block (s := S256x8) S256x8.size (cc0_transform_17 i) (hinb0_17 i)).WholeWords (EltTy.packing .bf16)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x8.size a ≤ S1x8.size a
  hwx0_18 : ∀ i : grid0.Coords, EltTy.bits .f32 = 32 ∨ (Rect.block (s := S1x8) S1x8.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S512x16.size a ≤ S32768x16.size a
  hwx0_19 : ∀ i : grid0.Coords, EltTy.bits .f32 = 32 ∨ (Rect.block (s := S32768x16) S512x16.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S512x256.size a ≤ S32768x256.size a
  hwx0_20 : ∀ i : grid0.Coords, EltTy.bits .f32 = 32 ∨ (Rect.block (s := S32768x256) S512x256.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S512x256.size a ≤ S32768x256.size a
  hwx0_21 : ∀ i : grid0.Coords, EltTy.bits .f32 = 32 ∨ (Rect.block (s := S32768x256) S512x256.size (cc0_transform_21 i) (hinb0_21 i)).WholeWords (EltTy.packing .f32)

variable [Facts₀]

def dot_S512x1_S1x1024_S512x1024_1_0_0_1_n_n : DotDims S512x1 S1x1024 S512x1024 where
  lhsContracting := [1]
  rhsContracting := [0]
  lhsNonContracting := [0]
  rhsNonContracting := [1]
  lhsBatch := []
  rhsBatch := []
  wf := dot_S512x1_S1x1024_S512x1024_1_0_0_1_n_n_wf
def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf
def dot_S512x64_S64x1024_S512x1024_1_0_0_1_n_n : DotDims S512x64 S64x1024 S512x1024 where
  lhsContracting := [1]
  rhsContracting := [0]
  lhsNonContracting := [0]
  rhsNonContracting := [1]
  lhsBatch := []
  rhsBatch := []
  wf := dot_S512x64_S64x1024_S512x1024_1_0_0_1_n_n_wf
def dot_S512x8_S8x1024_S512x1024_1_0_0_1_n_n : DotDims S512x8 S8x1024 S512x1024 where
  lhsContracting := [1]
  rhsContracting := [0]
  lhsNonContracting := [0]
  rhsNonContracting := [1]
  lhsBatch := []
  rhsBatch := []
  wf := dot_S512x8_S8x1024_S512x1024_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x256_S256x8_S512x8_1_0_0_1_n_n : DotDims S512x256 S256x8 S512x8 where
  lhsContracting := [1]
  rhsContracting := [0]
  lhsNonContracting := [0]
  rhsNonContracting := [1]
  lhsBatch := []
  rhsBatch := []
  wf := dot_S512x256_S256x8_S512x8_1_0_0_1_n_n_wf

abbrev win0_0 : Pipeline.Window sig grid0 :=
  Pipeline.Window.ofSpec (Memref.whole main_arg0) S512x72.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S256x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S64x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S256x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4) S8x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v5) S256x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v11) S1x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v6) S256x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v12) S1x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v7) S256x8.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v13) S1x8.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v8) S256x8.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v14) S1x8.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v15_0) S512x16.size cc0_transform_19 reads0_19 true false 2 stage0_19 sem0_19
    hrank0 hreads0_19 hinb0_19 nbuf0_19 (Memref.isWhole_whole _) hwx0_19 hstage0_19

abbrev win0_20 : Pipeline.Window sig grid0 :=
  Pipeline.Window.ofSpec (Memref.whole main_v15_1) S512x256.size cc0_transform_20 reads0_20 true false 2 stage0_20 sem0_20
    hrank0 hreads0_20 hinb0_20 nbuf0_20 (Memref.isWhole_whole _) hwx0_20 hstage0_20

abbrev win0_21 : Pipeline.Window sig grid0 :=
  Pipeline.Window.ofSpec (Memref.whole main_v15_2) S512x256.size cc0_transform_21 reads0_21 true false 2 stage0_21 sem0_21
    hrank0 hreads0_21 hinb0_21 nbuf0_21 (Memref.isWhole_whole _) hwx0_21 hstage0_21

abbrev win0 : Fin 22 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | ⟨_ + 22, h⟩ => absurd h (Nat.not_lt.2 (Nat.le_add_left _ _))
abbrev spec0 : Fin 22 → Pipeline.WinSpec sig grid0.rank := fun w => (win0 w).toWinSpec

class Facts : Prop extends Facts₀ where

variable [Facts]
-- ==== ReferenceIdeal.lean ====
abbrev S32768x72 : Shape := ⟨2, ![32768, 72]⟩
abbrev S32768x2 : Shape := ⟨2, ![32768, 2]⟩
abbrev S32768x256 : Shape := ⟨2, ![32768, 256]⟩
abbrev S1x1024 : Shape := ⟨2, ![1, 1024]⟩
abbrev S256x1024 : Shape := ⟨2, ![256, 1024]⟩
abbrev S1024 : Shape := ⟨1, ![1024]⟩
abbrev S64x1024 : Shape := ⟨2, ![64, 1024]⟩
abbrev S8x1024 : Shape := ⟨2, ![8, 1024]⟩
abbrev S256x256 : Shape := ⟨2, ![256, 256]⟩
abbrev S256 : Shape := ⟨1, ![256]⟩
abbrev S256x8 : Shape := ⟨2, ![256, 8]⟩
abbrev S8 : Shape := ⟨1, ![8]⟩
abbrev S32768x64 : Shape := ⟨2, ![32768, 64]⟩
abbrev S32768x8 : Shape := ⟨2, ![32768, 8]⟩
abbrev S32768x1 : Shape := ⟨2, ![32768, 1]⟩
abbrev S_ : Shape := ⟨0, ![]⟩
abbrev S32768x1024 : Shape := ⟨2, ![32768, 1024]⟩
abbrev S1x256 : Shape := ⟨2, ![1, 256]⟩
abbrev S1x8 : Shape := ⟨2, ![1, 8]⟩
abbrev S32768x16 : Shape := ⟨2, ![32768, 16]⟩

abbrev nBuf : Space → Nat
  | .hbm => 312
  | .vmem => 0
  | .smem => 0
  | _ => 0

abbrev hbmTy0_0 (i : Nat) : BufTy := match i % 128 with
  | 0 => ⟨S32768x72, .f32⟩
  | 1 => ⟨S32768x2, .f32⟩
  | 2 => ⟨S32768x256, .f32⟩
  | 3 => ⟨S32768x256, .f32⟩
  | 4 => ⟨S1x1024, .f32⟩
  | 5 => ⟨S256x1024, .f32⟩
  | 6 => ⟨S1024, .f32⟩
  | 7 => ⟨S64x1024, .f32⟩
  | 8 => ⟨S256x1024, .f32⟩
  | 9 => ⟨S1024, .f32⟩
  | 10 => ⟨S8x1024, .f32⟩
  | 11 => ⟨S256x1024, .f32⟩
  | 12 => ⟨S1024, .f32⟩
  | 13 => ⟨S256x256, .f32⟩
  | 14 => ⟨S256, .f32⟩
  | 15 => ⟨S256x8, .f32⟩
  | 16 => ⟨S8, .f32⟩
  | 17 => ⟨S256x8, .f32⟩
  | 18 => ⟨S8, .f32⟩
  | 19 => ⟨S32768x64, .f32⟩
  | 20 => ⟨S32768x8, .f32⟩
  | 21 => ⟨S32768x1, .f32⟩
  | 22 => ⟨S_, .f32⟩
  | 23 => ⟨S32768x1, .f32⟩
  | 24 => ⟨S32768x1024, .f32⟩
  | 25 => ⟨S32768x1024, .f32⟩
  | 26 => ⟨S32768x1024, .f32⟩
  | 27 => ⟨S1x1024, .f32⟩
  | 28 => ⟨S32768x1024, .f32⟩
  | 29 => ⟨S32768x1024, .f32⟩
  | 30 => ⟨S32768x256, .f32⟩
  | 31 => ⟨S32768x256, .f32⟩
  | 32 => ⟨S32768x256, .f32⟩
  | 33 => ⟨S32768x256, .f32⟩
  | 34 => ⟨S32768x256, .f32⟩
  | 35 => ⟨S32768x256, .f32⟩
  | 36 => ⟨S_, .f32⟩
  | 37 => ⟨S32768x256, .f32⟩
  | 38 => ⟨S32768x256, .f32⟩
  | 39 => ⟨S_, .f32⟩
  | 40 => ⟨S32768x256, .f32⟩
  | 41 => ⟨S32768x256, .f32⟩
  | 42 => ⟨S32768x256, .f32⟩
  | 43 => ⟨S32768x256, .f32⟩
  | 44 => ⟨S32768x256, .f32⟩
  | 45 => ⟨S_, .f32⟩
  | 46 => ⟨S32768x256, .f32⟩
  | 47 => ⟨S32768x256, .f32⟩
  | 48 => ⟨S_, .f32⟩
  | 49 => ⟨S32768x256, .f32⟩
  | 50 => ⟨S32768x256, .f32⟩
  | 51 => ⟨S_, .f32⟩
  | 52 => ⟨S32768x256, .f32⟩
  | 53 => ⟨S32768x256, .i1⟩
  | 54 => ⟨S_, .f32⟩
  | 55 => ⟨S32768x256, .f32⟩
  | 56 => ⟨S32768x256, .i1⟩
  | 57 => ⟨S_, .f32⟩
  | 58 => ⟨S_, .f32⟩
  | 59 => ⟨S32768x256, .f32⟩
  | 60 => ⟨S32768x256, .f32⟩
  | 61 => ⟨S32768x256, .f32⟩
  | 62 => ⟨S_, .f32⟩
  | 63 => ⟨S32768x256, .f32⟩
  | 64 => ⟨S32768x256, .f32⟩
  | 65 => ⟨S32768x256, .f32⟩
  | 66 => ⟨S32768x256, .f32⟩
  | 67 => ⟨S32768x256, .f32⟩
  | 68 => ⟨S32768x256, .f32⟩
  | 69 => ⟨S32768x256, .f32⟩
  | 70 => ⟨S_, .f32⟩
  | 71 => ⟨S32768x256, .f32⟩
  | 72 => ⟨S32768x256, .f32⟩
  | 73 => ⟨S_, .f32⟩
  | 74 => ⟨S32768x256, .f32⟩
  | 75 => ⟨S32768x256, .f32⟩
  | 76 => ⟨S_, .f32⟩
  | 77 => ⟨S32768x256, .f32⟩
  | 78 => ⟨S32768x256, .i1⟩
  | 79 => ⟨S_, .f32⟩
  | 80 => ⟨S32768x256, .f32⟩
  | 81 => ⟨S32768x256, .i1⟩
  | 82 => ⟨S_, .f32⟩
  | 83 => ⟨S_, .f32⟩
  | 84 => ⟨S32768x256, .f32⟩
  | 85 => ⟨S32768x256, .f32⟩
  | 86 => ⟨S32768x256, .f32⟩
  | 87 => ⟨S_, .f32⟩
  | 88 => ⟨S32768x256, .f32⟩
  | 89 => ⟨S32768x256, .f32⟩
  | 90 => ⟨S32768x256, .f32⟩
  | 91 => ⟨S32768x256, .f32⟩
  | 92 => ⟨S32768x1024, .f32⟩
  | 93 => ⟨S32768x1024, .f32⟩
  | 94 => ⟨S32768x1024, .f32⟩
  | 95 => ⟨S1x1024, .f32⟩
  | 96 => ⟨S32768x1024, .f32⟩
  | 97 => ⟨S32768x1024, .f32⟩
  | 98 => ⟨S32768x256, .f32⟩
  | 99 => ⟨S32768x256, .f32⟩
  | 100 => ⟨S32768x256, .f32⟩
  | 101 => ⟨S32768x256, .f32⟩
  | 102 => ⟨S32768x256, .f32⟩
  | 103 => ⟨S32768x256, .f32⟩
  | 104 => ⟨S_, .f32⟩
  | 105 => ⟨S32768x256, .f32⟩
  | 106 => ⟨S32768x256, .f32⟩
  | 107 => ⟨S_, .f32⟩
  | 108 => ⟨S32768x256, .f32⟩
  | 109 => ⟨S32768x256, .f32⟩
  | 110 => ⟨S32768x256, .f32⟩
  | 111 => ⟨S32768x256, .f32⟩
  | 112 => ⟨S32768x256, .f32⟩
  | 113 => ⟨S_, .f32⟩
  | 114 => ⟨S32768x256, .f32⟩
  | 115 => ⟨S32768x256, .f32⟩
  | 116 => ⟨S_, .f32⟩
  | 117 => ⟨S32768x256, .f32⟩
  | 118 => ⟨S32768x256, .f32⟩
  | 119 => ⟨S_, .f32⟩
  | 120 => ⟨S32768x256, .f32⟩
  | 121 => ⟨S32768x256, .i1⟩
  | 122 => ⟨S_, .f32⟩
  | 123 => ⟨S32768x256, .f32⟩
  | 124 => ⟨S32768x256, .i1⟩
  | 125 => ⟨S_, .f32⟩
  | 126 => ⟨S_, .f32⟩
  | 127 => ⟨S32768x256, .f32⟩
  | _ => ⟨S32768x72, .f32⟩

abbrev hbmTy0_1 (i : Nat) : BufTy := match i % 128 with
  | 0 => ⟨S32768x256, .f32⟩
  | 1 => ⟨S32768x256, .f32⟩
  | 2 => ⟨S_, .f32⟩
  | 3 => ⟨S32768x256, .f32⟩
  | 4 => ⟨S32768x256, .f32⟩
  | 5 => ⟨S32768x256, .f32⟩
  | 6 => ⟨S32768x256, .f32⟩
  | 7 => ⟨S32768x256, .f32⟩
  | 8 => ⟨S32768x256, .f32⟩
  | 9 => ⟨S32768x256, .f32⟩
  | 10 => ⟨S_, .f32⟩
  | 11 => ⟨S32768x256, .f32⟩
  | 12 => ⟨S32768x256, .f32⟩
  | 13 => ⟨S_, .f32⟩
  | 14 => ⟨S32768x256, .f32⟩
  | 15 => ⟨S32768x256, .f32⟩
  | 16 => ⟨S_, .f32⟩
  | 17 => ⟨S32768x256, .f32⟩
  | 18 => ⟨S32768x256, .i1⟩
  | 19 => ⟨S_, .f32⟩
  | 20 => ⟨S32768x256, .f32⟩
  | 21 => ⟨S32768x256, .i1⟩
  | 22 => ⟨S_, .f32⟩
  | 23 => ⟨S_, .f32⟩
  | 24 => ⟨S32768x256, .f32⟩
  | 25 => ⟨S32768x256, .f32⟩
  | 26 => ⟨S32768x256, .f32⟩
  | 27 => ⟨S_, .f32⟩
  | 28 => ⟨S32768x256, .f32⟩
  | 29 => ⟨S32768x256, .f32⟩
  | 30 => ⟨S32768x256, .f32⟩
  | 31 => ⟨S32768x256, .f32⟩
  | 32 => ⟨S32768x1, .f32⟩
  | 33 => ⟨S_, .f32⟩
  | 34 => ⟨S32768x1, .f32⟩
  | 35 => ⟨S32768x1, .f32⟩
  | 36 => ⟨S32768x256, .f32⟩
  | 37 => ⟨S32768x256, .f32⟩
  | 38 => ⟨S32768x256, .f32⟩
  | 39 => ⟨S32768x256, .f32⟩
  | 40 => ⟨S32768x256, .f32⟩
  | 41 => ⟨S_, .f32⟩
  | 42 => ⟨S32768x1, .f32⟩
  | 43 => ⟨S32768x1, .f32⟩
  | 44 => ⟨S32768x256, .f32⟩
  | 45 => ⟨S32768x256, .f32⟩
  | 46 => ⟨S32768x256, .f32⟩
  | 47 => ⟨S32768x256, .f32⟩
  | 48 => ⟨S32768x256, .f32⟩
  | 49 => ⟨S32768x1024, .f32⟩
  | 50 => ⟨S32768x1024, .f32⟩
  | 51 => ⟨S32768x1024, .f32⟩
  | 52 => ⟨S1x1024, .f32⟩
  | 53 => ⟨S32768x1024, .f32⟩
  | 54 => ⟨S32768x1024, .f32⟩
  | 55 => ⟨S32768x256, .f32⟩
  | 56 => ⟨S32768x256, .f32⟩
  | 57 => ⟨S32768x256, .f32⟩
  | 58 => ⟨S32768x256, .f32⟩
  | 59 => ⟨S32768x256, .f32⟩
  | 60 => ⟨S32768x256, .f32⟩
  | 61 => ⟨S_, .f32⟩
  | 62 => ⟨S32768x256, .f32⟩
  | 63 => ⟨S32768x256, .f32⟩
  | 64 => ⟨S_, .f32⟩
  | 65 => ⟨S32768x256, .f32⟩
  | 66 => ⟨S32768x256, .f32⟩
  | 67 => ⟨S32768x256, .f32⟩
  | 68 => ⟨S32768x256, .f32⟩
  | 69 => ⟨S32768x256, .f32⟩
  | 70 => ⟨S_, .f32⟩
  | 71 => ⟨S32768x256, .f32⟩
  | 72 => ⟨S32768x256, .f32⟩
  | 73 => ⟨S_, .f32⟩
  | 74 => ⟨S32768x256, .f32⟩
  | 75 => ⟨S32768x256, .f32⟩
  | 76 => ⟨S_, .f32⟩
  | 77 => ⟨S32768x256, .f32⟩
  | 78 => ⟨S32768x256, .i1⟩
  | 79 => ⟨S_, .f32⟩
  | 80 => ⟨S32768x256, .f32⟩
  | 81 => ⟨S32768x256, .i1⟩
  | 82 => ⟨S_, .f32⟩
  | 83 => ⟨S_, .f32⟩
  | 84 => ⟨S32768x256, .f32⟩
  | 85 => ⟨S32768x256, .f32⟩
  | 86 => ⟨S32768x256, .f32⟩
  | 87 => ⟨S_, .f32⟩
  | 88 => ⟨S32768x256, .f32⟩
  | 89 => ⟨S32768x256, .f32⟩
  | 90 => ⟨S32768x256, .f32⟩
  | 91 => ⟨S32768x256, .f32⟩
  | 92 => ⟨S32768x256, .f32⟩
  | 93 => ⟨S32768x256, .f32⟩
  | 94 => ⟨S32768x256, .f32⟩
  | 95 => ⟨S_, .f32⟩
  | 96 => ⟨S32768x256, .f32⟩
  | 97 => ⟨S32768x256, .f32⟩
  | 98 => ⟨S_, .f32⟩
  | 99 => ⟨S32768x256, .f32⟩
  | 100 => ⟨S32768x256, .f32⟩
  | 101 => ⟨S_, .f32⟩
  | 102 => ⟨S32768x256, .f32⟩
  | 103 => ⟨S32768x256, .i1⟩
  | 104 => ⟨S_, .f32⟩
  | 105 => ⟨S32768x256, .f32⟩
  | 106 => ⟨S32768x256, .i1⟩
  | 107 => ⟨S_, .f32⟩
  | 108 => ⟨S_, .f32⟩
  | 109 => ⟨S32768x256, .f32⟩
  | 110 => ⟨S32768x256, .f32⟩
  | 111 => ⟨S32768x256, .f32⟩
  | 112 => ⟨S_, .f32⟩
  | 113 => ⟨S32768x256, .f32⟩
  | 114 => ⟨S32768x256, .f32⟩
  | 115 => ⟨S32768x256, .f32⟩
  | 116 => ⟨S32768x256, .f32⟩
  | 117 => ⟨S32768x1, .f32⟩
  | 118 => ⟨S_, .f32⟩
  | 119 => ⟨S32768x1, .f32⟩
  | 120 => ⟨S32768x1, .f32⟩
  | 121 => ⟨S32768x256, .f32⟩
  | 122 => ⟨S32768x256, .f32⟩
  | 123 => ⟨S32768x256, .f32⟩
  | 124 => ⟨S32768x256, .f32⟩
  | 125 => ⟨S32768x256, .f32⟩
  | 126 => ⟨S_, .f32⟩
  | 127 => ⟨S32768x1, .f32⟩
  | _ => ⟨S32768x72, .f32⟩

abbrev hbmTy0_2 (i : Nat) : BufTy := match i % 128 with
  | 0 => ⟨S32768x1, .f32⟩
  | 1 => ⟨S32768x256, .f32⟩
  | 2 => ⟨S32768x256, .f32⟩
  | 3 => ⟨S32768x256, .f32⟩
  | 4 => ⟨S32768x256, .f32⟩
  | 5 => ⟨S32768x256, .f32⟩
  | 6 => ⟨S_, .f32⟩
  | 7 => ⟨S32768x1, .f32⟩
  | 8 => ⟨S32768x1, .f32⟩
  | 9 => ⟨S32768x256, .f32⟩
  | 10 => ⟨S32768x256, .f32⟩
  | 11 => ⟨S32768x256, .f32⟩
  | 12 => ⟨S32768x256, .f32⟩
  | 13 => ⟨S32768x256, .f32⟩
  | 14 => ⟨S32768x256, .f32⟩
  | 15 => ⟨S1x256, .f32⟩
  | 16 => ⟨S32768x256, .f32⟩
  | 17 => ⟨S32768x256, .f32⟩
  | 18 => ⟨S_, .f32⟩
  | 19 => ⟨S32768x256, .f32⟩
  | 20 => ⟨S32768x256, .i1⟩
  | 21 => ⟨S_, .f32⟩
  | 22 => ⟨S32768x256, .f32⟩
  | 23 => ⟨S32768x256, .i1⟩
  | 24 => ⟨S_, .f32⟩
  | 25 => ⟨S_, .f32⟩
  | 26 => ⟨S32768x256, .f32⟩
  | 27 => ⟨S32768x256, .f32⟩
  | 28 => ⟨S32768x256, .f32⟩
  | 29 => ⟨S_, .f32⟩
  | 30 => ⟨S32768x256, .f32⟩
  | 31 => ⟨S32768x256, .f32⟩
  | 32 => ⟨S32768x256, .f32⟩
  | 33 => ⟨S32768x8, .f32⟩
  | 34 => ⟨S1x8, .f32⟩
  | 35 => ⟨S32768x8, .f32⟩
  | 36 => ⟨S32768x8, .f32⟩
  | 37 => ⟨S32768x8, .f32⟩
  | 38 => ⟨S1x8, .f32⟩
  | 39 => ⟨S32768x8, .f32⟩
  | 40 => ⟨S32768x8, .f32⟩
  | 41 => ⟨S_, .f32⟩
  | 42 => ⟨S32768x8, .f32⟩
  | 43 => ⟨S32768x8, .f32⟩
  | 44 => ⟨S32768x8, .f32⟩
  | 45 => ⟨S32768x8, .f32⟩
  | 46 => ⟨S32768x8, .i1⟩
  | 47 => ⟨S32768x8, .f32⟩
  | 48 => ⟨S32768x8, .f32⟩
  | 49 => ⟨S32768x8, .f32⟩
  | 50 => ⟨S32768x8, .f32⟩
  | 51 => ⟨S32768x8, .f32⟩
  | 52 => ⟨S32768x8, .f32⟩
  | 53 => ⟨S32768x8, .f32⟩
  | 54 => ⟨S32768x8, .f32⟩
  | 55 => ⟨S32768x16, .f32⟩
  | _ => ⟨S32768x72, .f32⟩

abbrev hbmTy (i : Nat) : BufTy := match i / 128 with
  | 0 => hbmTy0_0 i
  | 1 => hbmTy0_1 i
  | 2 => hbmTy0_2 i
  | _ => ⟨S32768x72, .f32⟩

abbrev bufTy : (tb : Table) → Fin (tcTables nBuf tb) → BufTy
  | .hbm, ⟨i, _⟩ => hbmTy i
  | _, _ => ⟨S32768x72, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_cst : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_0 : Ref sig .tc := ⟨.hbm, 36, rfl⟩
abbrev main_v16 : Ref sig .tc := ⟨.hbm, 37, rfl⟩
abbrev main_v17 : Ref sig .tc := ⟨.hbm, 38, rfl⟩
abbrev main_cst_1 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_2 : Ref sig .tc := ⟨.hbm, 45, rfl⟩
abbrev main_v23 : Ref sig .tc := ⟨.hbm, 46, rfl⟩
abbrev main_v24 : Ref sig .tc := ⟨.hbm, 47, rfl⟩
abbrev main_cst_3 : Ref sig .tc := ⟨.hbm, 48, rfl⟩
abbrev main_v25 : Ref sig .tc := ⟨.hbm, 49, rfl⟩
abbrev main_v26 : Ref sig .tc := ⟨.hbm, 50, rfl⟩
abbrev main_call0_cst : Ref sig .tc := ⟨.hbm, 51, rfl⟩
abbrev main_call0_v0 : Ref sig .tc := ⟨.hbm, 52, rfl⟩
abbrev main_call0_v1 : Ref sig .tc := ⟨.hbm, 53, rfl⟩
abbrev main_call0_cst_0 : Ref sig .tc := ⟨.hbm, 54, rfl⟩
abbrev main_call0_v2 : Ref sig .tc := ⟨.hbm, 55, rfl⟩
abbrev main_call0_v3 : Ref sig .tc := ⟨.hbm, 56, rfl⟩
abbrev main_call0_cst_1 : Ref sig .tc := ⟨.hbm, 57, rfl⟩
abbrev main_call0_call0_v0 : Ref sig .tc := ⟨.hbm, 58, rfl⟩
abbrev main_call0_call0_v1 : Ref sig .tc := ⟨.hbm, 59, rfl⟩
abbrev main_call0_v4 : Ref sig .tc := ⟨.hbm, 60, rfl⟩
abbrev main_call0_v5 : Ref sig .tc := ⟨.hbm, 61, rfl⟩
abbrev main_call0_cst_2 : Ref sig .tc := ⟨.hbm, 62, rfl⟩
abbrev main_call0_v6 : Ref sig .tc := ⟨.hbm, 63, rfl⟩
abbrev main_call0_v7 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_cst_4 : Ref sig .tc := ⟨.hbm, 70, rfl⟩
abbrev main_v32 : Ref sig .tc := ⟨.hbm, 71, rfl⟩
abbrev main_v33 : Ref sig .tc := ⟨.hbm, 72, rfl⟩
abbrev main_cst_5 : Ref sig .tc := ⟨.hbm, 73, rfl⟩
abbrev main_v34 : Ref sig .tc := ⟨.hbm, 74, rfl⟩
abbrev main_v35 : Ref sig .tc := ⟨.hbm, 75, rfl⟩
abbrev main_call1_cst : Ref sig .tc := ⟨.hbm, 76, rfl⟩
abbrev main_call1_v0 : Ref sig .tc := ⟨.hbm, 77, rfl⟩
abbrev main_call1_v1 : Ref sig .tc := ⟨.hbm, 78, rfl⟩
abbrev main_call1_cst_0 : Ref sig .tc := ⟨.hbm, 79, rfl⟩
abbrev main_call1_v2 : Ref sig .tc := ⟨.hbm, 80, rfl⟩
abbrev main_call1_v3 : Ref sig .tc := ⟨.hbm, 81, rfl⟩
abbrev main_call1_cst_1 : Ref sig .tc := ⟨.hbm, 82, rfl⟩
abbrev main_call1_call0_v0 : Ref sig .tc := ⟨.hbm, 83, rfl⟩
abbrev main_call1_call0_v1 : Ref sig .tc := ⟨.hbm, 84, rfl⟩
abbrev main_call1_v4 : Ref sig .tc := ⟨.hbm, 85, rfl⟩
abbrev main_call1_v5 : Ref sig .tc := ⟨.hbm, 86, rfl⟩
abbrev main_call1_cst_2 : Ref sig .tc := ⟨.hbm, 87, rfl⟩
abbrev main_call1_v6 : Ref sig .tc := ⟨.hbm, 88, rfl⟩
abbrev main_call1_v7 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_cst_6 : Ref sig .tc := ⟨.hbm, 104, rfl⟩
abbrev main_v50 : Ref sig .tc := ⟨.hbm, 105, rfl⟩
abbrev main_v51 : Ref sig .tc := ⟨.hbm, 106, rfl⟩
abbrev main_cst_7 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_cst_8 : Ref sig .tc := ⟨.hbm, 113, rfl⟩
abbrev main_v57 : Ref sig .tc := ⟨.hbm, 114, rfl⟩
abbrev main_v58 : Ref sig .tc := ⟨.hbm, 115, rfl⟩
abbrev main_cst_9 : Ref sig .tc := ⟨.hbm, 116, rfl⟩
abbrev main_v59 : Ref sig .tc := ⟨.hbm, 117, rfl⟩
abbrev main_v60 : Ref sig .tc := ⟨.hbm, 118, rfl⟩
abbrev main_call2_cst : Ref sig .tc := ⟨.hbm, 119, rfl⟩
abbrev main_call2_v0 : Ref sig .tc := ⟨.hbm, 120, rfl⟩
abbrev main_call2_v1 : Ref sig .tc := ⟨.hbm, 121, rfl⟩
abbrev main_call2_cst_0 : Ref sig .tc := ⟨.hbm, 122, rfl⟩
abbrev main_call2_v2 : Ref sig .tc := ⟨.hbm, 123, rfl⟩
abbrev main_call2_v3 : Ref sig .tc := ⟨.hbm, 124, rfl⟩
abbrev main_call2_cst_1 : Ref sig .tc := ⟨.hbm, 125, rfl⟩
abbrev main_call2_call0_v0 : Ref sig .tc := ⟨.hbm, 126, rfl⟩
abbrev main_call2_call0_v1 : Ref sig .tc := ⟨.hbm, 127, rfl⟩
abbrev main_call2_v4 : Ref sig .tc := ⟨.hbm, 128, rfl⟩
abbrev main_call2_v5 : Ref sig .tc := ⟨.hbm, 129, rfl⟩
abbrev main_call2_cst_2 : Ref sig .tc := ⟨.hbm, 130, rfl⟩
abbrev main_call2_v6 : Ref sig .tc := ⟨.hbm, 131, rfl⟩
abbrev main_call2_v7 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_v64 : Ref sig .tc := ⟨.hbm, 136, rfl⟩
abbrev main_v65 : Ref sig .tc := ⟨.hbm, 137, rfl⟩
abbrev main_cst_10 : Ref sig .tc := ⟨.hbm, 138, rfl⟩
abbrev main_v66 : Ref sig .tc := ⟨.hbm, 139, rfl⟩
abbrev main_v67 : Ref sig .tc := ⟨.hbm, 140, rfl⟩
abbrev main_cst_11 : Ref sig .tc := ⟨.hbm, 141, rfl⟩
abbrev main_v68 : Ref sig .tc := ⟨.hbm, 142, rfl⟩
abbrev main_v69 : Ref sig .tc := ⟨.hbm, 143, rfl⟩
abbrev main_call3_cst : Ref sig .tc := ⟨.hbm, 144, rfl⟩
abbrev main_call3_v0 : Ref sig .tc := ⟨.hbm, 145, rfl⟩
abbrev main_call3_v1 : Ref sig .tc := ⟨.hbm, 146, rfl⟩
abbrev main_call3_cst_0 : Ref sig .tc := ⟨.hbm, 147, rfl⟩
abbrev main_call3_v2 : Ref sig .tc := ⟨.hbm, 148, rfl⟩
abbrev main_call3_v3 : Ref sig .tc := ⟨.hbm, 149, rfl⟩
abbrev main_call3_cst_1 : Ref sig .tc := ⟨.hbm, 150, rfl⟩
abbrev main_call3_call0_v0 : Ref sig .tc := ⟨.hbm, 151, rfl⟩
abbrev main_call3_call0_v1 : Ref sig .tc := ⟨.hbm, 152, rfl⟩
abbrev main_call3_v4 : Ref sig .tc := ⟨.hbm, 153, rfl⟩
abbrev main_call3_v5 : Ref sig .tc := ⟨.hbm, 154, rfl⟩
abbrev main_call3_cst_2 : Ref sig .tc := ⟨.hbm, 155, rfl⟩
abbrev main_call3_v6 : Ref sig .tc := ⟨.hbm, 156, rfl⟩
abbrev main_call3_v7 : Ref sig .tc := ⟨.hbm, 157, rfl⟩
abbrev main_v70 : Ref sig .tc := ⟨.hbm, 158, rfl⟩
abbrev main_v71 : Ref sig .tc := ⟨.hbm, 159, rfl⟩
abbrev main_v72 : Ref sig .tc := ⟨.hbm, 160, rfl⟩
abbrev main_cst_12 : Ref sig .tc := ⟨.hbm, 161, rfl⟩
abbrev main_v73 : Ref sig .tc := ⟨.hbm, 162, rfl⟩
abbrev main_v74 : Ref sig .tc := ⟨.hbm, 163, rfl⟩
abbrev main_v75 : Ref sig .tc := ⟨.hbm, 164, rfl⟩
abbrev main_v76 : Ref sig .tc := ⟨.hbm, 165, rfl⟩
abbrev main_v77 : Ref sig .tc := ⟨.hbm, 166, rfl⟩
abbrev main_v78 : Ref sig .tc := ⟨.hbm, 167, rfl⟩
abbrev main_v79 : Ref sig .tc := ⟨.hbm, 168, rfl⟩
abbrev main_cst_13 : Ref sig .tc := ⟨.hbm, 169, rfl⟩
abbrev main_v80 : Ref sig .tc := ⟨.hbm, 170, rfl⟩
abbrev main_v81 : Ref sig .tc := ⟨.hbm, 171, rfl⟩
abbrev main_v82 : Ref sig .tc := ⟨.hbm, 172, rfl⟩
abbrev main_v83 : Ref sig .tc := ⟨.hbm, 173, rfl⟩
abbrev main_v84 : Ref sig .tc := ⟨.hbm, 174, rfl⟩
abbrev main_v85 : Ref sig .tc := ⟨.hbm, 175, rfl⟩
abbrev main_v86 : Ref sig .tc := ⟨.hbm, 176, rfl⟩
abbrev main_v87 : Ref sig .tc := ⟨.hbm, 177, rfl⟩
abbrev main_v88 : Ref sig .tc := ⟨.hbm, 178, rfl⟩
abbrev main_v89 : Ref sig .tc := ⟨.hbm, 179, rfl⟩
abbrev main_v90 : Ref sig .tc := ⟨.hbm, 180, rfl⟩
abbrev main_v91 : Ref sig .tc := ⟨.hbm, 181, rfl⟩
abbrev main_v92 : Ref sig .tc := ⟨.hbm, 182, rfl⟩
abbrev main_v93 : Ref sig .tc := ⟨.hbm, 183, rfl⟩
abbrev main_v94 : Ref sig .tc := ⟨.hbm, 184, rfl⟩
abbrev main_v95 : Ref sig .tc := ⟨.hbm, 185, rfl⟩
abbrev main_v96 : Ref sig .tc := ⟨.hbm, 186, rfl⟩
abbrev main_v97 : Ref sig .tc := ⟨.hbm, 187, rfl⟩
abbrev main_v98 : Ref sig .tc := ⟨.hbm, 188, rfl⟩
abbrev main_cst_14 : Ref sig .tc := ⟨.hbm, 189, rfl⟩
abbrev main_v99 : Ref sig .tc := ⟨.hbm, 190, rfl⟩
abbrev main_v100 : Ref sig .tc := ⟨.hbm, 191, rfl⟩
abbrev main_cst_15 : Ref sig .tc := ⟨.hbm, 192, rfl⟩
abbrev main_v101 : Ref sig .tc := ⟨.hbm, 193, rfl⟩
abbrev main_v102 : Ref sig .tc := ⟨.hbm, 194, rfl⟩
abbrev main_v103 : Ref sig .tc := ⟨.hbm, 195, rfl⟩
abbrev main_v104 : Ref sig .tc := ⟨.hbm, 196, rfl⟩
abbrev main_v105 : Ref sig .tc := ⟨.hbm, 197, rfl⟩
abbrev main_cst_16 : Ref sig .tc := ⟨.hbm, 198, rfl⟩
abbrev main_v106 : Ref sig .tc := ⟨.hbm, 199, rfl⟩
abbrev main_v107 : Ref sig .tc := ⟨.hbm, 200, rfl⟩
abbrev main_cst_17 : Ref sig .tc := ⟨.hbm, 201, rfl⟩
abbrev main_v108 : Ref sig .tc := ⟨.hbm, 202, rfl⟩
abbrev main_v109 : Ref sig .tc := ⟨.hbm, 203, rfl⟩
abbrev main_call4_cst : Ref sig .tc := ⟨.hbm, 204, rfl⟩
abbrev main_call4_v0 : Ref sig .tc := ⟨.hbm, 205, rfl⟩
abbrev main_call4_v1 : Ref sig .tc := ⟨.hbm, 206, rfl⟩
abbrev main_call4_cst_0 : Ref sig .tc := ⟨.hbm, 207, rfl⟩
abbrev main_call4_v2 : Ref sig .tc := ⟨.hbm, 208, rfl⟩
abbrev main_call4_v3 : Ref sig .tc := ⟨.hbm, 209, rfl⟩
abbrev main_call4_cst_1 : Ref sig .tc := ⟨.hbm, 210, rfl⟩
abbrev main_call4_call0_v0 : Ref sig .tc := ⟨.hbm, 211, rfl⟩
abbrev main_call4_call0_v1 : Ref sig .tc := ⟨.hbm, 212, rfl⟩
abbrev main_call4_v4 : Ref sig .tc := ⟨.hbm, 213, rfl⟩
abbrev main_call4_v5 : Ref sig .tc := ⟨.hbm, 214, rfl⟩
abbrev main_call4_cst_2 : Ref sig .tc := ⟨.hbm, 215, rfl⟩
abbrev main_call4_v6 : Ref sig .tc := ⟨.hbm, 216, rfl⟩
abbrev main_call4_v7 : Ref sig .tc := ⟨.hbm, 217, rfl⟩
abbrev main_v110 : Ref sig .tc := ⟨.hbm, 218, rfl⟩
abbrev main_v111 : Ref sig .tc := ⟨.hbm, 219, rfl⟩
abbrev main_v112 : Ref sig .tc := ⟨.hbm, 220, rfl⟩
abbrev main_v113 : Ref sig .tc := ⟨.hbm, 221, rfl⟩
abbrev main_v114 : Ref sig .tc := ⟨.hbm, 222, rfl⟩
abbrev main_cst_18 : Ref sig .tc := ⟨.hbm, 223, rfl⟩
abbrev main_v115 : Ref sig .tc := ⟨.hbm, 224, rfl⟩
abbrev main_v116 : Ref sig .tc := ⟨.hbm, 225, rfl⟩
abbrev main_cst_19 : Ref sig .tc := ⟨.hbm, 226, rfl⟩
abbrev main_v117 : Ref sig .tc := ⟨.hbm, 227, rfl⟩
abbrev main_v118 : Ref sig .tc := ⟨.hbm, 228, rfl⟩
abbrev main_call5_cst : Ref sig .tc := ⟨.hbm, 229, rfl⟩
abbrev main_call5_v0 : Ref sig .tc := ⟨.hbm, 230, rfl⟩
abbrev main_call5_v1 : Ref sig .tc := ⟨.hbm, 231, rfl⟩
abbrev main_call5_cst_0 : Ref sig .tc := ⟨.hbm, 232, rfl⟩
abbrev main_call5_v2 : Ref sig .tc := ⟨.hbm, 233, rfl⟩
abbrev main_call5_v3 : Ref sig .tc := ⟨.hbm, 234, rfl⟩
abbrev main_call5_cst_1 : Ref sig .tc := ⟨.hbm, 235, rfl⟩
abbrev main_call5_call0_v0 : Ref sig .tc := ⟨.hbm, 236, rfl⟩
abbrev main_call5_call0_v1 : Ref sig .tc := ⟨.hbm, 237, rfl⟩
abbrev main_call5_v4 : Ref sig .tc := ⟨.hbm, 238, rfl⟩
abbrev main_call5_v5 : Ref sig .tc := ⟨.hbm, 239, rfl⟩
abbrev main_call5_cst_2 : Ref sig .tc := ⟨.hbm, 240, rfl⟩
abbrev main_call5_v6 : Ref sig .tc := ⟨.hbm, 241, rfl⟩
abbrev main_call5_v7 : Ref sig .tc := ⟨.hbm, 242, rfl⟩
abbrev main_v119 : Ref sig .tc := ⟨.hbm, 243, rfl⟩
abbrev main_v120 : Ref sig .tc := ⟨.hbm, 244, rfl⟩
abbrev main_v121 : Ref sig .tc := ⟨.hbm, 245, rfl⟩
abbrev main_cst_20 : Ref sig .tc := ⟨.hbm, 246, rfl⟩
abbrev main_v122 : Ref sig .tc := ⟨.hbm, 247, rfl⟩
abbrev main_v123 : Ref sig .tc := ⟨.hbm, 248, rfl⟩
abbrev main_v124 : Ref sig .tc := ⟨.hbm, 249, rfl⟩
abbrev main_v125 : Ref sig .tc := ⟨.hbm, 250, rfl⟩
abbrev main_v126 : Ref sig .tc := ⟨.hbm, 251, rfl⟩
abbrev main_v127 : Ref sig .tc := ⟨.hbm, 252, rfl⟩
abbrev main_v128 : Ref sig .tc := ⟨.hbm, 253, rfl⟩
abbrev main_cst_21 : Ref sig .tc := ⟨.hbm, 254, rfl⟩
abbrev main_v129 : Ref sig .tc := ⟨.hbm, 255, rfl⟩
abbrev main_v130 : Ref sig .tc := ⟨.hbm, 256, rfl⟩
abbrev main_v131 : Ref sig .tc := ⟨.hbm, 257, rfl⟩
abbrev main_v132 : Ref sig .tc := ⟨.hbm, 258, rfl⟩
abbrev main_v133 : Ref sig .tc := ⟨.hbm, 259, rfl⟩
abbrev main_v134 : Ref sig .tc := ⟨.hbm, 260, rfl⟩
abbrev main_v135 : Ref sig .tc := ⟨.hbm, 261, rfl⟩
abbrev main_cst_22 : Ref sig .tc := ⟨.hbm, 262, rfl⟩
abbrev main_v136 : Ref sig .tc := ⟨.hbm, 263, rfl⟩
abbrev main_v137 : Ref sig .tc := ⟨.hbm, 264, rfl⟩
abbrev main_v138 : Ref sig .tc := ⟨.hbm, 265, rfl⟩
abbrev main_v139 : Ref sig .tc := ⟨.hbm, 266, rfl⟩
abbrev main_v140 : Ref sig .tc := ⟨.hbm, 267, rfl⟩
abbrev main_v141 : Ref sig .tc := ⟨.hbm, 268, rfl⟩
abbrev main_v142 : Ref sig .tc := ⟨.hbm, 269, rfl⟩
abbrev main_v143 : Ref sig .tc := ⟨.hbm, 270, rfl⟩
abbrev main_v144 : Ref sig .tc := ⟨.hbm, 271, rfl⟩
abbrev main_v145 : Ref sig .tc := ⟨.hbm, 272, rfl⟩
abbrev main_v146 : Ref sig .tc := ⟨.hbm, 273, rfl⟩
abbrev main_call6_cst : Ref sig .tc := ⟨.hbm, 274, rfl⟩
abbrev main_call6_v0 : Ref sig .tc := ⟨.hbm, 275, rfl⟩
abbrev main_call6_v1 : Ref sig .tc := ⟨.hbm, 276, rfl⟩
abbrev main_call6_cst_0 : Ref sig .tc := ⟨.hbm, 277, rfl⟩
abbrev main_call6_v2 : Ref sig .tc := ⟨.hbm, 278, rfl⟩
abbrev main_call6_v3 : Ref sig .tc := ⟨.hbm, 279, rfl⟩
abbrev main_call6_cst_1 : Ref sig .tc := ⟨.hbm, 280, rfl⟩
abbrev main_call6_call0_v0 : Ref sig .tc := ⟨.hbm, 281, rfl⟩
abbrev main_call6_call0_v1 : Ref sig .tc := ⟨.hbm, 282, rfl⟩
abbrev main_call6_v4 : Ref sig .tc := ⟨.hbm, 283, rfl⟩
abbrev main_call6_v5 : Ref sig .tc := ⟨.hbm, 284, rfl⟩
abbrev main_call6_cst_2 : Ref sig .tc := ⟨.hbm, 285, rfl⟩
abbrev main_call6_v6 : Ref sig .tc := ⟨.hbm, 286, rfl⟩
abbrev main_call6_v7 : Ref sig .tc := ⟨.hbm, 287, rfl⟩
abbrev main_v147 : Ref sig .tc := ⟨.hbm, 288, rfl⟩
abbrev main_v148 : Ref sig .tc := ⟨.hbm, 289, rfl⟩
abbrev main_v149 : Ref sig .tc := ⟨.hbm, 290, rfl⟩
abbrev main_v150 : Ref sig .tc := ⟨.hbm, 291, rfl⟩
abbrev main_v151 : Ref sig .tc := ⟨.hbm, 292, rfl⟩
abbrev main_v152 : Ref sig .tc := ⟨.hbm, 293, rfl⟩
abbrev main_v153 : Ref sig .tc := ⟨.hbm, 294, rfl⟩
abbrev main_v154 : Ref sig .tc := ⟨.hbm, 295, rfl⟩
abbrev main_v155 : Ref sig .tc := ⟨.hbm, 296, rfl⟩
abbrev main_call7_cst : Ref sig .tc := ⟨.hbm, 297, rfl⟩
abbrev main_call7_v0 : Ref sig .tc := ⟨.hbm, 298, rfl⟩
abbrev main_call7_v1 : Ref sig .tc := ⟨.hbm, 299, rfl⟩
abbrev main_call7_v2 : Ref sig .tc := ⟨.hbm, 300, rfl⟩
abbrev main_call7_v3 : Ref sig .tc := ⟨.hbm, 301, rfl⟩
abbrev main_call7_v4 : Ref sig .tc := ⟨.hbm, 302, rfl⟩
abbrev main_call7_v5 : Ref sig .tc := ⟨.hbm, 303, rfl⟩
abbrev main_call7_v6 : Ref sig .tc := ⟨.hbm, 304, rfl⟩
abbrev main_call7_v7 : Ref sig .tc := ⟨.hbm, 305, rfl⟩
abbrev main_call7_v8 : Ref sig .tc := ⟨.hbm, 306, rfl⟩
abbrev main_call7_v9 : Ref sig .tc := ⟨.hbm, 307, rfl⟩
abbrev main_call7_v10 : Ref sig .tc := ⟨.hbm, 308, rfl⟩
abbrev main_call7_v11 : Ref sig .tc := ⟨.hbm, 309, rfl⟩
abbrev main_v156 : Ref sig .tc := ⟨.hbm, 310, rfl⟩
abbrev main_v157 : Ref sig .tc := ⟨.hbm, 311, rfl⟩

abbrev nD : Nat := 1
abbrev τ : Topo := Topo.v7x

variable {F : FTy → Type} [FloatOps F]

class Facts₀ : Prop where
  slices_S32768x72_S32768x64_0_0 : S32768x72.Slices ![0, 0] S32768x64
  slices_S32768x72_S32768x8_0_64 : S32768x72.Slices ![0, 64] S32768x8
  slices_S32768x72_S32768x1_0_0 : S32768x72.Slices ![0, 0] S32768x1
  bcast_S_S32768x1 : S_.BroadcastsInDim S32768x1 (![] : Fin 0 → Fin S32768x1.rank)
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  slices_S32768x1024_S32768x256_0_0 : S32768x1024.Slices ![0, 0] S32768x256
  slices_S32768x1024_S32768x256_0_256 : S32768x1024.Slices ![0, 256] S32768x256
  slices_S32768x1024_S32768x256_0_512 : S32768x1024.Slices ![0, 512] S32768x256
  slices_S32768x1024_S32768x256_0_768 : S32768x1024.Slices ![0, 768] S32768x256
  bcast_S_S32768x256 : S_.BroadcastsInDim S32768x256 (![] : Fin 0 → Fin S32768x256.rank)
  slices_S32768x2_S32768x1_0_0 : S32768x2.Slices ![0, 0] S32768x1
  bcast_S32768x1_S32768x256_0_1 : S32768x1.BroadcastsInDim S32768x256 (![0, 1] : Fin 2 → Fin S32768x256.rank)
  slices_S32768x2_S32768x1_0_1 : S32768x2.Slices ![0, 1] S32768x1
  bcast_S256_S1x256_1 : S256.BroadcastsInDim S1x256 (![1] : Fin 1 → Fin S1x256.rank)
  bcast_S1x256_S32768x256_0_1 : S1x256.BroadcastsInDim S32768x256 (![0, 1] : Fin 2 → Fin S32768x256.rank)
  bcast_S8_S1x8_1 : S8.BroadcastsInDim S1x8 (![1] : Fin 1 → Fin S1x8.rank)
  bcast_S1x8_S32768x8_0_1 : S1x8.BroadcastsInDim S32768x8 (![0, 1] : Fin 2 → Fin S32768x8.rank)
  bcast_S_S32768x8 : S_.BroadcastsInDim S32768x8 (![] : Fin 0 → Fin S32768x8.rank)
  concatenates_S32768x8_S32768x8_S32768x16_d1 : Shape.Concatenates [S32768x8, S32768x8] S32768x16 1
  dot_S32768x1_S1x1024_S32768x1024_1_0_0_1_n_n_wf : DotDims.WF S32768x1 S1x1024 S32768x1024 [1] [0] [0] [1] [] []
  dot_S32768x256_S256x1024_S32768x1024_1_0_0_1_n_n_wf : DotDims.WF S32768x256 S256x1024 S32768x1024 [1] [0] [0] [1] [] []
  dot_S32768x64_S64x1024_S32768x1024_1_0_0_1_n_n_wf : DotDims.WF S32768x64 S64x1024 S32768x1024 [1] [0] [0] [1] [] []
  dot_S32768x8_S8x1024_S32768x1024_1_0_0_1_n_n_wf : DotDims.WF S32768x8 S8x1024 S32768x1024 [1] [0] [0] [1] [] []
  dot_S32768x256_S256x256_S32768x256_1_0_0_1_n_n_wf : DotDims.WF S32768x256 S256x256 S32768x256 [1] [0] [0] [1] [] []
  dot_S32768x256_S256x8_S32768x8_1_0_0_1_n_n_wf : DotDims.WF S32768x256 S256x8 S32768x8 [1] [0] [0] [1] [] []

variable [Facts₀]

def dot_S32768x1_S1x1024_S32768x1024_1_0_0_1_n_n : DotDims S32768x1 S1x1024 S32768x1024 where
  lhsContracting := [1]
  rhsContracting := [0]
  lhsNonContracting := [0]
  rhsNonContracting := [1]
  lhsBatch := []
  rhsBatch := []
  wf := dot_S32768x1_S1x1024_S32768x1024_1_0_0_1_n_n_wf
def dot_S32768x256_S256x1024_S32768x1024_1_0_0_1_n_n : DotDims S32768x256 S256x1024 S32768x1024 where
  lhsContracting := [1]
  rhsContracting := [0]
  lhsNonContracting := [0]
  rhsNonContracting := [1]
  lhsBatch := []
  rhsBatch := []
  wf := dot_S32768x256_S256x1024_S32768x1024_1_0_0_1_n_n_wf
def dot_S32768x64_S64x1024_S32768x1024_1_0_0_1_n_n : DotDims S32768x64 S64x1024 S32768x1024 where
  lhsContracting := [1]
  rhsContracting := [0]
  lhsNonContracting := [0]
  rhsNonContracting := [1]
  lhsBatch := []
  rhsBatch := []
  wf := dot_S32768x64_S64x1024_S32768x1024_1_0_0_1_n_n_wf
def dot_S32768x8_S8x1024_S32768x1024_1_0_0_1_n_n : DotDims S32768x8 S8x1024 S32768x1024 where
  lhsContracting := [1]
  rhsContracting := [0]
  lhsNonContracting := [0]
  rhsNonContracting := [1]
  lhsBatch := []
  rhsBatch := []
  wf := dot_S32768x8_S8x1024_S32768x1024_1_0_0_1_n_n_wf
def dot_S32768x256_S256x256_S32768x256_1_0_0_1_n_n : DotDims S32768x256 S256x256 S32768x256 where
  lhsContracting := [1]
  rhsContracting := [0]
  lhsNonContracting := [0]
  rhsNonContracting := [1]
  lhsBatch := []
  rhsBatch := []
  wf := dot_S32768x256_S256x256_S32768x256_1_0_0_1_n_n_wf
def dot_S32768x256_S256x8_S32768x8_1_0_0_1_n_n : DotDims S32768x256 S256x8 S32768x8 where
  lhsContracting := [1]
  rhsContracting := [0]
  lhsNonContracting := [0]
  rhsNonContracting := [1]
  lhsBatch := []
  rhsBatch := []
  wf := dot_S32768x256_S256x8_S32768x8_1_0_0_1_n_n_wf

class Facts : Prop extends Facts₀ where

variable [Facts]
-- ==== Proof.LibFold.lean ====
/-
  Two general facts about runs. (1) The contents after a list of host operations is a fold, so running two lists one after
  the other is running their concatenation: a long straight-line program can be cut at any operation and each part read
  separately. (2) Two facts about the final memory of every weakly fair execution of one program from one state hold
  together: termination and progress are the same statement in both, only the postconditions combine.
-/
import Idealize.ShloMosaic.Lib.StableHlo.Run

namespace Idealize.ShloMosaic.Fold

open Idealize.ShloMosaic Idealize.ShloMosaic.StableHlo Idealize.SL.Sem

/-- Running two lists of operations one after the other is running their concatenation. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- Two postconditions of one run hold together. -/
theorem run_and {nD : Nat} {τ : Topo} {sig : RefSig} {Val : EltTy → Type} {Λ : Labels}
    (defs : Defs nD τ sig Val Λ) (p : (c : Thread nD τ) → Prog (TpuEff nD τ sig Val Λ c.2) PUnit)
    (s : MemSt nD τ sig Val) {Q₁ Q₂ : PUnit × MemSt nD τ sig Val → Prop}
    (h₁ : θ_run defs p s Q₁) (h₂ : θ_run defs p s Q₂) : θ_run defs p s (fun r => Q₁ r ∧ Q₂ r) :=
  ⟨fun t ht hf => ⟨h₁.post t ht hf, h₂.post t ht hf⟩, h₁.progress, h₁.fair⟩

end Idealize.ShloMosaic.Fold
-- ==== Proof.LibPlainDot.lean ====
/-
  A plain two-dimensional matrix product — `M × K` by `K × N`, contracting the left operand's columns with the right operand's
  rows, no batch axis (`DotDims.plain M K N`, the dimension numbers `<[1], [0], [0], [1]>`) — read at an output index over the
  extended reals: both a kernel's `tpu.matmul` into a zero accumulator and the host's `dot_general` are the finite sum
  `Σ_{k < K} lhs (r, k) · rhs (k, j)`, with the contraction index a plain `Fin K` and the operand indices built from coordinates.
  A printed record `dot_S…_1_0_0_1_n_n` of these dimension numbers IS `DotDims.plain M K N` (`rfl`: the lists coincide and the
  well-formedness field is a proposition), so one `rw` with that equation brings a printed product under these lemmas.
-/
import Idealize.ShloMosaic.PureOps.Ideal.Laws
import Idealize.ShloMosaic.Lib.ValueIdx

namespace Idealize.ShloMosaic.PlainDot

open Idealize.ShloMosaic.ValueIdx

variable {M K N : Nat}

theorem contr_rank : (DotDims.plain M K N).contr.rank = 1 := rfl
theorem contr_size : (DotDims.plain M K N).contr.size ⟨0, by rw [contr_rank]; exact Nat.one_pos⟩ = K := rfl

/-- The left operand's row coordinate is the output's. -/
theorem lhsIdx_val0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction position. -/
theorem lhsIdx_val1 (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q

/-- The right operand's row coordinate is the contraction position. -/
theorem rhsIdx_val0 (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q

/-- The right operand's column coordinate is the output's. -/
theorem rhsIdx_val1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index `j` and contraction position `k` is `(j₀, k)`. -/
theorem lhsIdx_eq (j : (⟨2, ![M, N]⟩ : Shape).Idx) (k : Fin K) :
    (DotDims.plain M K N).lhsIdx j ((contrEquiv1 (DotDims.plain M K N) K contr_rank contr_size).symm k)
      = ix2 ⟨(j 0).val, idx2_lt0 j⟩ k := by
  have hk := contrEquiv1_symm_val (DotDims.plain M K N) K contr_rank contr_size k
  funext a
  apply Fin.ext
  match a with
  | ⟨0, _⟩ => exact lhsIdx_val0 j _
  | ⟨1, _⟩ => exact (lhsIdx_val1 j _).trans hk

/-- The right operand's index there is `(k, j₁)`. -/
theorem rhsIdx_eq (j : (⟨2, ![M, N]⟩ : Shape).Idx) (k : Fin K) :
    (DotDims.plain M K N).rhsIdx j ((contrEquiv1 (DotDims.plain M K N) K contr_rank contr_size).symm k)
      = ix2 k ⟨(j 1).val, idx2_lt1 j⟩ := by
  have hk := contrEquiv1_symm_val (DotDims.plain M K N) K contr_rank contr_size k
  funext a
  apply Fin.ext
  match a with
  | ⟨0, _⟩ => exact (rhsIdx_val0 j _).trans hk
  | ⟨1, _⟩ => exact rhsIdx_val1 j _

/-- A kernel's plain matrix product into the zero accumulator, at an output index: the sum over the contracted coordinate. -/
theorem matmul_apply {φ₁ φ₂ : FTy} (prec : Option ContractPrecision) (lhs : FVec Ideal ⟨2, ![M, K]⟩ φ₁)
    (rhs : FVec Ideal ⟨2, ![K, N]⟩ φ₂) (j : (⟨2, ![M, N]⟩ : Shape).Idx) :
    FloatOps.matmul (DotDims.plain M K N) prec lhs rhs (constant ⟨2, ![M, N]⟩ .f32 0x00000000#32) j
      = ∑ k : Fin K, lhs (ix2 ⟨(j 0).val, idx2_lt0 j⟩ k) * rhs (ix2 k ⟨(j 1).val, idx2_lt1 j⟩) := by
  rw [Ideal.matmul_constant_zero_apply,
    ← Equiv.sum_comp (contrEquiv1 (DotDims.plain M K N) K contr_rank contr_size).symm]
  refine Finset.sum_congr rfl fun k _ => ?_
  rw [lhsIdx_eq, rhsIdx_eq]

/-- The host's plain `dot_general` at an output index: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (j : (⟨2, ![M, N]⟩ : Shape).Idx) :
    FloatOps.dotGeneral (DotDims.plain M K N) prec sched lhs rhs j
      = ∑ k : Fin K, lhs (ix2 ⟨(j 0).val, idx2_lt0 j⟩ k) * rhs (ix2 k ⟨(j 1).val, idx2_lt1 j⟩) := by
  rw [Ideal.dotGeneral_apply,
    ← Equiv.sum_comp (contrEquiv1 (DotDims.plain M K N) K contr_rank contr_size).symm]
  refine Finset.sum_congr rfl fun k _ => ?_
  rw [lhsIdx_eq, rhsIdx_eq]

/-- At an index given by coordinates. -/
theorem matmul_apply_ix2 {φ₁ φ₂ : FTy} (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  matmul_apply prec lhs rhs (ix2 r c)

theorem dotGeneral_apply_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  dotGeneral_apply prec sched lhs rhs (ix2 r c)

end Idealize.ShloMosaic.PlainDot
-- ==== Proof.LibColumn.lean ====
/-
  A column vector kept as a trailing unit axis (`jnp.sum(…, keepdims=True)`), read at an index given by coordinates:
  a vector `[a]` cast to the column `[a, 1]`, and a column `[a, 1]` broadcast along its unit axis to `[a, b]`. Both read the
  operand at the row coordinate alone.
-/
import Idealize.ShloMosaic.Lib.Pipeline.Value
import Idealize.ShloMosaic.Lib.ValueIdx

namespace Idealize.ShloMosaic.Column

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Column
-- ==== Proof.LibAffine.lean ====
/-
  Rows times weights plus a bias row, over the extended reals, in its two spellings. A row-tiled kernel computes, for a block
  `x` of rows, `matmul (bf16 x) w 0 + broadcast b`: the rounding of the left operand to bf16 is the identity on the extended
  reals, the matrix unit's product into a zero accumulator is the finite sum over the contracted coordinate, and the bias row
  `[1, M]` is repeated down the rows. The host computes `dot_general X W + broadcast (broadcast b)` with `b` of shape `[M]`
  lifted to `[1, M]` and then to `[A, M]`. Entry `(r, j)` of either is `Σ_k X(r,k)·W(k,j) + b(j)`.
-/
import Idealize.ShloMosaic.PureOps.Ideal.Laws
import Idealize.ShloMosaic.Lib.ValueIdx
import Idealize.ShloMosaic.Lib.ValueLayout
import Idealize.ShloMosaic.Lib.Pipeline.Value
import proofs.«162006_j48043504173109_1_alg».proof.Proof.LibPlainDot

namespace Idealize.ShloMosaic.Affine

open Idealize.ShloMosaic.ValueIdx

variable {A K M : Nat}

/-- Rows times weights plus the bias row: entry `(r, j)` is `Σ_k X(r,k)·W(k,j) + b(0,j)`. -/
noncomputable def affine {φw : FTy} (X : FVec Ideal ⟨2, ![A, K]⟩ .f32) (W : FVec Ideal ⟨2, ![K, M]⟩ φw) (b : FVec Ideal ⟨2, ![1, M]⟩ .f32) :
    FVec Ideal ⟨2, ![A, M]⟩ .f32 :=
  fun i => (∑ k : Fin K, X (ix2 ⟨(i 0).val, idx2_lt0 i⟩ k) * W (ix2 k ⟨(i 1).val, idx2_lt1 i⟩))
    + b (ix2 (0 : Fin 1) ⟨(i 1).val, idx2_lt1 i⟩)

theorem affine_ix2 {φw : FTy} (X : FVec Ideal ⟨2, ![A, K]⟩ .f32) (W : FVec Ideal ⟨2, ![K, M]⟩ φw) (b : FVec Ideal ⟨2, ![1, M]⟩ .f32)
    (p : Fin A) (q : Fin M) :
    affine X W b (ix2 p q) = (∑ k : Fin K, X (ix2 p k) * W (ix2 k q)) + b (ix2 (0 : Fin 1) q) := rfl

/-- The kernel body's value at row `p`, column `q` of its block. -/
theorem body_apply {φw : FTy} (prec : Option ContractPrecision) (x0 : FVec Ideal ⟨2, ![A, K]⟩ .f32) (x1 : FVec Ideal ⟨2, ![K, M]⟩ φw)
    (x2 : FVec Ideal ⟨2, ![1, M]⟩ .f32) (ht : FTy.bf16.bits < FTy.f32.bits)
    (hb : (⟨2, ![1, M]⟩ : Shape).Broadcasts ⟨2, ![A, M]⟩) (p : Fin A) (q : Fin M) :
    addf (FloatOps.matmul (DotDims.plain A K M) prec (truncf .bf16 x0 ht) x1 (constant ⟨2, ![A, M]⟩ .f32 0x00000000#32))
        (broadcastTo ⟨2, ![A, M]⟩ x2 hb) (ix2 p q)
      = affine x0 x1 x2 (ix2 p q) := by
  rw [affine_ix2]
  refine (addf_apply _ _ _).trans ?_
  refine congrArg₂ (· + ·) ?_ ?_
  · exact PlainDot.matmul_apply_ix2 prec (truncf .bf16 x0 ht) x1 p q
  · exact broadcastTo_1b_ab_apply x2 hb p q

/-- A bias `[M]` lifted to `[1, M]` and then to `[A, M]`, at `(p, q)`: its entry `q`. -/
theorem bias_rows_apply (b : FVec Ideal ⟨1, ![M]⟩ .f32) (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    broadcastInDim ⟨2, ![A, M]⟩ ![0, 1] h2 (broadcastInDim ⟨2, ![1, M]⟩ ![1] h1 b) (ix2 p q) = b (ix1 q) := by
  have hq := q.isLt
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ =>
      show q.val = if M = 1 then 0 else q.val
      split
      · omega
      · rfl
  · match a with
    | ⟨0, _⟩ =>
      show q.val = if M = 1 then 0 else q.val
      split
      · omega
      · rfl

/-- The host's spelling at `(p, q)`. -/
theorem host_apply (prec : Option ContractPrecision) (sched : HostSchedule) (X : FVec Ideal ⟨2, ![A, K]⟩ .f32)
    (W : FVec Ideal ⟨2, ![K, M]⟩ .f32) (b : FVec Ideal ⟨1, ![M]⟩ .f32)
    (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    addf (FloatOps.dotGeneral (DotDims.plain A K M) prec sched X W)
        (broadcastInDim ⟨2, ![A, M]⟩ ![0, 1] h2 (broadcastInDim ⟨2, ![1, M]⟩ ![1] h1 b)) (ix2 p q)
      = (∑ k : Fin K, X (ix2 p k) * W (ix2 k q)) + b (ix1 q) := by
  refine (addf_apply _ _ _).trans ?_
  refine congrArg₂ (· + ·) ?_ ?_
  · exact PlainDot.dotGeneral_apply_ix2 prec sched X W p q
  · exact bias_rows_apply b h1 h2 p q

/-- The two spellings agree: the kernel's weights are the host's rounded to bf16 (the identity here) and its bias row the
    host's bias recast to `[1, M]`. -/
theorem affine_eq_host (prec : Option ContractPrecision) (sched : HostSchedule) (X : FVec Ideal ⟨2, ![A, K]⟩ .f32)
    (W : FVec Ideal ⟨2, ![K, M]⟩ .f32) (b : FVec Ideal ⟨1, ![M]⟩ .f32) (ht : FTy.bf16.bits < FTy.f32.bits)
    (hc : (⟨1, ![M]⟩ : Shape).ShapeCasts ⟨2, ![1, M]⟩)
    (h1 : (⟨1, ![M]⟩ : Shape).BroadcastsInDim ⟨2, ![1, M]⟩ ![1])
    (h2 : (⟨2, ![1, M]⟩ : Shape).BroadcastsInDim ⟨2, ![A, M]⟩ ![0, 1]) :
    affine X (truncf .bf16 W ht) (shapeCast ⟨2, ![1, M]⟩ b hc)
      = addf (FloatOps.dotGeneral (DotDims.plain A K M) prec sched X W)
          (broadcastInDim ⟨2, ![A, M]⟩ ![0, 1] h2 (broadcastInDim ⟨2, ![1, M]⟩ ![1] h1 b)) := by
  funext i
  obtain ⟨p, q, rfl⟩ : ∃ (p : Fin A) (q : Fin M), i = ix2 p q := ⟨i 0, i 1, eq_ix2 i⟩
  rw [host_apply, affine_ix2, shapeCast_a_1a_apply]
  rfl

end Idealize.ShloMosaic.Affine
-- ==== Proof.LibLstmRows.lean ====
/-
  One step of a long short-term memory cell with the exponential linear unit as its activation, on the rows of a matrix, over the
  extended reals, in the two spellings a row-tiled kernel body and a host program give it, each read at an entry as ONE scalar
  formula; any number of rows and any extents.
  The pre-activations are  z(r,j) = Σ_k x(r,k)·Wk(k,j) + Σ_k h(r,k)·Wr(k,j) + b(j).  A kernel body spells them as two matrix-unit
  products into zero accumulators of operands rounded to bf16 (the identity here) plus the bias row `[1, N]` repeated down the
  rows; the host as two `dot_general`s plus the bias `[N]` lifted to `[1, N]` and then to `[A, N]`.
  The four gates are column ranges of z; the new cell state is  σ(z_f)·c + σ(z_i)·elu(z_g)  and the new hidden state
  σ(z_o)·elu(c').  A kernel body has the logistic function as one operation and spells  elu(v) = select(v > 0, v, exp v − 1);  the
  host spells the logistic function as 1/(1 + exp(−v)) with the f32 word of 1.0, and
  elu(v) = select(v > 0, v, 1·expm1(select(v > 0, 0, v))).  On the extended reals expm1 v is exp v − 1 and 1·y = y, so the two
  spellings are one function of v; nothing is asked of v.
  A gated blend of two matrices by a column of a flags matrix,  a·(1 − k) + k·b  with k(r) = flags(r, col),  is read the same way:
  the kernel repeats the column `[A, 1]` along the rows' entries, the host lifts it with `broadcast_in_dim`.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import proofs.«162006_j48043504173109_1_alg».proof.Proof.LibPlainDot
import proofs.«162006_j48043504173109_1_alg».proof.Proof.LibColumn
import proofs.«162006_j48043504173109_1_alg».proof.Proof.LibAffine

noncomputable section

namespace Idealize.ShloMosaic.LstmRows

open Idealize.ShloMosaic Idealize.ShloMosaic.ValueIdx

/-! ## The scalar formulas -/

/-- The f32 word of `0.0`, kept as a word: both spellings carry it. -/
def zeroW : EReal := Ideal.ofBits .f32 0x00000000#32
/-- The f32 word of `1.0`. -/
def oneW : EReal := Ideal.ofBits .f32 0x3F800000#32

theorem oneW_eq : oneW = 1 := Ideal.ofBits_one_f32

/-- The exponential linear unit, in a kernel body's spelling: `v` where `v > 0`, `exp v − 1` elsewhere. -/
def elu (v : EReal) : EReal := Scalar.select (Ideal.cmp .ogt v zeroW) v (Ideal.exp v - oneW)

/-- The host's spelling of the same number: the argument of `expm1` is first replaced by `0` where `v > 0` (a branch the outer
    select then discards), and the result is multiplied by `1.0`. -/
theorem elu_host (v : EReal) :
    Scalar.select (Ideal.cmp .ogt v zeroW) v
      (oneW * (Ideal.exp (Scalar.select (Ideal.cmp .ogt v zeroW) zeroW v) - 1)) = elu v := by
  unfold elu Scalar.select
  by_cases h : Ideal.cmp .ogt v zeroW = 1
  · simp only [if_pos h]
  · simp only [if_neg h]
    rw [oneW_eq, one_mul]

/-- The host's `1 / (1 + exp (−v))` with the f32 word of 1.0 is the logistic function. -/
theorem sigmoid_host (v : EReal) :
    FloatOps.hostDivf (F := Ideal) (φ := .f32) oneW (FloatOps.addf oneW (FloatOps.hostUnary .exp (FloatOps.hostNegf v)))
      = Ideal.logistic v := by
  unfold oneW
  rw [Ideal.ofBits_one_f32]
  rfl

/-- One pre-activation: the input row against a weight column, the state row against a weight column, plus the bias entry. -/
def gate {K H : ℕ} (x : Fin K → EReal) (h : Fin H → EReal) (wk : Fin K → EReal) (wr : Fin H → EReal) (b : EReal) : EReal :=
  (∑ k : Fin K, x k * wk k) + (∑ k : Fin H, h k * wr k) + b

/-- The new cell state from the input, forget and candidate pre-activations and the old cell state. -/
def cellC (zi zf zg c : EReal) : EReal := Ideal.logistic zf * c + Ideal.logistic zi * elu zg

/-- The new hidden state from the output pre-activation and the new cell state. -/
def cellH (zo c' : EReal) : EReal := Ideal.logistic zo * elu c'

/-- The gated blend `a·(1 − k) + k·b`. -/
def blend (a b k : EReal) : EReal := a * (oneW - k) + k * b

/-- The same blend with the factors of the first product in the other order, `(1 − k)·a + k·b`. -/
def blendL (a b k : EReal) : EReal := (oneW - k) * a + k * b

variable {A K N H : ℕ}

/-! ## Column ranges and columns -/

/-- Columns `o … o + H − 1` of an `[A, N]` array, read at `(p, q)`: the array at `(p, o + q)`. -/
theorem colRange_apply {α : Type} (o : ℕ) (z : (⟨2, ![A, N]⟩ : Shape).Idx → α)
    (hs : (⟨2, ![A, N]⟩ : Shape).Slices ![0, o] ⟨2, ![A, H]⟩) (p : Fin A) (q : Fin H) (hq : o + q.val < N) :
    extractStridedSlice ⟨2, ![A, H]⟩ ![0, o] z hs (ix2 p q) = z (ix2 p ⟨o + q.val, hq⟩) :=
  extractStridedSlice_apply ![0, o] z hs (ix2 p q) (ix2 p ⟨o + q.val, hq⟩) fun a => by
    match a with
    | ⟨0, _⟩ => exact (Nat.zero_add _).symm
    | ⟨1, _⟩ => rfl

/-- A column `[A, 1]` lifted by `broadcast_in_dim` with dimensions `[0, 1]` to `[A, H]`, read at `(p, q)`: the column's row `p`. -/
theorem liftColumn_apply {α : Type} (v : (⟨2, ![A, 1]⟩ : Shape).Idx → α)
    (hb : (⟨2, ![A, 1]⟩ : Shape).BroadcastsInDim ⟨2, ![A, H]⟩ ![0, 1]) (p : Fin A) (q : Fin H) :
    broadcastInDim ⟨2, ![A, H]⟩ ![0, 1] hb v (ix2 p q) = v (ix2 p (0 : Fin 1)) := by
  have hp := p.isLt
  refine broadcastInDim_apply _ hb v (ix2 p q) (ix2 p (0 : Fin 1)) fun a => ?_
  match a with
  | ⟨0, _⟩ =>
    show p.val = if A = 1 then 0 else p.val
    split
    · omega
    · rfl
  | ⟨1, _⟩ => rfl

/-! ## The pre-activations -/

/-- A kernel body's spelling on a block of rows. -/
def zK (d1 : DotDims ⟨2, ![A, K]⟩ ⟨2, ![K, N]⟩ ⟨2, ![A, N]⟩) (d2 : DotDims ⟨2, ![A, H]⟩ ⟨2, ![H, N]⟩ ⟨2, ![A, N]⟩)
    (ht : FTy.bf16.bits < FTy.f32.bits)
    (hk : (⟨2, ![K, N]⟩ : Shape).ShapeCasts ⟨2, ![K, N]⟩) (hr : (⟨2, ![H, N]⟩ : Shape).ShapeCasts ⟨2, ![H, N]⟩)
    (hc : (⟨2, ![1, N]⟩ : Shape).ShapeCasts ⟨2, ![1, N]⟩) (hb : (⟨2, ![1, N]⟩ : Shape).Broadcasts ⟨2, ![A, N]⟩)
    (x : FVec Ideal ⟨2, ![A, K]⟩ .f32) (h : FVec Ideal ⟨2, ![A, H]⟩ .f32)
    (wk : FVec Ideal ⟨2, ![K, N]⟩ .bf16) (wr : FVec Ideal ⟨2, ![H, N]⟩ .bf16) (b : FVec Ideal ⟨2, ![1, N]⟩ .f32) :
    FVec Ideal ⟨2, ![A, N]⟩ .f32 :=
  addf (addf (matmul d1 none (truncf .bf16 x ht) (shapeCast ⟨2, ![K, N]⟩ wk hk) (constant ⟨2, ![A, N]⟩ .f32 0x00000000#32))
      (matmul d2 none (truncf .bf16 h ht) (shapeCast ⟨2, ![H, N]⟩ wr hr) (constant ⟨2, ![A, N]⟩ .f32 0x00000000#32)))
    (broadcastTo ⟨2, ![A, N]⟩ (shapeCast ⟨2, ![1, N]⟩ b hc) hb)

theorem zK_apply {d1 : DotDims ⟨2, ![A, K]⟩ ⟨2, ![K, N]⟩ ⟨2, ![A, N]⟩} {d2 : DotDims ⟨2, ![A, H]⟩ ⟨2, ![H, N]⟩ ⟨2, ![A, N]⟩}
    (hd1 : d1 = DotDims.plain A K N) (hd2 : d2 = DotDims.plain A H N) (ht : FTy.bf16.bits < FTy.f32.bits)
    (hk : (⟨2, ![K, N]⟩ : Shape).ShapeCasts ⟨2, ![K, N]⟩) (hr : (⟨2, ![H, N]⟩ : Shape).ShapeCasts ⟨2, ![H, N]⟩)
    (hc : (⟨2, ![1, N]⟩ : Shape).ShapeCasts ⟨2, ![1, N]⟩) (hb : (⟨2, ![1, N]⟩ : Shape).Broadcasts ⟨2, ![A, N]⟩)
    (x : FVec Ideal ⟨2, ![A, K]⟩ .f32) (h : FVec Ideal ⟨2, ![A, H]⟩ .f32)
    (wk : FVec Ideal ⟨2, ![K, N]⟩ .bf16) (wr : FVec Ideal ⟨2, ![H, N]⟩ .bf16) (b : FVec Ideal ⟨2, ![1, N]⟩ .f32)
    (p : Fin A) (j : Fin N) :
    zK d1 d2 ht hk hr hc hb x h wk wr b (ix2 p j)
      = gate (fun k => x (ix2 p k)) (fun k => h (ix2 p k)) (fun k => wk (ix2 k j)) (fun k => wr (ix2 k j))
          (b (ix2 (0 : Fin 1) j)) := by
  subst hd1 hd2
  unfold zK gate
  rw [shapeCast_self, shapeCast_self, shapeCast_self]
  refine (addf_apply _ _ _).trans (congrArg₂ (· + ·) ((addf_apply _ _ _).trans (congrArg₂ (· + ·) ?_ ?_)) ?_)
  · exact PlainDot.matmul_apply_ix2 none (truncf .bf16 x ht) wk p j
  · exact PlainDot.matmul_apply_ix2 none (truncf .bf16 h ht) wr p j
  · exact broadcastTo_1b_ab_apply b hb p j

/-- The host's spelling on the whole arrays. -/
def zH (d1 : DotDims ⟨2, ![A, K]⟩ ⟨2, ![K, N]⟩ ⟨2, ![A, N]⟩) (d2 : DotDims ⟨2, ![A, H]⟩ ⟨2, ![H, N]⟩ ⟨2, ![A, N]⟩)
    (h1 : (⟨1, ![N]⟩ : Shape).BroadcastsInDim ⟨2, ![1, N]⟩ ![1])
    (h2 : (⟨2, ![1, N]⟩ : Shape).BroadcastsInDim ⟨2, ![A, N]⟩ ![0, 1])
    (x : FVec Ideal ⟨2, ![A, K]⟩ .f32) (h : FVec Ideal ⟨2, ![A, H]⟩ .f32)
    (wk : FVec Ideal ⟨2, ![K, N]⟩ .f32) (wr : FVec Ideal ⟨2, ![H, N]⟩ .f32) (b : FVec Ideal ⟨1, ![N]⟩ .f32) :
    FVec Ideal ⟨2, ![A, N]⟩ .f32 :=
  addf (addf (Host.dotGeneral d1 none x wk) (Host.dotGeneral d2 none h wr))
    (broadcastInDim ⟨2, ![A, N]⟩ ![0, 1] h2 (broadcastInDim ⟨2, ![1, N]⟩ ![1] h1 b))

theorem zH_apply {d1 : DotDims ⟨2, ![A, K]⟩ ⟨2, ![K, N]⟩ ⟨2, ![A, N]⟩} {d2 : DotDims ⟨2, ![A, H]⟩ ⟨2, ![H, N]⟩ ⟨2, ![A, N]⟩}
    (hd1 : d1 = DotDims.plain A K N) (hd2 : d2 = DotDims.plain A H N)
    (h1 : (⟨1, ![N]⟩ : Shape).BroadcastsInDim ⟨2, ![1, N]⟩ ![1])
    (h2 : (⟨2, ![1, N]⟩ : Shape).BroadcastsInDim ⟨2, ![A, N]⟩ ![0, 1])
    (x : FVec Ideal ⟨2, ![A, K]⟩ .f32) (h : FVec Ideal ⟨2, ![A, H]⟩ .f32)
    (wk : FVec Ideal ⟨2, ![K, N]⟩ .f32) (wr : FVec Ideal ⟨2, ![H, N]⟩ .f32) (b : FVec Ideal ⟨1, ![N]⟩ .f32)
    (p : Fin A) (j : Fin N) :
    zH d1 d2 h1 h2 x h wk wr b (ix2 p j)
      = gate (fun k => x (ix2 p k)) (fun k => h (ix2 p k)) (fun k => wk (ix2 k j)) (fun k => wr (ix2 k j)) (b (ix1 j)) := by
  subst hd1 hd2
  unfold zH gate
  refine (addf_apply _ _ _).trans (congrArg₂ (· + ·) ((addf_apply _ _ _).trans (congrArg₂ (· + ·) ?_ ?_)) ?_)
  · exact PlainDot.dotGeneral_apply_ix2 none .single x wk p j
  · exact PlainDot.dotGeneral_apply_ix2 none .single h wr p j
  · exact Affine.bias_rows_apply b h1 h2 p j

/-! ## The activations on an array, in the host's spelling -/

variable {s : Shape}

/-- The host's logistic function: rank-0 ones broadcast to the shape, `negate`, `exponential`, `add`, `divide`. -/
def sigH (h0 : (⟨0, ![]⟩ : Shape).BroadcastsInDim s ![]) (x : FVec Ideal s .f32) : FVec Ideal s .f32 :=
  Host.divf (broadcastInDim s ![] h0 (constant (F := Ideal) ⟨0, ![]⟩ .f32 0x3F800000#32))
    (addf (broadcastInDim s ![] h0 (constant (F := Ideal) ⟨0, ![]⟩ .f32 0x3F800000#32)) (Host.exp (Host.negf x)))

theorem sigH_apply (h0 : (⟨0, ![]⟩ : Shape).BroadcastsInDim s ![]) (x : FVec Ideal s .f32) (i : s.Idx) :
    sigH h0 x i = Ideal.logistic (x i) := sigmoid_host (x i)

/-- The host's exponential linear unit: two comparisons with a broadcast zero, the inner select of a (converted) zero, `expm1`,
    the product with a broadcast one, the outer select. -/
def eluH (h0 : (⟨0, ![]⟩ : Shape).BroadcastsInDim s ![]) (x : FVec Ideal s .f32) : FVec Ideal s .f32 :=
  select (cmpf .ogt x (broadcastInDim s ![] h0 (constant (F := Ideal) ⟨0, ![]⟩ .f32 0x00000000#32))) x
    (mulf (broadcastInDim s ![] h0 (constant (F := Ideal) ⟨0, ![]⟩ .f32 0x3F800000#32))
      (Host.expm1 (select (cmpf .ogt x (broadcastInDim s ![] h0 (constant (F := Ideal) ⟨0, ![]⟩ .f32 0x00000000#32)))
        (broadcastInDim s ![] h0 (id (constant (F := Ideal) ⟨0, ![]⟩ .f32 0x00000000#32))) x)))

theorem eluH_apply (h0 : (⟨0, ![]⟩ : Shape).BroadcastsInDim s ![]) (x : FVec Ideal s .f32) (i : s.Idx) :
    eluH h0 x i = elu (x i) := elu_host (x i)

/-- A kernel body's exponential linear unit on a vector: scalar constants splat to the shape. -/
def eluK (x : FVec Ideal s .f32) : FVec Ideal s .f32 :=
  select (cmpf .ogt x (broadcast s (Scalar.ofBits (F := Ideal) .f32 0x00000000#32))) x
    (subf (exp x) (broadcast s (Scalar.ofBits (F := Ideal) .f32 0x3F800000#32)))

theorem eluK_apply (x : FVec Ideal s .f32) (i : s.Idx) : eluK x i = elu (x i) := rfl

/-! ## The cell -/

/-- A kernel body's new cell state on a block: the forget, input and candidate column ranges of the pre-activations. -/
def cK (oi of og : ℕ) (si : (⟨2, ![A, N]⟩ : Shape).Slices ![0, oi] ⟨2, ![A, H]⟩)
    (sf : (⟨2, ![A, N]⟩ : Shape).Slices ![0, of] ⟨2, ![A, H]⟩) (sg : (⟨2, ![A, N]⟩ : Shape).Slices ![0, og] ⟨2, ![A, H]⟩)
    (z : FVec Ideal ⟨2, ![A, N]⟩ .f32) (c : FVec Ideal ⟨2, ![A, H]⟩ .f32) : FVec Ideal ⟨2, ![A, H]⟩ .f32 :=
  addf (mulf (logistic (extractStridedSlice ⟨2, ![A, H]⟩ ![0, of] z sf)) c)
    (mulf (logistic (extractStridedSlice ⟨2, ![A, H]⟩ ![0, oi] z si)) (eluK (extractStridedSlice ⟨2, ![A, H]⟩ ![0, og] z sg)))

theorem cK_apply (oi of og : ℕ) (si : (⟨2, ![A, N]⟩ : Shape).Slices ![0, oi] ⟨2, ![A, H]⟩)
    (sf : (⟨2, ![A, N]⟩ : Shape).Slices ![0, of] ⟨2, ![A, H]⟩) (sg : (⟨2, ![A, N]⟩ : Shape).Slices ![0, og] ⟨2, ![A, H]⟩)
    (z : FVec Ideal ⟨2, ![A, N]⟩ .f32) (c : FVec Ideal ⟨2, ![A, H]⟩ .f32) (p : Fin A) (q : Fin H)
    (hi : oi + q.val < N) (hf : of + q.val < N) (hg : og + q.val < N) :
    cK oi of og si sf sg z c (ix2 p q)
      = cellC (z (ix2 p ⟨oi + q.val, hi⟩)) (z (ix2 p ⟨of + q.val, hf⟩)) (z (ix2 p ⟨og + q.val, hg⟩)) (c (ix2 p q)) := by
  rw [← colRange_apply oi z si p q hi, ← colRange_apply of z sf p q hf, ← colRange_apply og z sg p q hg]
  rfl

/-- A kernel body's new hidden state on a block. -/
def hK (oo : ℕ) (so : (⟨2, ![A, N]⟩ : Shape).Slices ![0, oo] ⟨2, ![A, H]⟩)
    (z : FVec Ideal ⟨2, ![A, N]⟩ .f32) (c' : FVec Ideal ⟨2, ![A, H]⟩ .f32) : FVec Ideal ⟨2, ![A, H]⟩ .f32 :=
  mulf (logistic (extractStridedSlice ⟨2, ![A, H]⟩ ![0, oo] z so)) (eluK c')

theorem hK_apply (oo : ℕ) (so : (⟨2, ![A, N]⟩ : Shape).Slices ![0, oo] ⟨2, ![A, H]⟩)
    (z : FVec Ideal ⟨2, ![A, N]⟩ .f32) (c' : FVec Ideal ⟨2, ![A, H]⟩ .f32) (p : Fin A) (q : Fin H) (ho : oo + q.val < N) :
    hK oo so z c' (ix2 p q) = cellH (z (ix2 p ⟨oo + q.val, ho⟩)) (c' (ix2 p q)) := by
  rw [← colRange_apply oo z so p q ho]
  rfl

/-- The host's new cell state on the whole arrays. -/
def cH (h0 : (⟨0, ![]⟩ : Shape).BroadcastsInDim ⟨2, ![A, H]⟩ ![]) (oi of og : ℕ)
    (si : (⟨2, ![A, N]⟩ : Shape).Slices ![0, oi] ⟨2, ![A, H]⟩)
    (sf : (⟨2, ![A, N]⟩ : Shape).Slices ![0, of] ⟨2, ![A, H]⟩) (sg : (⟨2, ![A, N]⟩ : Shape).Slices ![0, og] ⟨2, ![A, H]⟩)
    (z : FVec Ideal ⟨2, ![A, N]⟩ .f32) (c : FVec Ideal ⟨2, ![A, H]⟩ .f32) : FVec Ideal ⟨2, ![A, H]⟩ .f32 :=
  addf (mulf (sigH h0 (extractStridedSlice ⟨2, ![A, H]⟩ ![0, of] z sf)) c)
    (mulf (sigH h0 (extractStridedSlice ⟨2, ![A, H]⟩ ![0, oi] z si)) (eluH h0 (extractStridedSlice ⟨2, ![A, H]⟩ ![0, og] z sg)))

theorem cH_apply (h0 : (⟨0, ![]⟩ : Shape).BroadcastsInDim ⟨2, ![A, H]⟩ ![]) (oi of og : ℕ)
    (si : (⟨2, ![A, N]⟩ : Shape).Slices ![0, oi] ⟨2, ![A, H]⟩)
    (sf : (⟨2, ![A, N]⟩ : Shape).Slices ![0, of] ⟨2, ![A, H]⟩) (sg : (⟨2, ![A, N]⟩ : Shape).Slices ![0, og] ⟨2, ![A, H]⟩)
    (z : FVec Ideal ⟨2, ![A, N]⟩ .f32) (c : FVec Ideal ⟨2, ![A, H]⟩ .f32) (p : Fin A) (q : Fin H)
    (hi : oi + q.val < N) (hf : of + q.val < N) (hg : og + q.val < N) :
    cH h0 oi of og si sf sg z c (ix2 p q)
      = cellC (z (ix2 p ⟨oi + q.val, hi⟩)) (z (ix2 p ⟨of + q.val, hf⟩)) (z (ix2 p ⟨og + q.val, hg⟩)) (c (ix2 p q)) := by
  rw [← colRange_apply oi z si p q hi, ← colRange_apply of z sf p q hf, ← colRange_apply og z sg p q hg]
  unfold cH cellC
  rw [addf_apply, mulf_apply, mulf_apply, sigH_apply, sigH_apply, eluH_apply]

/-- The host's new hidden state on the whole arrays. -/
def hH (h0 : (⟨0, ![]⟩ : Shape).BroadcastsInDim ⟨2, ![A, H]⟩ ![]) (oo : ℕ)
    (so : (⟨2, ![A, N]⟩ : Shape).Slices ![0, oo] ⟨2, ![A, H]⟩)
    (z : FVec Ideal ⟨2, ![A, N]⟩ .f32) (c' : FVec Ideal ⟨2, ![A, H]⟩ .f32) : FVec Ideal ⟨2, ![A, H]⟩ .f32 :=
  mulf (sigH h0 (extractStridedSlice ⟨2, ![A, H]⟩ ![0, oo] z so)) (eluH h0 c')

theorem hH_apply (h0 : (⟨0, ![]⟩ : Shape).BroadcastsInDim ⟨2, ![A, H]⟩ ![]) (oo : ℕ)
    (so : (⟨2, ![A, N]⟩ : Shape).Slices ![0, oo] ⟨2, ![A, H]⟩)
    (z : FVec Ideal ⟨2, ![A, N]⟩ .f32) (c' : FVec Ideal ⟨2, ![A, H]⟩ .f32) (p : Fin A) (q : Fin H) (ho : oo + q.val < N) :
    hH h0 oo so z c' (ix2 p q) = cellH (z (ix2 p ⟨oo + q.val, ho⟩)) (c' (ix2 p q)) := by
  rw [← colRange_apply oo z so p q ho]
  unfold hH cellH
  rw [mulf_apply, sigH_apply, eluH_apply]

/-! ## The gated blend -/

/-- Column `col` of a flags matrix `[A, F]` cut out as `[A, 1]`, read at `(p, u)`. -/
theorem flagColumn_apply {α : Type} {Fl : ℕ} (col : ℕ) (f : (⟨2, ![A, Fl]⟩ : Shape).Idx → α)
    (hs : (⟨2, ![A, Fl]⟩ : Shape).Slices ![0, col] ⟨2, ![A, 1]⟩) (p : Fin A) (u : Fin 1) (hc : col < Fl) :
    extractStridedSlice ⟨2, ![A, 1]⟩ ![0, col] f hs (ix2 p u) = f (ix2 p ⟨col, hc⟩) :=
  extractStridedSlice_apply ![0, col] f hs (ix2 p u) (ix2 p ⟨col, hc⟩) fun a => by
    match a with
    | ⟨0, _⟩ => exact (Nat.zero_add _).symm
    | ⟨1, _⟩ =>
      have hu : u.val = 0 := by omega
      show col = col + u.val
      rw [hu, Nat.add_zero]

/-- A kernel body's blend on a block: `a·bc(1 − k) + bc(k)·b` with the column `k` repeated along the rows' entries. -/
def blendK (hb : (⟨2, ![A, 1]⟩ : Shape).Broadcasts ⟨2, ![A, H]⟩) (a b : FVec Ideal ⟨2, ![A, H]⟩ .f32)
    (k : FVec Ideal ⟨2, ![A, 1]⟩ .f32) : FVec Ideal ⟨2, ![A, H]⟩ .f32 :=
  addf (mulf a (broadcastTo ⟨2, ![A, H]⟩ (subf (broadcast ⟨2, ![A, 1]⟩ (Scalar.ofBits (F := Ideal) .f32 0x3F800000#32)) k) hb))
    (mulf (broadcastTo ⟨2, ![A, H]⟩ k hb) b)

theorem blendK_apply (hb : (⟨2, ![A, 1]⟩ : Shape).Broadcasts ⟨2, ![A, H]⟩) (a b : FVec Ideal ⟨2, ![A, H]⟩ .f32)
    (k : FVec Ideal ⟨2, ![A, 1]⟩ .f32) (p : Fin A) (q : Fin H) :
    blendK hb a b k (ix2 p q) = blend (a (ix2 p q)) (b (ix2 p q)) (k (ix2 p (0 : Fin 1))) := by
  unfold blendK blend
  rw [addf_apply, mulf_apply, mulf_apply, Column.broadcastTo_a1_ab_apply, Column.broadcastTo_a1_ab_apply]
  rfl

/-- The same with the first product's factors in the other order. -/
def blendLK (hb : (⟨2, ![A, 1]⟩ : Shape).Broadcasts ⟨2, ![A, H]⟩) (a b : FVec Ideal ⟨2, ![A, H]⟩ .f32)
    (k : FVec Ideal ⟨2, ![A, 1]⟩ .f32) : FVec Ideal ⟨2, ![A, H]⟩ .f32 :=
  addf (mulf (broadcastTo ⟨2, ![A, H]⟩ (subf (broadcast ⟨2, ![A, 1]⟩ (Scalar.ofBits (F := Ideal) .f32 0x3F800000#32)) k) hb) a)
    (mulf (broadcastTo ⟨2, ![A, H]⟩ k hb) b)

theorem blendLK_apply (hb : (⟨2, ![A, 1]⟩ : Shape).Broadcasts ⟨2, ![A, H]⟩) (a b : FVec Ideal ⟨2, ![A, H]⟩ .f32)
    (k : FVec Ideal ⟨2, ![A, 1]⟩ .f32) (p : Fin A) (q : Fin H) :
    blendLK hb a b k (ix2 p q) = blendL (a (ix2 p q)) (b (ix2 p q)) (k (ix2 p (0 : Fin 1))) := by
  unfold blendLK blendL
  rw [addf_apply, mulf_apply, mulf_apply, Column.broadcastTo_a1_ab_apply, Column.broadcastTo_a1_ab_apply]
  rfl

/-- The host's blend on the whole arrays: the rank-0 one broadcast to `[A, 1]`, the column lifted with `broadcast_in_dim`. -/
def blendH (h01 : (⟨0, ![]⟩ : Shape).BroadcastsInDim ⟨2, ![A, 1]⟩ ![])
    (hb : (⟨2, ![A, 1]⟩ : Shape).BroadcastsInDim ⟨2, ![A, H]⟩ ![0, 1]) (a b : FVec Ideal ⟨2, ![A, H]⟩ .f32)
    (k : FVec Ideal ⟨2, ![A, 1]⟩ .f32) : FVec Ideal ⟨2, ![A, H]⟩ .f32 :=
  addf (mulf a (broadcastInDim ⟨2, ![A, H]⟩ ![0, 1] hb
      (subf (broadcastInDim ⟨2, ![A, 1]⟩ ![] h01 (constant (F := Ideal) ⟨0, ![]⟩ .f32 0x3F800000#32)) k)))
    (mulf (broadcastInDim ⟨2, ![A, H]⟩ ![0, 1] hb k) b)

theorem blendH_apply (h01 : (⟨0, ![]⟩ : Shape).BroadcastsInDim ⟨2, ![A, 1]⟩ ![])
    (hb : (⟨2, ![A, 1]⟩ : Shape).BroadcastsInDim ⟨2, ![A, H]⟩ ![0, 1]) (a b : FVec Ideal ⟨2, ![A, H]⟩ .f32)
    (k : FVec Ideal ⟨2, ![A, 1]⟩ .f32) (p : Fin A) (q : Fin H) :
    blendH h01 hb a b k (ix2 p q) = blend (a (ix2 p q)) (b (ix2 p q)) (k (ix2 p (0 : Fin 1))) := by
  unfold blendH blend
  rw [addf_apply, mulf_apply, mulf_apply, liftColumn_apply, liftColumn_apply]
  rfl

def blendLH (h01 : (⟨0, ![]⟩ : Shape).BroadcastsInDim ⟨2, ![A, 1]⟩ ![])
    (hb : (⟨2, ![A, 1]⟩ : Shape).BroadcastsInDim ⟨2, ![A, H]⟩ ![0, 1]) (a b : FVec Ideal ⟨2, ![A, H]⟩ .f32)
    (k : FVec Ideal ⟨2, ![A, 1]⟩ .f32) : FVec Ideal ⟨2, ![A, H]⟩ .f32 :=
  addf (mulf (broadcastInDim ⟨2, ![A, H]⟩ ![0, 1] hb
      (subf (broadcastInDim ⟨2, ![A, 1]⟩ ![] h01 (constant (F := Ideal) ⟨0, ![]⟩ .f32 0x3F800000#32)) k)) a)
    (mulf (broadcastInDim ⟨2, ![A, H]⟩ ![0, 1] hb k) b)

theorem blendLH_apply (h01 : (⟨0, ![]⟩ : Shape).BroadcastsInDim ⟨2, ![A, 1]⟩ ![])
    (hb : (⟨2, ![A, 1]⟩ : Shape).BroadcastsInDim ⟨2, ![A, H]⟩ ![0, 1]) (a b : FVec Ideal ⟨2, ![A, H]⟩ .f32)
    (k : FVec Ideal ⟨2, ![A, 1]⟩ .f32) (p : Fin A) (q : Fin H) :
    blendLH h01 hb a b k (ix2 p q) = blendL (a (ix2 p q)) (b (ix2 p q)) (k (ix2 p (0 : Fin 1))) := by
  unfold blendLH blendL
  rw [addf_apply, mulf_apply, mulf_apply, liftColumn_apply, liftColumn_apply]
  rfl

end Idealize.ShloMosaic.LstmRows

end
-- ==== Proof.LibSplitLayer.lean ====
/-
  A linear layer applied to rows that come in two parts, followed by the rectifier, over the extended reals, in its two
  spellings. A row-tiled kernel holds the weight matrix `W` (one row per output feature, `K₁ + K₂` columns) as two
  transposed column ranges `W₁ = (W[:, :K₁])ᵀ` and `W₂ = (W[:, K₁:])ᵀ`, multiplies each part of the row block by its range on
  the matrix unit (the rounding of the operands to bf16 is the identity on the extended reals, and a product into the zero
  accumulator is the finite sum over the contracted coordinate), adds the two products, adds the bias row and takes the
  maximum with zero. The host lays the two parts side by side, multiplies the `K₁ + K₂`-wide rows by `Wᵀ` in one
  `dot_general`, adds the bias lifted twice and takes the maximum with a broadcast zero. Entry `(r, j)` of either is
    max (Σ_{k < K₁} X₁(r,k)·W(j,k) + Σ_{k < K₂} X₂(r,k)·W(j,K₁+k) + b(j)) 0 :
  a sum over `Fin (K₁ + K₂)` is the sum over its first `K₁` positions plus the sum over the remaining `K₂`, which holds
  in every commutative additive monoid, so nothing here asks the entries to be finite.
-/
import Idealize.ShloMosaic.PureOps.Ideal.Laws
import Idealize.ShloMosaic.Lib.ValueIdx
import Idealize.ShloMosaic.Lib.ValueLayout
import Idealize.ShloMosaic.Lib.Pipeline.Value
import proofs.«162006_j48043504173109_1_alg».proof.Proof.LibPlainDot
import proofs.«162006_j48043504173109_1_alg».proof.Proof.LibAffine

namespace Idealize.ShloMosaic.SplitLayer

open Idealize.ShloMosaic.ValueIdx

variable {A K₁ K₂ K M : Nat}

/-- The layer on rows in two parts with the weights in two transposed ranges: entry `(r, j)` is
    `max (Σ_k X₁(r,k)·W₁(k,j) + Σ_k X₂(r,k)·W₂(k,j) + b(j)) 0`. -/
noncomputable def layer (X₁ : FVec Ideal ⟨2, ![A, K₁]⟩ .f32) (X₂ : FVec Ideal ⟨2, ![A, K₂]⟩ .f32)
    (W₁ : FVec Ideal ⟨2, ![K₁, M]⟩ .f32) (W₂ : FVec Ideal ⟨2, ![K₂, M]⟩ .f32) (b : FVec Ideal ⟨1, ![M]⟩ .f32) :
    FVec Ideal ⟨2, ![A, M]⟩ .f32 :=
  fun i => max (((∑ k : Fin K₁, X₁ (ix2 ⟨(i 0).val, idx2_lt0 i⟩ k) * W₁ (ix2 k ⟨(i 1).val, idx2_lt1 i⟩))
      + (∑ k : Fin K₂, X₂ (ix2 ⟨(i 0).val, idx2_lt0 i⟩ k) * W₂ (ix2 k ⟨(i 1).val, idx2_lt1 i⟩)))
      + b (ix1 ⟨(i 1).val, idx2_lt1 i⟩)) (Ideal.ofBits .f32 0x00000000#32)

theorem layer_ix2 (X₁ : FVec Ideal ⟨2, ![A, K₁]⟩ .f32) (X₂ : FVec Ideal ⟨2, ![A, K₂]⟩ .f32)
    (W₁ : FVec Ideal ⟨2, ![K₁, M]⟩ .f32) (W₂ : FVec Ideal ⟨2, ![K₂, M]⟩ .f32) (b : FVec Ideal ⟨1, ![M]⟩ .f32)
    (p : Fin A) (q : Fin M) :
    layer X₁ X₂ W₁ W₂ b (ix2 p q)
      = max (((∑ k : Fin K₁, X₁ (ix2 p k) * W₁ (ix2 k q)) + (∑ k : Fin K₂, X₂ (ix2 p k) * W₂ (ix2 k q))) + b (ix1 q))
          (Ideal.ofBits .f32 0x00000000#32) := rfl

/-- An entry of the layer depends on its own row of the two parts, its own column of the two weight ranges and its own
    bias entry only: row `p`, column `q` of the layer on a block of rows is row `r`, column `q` of the layer on whole
    arrays when those five agree. -/
theorem layer_entry_congr {B : Nat} (X₁ : FVec Ideal ⟨2, ![A, K₁]⟩ .f32) (X₂ : FVec Ideal ⟨2, ![A, K₂]⟩ .f32)
    (W₁ : FVec Ideal ⟨2, ![K₁, M]⟩ .f32) (W₂ : FVec Ideal ⟨2, ![K₂, M]⟩ .f32) (b : FVec Ideal ⟨1, ![M]⟩ .f32)
    (x₁ : FVec Ideal ⟨2, ![B, K₁]⟩ .f32) (x₂ : FVec Ideal ⟨2, ![B, K₂]⟩ .f32)
    (w₁ : FVec Ideal ⟨2, ![K₁, M]⟩ .f32) (w₂ : FVec Ideal ⟨2, ![K₂, M]⟩ .f32) (b' : FVec Ideal ⟨1, ![M]⟩ .f32)
    (p : Fin B) (r : Fin A) (q : Fin M)
    (h₁ : ∀ k, x₁ (ix2 p k) = X₁ (ix2 r k)) (h₂ : ∀ k, x₂ (ix2 p k) = X₂ (ix2 r k))
    (h₃ : ∀ k, w₁ (ix2 k q) = W₁ (ix2 k q)) (h₄ : ∀ k, w₂ (ix2 k q) = W₂ (ix2 k q)) (h₅ : b' (ix1 q) = b (ix1 q)) :
    layer x₁ x₂ w₁ w₂ b' (ix2 p q) = layer X₁ X₂ W₁ W₂ b (ix2 r q) := by
  rw [layer_ix2, layer_ix2]
  simp only [h₁, h₂, h₃, h₄, h₅]

/-- The kernel body's value at row `p`, column `q` of its block: two products into zero accumulators added, the bias
    `[M]` recast to a row and repeated down the block, the maximum with a splat zero. -/
theorem body_apply (prec : Option ContractPrecision) (x₁ : FVec Ideal ⟨2, ![A, K₁]⟩ .f32) (x₂ : FVec Ideal ⟨2, ![A, K₂]⟩ .f32)
    (w₁ : FVec Ideal ⟨2, ![K₁, M]⟩ .f32) (w₂ : FVec Ideal ⟨2, ![K₂, M]⟩ .f32) (b : FVec Ideal ⟨1, ![M]⟩ .f32)
    (ht : FTy.bf16.bits < FTy.f32.bits) (hc : (⟨1, ![M]⟩ : Shape).ShapeCasts ⟨2, ![1, M]⟩)
    (hb : (⟨2, ![1, M]⟩ : Shape).Broadcasts ⟨2, ![A, M]⟩) (p : Fin A) (q : Fin M) :
    maximumf
        (addf
          (addf
            (FloatOps.matmul (DotDims.plain A K₁ M) prec (truncf .bf16 x₁ ht) (truncf .bf16 w₁ ht) (constant ⟨2, ![A, M]⟩ .f32 0x00000000#32))
            (FloatOps.matmul (DotDims.plain A K₂ M) prec (truncf .bf16 x₂ ht) (truncf .bf16 w₂ ht) (constant ⟨2, ![A, M]⟩ .f32 0x00000000#32)))
          (broadcastTo ⟨2, ![A, M]⟩ (shapeCast ⟨2, ![1, M]⟩ b hc) hb))
        (broadcast ⟨2, ![A, M]⟩ (Scalar.ofBits (F := Ideal) .f32 0x00000000#32)) (ix2 p q)
      = layer x₁ x₂ w₁ w₂ b (ix2 p q) := by
  rw [layer_ix2]
  refine (maximumf_apply _ _ _).trans (congrArg₂ max ?_ rfl)
  refine (addf_apply _ _ _).trans (congrArg₂ (· + ·) ?_ ?_)
  · refine (addf_apply _ _ _).trans (congrArg₂ (· + ·) ?_ ?_)
    · exact PlainDot.matmul_apply_ix2 prec (truncf .bf16 x₁ ht) (truncf .bf16 w₁ ht) p q
    · exact PlainDot.matmul_apply_ix2 prec (truncf .bf16 x₂ ht) (truncf .bf16 w₂ ht) p q
  · exact (broadcastTo_1b_ab_apply _ hb p q).trans (shapeCast_a_1a_apply b hc 0 q)

/-- Two arrays laid side by side along the columns, read in the first one's columns. -/
theorem concat_cols_left (X₁ : FVec Ideal ⟨2, ![A, K₁]⟩ .f32) (X₂ : FVec Ideal ⟨2, ![A, K₂]⟩ .f32)
    (hcat : Shape.Concatenates [(⟨2, ![A, K₁]⟩ : Shape), ⟨2, ![A, K₂]⟩] ⟨2, ![A, K₁ + K₂]⟩ 1) (p : Fin A) (k : Fin K₁) :
    concatenate ⟨2, ![A, K₁ + K₂]⟩ 1 [⟨⟨2, ![A, K₁]⟩, X₁⟩, ⟨⟨2, ![A, K₂]⟩, X₂⟩] hcat (ix2 p (Fin.castAdd K₂ k)) = X₁ (ix2 p k) :=
  concatenate_pair_apply_left 1 X₁ X₂ hcat (ix2 p (Fin.castAdd K₂ k)) rfl (ix2 p k) fun b =>
    match b with
    | ⟨0, _⟩ => rfl
    | ⟨1, _⟩ => rfl

/-- Two arrays laid side by side along the columns, read in the second one's columns. -/
theorem concat_cols_right (X₁ : FVec Ideal ⟨2, ![A, K₁]⟩ .f32) (X₂ : FVec Ideal ⟨2, ![A, K₂]⟩ .f32)
    (hcat : Shape.Concatenates [(⟨2, ![A, K₁]⟩ : Shape), ⟨2, ![A, K₂]⟩] ⟨2, ![A, K₁ + K₂]⟩ 1) (p : Fin A) (k : Fin K₂) :
    concatenate ⟨2, ![A, K₁ + K₂]⟩ 1 [⟨⟨2, ![A, K₁]⟩, X₁⟩, ⟨⟨2, ![A, K₂]⟩, X₂⟩] hcat (ix2 p (Fin.natAdd K₁ k)) = X₂ (ix2 p k) :=
  concatenate_pair_apply_right 1 X₁ X₂ hcat (ix2 p (Fin.natAdd K₁ k)) rfl rfl (ix2 p k)
    (fun b hb =>
      match b, hb with
      | ⟨0, _⟩, _ => rfl
      | ⟨1, _⟩, hb => absurd rfl hb)
    (show k.val + K₁ = K₁ + k.val from Nat.add_comm _ _)

/-- A matrix transposed, read at `(c, q)`: the matrix at `(q, c)`. -/
theorem transpose_ix2 {R C : Nat} (W : FVec Ideal ⟨2, ![R, C]⟩ .f32) (h : (⟨2, ![R, C]⟩ : Shape).Transposes [1, 0] ⟨2, ![C, R]⟩)
    (c : Fin C) (q : Fin R) : transpose ⟨2, ![C, R]⟩ [1, 0] W h (ix2 c q) = W (ix2 q c) :=
  transpose_apply [1, 0] W h (ix2 c q) (ix2 q c) fun b =>
    match b with
    | ⟨0, _⟩ => rfl
    | ⟨1, _⟩ => rfl

/-- A range of `C'` columns of a matrix starting at column `o`, transposed, read at `(k, q)`: the matrix at `(q, o + k)`. -/
theorem transpose_cols_ix2 {R C C' : Nat} (o : Nat) (W : FVec Ideal ⟨2, ![R, C]⟩ .f32)
    (hs : (⟨2, ![R, C]⟩ : Shape).Slices ![0, o] ⟨2, ![R, C']⟩)
    (h : (⟨2, ![R, C']⟩ : Shape).Transposes [1, 0] ⟨2, ![C', R]⟩) (k : Fin C') (q : Fin R) (hk : o + k.val < C) :
    transpose ⟨2, ![C', R]⟩ [1, 0] (extractStridedSlice ⟨2, ![R, C']⟩ ![0, o] W hs) h (ix2 k q) = W (ix2 q ⟨o + k.val, hk⟩) :=
  (transpose_ix2 _ h k q).trans
    (extractStridedSlice_apply ![0, o] W hs (ix2 q k) (ix2 q ⟨o + k.val, hk⟩) fun a =>
      match a with
      | ⟨0, _⟩ => (Nat.zero_add _).symm
      | ⟨1, _⟩ => rfl)

/-- The host's spelling at `(p, q)`, against the layer on the two transposed column ranges of the weight matrix. -/
theorem host_apply (prec : Option ContractPrecision) (sched : HostSchedule)
    (X₁ : FVec Ideal ⟨2, ![A, K₁]⟩ .f32) (X₂ : FVec Ideal ⟨2, ![A, K₂]⟩ .f32) (W : FVec Ideal ⟨2, ![M, K₁ + K₂]⟩ .f32)
    (b : FVec Ideal ⟨1, ![M]⟩ .f32)
    (hcat : Shape.Concatenates [(⟨2, ![A, K₁]⟩ : Shape), ⟨2, ![A, K₂]⟩] ⟨2, ![A, K₁ + K₂]⟩ 1)
    (htr : (⟨2, ![M, K₁ + K₂]⟩ : Shape).Transposes [1, 0] ⟨2, ![K₁ + K₂, M]⟩)
    (hs₁ : (⟨2, ![M, K₁ + K₂]⟩ : Shape).Slices ![0, 0] ⟨2, ![M, K₁]⟩)
    (ht₁ : (⟨2, ![M, K₁]⟩ : Shape).Transposes [1, 0] ⟨2, ![K₁, M]⟩)
    (hs₂ : (⟨2, ![M, K₁ + K₂]⟩ : Shape).Slices ![0, K₁] ⟨2, ![M, K₂]⟩)
    (ht₂ : (⟨2, ![M, K₂]⟩ : Shape).Transposes [1, 0] ⟨2, ![K₂, M]⟩)
    (h1 : (⟨1, ![M]⟩ : Shape).BroadcastsInDim ⟨2, ![1, M]⟩ ![1])
    (h2 : (⟨2, ![1, M]⟩ : Shape).BroadcastsInDim ⟨2, ![A, M]⟩ ![0, 1])
    (h0 : (⟨0, ![]⟩ : Shape).BroadcastsInDim ⟨2, ![A, M]⟩ ![]) (p : Fin A) (q : Fin M) :
    maximumf
        (addf
          (FloatOps.dotGeneral (DotDims.plain A (K₁ + K₂) M) prec sched
            (concatenate ⟨2, ![A, K₁ + K₂]⟩ 1 [⟨⟨2, ![A, K₁]⟩, X₁⟩, ⟨⟨2, ![A, K₂]⟩, X₂⟩] hcat)
            (transpose ⟨2, ![K₁ + K₂, M]⟩ [1, 0] W htr))
          (broadcastInDim ⟨2, ![A, M]⟩ ![0, 1] h2 (broadcastInDim ⟨2, ![1, M]⟩ ![1] h1 b)))
        (broadcastInDim ⟨2, ![A, M]⟩ ![] h0 (constant (F := Ideal) ⟨0, ![]⟩ .f32 0x00000000#32)) (ix2 p q)
      = layer X₁ X₂
          (transpose ⟨2, ![K₁, M]⟩ [1, 0] (extractStridedSlice ⟨2, ![M, K₁]⟩ ![0, 0] W hs₁) ht₁)
          (transpose ⟨2, ![K₂, M]⟩ [1, 0] (extractStridedSlice ⟨2, ![M, K₂]⟩ ![0, K₁] W hs₂) ht₂) b (ix2 p q) := by
  rw [layer_ix2]
  refine (maximumf_apply _ _ _).trans (congrArg₂ max ?_ ?_)
  · refine (addf_apply _ _ _).trans (congrArg₂ (· + ·) ?_ (Affine.bias_rows_apply b h1 h2 p q))
    refine (PlainDot.dotGeneral_apply_ix2 prec sched _ _ p q).trans ?_
    rw [Fin.sum_univ_add]
    refine congrArg₂ (· + ·) (Finset.sum_congr rfl fun k _ => ?_) (Finset.sum_congr rfl fun k _ => ?_)
    · refine congrArg₂ (· * ·) (concat_cols_left X₁ X₂ hcat p k) ?_
      refine (transpose_ix2 W htr (Fin.castAdd K₂ k) q).trans ?_
      refine ((transpose_cols_ix2 0 W hs₁ ht₁ k q (by have := k.isLt; omega)).trans ?_).symm
      exact congrArg W (congrArg (ix2 q) (Fin.ext (Nat.zero_add _)))
    · refine congrArg₂ (· * ·) (concat_cols_right X₁ X₂ hcat p k) ?_
      refine (transpose_ix2 W htr (Fin.natAdd K₁ k) q).trans ?_
      exact (transpose_cols_ix2 K₁ W hs₂ ht₂ k q (by have := k.isLt; omega)).symm
  · exact broadcastInDim_apply _ h0 _ (ix2 p q) ix0 fun a => a.elim0

/-- The two spellings are one array. -/
theorem host_eq (prec : Option ContractPrecision) (sched : HostSchedule)
    (X₁ : FVec Ideal ⟨2, ![A, K₁]⟩ .f32) (X₂ : FVec Ideal ⟨2, ![A, K₂]⟩ .f32) (W : FVec Ideal ⟨2, ![M, K₁ + K₂]⟩ .f32)
    (b : FVec Ideal ⟨1, ![M]⟩ .f32)
    (hcat : Shape.Concatenates [(⟨2, ![A, K₁]⟩ : Shape), ⟨2, ![A, K₂]⟩] ⟨2, ![A, K₁ + K₂]⟩ 1)
    (htr : (⟨2, ![M, K₁ + K₂]⟩ : Shape).Transposes [1, 0] ⟨2, ![K₁ + K₂, M]⟩)
    (hs₁ : (⟨2, ![M, K₁ + K₂]⟩ : Shape).Slices ![0, 0] ⟨2, ![M, K₁]⟩)
    (ht₁ : (⟨2, ![M, K₁]⟩ : Shape).Transposes [1, 0] ⟨2, ![K₁, M]⟩)
    (hs₂ : (⟨2, ![M, K₁ + K₂]⟩ : Shape).Slices ![0, K₁] ⟨2, ![M, K₂]⟩)
    (ht₂ : (⟨2, ![M, K₂]⟩ : Shape).Transposes [1, 0] ⟨2, ![K₂, M]⟩)
    (h1 : (⟨1, ![M]⟩ : Shape).BroadcastsInDim ⟨2, ![1, M]⟩ ![1])
    (h2 : (⟨2, ![1, M]⟩ : Shape).BroadcastsInDim ⟨2, ![A, M]⟩ ![0, 1])
    (h0 : (⟨0, ![]⟩ : Shape).BroadcastsInDim ⟨2, ![A, M]⟩ ![]) :
    maximumf
        (addf
          (FloatOps.dotGeneral (DotDims.plain A (K₁ + K₂) M) prec sched
            (concatenate ⟨2, ![A, K₁ + K₂]⟩ 1 [⟨⟨2, ![A, K₁]⟩, X₁⟩, ⟨⟨2, ![A, K₂]⟩, X₂⟩] hcat)
            (transpose ⟨2, ![K₁ + K₂, M]⟩ [1, 0] W htr))
          (broadcastInDim ⟨2, ![A, M]⟩ ![0, 1] h2 (broadcastInDim ⟨2, ![1, M]⟩ ![1] h1 b)))
        (broadcastInDim ⟨2, ![A, M]⟩ ![] h0 (constant (F := Ideal) ⟨0, ![]⟩ .f32 0x00000000#32))
      = layer X₁ X₂
          (transpose ⟨2, ![K₁, M]⟩ [1, 0] (extractStridedSlice ⟨2, ![M, K₁]⟩ ![0, 0] W hs₁) ht₁)
          (transpose ⟨2, ![K₂, M]⟩ [1, 0] (extractStridedSlice ⟨2, ![M, K₂]⟩ ![0, K₁] W hs₂) ht₂) b := by
  funext i
  obtain ⟨p, q, rfl⟩ : ∃ (p : Fin A) (q : Fin M), i = ix2 p q := ⟨i 0, i 1, eq_ix2 i⟩
  exact host_apply prec sched X₁ X₂ W b hcat htr hs₁ ht₁ hs₂ ht₂ h1 h2 h0 p q

end Idealize.ShloMosaic.SplitLayer
-- ==== Proof.LibGaussHead.lean ====
/-
  The pieces of a small Gaussian decoder on the rows of a matrix, over the extended reals, in the spellings a row-tiled kernel
  body and a host program give them, each read at an entry; any number of rows and any extents.
  A dense layer  Σ_k x(r,k)·W(k,j) + b(j):  the kernel's left operand arrives already rounded to bf16 (the identity here), its
  weights and its bias row `[1, M]` recast to their own shapes; the host has `dot_general` and the bias `[M]` lifted twice.
  The softplus  max(v, 0) + log1p(exp(−|v − 0|))  behind the guard `(v − 0) ≠ (v − 0)`, which would select `v + 0` and holds
  nowhere on the extended reals: the kernel writes the guard with the ordered comparison and `−y` as `0 − y`, the host with the
  unordered comparison and `negate`; one function of v.
  Two `[A, M]` arrays laid side by side as `[A, M + M']`, read at a column of the left or of the right part.
-/
import Idealize.ShloMosaic.PureOps.Ideal.Laws
import Idealize.ShloMosaic.Lib.ValueIdx
import Idealize.ShloMosaic.Lib.ValueLayout
import Idealize.ShloMosaic.Lib.Pipeline.Value
import proofs.«162006_j48043504173109_1_alg».proof.Proof.LibPlainDot
import proofs.«162006_j48043504173109_1_alg».proof.Proof.LibAffine
import proofs.«162006_j48043504173109_1_alg».proof.Proof.LibSplitLayer
import proofs.«162006_j48043504173109_1_alg».proof.Proof.LibLstmRows

noncomputable section

namespace Idealize.ShloMosaic.GaussHead

open Idealize.ShloMosaic Idealize.ShloMosaic.ValueIdx Idealize.ShloMosaic.LstmRows

/-! ## The softplus -/

/-- `max(v, 0) + log1p(exp(−|v − 0|))` behind the guard `(v − 0) ≠ (v − 0)` (the host's spelling). -/
def softplus (v : EReal) : EReal :=
  Scalar.select (Ideal.cmp .une (v - zeroW) (v - zeroW)) (v + zeroW)
    (max v zeroW + Ideal.log1p (Ideal.exp (-(max (v - zeroW) (-(v - zeroW))))))

/-- The kernel body's spelling of the same number: the ordered "not equal" and `0 − |·|`. -/
theorem softplus_kernel (v : EReal) :
    Scalar.select (Ideal.cmp .one (v - zeroW) (v - zeroW)) (v + zeroW)
      (max v zeroW + Ideal.log1p (Ideal.exp (zeroW - max (v - zeroW) (-(v - zeroW))))) = softplus v := by
  have hz : zeroW - max (v - zeroW) (-(v - zeroW)) = -(max (v - zeroW) (-(v - zeroW))) := by
    rw [show zeroW = (0 : EReal) from Ideal.ofBits_zero_f32, zero_sub]
  rw [hz]
  rfl

variable {s : Shape}

/-- A kernel body's softplus on a vector: the scalar zero splat to the shape. -/
def softplusK (x : FVec Ideal s .f32) : FVec Ideal s .f32 :=
  select (cmpf .one (subf x (broadcast s (Scalar.ofBits (F := Ideal) .f32 0x00000000#32))) (subf x (broadcast s (Scalar.ofBits (F := Ideal) .f32 0x00000000#32))))
    (addf x (broadcast s (Scalar.ofBits (F := Ideal) .f32 0x00000000#32)))
    (addf (maximumf x (broadcast s (Scalar.ofBits (F := Ideal) .f32 0x00000000#32)))
      (log1p (exp (subf (broadcast s (Scalar.ofBits (F := Ideal) .f32 0x00000000#32)) (absf (subf x (broadcast s (Scalar.ofBits (F := Ideal) .f32 0x00000000#32))))))))

theorem softplusK_apply (x : FVec Ideal s .f32) (i : s.Idx) : softplusK x i = softplus (x i) := softplus_kernel (x i)

/-- The host's softplus: the rank-0 zero broadcast to the shape, `abs`, `negate`, `exponential`, `log_plus_one`. -/
def softplusH (h0 : (⟨0, ![]⟩ : Shape).BroadcastsInDim s ![]) (x : FVec Ideal s .f32) : FVec Ideal s .f32 :=
  select (cmpf .une (subf x (broadcastInDim s ![] h0 (constant (F := Ideal) ⟨0, ![]⟩ .f32 0x00000000#32))) (subf x (broadcastInDim s ![] h0 (constant (F := Ideal) ⟨0, ![]⟩ .f32 0x00000000#32))))
    (addf x (broadcastInDim s ![] h0 (constant (F := Ideal) ⟨0, ![]⟩ .f32 0x00000000#32)))
    (addf (maximumf x (broadcastInDim s ![] h0 (constant (F := Ideal) ⟨0, ![]⟩ .f32 0x00000000#32)))
      (Host.log1p (Host.exp (Host.negf (Host.absf (subf x (broadcastInDim s ![] h0 (constant (F := Ideal) ⟨0, ![]⟩ .f32 0x00000000#32))))))))

theorem softplusH_apply (h0 : (⟨0, ![]⟩ : Shape).BroadcastsInDim s ![]) (x : FVec Ideal s .f32) (i : s.Idx) :
    softplusH h0 x i = softplus (x i) := rfl

/-! ## A dense layer -/

variable {A K M M' : ℕ}

/-- One entry of a dense layer: a row against a weight column plus the bias entry. -/
def dense (x : Fin K → EReal) (w : Fin K → EReal) (b : EReal) : EReal := (∑ k : Fin K, x k * w k) + b

/-- A kernel body's dense layer on a block whose rows are already rounded. -/
def denseK {φ : FTy} (d : DotDims ⟨2, ![A, K]⟩ ⟨2, ![K, M]⟩ ⟨2, ![A, M]⟩)
    (hw : (⟨2, ![K, M]⟩ : Shape).ShapeCasts ⟨2, ![K, M]⟩)
    (hc : (⟨2, ![1, M]⟩ : Shape).ShapeCasts ⟨2, ![1, M]⟩) (hb : (⟨2, ![1, M]⟩ : Shape).Broadcasts ⟨2, ![A, M]⟩)
    (x : FVec Ideal ⟨2, ![A, K]⟩ φ) (w : FVec Ideal ⟨2, ![K, M]⟩ .bf16) (b : FVec Ideal ⟨2, ![1, M]⟩ .f32) :
    FVec Ideal ⟨2, ![A, M]⟩ .f32 :=
  addf (matmul d none x (shapeCast ⟨2, ![K, M]⟩ w hw) (constant ⟨2, ![A, M]⟩ .f32 0x00000000#32))
    (broadcastTo ⟨2, ![A, M]⟩ (shapeCast ⟨2, ![1, M]⟩ b hc) hb)

theorem denseK_apply {φ : FTy} {d : DotDims ⟨2, ![A, K]⟩ ⟨2, ![K, M]⟩ ⟨2, ![A, M]⟩} (hd : d = DotDims.plain A K M)
    (hw : (⟨2, ![K, M]⟩ : Shape).ShapeCasts ⟨2, ![K, M]⟩)
    (hc : (⟨2, ![1, M]⟩ : Shape).ShapeCasts ⟨2, ![1, M]⟩) (hb : (⟨2, ![1, M]⟩ : Shape).Broadcasts ⟨2, ![A, M]⟩)
    (x : FVec Ideal ⟨2, ![A, K]⟩ φ) (w : FVec Ideal ⟨2, ![K, M]⟩ .bf16) (b : FVec Ideal ⟨2, ![1, M]⟩ .f32)
    (p : Fin A) (q : Fin M) :
    denseK d hw hc hb x w b (ix2 p q) = dense (fun k => x (ix2 p k)) (fun k => w (ix2 k q)) (b (ix2 (0 : Fin 1) q)) := by
  subst hd
  unfold denseK dense
  rw [shapeCast_self, shapeCast_self]
  refine (addf_apply _ _ _).trans (congrArg₂ (· + ·) ?_ ?_)
  · exact PlainDot.matmul_apply_ix2 none x w p q
  · exact broadcastTo_1b_ab_apply b hb p q

/-- The host's dense layer on the whole arrays. -/
def denseH (d : DotDims ⟨2, ![A, K]⟩ ⟨2, ![K, M]⟩ ⟨2, ![A, M]⟩)
    (h1 : (⟨1, ![M]⟩ : Shape).BroadcastsInDim ⟨2, ![1, M]⟩ ![1])
    (h2 : (⟨2, ![1, M]⟩ : Shape).BroadcastsInDim ⟨2, ![A, M]⟩ ![0, 1])
    (X : FVec Ideal ⟨2, ![A, K]⟩ .f32) (W : FVec Ideal ⟨2, ![K, M]⟩ .f32) (b : FVec Ideal ⟨1, ![M]⟩ .f32) :
    FVec Ideal ⟨2, ![A, M]⟩ .f32 :=
  addf (Host.dotGeneral d none X W) (broadcastInDim ⟨2, ![A, M]⟩ ![0, 1] h2 (broadcastInDim ⟨2, ![1, M]⟩ ![1] h1 b))

theorem denseH_apply {d : DotDims ⟨2, ![A, K]⟩ ⟨2, ![K, M]⟩ ⟨2, ![A, M]⟩} (hd : d = DotDims.plain A K M)
    (h1 : (⟨1, ![M]⟩ : Shape).BroadcastsInDim ⟨2, ![1, M]⟩ ![1])
    (h2 : (⟨2, ![1, M]⟩ : Shape).BroadcastsInDim ⟨2, ![A, M]⟩ ![0, 1])
    (X : FVec Ideal ⟨2, ![A, K]⟩ .f32) (W : FVec Ideal ⟨2, ![K, M]⟩ .f32) (b : FVec Ideal ⟨1, ![M]⟩ .f32)
    (p : Fin A) (q : Fin M) :
    denseH d h1 h2 X W b (ix2 p q) = dense (fun k => X (ix2 p k)) (fun k => W (ix2 k q)) (b (ix1 q)) := by
  subst hd
  exact Affine.host_apply none .single X W b h1 h2 p q

/-! ## Two arrays side by side -/

/-- An entry of `[left | right]`: by the column's part. -/
theorem sideBySide_apply (X₁ : FVec Ideal ⟨2, ![A, M]⟩ .f32) (X₂ : FVec Ideal ⟨2, ![A, M']⟩ .f32)
    (hcat : Shape.Concatenates [(⟨2, ![A, M]⟩ : Shape), ⟨2, ![A, M']⟩] ⟨2, ![A, M + M']⟩ 1) (p : Fin A) (q : Fin (M + M')) :
    concatenate ⟨2, ![A, M + M']⟩ 1 [⟨⟨2, ![A, M]⟩, X₁⟩, ⟨⟨2, ![A, M']⟩, X₂⟩] hcat (ix2 p q)
      = Fin.addCases (fun k => X₁ (ix2 p k)) (fun k => X₂ (ix2 p k)) q := by
  refine Fin.addCases (fun k => ?_) (fun k => ?_) q
  · rw [Fin.addCases_left]
    exact SplitLayer.concat_cols_left X₁ X₂ hcat p k
  · rw [Fin.addCases_right]
    exact SplitLayer.concat_cols_right X₁ X₂ hcat p k

end Idealize.ShloMosaic.GaussHead

end
-- ==== Proof.Spec.lean ====
/-
  What the cell computes for ONE row, as functions of that row of the data, of the flags, of the two states, and of the
  parameters — the one function both programs are shown to compute — and the three result arrays built from it row by row.
  A row of the data holds 64 inputs followed by 8 observations. Three steps of a long short-term memory cell (hidden width 256,
  gates in the column order input, forget, candidate, output; activation elu, recurrent activation the logistic function):
    step 1 from a zero input and the states (h0, c0);
    step 2 from the 64 inputs and step 1's states, then blended with step 1's states by the first flag k₂:  s·(1 − k₂) + k₂·s';
    step 3 from the 8 observations and the blended states, then blended with them by the second flag k₃.
  The results are the twice-blended hidden and cell states, and a Gaussian head on the mix (1 − k₂)·h₁ + k₂·h₂: a dense layer
  with elu, then a mean layer and a softplus standard-deviation layer laid side by side.
-/
import proofs.«162006_j48043504173109_1_alg».proof.Proof.LibLstmRows
import proofs.«162006_j48043504173109_1_alg».proof.Proof.LibGaussHead

noncomputable section

namespace Cert.Spec

open Idealize.ShloMosaic Idealize.ShloMosaic.ValueIdx Idealize.ShloMosaic.LstmRows Idealize.ShloMosaic.GaussHead

/-- A row of `n` extended reals. -/
abbrev Row (n : ℕ) := Fin n → EReal

/-- The parameters, entry by entry: per step the input weights, the recurrent weights and the bias; then the head's. -/
structure Params where
  wk1 : Fin 1 → Fin 1024 → EReal
  wr1 : Fin 256 → Fin 1024 → EReal
  b1 : Fin 1024 → EReal
  wk2 : Fin 64 → Fin 1024 → EReal
  wr2 : Fin 256 → Fin 1024 → EReal
  b2 : Fin 1024 → EReal
  wk3 : Fin 8 → Fin 1024 → EReal
  wr3 : Fin 256 → Fin 1024 → EReal
  b3 : Fin 1024 → EReal
  wd : Fin 256 → Fin 256 → EReal
  bd : Fin 256 → EReal
  wm : Fin 256 → Fin 8 → EReal
  bm : Fin 8 → EReal
  ws : Fin 256 → Fin 8 → EReal
  bs : Fin 8 → EReal

/-- The 1024 pre-activations of one step. -/
def pre {K : ℕ} (x : Row K) (h : Row 256) (wk : Fin K → Fin 1024 → EReal) (wr : Fin 256 → Fin 1024 → EReal)
    (b : Fin 1024 → EReal) : Row 1024 :=
  fun j => gate x h (fun k => wk k j) (fun k => wr k j) (b j)

/-- The new cell state: gates at columns q (input), 256 + q (forget), 512 + q (candidate). -/
def newC (z : Row 1024) (c : Row 256) : Row 256 := fun q =>
  cellC (z ⟨0 + q.val, by have := q.isLt; omega⟩) (z ⟨256 + q.val, by have := q.isLt; omega⟩)
    (z ⟨512 + q.val, by have := q.isLt; omega⟩) (c q)

/-- The new hidden state: the output gate at column 768 + q. -/
def newH (z : Row 1024) (c' : Row 256) : Row 256 := fun q => cellH (z ⟨768 + q.val, by have := q.isLt; omega⟩) (c' q)

/-- The 64 inputs of a data row. -/
def inputs (d : Row 72) : Row 64 := fun k => d ⟨0 + k.val, by have := k.isLt; omega⟩
/-- The 8 observations of a data row. -/
def obs (d : Row 72) : Row 8 := fun k => d ⟨64 + k.val, by have := k.isLt; omega⟩

def z1 (P : Params) (d : Row 72) (a : Row 2) (h0 c0 : Row 256) : Row 1024 := pre (fun _ : Fin 1 => zeroW) h0 P.wk1 P.wr1 P.b1
def c1 (P : Params) (d : Row 72) (a : Row 2) (h0 c0 : Row 256) : Row 256 := newC (z1 P d a h0 c0) c0
def h1 (P : Params) (d : Row 72) (a : Row 2) (h0 c0 : Row 256) : Row 256 := newH (z1 P d a h0 c0) (c1 P d a h0 c0)
def z2 (P : Params) (d : Row 72) (a : Row 2) (h0 c0 : Row 256) : Row 1024 := pre (inputs d) (h1 P d a h0 c0) P.wk2 P.wr2 P.b2
def c2 (P : Params) (d : Row 72) (a : Row 2) (h0 c0 : Row 256) : Row 256 := newC (z2 P d a h0 c0) (c1 P d a h0 c0)
def h2 (P : Params) (d : Row 72) (a : Row 2) (h0 c0 : Row 256) : Row 256 := newH (z2 P d a h0 c0) (c2 P d a h0 c0)
def h2s (P : Params) (d : Row 72) (a : Row 2) (h0 c0 : Row 256) : Row 256 := fun q => blend (h1 P d a h0 c0 q) (h2 P d a h0 c0 q) (a ⟨0, by omega⟩)
def c2s (P : Params) (d : Row 72) (a : Row 2) (h0 c0 : Row 256) : Row 256 := fun q => blend (c1 P d a h0 c0 q) (c2 P d a h0 c0 q) (a ⟨0, by omega⟩)
def z3 (P : Params) (d : Row 72) (a : Row 2) (h0 c0 : Row 256) : Row 1024 := pre (obs d) (h2s P d a h0 c0) P.wk3 P.wr3 P.b3
def c3 (P : Params) (d : Row 72) (a : Row 2) (h0 c0 : Row 256) : Row 256 := newC (z3 P d a h0 c0) (c2s P d a h0 c0)
def h3 (P : Params) (d : Row 72) (a : Row 2) (h0 c0 : Row 256) : Row 256 := newH (z3 P d a h0 c0) (c3 P d a h0 c0)
/-- The hidden state returned. -/
def h3s (P : Params) (d : Row 72) (a : Row 2) (h0 c0 : Row 256) : Row 256 := fun q => blend (h2s P d a h0 c0 q) (h3 P d a h0 c0 q) (a ⟨1, by omega⟩)
/-- The cell state returned. -/
def c3s (P : Params) (d : Row 72) (a : Row 2) (h0 c0 : Row 256) : Row 256 := fun q => blend (c2s P d a h0 c0 q) (c3 P d a h0 c0 q) (a ⟨1, by omega⟩)
/-- What the head reads. -/
def mix (P : Params) (d : Row 72) (a : Row 2) (h0 c0 : Row 256) : Row 256 := fun q => blendL (h1 P d a h0 c0 q) (h2 P d a h0 c0 q) (a ⟨0, by omega⟩)
def hid (P : Params) (d : Row 72) (a : Row 2) (h0 c0 : Row 256) : Row 256 := fun j => elu (dense (mix P d a h0 c0) (fun k => P.wd k j) (P.bd j))
def mean (P : Params) (d : Row 72) (a : Row 2) (h0 c0 : Row 256) : Row 8 := fun j => dense (hid P d a h0 c0) (fun k => P.wm k j) (P.bm j)
def std (P : Params) (d : Row 72) (a : Row 2) (h0 c0 : Row 256) : Row 8 := fun j => softplus (dense (hid P d a h0 c0) (fun k => P.ws k j) (P.bs j))
/-- The head's result: the mean beside the standard deviation. -/
def out (P : Params) (d : Row 72) (a : Row 2) (h0 c0 : Row 256) : Row (8 + 8) := Fin.addCases (mean P d a h0 c0) (std P d a h0 c0)

/-! ## The arrays, row by row -/

variable {A : ℕ}

/-- Row `r` of an `[A, n]` array. -/
def rowAt {n : ℕ} (X : FVec Ideal ⟨2, ![A, n]⟩ .f32) (r : Fin A) : Row n := fun k => X (ix2 r k)

/-- The parameters read off the host's arrays. -/
def hostParams (Wk1 : FVec Ideal ⟨2, ![1, 1024]⟩ .f32) (Wr1 : FVec Ideal ⟨2, ![256, 1024]⟩ .f32) (b1 : FVec Ideal ⟨1, ![1024]⟩ .f32)
    (Wk2 : FVec Ideal ⟨2, ![64, 1024]⟩ .f32) (Wr2 : FVec Ideal ⟨2, ![256, 1024]⟩ .f32) (b2 : FVec Ideal ⟨1, ![1024]⟩ .f32)
    (Wk3 : FVec Ideal ⟨2, ![8, 1024]⟩ .f32) (Wr3 : FVec Ideal ⟨2, ![256, 1024]⟩ .f32) (b3 : FVec Ideal ⟨1, ![1024]⟩ .f32)
    (Wd : FVec Ideal ⟨2, ![256, 256]⟩ .f32) (bd : FVec Ideal ⟨1, ![256]⟩ .f32)
    (Wm : FVec Ideal ⟨2, ![256, 8]⟩ .f32) (bm : FVec Ideal ⟨1, ![8]⟩ .f32)
    (Ws : FVec Ideal ⟨2, ![256, 8]⟩ .f32) (bs : FVec Ideal ⟨1, ![8]⟩ .f32) : Params where
  wk1 := fun k j => Wk1 (ix2 k j)
  wr1 := fun k j => Wr1 (ix2 k j)
  b1 := fun j => b1 (ix1 j)
  wk2 := fun k j => Wk2 (ix2 k j)
  wr2 := fun k j => Wr2 (ix2 k j)
  b2 := fun j => b2 (ix1 j)
  wk3 := fun k j => Wk3 (ix2 k j)
  wr3 := fun k j => Wr3 (ix2 k j)
  b3 := fun j => b3 (ix1 j)
  wd := fun k j => Wd (ix2 k j)
  bd := fun j => bd (ix1 j)
  wm := fun k j => Wm (ix2 k j)
  bm := fun j => bm (ix1 j)
  ws := fun k j => Ws (ix2 k j)
  bs := fun j => bs (ix1 j)

/-- An `[A, n]` array whose row `r` is `f` of row `r` of the data, the flags and the two states. -/
def rows {n : ℕ} (f : Row 72 → Row 2 → Row 256 → Row 256 → Row n) (D : FVec Ideal ⟨2, ![A, 72]⟩ .f32)
    (Fl : FVec Ideal ⟨2, ![A, 2]⟩ .f32) (H0 C0 : FVec Ideal ⟨2, ![A, 256]⟩ .f32) : FVec Ideal ⟨2, ![A, n]⟩ .f32 :=
  fun i => f (rowAt D ⟨(i 0).val, idx2_lt0 i⟩) (rowAt Fl ⟨(i 0).val, idx2_lt0 i⟩) (rowAt H0 ⟨(i 0).val, idx2_lt0 i⟩)
    (rowAt C0 ⟨(i 0).val, idx2_lt0 i⟩) ⟨(i 1).val, idx2_lt1 i⟩

theorem rows_ix2 {n : ℕ} (f : Row 72 → Row 2 → Row 256 → Row 256 → Row n) (D : FVec Ideal ⟨2, ![A, 72]⟩ .f32)
    (Fl : FVec Ideal ⟨2, ![A, 2]⟩ .f32) (H0 C0 : FVec Ideal ⟨2, ![A, 256]⟩ .f32) (r : Fin A) (q : Fin n) :
    rows f D Fl H0 C0 (ix2 r q) = f (rowAt D r) (rowAt Fl r) (rowAt H0 r) (rowAt C0 r) q := rfl

/-- The three results as whole arrays of `A` rows. -/
def GOut (P : Params) := rows (A := A) (out P)
def GH (P : Params) := rows (A := A) (h3s P)
def GC (P : Params) := rows (A := A) (c3s P)

end Cert.Spec

end
-- ==== Proof.KernelPay.lean ====
/-
  The kernel body on ONE block of 512 rows, read entry by entry. The body's values are named in the order the body computes
  them — the three cells' pre-activations, cell and hidden states, the two flag columns, the two blends, the head — each as the
  body's own term over the block's loads, and each is shown to be, at row p, the row specification (Spec.lean) of row p of the
  block's data, flags and states, with the parameters read off the block's weight loads. Every step is one reading lemma of
  LibLstmRows / LibGaussHead applied to the rows already read.
-/
import proofs.«162006_j48043504173109_1_alg».proof.Proof.Gen.KernelIdeal.Frame
import proofs.«162006_j48043504173109_1_alg».proof.Proof.Spec

set_option maxRecDepth 16384

noncomputable section

namespace Cert.KernelIdeal.Pay

open Idealize.ShloMosaic Idealize.ShloMosaic.ValueIdx Idealize.ShloMosaic.LstmRows Idealize.ShloMosaic.GaussHead
open Cert.KernelIdeal Cert.KernelIdeal.Gen Cert.Spec

/-- The parameters read off a block's weight loads (bf16 weights, bias rows `[1, n]`). -/
def KP (x4 : Vec Ideal S1x1024 .bf16) (x5 : Vec Ideal S256x1024 .bf16) (x6 : Vec Ideal S1x1024 .f32) (x7 : Vec Ideal S64x1024 .bf16) (x8 : Vec Ideal S256x1024 .bf16) (x9 : Vec Ideal S1x1024 .f32) (x10 : Vec Ideal S8x1024 .bf16) (x11 : Vec Ideal S256x1024 .bf16) (x12 : Vec Ideal S1x1024 .f32) (x13 : Vec Ideal S256x256 .bf16) (x14 : Vec Ideal S1x256 .f32) (x15 : Vec Ideal S256x8 .bf16) (x16 : Vec Ideal S1x8 .f32) (x17 : Vec Ideal S256x8 .bf16) (x18 : Vec Ideal S1x8 .f32) : Params where
  wk1 := fun k j => x4 (ix2 k j)
  wr1 := fun k j => x5 (ix2 k j)
  b1 := fun j => x6 (ix2 (0 : Fin 1) j)
  wk2 := fun k j => x7 (ix2 k j)
  wr2 := fun k j => x8 (ix2 k j)
  b2 := fun j => x9 (ix2 (0 : Fin 1) j)
  wk3 := fun k j => x10 (ix2 k j)
  wr3 := fun k j => x11 (ix2 k j)
  b3 := fun j => x12 (ix2 (0 : Fin 1) j)
  wd := fun k j => x13 (ix2 k j)
  bd := fun j => x14 (ix2 (0 : Fin 1) j)
  wm := fun k j => x15 (ix2 k j)
  bm := fun j => x16 (ix2 (0 : Fin 1) j)
  ws := fun k j => x17 (ix2 k j)
  bs := fun j => x18 (ix2 (0 : Fin 1) j)

section Block
variable (x0 : Vec Ideal S512x72 .f32) (x1 : Vec Ideal S512x2 .f32) (x2 x3 : Vec Ideal S512x256 .f32) (x4 : Vec Ideal S1x1024 .bf16) (x5 : Vec Ideal S256x1024 .bf16) (x6 : Vec Ideal S1x1024 .f32) (x7 : Vec Ideal S64x1024 .bf16) (x8 : Vec Ideal S256x1024 .bf16) (x9 : Vec Ideal S1x1024 .f32) (x10 : Vec Ideal S8x1024 .bf16) (x11 : Vec Ideal S256x1024 .bf16) (x12 : Vec Ideal S1x1024 .f32) (x13 : Vec Ideal S256x256 .bf16) (x14 : Vec Ideal S1x256 .f32) (x15 : Vec Ideal S256x8 .bf16) (x16 : Vec Ideal S1x8 .f32) (x17 : Vec Ideal S256x8 .bf16) (x18 : Vec Ideal S1x8 .f32)

/-! ## The body's values on the block -/

def bZ1 : FVec Ideal S512x1024 .f32 := k0_pay4 x2 x4 x5 x6
def bC1 : FVec Ideal S512x256 .f32 := k0_pay5 x2 x3 x4 x5 x6
def bO1 : FVec Ideal S512x256 .f32 := k0_pay6 x2 x4 x5 x6
def bG1 : IVec S512x256 1 := k0_pay7 x2 x3 x4 x5 x6
def bE1 : FVec Ideal S512x256 .f32 := k0_pay8 x2 x3 x4 x5 x6
def bH1 : FVec Ideal S512x256 .f32 := k0_pay9 (bC1 x2 x3 x4 x5 x6) (bO1 x2 x4 x5 x6) (bG1 x2 x3 x4 x5 x6) (bE1 x2 x3 x4 x5 x6)
def bX : FVec Ideal S512x64 .f32 := k0_pay2 x0
def bObs : FVec Ideal S512x8 .f32 := k0_pay3 x0
def bZ2 : FVec Ideal S512x1024 .f32 := k0_pay10 (bX x0) (bC1 x2 x3 x4 x5 x6) (bO1 x2 x4 x5 x6) (bG1 x2 x3 x4 x5 x6) (bE1 x2 x3 x4 x5 x6) x7 x8 x9
def bC2 : FVec Ideal S512x256 .f32 := k0_pay11 (bX x0) (bC1 x2 x3 x4 x5 x6) (bO1 x2 x4 x5 x6) (bG1 x2 x3 x4 x5 x6) (bE1 x2 x3 x4 x5 x6) x7 x8 x9
def bH2 : FVec Ideal S512x256 .f32 := k0_pay12 (bX x0) (bC1 x2 x3 x4 x5 x6) (bO1 x2 x4 x5 x6) (bG1 x2 x3 x4 x5 x6) (bE1 x2 x3 x4 x5 x6) x7 x8 x9
def bK2 : FVec Ideal S512x1 .f32 := k0_pay13 x1
def bA2 : FVec Ideal S512x256 .f32 := k0_pay14 x1 (bC1 x2 x3 x4 x5 x6) (bO1 x2 x4 x5 x6) (bG1 x2 x3 x4 x5 x6) (bE1 x2 x3 x4 x5 x6)
def bB2 : FVec Ideal S512x256 .f32 := k0_pay15 x1
def bH2s : FVec Ideal S512x256 .f32 := k0_pay16 (bH2 x0 x2 x3 x4 x5 x6 x7 x8 x9) (bA2 x1 x2 x3 x4 x5 x6) (bB2 x1)
def bC2s : FVec Ideal S512x256 .f32 := k0_pay17 (bC1 x2 x3 x4 x5 x6) (bC2 x0 x2 x3 x4 x5 x6 x7 x8 x9) (bK2 x1)
def bZ3 : FVec Ideal S512x1024 .f32 := k0_pay18 (bObs x0) (bH2 x0 x2 x3 x4 x5 x6 x7 x8 x9) (bA2 x1 x2 x3 x4 x5 x6) (bB2 x1) x10 x11 x12
def bC3 : FVec Ideal S512x256 .f32 := k0_pay19 (bObs x0) (bC1 x2 x3 x4 x5 x6) (bC2 x0 x2 x3 x4 x5 x6 x7 x8 x9) (bH2 x0 x2 x3 x4 x5 x6 x7 x8 x9) (bK2 x1) (bA2 x1 x2 x3 x4 x5 x6) (bB2 x1) x10 x11 x12
def bH3 : FVec Ideal S512x256 .f32 := k0_pay20 (bObs x0) (bC1 x2 x3 x4 x5 x6) (bC2 x0 x2 x3 x4 x5 x6 x7 x8 x9) (bH2 x0 x2 x3 x4 x5 x6 x7 x8 x9) (bK2 x1) (bA2 x1 x2 x3 x4 x5 x6) (bB2 x1) x10 x11 x12
def bK3 : FVec Ideal S512x1 .f32 := k0_pay21 x1
def bH3s : FVec Ideal S512x256 .f32 := k0_pay22 (bH2s x0 x1 x2 x3 x4 x5 x6 x7 x8 x9) (bH3 x0 x1 x2 x3 x4 x5 x6 x7 x8 x9 x10 x11 x12) (bK3 x1) (Scalar.ofBits .f32 0x3F800000#32)
def bC3s : FVec Ideal S512x256 .f32 := k0_pay23 (bC2s x0 x1 x2 x3 x4 x5 x6 x7 x8 x9) (bC3 x0 x1 x2 x3 x4 x5 x6 x7 x8 x9 x10 x11 x12) (bK3 x1)
def bHid : FVec Ideal S512x256 .f32 := k0_pay24 (bH1 x2 x3 x4 x5 x6) (bH2 x0 x2 x3 x4 x5 x6 x7 x8 x9) (bK2 x1) x13 x14
def bMean : FVec Ideal S512x8 .f32 := k0_pay25 (bH1 x2 x3 x4 x5 x6) (bH2 x0 x2 x3 x4 x5 x6 x7 x8 x9) (bK2 x1) x13 x14 x15 x16
def bHidR : FVec Ideal S512x256 .bf16 := k0_pay26 (bH1 x2 x3 x4 x5 x6) (bH2 x0 x2 x3 x4 x5 x6 x7 x8 x9) (bK2 x1) x13 x14
def bOut : FVec Ideal S512x16 .f32 := k0_pay1 (bMean x0 x1 x2 x3 x4 x5 x6 x7 x8 x9 x13 x14 x15 x16) (bHidR x0 x1 x2 x3 x4 x5 x6 x7 x8 x9 x13 x14) x17 x18

/-! ## Each value at row p is the row specification -/

variable (p : Fin 512)

theorem rowZ1 : (fun j => bZ1 x2 x4 x5 x6 (ix2 p j)) = z1 (KP x4 x5 x6 x7 x8 x9 x10 x11 x12 x13 x14 x15 x16 x17 x18) (rowAt x0 p) (rowAt x1 p) (rowAt x2 p) (rowAt x3 p) :=
  funext fun j => zK_apply rfl rfl _ _ _ _ _ (broadcast S512x1 (Scalar.ofBits (F := Ideal) .f32 0x00000000#32)) x2 x4 x5 x6 p j

theorem rowC1 : (fun q => bC1 x2 x3 x4 x5 x6 (ix2 p q)) = c1 (KP x4 x5 x6 x7 x8 x9 x10 x11 x12 x13 x14 x15 x16 x17 x18) (rowAt x0 p) (rowAt x1 p) (rowAt x2 p) (rowAt x3 p) :=
  funext fun q => (cK_apply 0 256 512 _ _ _ (bZ1 x2 x4 x5 x6) x3 p q _ _ _).trans
    (congrArg (fun z : Row 1024 => newC z (rowAt x3 p) q) (rowZ1 x0 x1 x2 x3 x4 x5 x6 x7 x8 x9 x10 x11 x12 x13 x14 x15 x16 x17 x18 p))

theorem rowH1 : (fun q => bH1 x2 x3 x4 x5 x6 (ix2 p q)) = h1 (KP x4 x5 x6 x7 x8 x9 x10 x11 x12 x13 x14 x15 x16 x17 x18) (rowAt x0 p) (rowAt x1 p) (rowAt x2 p) (rowAt x3 p) :=
  funext fun q => (hK_apply 768 _ (bZ1 x2 x4 x5 x6) (bC1 x2 x3 x4 x5 x6) p q _).trans
    (congrArg₂ (fun (z : Row 1024) (c : Row 256) => newH z c q) (rowZ1 x0 x1 x2 x3 x4 x5 x6 x7 x8 x9 x10 x11 x12 x13 x14 x15 x16 x17 x18 p) (rowC1 x0 x1 x2 x3 x4 x5 x6 x7 x8 x9 x10 x11 x12 x13 x14 x15 x16 x17 x18 p))

theorem rowX : (fun k => bX x0 (ix2 p k)) = inputs (rowAt x0 p) :=
  funext fun k => colRange_apply 0 x0 slices_S512x72_o0_0_S512x64 p k _

theorem rowObs : (fun k => bObs x0 (ix2 p k)) = obs (rowAt x0 p) :=
  funext fun k => colRange_apply 64 x0 slices_S512x72_o0_64_S512x8 p k _

theorem rowZ2 : (fun j => bZ2 x0 x2 x3 x4 x5 x6 x7 x8 x9 (ix2 p j)) = z2 (KP x4 x5 x6 x7 x8 x9 x10 x11 x12 x13 x14 x15 x16 x17 x18) (rowAt x0 p) (rowAt x1 p) (rowAt x2 p) (rowAt x3 p) :=
  funext fun j => (zK_apply rfl rfl _ _ _ _ _ (bX x0) (bH1 x2 x3 x4 x5 x6) x7 x8 x9 p j).trans
    (congrArg₂ (fun (x : Row 64) (h : Row 256) => pre x h (KP x4 x5 x6 x7 x8 x9 x10 x11 x12 x13 x14 x15 x16 x17 x18).wk2 (KP x4 x5 x6 x7 x8 x9 x10 x11 x12 x13 x14 x15 x16 x17 x18).wr2 (KP x4 x5 x6 x7 x8 x9 x10 x11 x12 x13 x14 x15 x16 x17 x18).b2 j)
      (rowX x0 p) (rowH1 x0 x1 x2 x3 x4 x5 x6 x7 x8 x9 x10 x11 x12 x13 x14 x15 x16 x17 x18 p))

theorem rowC2 : (fun q => bC2 x0 x2 x3 x4 x5 x6 x7 x8 x9 (ix2 p q)) = c2 (KP x4 x5 x6 x7 x8 x9 x10 x11 x12 x13 x14 x15 x16 x17 x18) (rowAt x0 p) (rowAt x1 p) (rowAt x2 p) (rowAt x3 p) :=
  funext fun q => (cK_apply 0 256 512 _ _ _ (bZ2 x0 x2 x3 x4 x5 x6 x7 x8 x9) (bC1 x2 x3 x4 x5 x6) p q _ _ _).trans
    (congrArg₂ (fun (z : Row 1024) (c : Row 256) => newC z c q) (rowZ2 x0 x1 x2 x3 x4 x5 x6 x7 x8 x9 x10 x11 x12 x13 x14 x15 x16 x17 x18 p) (rowC1 x0 x1 x2 x3 x4 x5 x6 x7 x8 x9 x10 x11 x12 x13 x14 x15 x16 x17 x18 p))

theorem rowH2 : (fun q => bH2 x0 x2 x3 x4 x5 x6 x7 x8 x9 (ix2 p q)) = h2 (KP x4 x5 x6 x7 x8 x9 x10 x11 x12 x13 x14 x15 x16 x17 x18) (rowAt x0 p) (rowAt x1 p) (rowAt x2 p) (rowAt x3 p) :=
  funext fun q => (hK_apply 768 _ (bZ2 x0 x2 x3 x4 x5 x6 x7 x8 x9) (bC2 x0 x2 x3 x4 x5 x6 x7 x8 x9) p q _).trans
    (congrArg₂ (fun (z : Row 1024) (c : Row 256) => newH z c q) (rowZ2 x0 x1 x2 x3 x4 x5 x6 x7 x8 x9 x10 x11 x12 x13 x14 x15 x16 x17 x18 p) (rowC2 x0 x1 x2 x3 x4 x5 x6 x7 x8 x9 x10 x11 x12 x13 x14 x15 x16 x17 x18 p))

theorem rowK2 : bK2 x1 (ix2 p (0 : Fin 1)) = rowAt x1 p ⟨0, by omega⟩ :=
  flagColumn_apply 0 x1 slices_S512x2_o0_0_S512x1 p 0 (by omega)

theorem rowK3 : bK3 x1 (ix2 p (0 : Fin 1)) = rowAt x1 p ⟨1, by omega⟩ :=
  flagColumn_apply 1 x1 slices_S512x2_o0_1_S512x1 p 0 (by omega)

theorem rowH2s : (fun q => bH2s x0 x1 x2 x3 x4 x5 x6 x7 x8 x9 (ix2 p q)) = h2s (KP x4 x5 x6 x7 x8 x9 x10 x11 x12 x13 x14 x15 x16 x17 x18) (rowAt x0 p) (rowAt x1 p) (rowAt x2 p) (rowAt x3 p) := by
  funext q
  have e1 : bH1 x2 x3 x4 x5 x6 (ix2 p q) = h1 (KP x4 x5 x6 x7 x8 x9 x10 x11 x12 x13 x14 x15 x16 x17 x18) (rowAt x0 p) (rowAt x1 p) (rowAt x2 p) (rowAt x3 p) q := congrFun (rowH1 x0 x1 x2 x3 x4 x5 x6 x7 x8 x9 x10 x11 x12 x13 x14 x15 x16 x17 x18 p) q
  have e2 : bH2 x0 x2 x3 x4 x5 x6 x7 x8 x9 (ix2 p q) = h2 (KP x4 x5 x6 x7 x8 x9 x10 x11 x12 x13 x14 x15 x16 x17 x18) (rowAt x0 p) (rowAt x1 p) (rowAt x2 p) (rowAt x3 p) q := congrFun (rowH2 x0 x1 x2 x3 x4 x5 x6 x7 x8 x9 x10 x11 x12 x13 x14 x15 x16 x17 x18 p) q
  refine (blendK_apply _ (bH1 x2 x3 x4 x5 x6) (bH2 x0 x2 x3 x4 x5 x6 x7 x8 x9) (bK2 x1) p q).trans ?_
  rw [e1, e2, rowK2 x1 p]
  rfl

theorem rowC2s : (fun q => bC2s x0 x1 x2 x3 x4 x5 x6 x7 x8 x9 (ix2 p q)) = c2s (KP x4 x5 x6 x7 x8 x9 x10 x11 x12 x13 x14 x15 x16 x17 x18) (rowAt x0 p) (rowAt x1 p) (rowAt x2 p) (rowAt x3 p) := by
  funext q
  have e1 : bC1 x2 x3 x4 x5 x6 (ix2 p q) = c1 (KP x4 x5 x6 x7 x8 x9 x10 x11 x12 x13 x14 x15 x16 x17 x18) (rowAt x0 p) (rowAt x1 p) (rowAt x2 p) (rowAt x3 p) q := congrFun (rowC1 x0 x1 x2 x3 x4 x5 x6 x7 x8 x9 x10 x11 x12 x13 x14 x15 x16 x17 x18 p) q
  have e2 : bC2 x0 x2 x3 x4 x5 x6 x7 x8 x9 (ix2 p q) = c2 (KP x4 x5 x6 x7 x8 x9 x10 x11 x12 x13 x14 x15 x16 x17 x18) (rowAt x0 p) (rowAt x1 p) (rowAt x2 p) (rowAt x3 p) q := congrFun (rowC2 x0 x1 x2 x3 x4 x5 x6 x7 x8 x9 x10 x11 x12 x13 x14 x15 x16 x17 x18 p) q
  refine (blendK_apply _ (bC1 x2 x3 x4 x5 x6) (bC2 x0 x2 x3 x4 x5 x6 x7 x8 x9) (bK2 x1) p q).trans ?_
  rw [e1, e2, rowK2 x1 p]
  rfl

theorem rowZ3 : (fun j => bZ3 x0 x1 x2 x3 x4 x5 x6 x7 x8 x9 x10 x11 x12 (ix2 p j)) = z3 (KP x4 x5 x6 x7 x8 x9 x10 x11 x12 x13 x14 x15 x16 x17 x18) (rowAt x0 p) (rowAt x1 p) (rowAt x2 p) (rowAt x3 p) :=
  funext fun j => (zK_apply rfl rfl _ _ _ _ _ (bObs x0) (bH2s x0 x1 x2 x3 x4 x5 x6 x7 x8 x9) x10 x11 x12 p j).trans
    (congrArg₂ (fun (x : Row 8) (h : Row 256) => pre x h (KP x4 x5 x6 x7 x8 x9 x10 x11 x12 x13 x14 x15 x16 x17 x18).wk3 (KP x4 x5 x6 x7 x8 x9 x10 x11 x12 x13 x14 x15 x16 x17 x18).wr3 (KP x4 x5 x6 x7 x8 x9 x10 x11 x12 x13 x14 x15 x16 x17 x18).b3 j)
      (rowObs x0 p) (rowH2s x0 x1 x2 x3 x4 x5 x6 x7 x8 x9 x10 x11 x12 x13 x14 x15 x16 x17 x18 p))

theorem rowC3 : (fun q => bC3 x0 x1 x2 x3 x4 x5 x6 x7 x8 x9 x10 x11 x12 (ix2 p q)) = c3 (KP x4 x5 x6 x7 x8 x9 x10 x11 x12 x13 x14 x15 x16 x17 x18) (rowAt x0 p) (rowAt x1 p) (rowAt x2 p) (rowAt x3 p) :=
  funext fun q => (cK_apply 0 256 512 _ _ _ (bZ3 x0 x1 x2 x3 x4 x5 x6 x7 x8 x9 x10 x11 x12) (bC2s x0 x1 x2 x3 x4 x5 x6 x7 x8 x9) p q _ _ _).trans
    (congrArg₂ (fun (z : Row 1024) (c : Row 256) => newC z c q) (rowZ3 x0 x1 x2 x3 x4 x5 x6 x7 x8 x9 x10 x11 x12 x13 x14 x15 x16 x17 x18 p) (rowC2s x0 x1 x2 x3 x4 x5 x6 x7 x8 x9 x10 x11 x12 x13 x14 x15 x16 x17 x18 p))

theorem rowH3 : (fun q => bH3 x0 x1 x2 x3 x4 x5 x6 x7 x8 x9 x10 x11 x12 (ix2 p q)) = h3 (KP x4 x5 x6 x7 x8 x9 x10 x11 x12 x13 x14 x15 x16 x17 x18) (rowAt x0 p) (rowAt x1 p) (rowAt x2 p) (rowAt x3 p) :=
  funext fun q => (hK_apply 768 _ (bZ3 x0 x1 x2 x3 x4 x5 x6 x7 x8 x9 x10 x11 x12) (bC3 x0 x1 x2 x3 x4 x5 x6 x7 x8 x9 x10 x11 x12) p q _).trans
    (congrArg₂ (fun (z : Row 1024) (c : Row 256) => newH z c q) (rowZ3 x0 x1 x2 x3 x4 x5 x6 x7 x8 x9 x10 x11 x12 x13 x14 x15 x16 x17 x18 p) (rowC3 x0 x1 x2 x3 x4 x5 x6 x7 x8 x9 x10 x11 x12 x13 x14 x15 x16 x17 x18 p))

/-- The hidden state the block writes back, at row p. -/
theorem rowH3s : (fun q => bH3s x0 x1 x2 x3 x4 x5 x6 x7 x8 x9 x10 x11 x12 (ix2 p q)) = h3s (KP x4 x5 x6 x7 x8 x9 x10 x11 x12 x13 x14 x15 x16 x17 x18) (rowAt x0 p) (rowAt x1 p) (rowAt x2 p) (rowAt x3 p) := by
  funext q
  have e1 : bH2s x0 x1 x2 x3 x4 x5 x6 x7 x8 x9 (ix2 p q) = h2s (KP x4 x5 x6 x7 x8 x9 x10 x11 x12 x13 x14 x15 x16 x17 x18) (rowAt x0 p) (rowAt x1 p) (rowAt x2 p) (rowAt x3 p) q := congrFun (rowH2s x0 x1 x2 x3 x4 x5 x6 x7 x8 x9 x10 x11 x12 x13 x14 x15 x16 x17 x18 p) q
  have e2 : bH3 x0 x1 x2 x3 x4 x5 x6 x7 x8 x9 x10 x11 x12 (ix2 p q) = h3 (KP x4 x5 x6 x7 x8 x9 x10 x11 x12 x13 x14 x15 x16 x17 x18) (rowAt x0 p) (rowAt x1 p) (rowAt x2 p) (rowAt x3 p) q := congrFun (rowH3 x0 x1 x2 x3 x4 x5 x6 x7 x8 x9 x10 x11 x12 x13 x14 x15 x16 x17 x18 p) q
  refine (blendK_apply _ (bH2s x0 x1 x2 x3 x4 x5 x6 x7 x8 x9) (bH3 x0 x1 x2 x3 x4 x5 x6 x7 x8 x9 x10 x11 x12) (bK3 x1) p q).trans ?_
  rw [e1, e2, rowK3 x1 p]
  rfl

/-- The cell state the block writes back, at row p. -/
theorem rowC3s : (fun q => bC3s x0 x1 x2 x3 x4 x5 x6 x7 x8 x9 x10 x11 x12 (ix2 p q)) = c3s (KP x4 x5 x6 x7 x8 x9 x10 x11 x12 x13 x14 x15 x16 x17 x18) (rowAt x0 p) (rowAt x1 p) (rowAt x2 p) (rowAt x3 p) := by
  funext q
  have e1 : bC2s x0 x1 x2 x3 x4 x5 x6 x7 x8 x9 (ix2 p q) = c2s (KP x4 x5 x6 x7 x8 x9 x10 x11 x12 x13 x14 x15 x16 x17 x18) (rowAt x0 p) (rowAt x1 p) (rowAt x2 p) (rowAt x3 p) q := congrFun (rowC2s x0 x1 x2 x3 x4 x5 x6 x7 x8 x9 x10 x11 x12 x13 x14 x15 x16 x17 x18 p) q
  have e2 : bC3 x0 x1 x2 x3 x4 x5 x6 x7 x8 x9 x10 x11 x12 (ix2 p q) = c3 (KP x4 x5 x6 x7 x8 x9 x10 x11 x12 x13 x14 x15 x16 x17 x18) (rowAt x0 p) (rowAt x1 p) (rowAt x2 p) (rowAt x3 p) q := congrFun (rowC3 x0 x1 x2 x3 x4 x5 x6 x7 x8 x9 x10 x11 x12 x13 x14 x15 x16 x17 x18 p) q
  refine (blendK_apply _ (bC2s x0 x1 x2 x3 x4 x5 x6 x7 x8 x9) (bC3 x0 x1 x2 x3 x4 x5 x6 x7 x8 x9 x10 x11 x12) (bK3 x1) p q).trans ?_
  rw [e1, e2, rowK3 x1 p]
  rfl

/-- What the head reads (rounded to bf16, the identity), at row p. -/
theorem rowMix : (fun q => (truncf .bf16 (blendLK broadcasts_S512x1_S512x256 (bH1 x2 x3 x4 x5 x6) (bH2 x0 x2 x3 x4 x5 x6 x7 x8 x9) (bK2 x1)) bitsLt_bf16_f32 : FVec Ideal S512x256 .bf16) (ix2 p q)) = mix (KP x4 x5 x6 x7 x8 x9 x10 x11 x12 x13 x14 x15 x16 x17 x18) (rowAt x0 p) (rowAt x1 p) (rowAt x2 p) (rowAt x3 p) := by
  funext q
  have e1 : bH1 x2 x3 x4 x5 x6 (ix2 p q) = h1 (KP x4 x5 x6 x7 x8 x9 x10 x11 x12 x13 x14 x15 x16 x17 x18) (rowAt x0 p) (rowAt x1 p) (rowAt x2 p) (rowAt x3 p) q := congrFun (rowH1 x0 x1 x2 x3 x4 x5 x6 x7 x8 x9 x10 x11 x12 x13 x14 x15 x16 x17 x18 p) q
  have e2 : bH2 x0 x2 x3 x4 x5 x6 x7 x8 x9 (ix2 p q) = h2 (KP x4 x5 x6 x7 x8 x9 x10 x11 x12 x13 x14 x15 x16 x17 x18) (rowAt x0 p) (rowAt x1 p) (rowAt x2 p) (rowAt x3 p) q := congrFun (rowH2 x0 x1 x2 x3 x4 x5 x6 x7 x8 x9 x10 x11 x12 x13 x14 x15 x16 x17 x18 p) q
  refine (blendLK_apply _ (bH1 x2 x3 x4 x5 x6) (bH2 x0 x2 x3 x4 x5 x6 x7 x8 x9) (bK2 x1) p q).trans ?_
  rw [e1, e2, rowK2 x1 p]
  rfl

theorem rowHid : (fun j => bHid x0 x1 x2 x3 x4 x5 x6 x7 x8 x9 x13 x14 (ix2 p j)) = hid (KP x4 x5 x6 x7 x8 x9 x10 x11 x12 x13 x14 x15 x16 x17 x18) (rowAt x0 p) (rowAt x1 p) (rowAt x2 p) (rowAt x3 p) :=
  funext fun j => (congrArg elu (denseK_apply rfl _ _ _ (truncf .bf16 (blendLK broadcasts_S512x1_S512x256 (bH1 x2 x3 x4 x5 x6) (bH2 x0 x2 x3 x4 x5 x6 x7 x8 x9) (bK2 x1)) bitsLt_bf16_f32) x13 x14 p j)).trans
    (congrArg (fun m : Row 256 => elu (dense m (fun k => x13 (ix2 k j)) (x14 (ix2 (0 : Fin 1) j)))) (rowMix x0 x1 x2 x3 x4 x5 x6 x7 x8 x9 x10 x11 x12 x13 x14 x15 x16 x17 x18 p))

theorem rowMean : (fun j => bMean x0 x1 x2 x3 x4 x5 x6 x7 x8 x9 x13 x14 x15 x16 (ix2 p j)) = mean (KP x4 x5 x6 x7 x8 x9 x10 x11 x12 x13 x14 x15 x16 x17 x18) (rowAt x0 p) (rowAt x1 p) (rowAt x2 p) (rowAt x3 p) :=
  funext fun j => (denseK_apply rfl _ _ _ (truncf .bf16 (bHid x0 x1 x2 x3 x4 x5 x6 x7 x8 x9 x13 x14) bitsLt_bf16_f32) x15 x16 p j).trans
    (congrArg (fun m : Row 256 => dense m (fun k => x15 (ix2 k j)) (x16 (ix2 (0 : Fin 1) j))) (rowHid x0 x1 x2 x3 x4 x5 x6 x7 x8 x9 x10 x11 x12 x13 x14 x15 x16 x17 x18 p))

theorem rowStd : (fun j => softplusK (denseK dot_S512x256_S256x8_S512x8_1_0_0_1_n_n shapeCasts_S256x8_S256x8 shapeCasts_S1x8_S1x8 broadcasts_S1x8_S512x8 (bHidR x0 x1 x2 x3 x4 x5 x6 x7 x8 x9 x13 x14) x17 x18) (ix2 p j)) = std (KP x4 x5 x6 x7 x8 x9 x10 x11 x12 x13 x14 x15 x16 x17 x18) (rowAt x0 p) (rowAt x1 p) (rowAt x2 p) (rowAt x3 p) :=
  funext fun j => (softplusK_apply _ (ix2 p j)).trans ((congrArg softplus (denseK_apply rfl _ _ _ (bHidR x0 x1 x2 x3 x4 x5 x6 x7 x8 x9 x13 x14) x17 x18 p j)).trans
    (congrArg (fun m : Row 256 => softplus (dense m (fun k => x17 (ix2 k j)) (x18 (ix2 (0 : Fin 1) j)))) (rowHid x0 x1 x2 x3 x4 x5 x6 x7 x8 x9 x10 x11 x12 x13 x14 x15 x16 x17 x18 p)))

/-- The head's result the block writes back, at row p. -/
theorem rowOut (q : Fin 16) : bOut x0 x1 x2 x3 x4 x5 x6 x7 x8 x9 x13 x14 x15 x16 x17 x18 (ix2 p q) = out (KP x4 x5 x6 x7 x8 x9 x10 x11 x12 x13 x14 x15 x16 x17 x18) (rowAt x0 p) (rowAt x1 p) (rowAt x2 p) (rowAt x3 p) q := by
  refine (sideBySide_apply (M := 8) (M' := 8) (bMean x0 x1 x2 x3 x4 x5 x6 x7 x8 x9 x13 x14 x15 x16)
    (softplusK (denseK dot_S512x256_S256x8_S512x8_1_0_0_1_n_n shapeCasts_S256x8_S256x8 shapeCasts_S1x8_S1x8 broadcasts_S1x8_S512x8 (bHidR x0 x1 x2 x3 x4 x5 x6 x7 x8 x9 x13 x14) x17 x18))
    concatenates_S512x8_S512x8_S512x16_d1 p q).trans ?_
  rw [rowMean x0 x1 x2 x3 x4 x5 x6 x7 x8 x9 x10 x11 x12 x13 x14 x15 x16 x17 x18 p, rowStd x0 x1 x2 x3 x4 x5 x6 x7 x8 x9 x10 x11 x12 x13 x14 x15 x16 x17 x18 p]
  rfl

end Block

end Cert.KernelIdeal.Pay

end
-- ==== Proof.KernelBlocks.lean ====
/-
  From blocks to arrays. The grid has 64 points; point t stages rows 512·t … 512·t + 511 of the data, the flags and the two
  states, and the whole of every weight array (as the host operations before the launch left them: the weights rounded to bf16,
  the biases recast to one row — both the identity entry by entry); it writes back rows 512·t … of the three results. So what
  point t writes back is block t of the arrays built row by row from the row specification (Spec.lean), the 64 blocks tile the
  arrays, and after the run each result array IS that array.
-/
import proofs.«162006_j48043504173109_1_alg».proof.Proof.Gen.KernelIdeal.Frame
import proofs.«162006_j48043504173109_1_alg».proof.Proof.KernelPay
import Idealize.ShloMosaic.Lib.Pipeline.Value
import Idealize.ShloMosaic.Lib.ValueLayout

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.StableHlo
open Idealize.ShloMosaic.ValueIdx Cert.Spec Cert.KernelIdeal.Pay
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The parameters read off the argument arrays of core `c`. -/
def HP (c : Dev nD) : Params :=
  hostParams (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))

/-- The printed index maps over the 64 grid points: the row windows and the three result windows move one block of rows per
    point; -/
theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_19.index t (0 : Fin 2) = t.val ∧ win0_19.index t (1 : Fin 2) = 0)
    ∧ (win0_20.index t (0 : Fin 2) = t.val ∧ win0_20.index t (1 : Fin 2) = 0)
    ∧ (win0_21.index t (0 : Fin 2) = t.val ∧ win0_21.index t (1 : Fin 2) = 0) :=
  (by decide +kernel : ∀ t : Fin grid0.N, _)

/-- the weight windows stay on their one block. -/
theorem idx_weights : ∀ t : Fin cfg0.N,
    (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0)
    ∧ (win0_15.index t (0 : Fin 2) = 0 ∧ win0_15.index t (1 : Fin 2) = 0)
    ∧ (win0_16.index t (0 : Fin 2) = 0 ∧ win0_16.index t (1 : Fin 2) = 0)
    ∧ (win0_17.index t (0 : Fin 2) = 0 ∧ win0_17.index t (1 : Fin 2) = 0)
    ∧ (win0_18.index t (0 : Fin 2) = 0 ∧ win0_18.index t (1 : Fin 2) = 0) :=
  (by decide +kernel : ∀ t : Fin grid0.N, _)

/-! ## The blocks a point stages -/

theorem rowBlk0 (c : Dev nD) (t : Fin cfg0.N) (p : Fin 512) (hr : t.val * 512 + p.val < 32768) :
    rowAt (A := 512) (n := 72) (iblk m c 0 t) p = rowAt (A := 32768) (m ((c : Thread nD τ).loc main_arg0)) ⟨t.val * 512 + p.val, hr⟩ := by
  funext k
  show V m c main_arg0 (((cfg0.win 0).blk t).view.emb (ix2 p k)) = (m ((c : Thread nD τ).loc main_arg0)) (ix2 (⟨t.val * 512 + p.val, hr⟩ : Fin 32768) k)
  rw [V_main_arg0]
  have h : ((cfg0.win 0).blk t).view.emb (ix2 p k) = ix2 (⟨t.val * 512 + p.val, hr⟩ : Fin 32768) k := by
    obtain ⟨e0, e1⟩ := (idx_rows t).1
    funext a; apply Fin.ext
    match a with
    | ⟨0, _⟩ => show win0_0.index t (0 : Fin 2) * 512 + 1 * p.val = t.val * 512 + p.val; rw [e0]; omega
    | ⟨1, _⟩ => show win0_0.index t (1 : Fin 2) * 72 + 1 * k.val = k.val; rw [e1]; omega
  rw [h]

theorem rowBlk1 (c : Dev nD) (t : Fin cfg0.N) (p : Fin 512) (hr : t.val * 512 + p.val < 32768) :
    rowAt (A := 512) (n := 2) (iblk m c 1 t) p = rowAt (A := 32768) (m ((c : Thread nD τ).loc main_arg1)) ⟨t.val * 512 + p.val, hr⟩ := by
  funext k
  show V m c main_arg1 (((cfg0.win 1).blk t).view.emb (ix2 p k)) = (m ((c : Thread nD τ).loc main_arg1)) (ix2 (⟨t.val * 512 + p.val, hr⟩ : Fin 32768) k)
  rw [V_main_arg1]
  have h : ((cfg0.win 1).blk t).view.emb (ix2 p k) = ix2 (⟨t.val * 512 + p.val, hr⟩ : Fin 32768) k := by
    obtain ⟨e0, e1⟩ := (idx_rows t).2.1
    funext a; apply Fin.ext
    match a with
    | ⟨0, _⟩ => show win0_1.index t (0 : Fin 2) * 512 + 1 * p.val = t.val * 512 + p.val; rw [e0]; omega
    | ⟨1, _⟩ => show win0_1.index t (1 : Fin 2) * 2 + 1 * k.val = k.val; rw [e1]; omega
  rw [h]

theorem rowBlk2 (c : Dev nD) (t : Fin cfg0.N) (p : Fin 512) (hr : t.val * 512 + p.val < 32768) :
    rowAt (A := 512) (n := 256) (iblk m c 2 t) p = rowAt (A := 32768) (m ((c : Thread nD τ).loc main_arg2)) ⟨t.val * 512 + p.val, hr⟩ := by
  funext k
  show V m c main_arg2 (((cfg0.win 2).blk t).view.emb (ix2 p k)) = (m ((c : Thread nD τ).loc main_arg2)) (ix2 (⟨t.val * 512 + p.val, hr⟩ : Fin 32768) k)
  rw [V_main_arg2]
  have h : ((cfg0.win 2).blk t).view.emb (ix2 p k) = ix2 (⟨t.val * 512 + p.val, hr⟩ : Fin 32768) k := by
    obtain ⟨e0, e1⟩ := (idx_rows t).2.2.1
    funext a; apply Fin.ext
    match a with
    | ⟨0, _⟩ => show win0_2.index t (0 : Fin 2) * 512 + 1 * p.val = t.val * 512 + p.val; rw [e0]; omega
    | ⟨1, _⟩ => show win0_2.index t (1 : Fin 2) * 256 + 1 * k.val = k.val; rw [e1]; omega
  rw [h]

theorem rowBlk3 (c : Dev nD) (t : Fin cfg0.N) (p : Fin 512) (hr : t.val * 512 + p.val < 32768) :
    rowAt (A := 512) (n := 256) (iblk m c 3 t) p = rowAt (A := 32768) (m ((c : Thread nD τ).loc main_arg3)) ⟨t.val * 512 + p.val, hr⟩ := by
  funext k
  show V m c main_arg3 (((cfg0.win 3).blk t).view.emb (ix2 p k)) = (m ((c : Thread nD τ).loc main_arg3)) (ix2 (⟨t.val * 512 + p.val, hr⟩ : Fin 32768) k)
  rw [V_main_arg3]
  have h : ((cfg0.win 3).blk t).view.emb (ix2 p k) = ix2 (⟨t.val * 512 + p.val, hr⟩ : Fin 32768) k := by
    obtain ⟨e0, e1⟩ := (idx_rows t).2.2.2.1
    funext a; apply Fin.ext
    match a with
    | ⟨0, _⟩ => show win0_3.index t (0 : Fin 2) * 512 + 1 * p.val = t.val * 512 + p.val; rw [e0]; omega
    | ⟨1, _⟩ => show win0_3.index t (1 : Fin 2) * 256 + 1 * k.val = k.val; rw [e1]; omega
  rw [h]

theorem blk4 (c : Dev nD) (t : Fin cfg0.N) : iblk m c 4 t = (truncf (F := Ideal) .bf16 (m ((c : Thread nD τ).loc main_arg4)) bitsLt_bf16_f32 : FVec Ideal S1x1024 .bf16) := by
  have hv : (V m c main_v0 : S1x1024.Idx → EReal) = (truncf (F := Ideal) .bf16 (m ((c : Thread nD τ).loc main_arg4)) bitsLt_bf16_f32 : FVec Ideal S1x1024 .bf16) := by
    dsimp only [V, hostOps0]; after_results
  funext y
  show V m c main_v0 (((cfg0.win 4).blk t).view.emb y) = _
  rw [hv]
  have h : ((cfg0.win 4).blk t).view.emb y = y := by
    obtain ⟨e0, e1⟩ := (idx_weights t).1
    funext a; apply Fin.ext
    match a with
    | ⟨0, _⟩ => show win0_4.index t (0 : Fin 2) * 1 + 1 * (y 0).val = (y 0).val; rw [e0]; omega
    | ⟨1, _⟩ => show win0_4.index t (1 : Fin 2) * 1024 + 1 * (y 1).val = (y 1).val; rw [e1]; omega
  rw [h]

theorem blk5 (c : Dev nD) (t : Fin cfg0.N) : iblk m c 5 t = (truncf (F := Ideal) .bf16 (m ((c : Thread nD τ).loc main_arg5)) bitsLt_bf16_f32 : FVec Ideal S256x1024 .bf16) := by
  have hv : (V m c main_v1 : S256x1024.Idx → EReal) = (truncf (F := Ideal) .bf16 (m ((c : Thread nD τ).loc main_arg5)) bitsLt_bf16_f32 : FVec Ideal S256x1024 .bf16) := by
    dsimp only [V, hostOps0]; after_results
  funext y
  show V m c main_v1 (((cfg0.win 5).blk t).view.emb y) = _
  rw [hv]
  have h : ((cfg0.win 5).blk t).view.emb y = y := by
    obtain ⟨e0, e1⟩ := (idx_weights t).2.1
    funext a; apply Fin.ext
    match a with
    | ⟨0, _⟩ => show win0_5.index t (0 : Fin 2) * 256 + 1 * (y 0).val = (y 0).val; rw [e0]; omega
    | ⟨1, _⟩ => show win0_5.index t (1 : Fin 2) * 1024 + 1 * (y 1).val = (y 1).val; rw [e1]; omega
  rw [h]

theorem blk6 (c : Dev nD) (t : Fin cfg0.N) : iblk m c 6 t = (shapeCast S1x1024 (m ((c : Thread nD τ).loc main_arg6)) shapeCasts_S1024_S1x1024 : FVec Ideal S1x1024 .f32) := by
  have hv : (V m c main_v9 : S1x1024.Idx → EReal) = (shapeCast S1x1024 (m ((c : Thread nD τ).loc main_arg6)) shapeCasts_S1024_S1x1024 : FVec Ideal S1x1024 .f32) := by
    dsimp only [V, hostOps0]; after_results; rfl
  funext y
  show V m c main_v9 (((cfg0.win 6).blk t).view.emb y) = _
  rw [hv]
  have h : ((cfg0.win 6).blk t).view.emb y = y := by
    obtain ⟨e0, e1⟩ := (idx_weights t).2.2.1
    funext a; apply Fin.ext
    match a with
    | ⟨0, _⟩ => show win0_6.index t (0 : Fin 2) * 1 + 1 * (y 0).val = (y 0).val; rw [e0]; omega
    | ⟨1, _⟩ => show win0_6.index t (1 : Fin 2) * 1024 + 1 * (y 1).val = (y 1).val; rw [e1]; omega
  rw [h]

theorem blk7 (c : Dev nD) (t : Fin cfg0.N) : iblk m c 7 t = (truncf (F := Ideal) .bf16 (m ((c : Thread nD τ).loc main_arg7)) bitsLt_bf16_f32 : FVec Ideal S64x1024 .bf16) := by
  have hv : (V m c main_v2 : S64x1024.Idx → EReal) = (truncf (F := Ideal) .bf16 (m ((c : Thread nD τ).loc main_arg7)) bitsLt_bf16_f32 : FVec Ideal S64x1024 .bf16) := by
    dsimp only [V, hostOps0]; after_results
  funext y
  show V m c main_v2 (((cfg0.win 7).blk t).view.emb y) = _
  rw [hv]
  have h : ((cfg0.win 7).blk t).view.emb y = y := by
    obtain ⟨e0, e1⟩ := (idx_weights t).2.2.2.1
    funext a; apply Fin.ext
    match a with
    | ⟨0, _⟩ => show win0_7.index t (0 : Fin 2) * 64 + 1 * (y 0).val = (y 0).val; rw [e0]; omega
    | ⟨1, _⟩ => show win0_7.index t (1 : Fin 2) * 1024 + 1 * (y 1).val = (y 1).val; rw [e1]; omega
  rw [h]

theorem blk8 (c : Dev nD) (t : Fin cfg0.N) : iblk m c 8 t = (truncf (F := Ideal) .bf16 (m ((c : Thread nD τ).loc main_arg8)) bitsLt_bf16_f32 : FVec Ideal S256x1024 .bf16) := by
  have hv : (V m c main_v3 : S256x1024.Idx → EReal) = (truncf (F := Ideal) .bf16 (m ((c : Thread nD τ).loc main_arg8)) bitsLt_bf16_f32 : FVec Ideal S256x1024 .bf16) := by
    dsimp only [V, hostOps0]; after_results
  funext y
  show V m c main_v3 (((cfg0.win 8).blk t).view.emb y) = _
  rw [hv]
  have h : ((cfg0.win 8).blk t).view.emb y = y := by
    obtain ⟨e0, e1⟩ := (idx_weights t).2.2.2.2.1
    funext a; apply Fin.ext
    match a with
    | ⟨0, _⟩ => show win0_8.index t (0 : Fin 2) * 256 + 1 * (y 0).val = (y 0).val; rw [e0]; omega
    | ⟨1, _⟩ => show win0_8.index t (1 : Fin 2) * 1024 + 1 * (y 1).val = (y 1).val; rw [e1]; omega
  rw [h]

theorem blk9 (c : Dev nD) (t : Fin cfg0.N) : iblk m c 9 t = (shapeCast S1x1024 (m ((c : Thread nD τ).loc main_arg9)) shapeCasts_S1024_S1x1024 : FVec Ideal S1x1024 .f32) := by
  have hv : (V m c main_v10 : S1x1024.Idx → EReal) = (shapeCast S1x1024 (m ((c : Thread nD τ).loc main_arg9)) shapeCasts_S1024_S1x1024 : FVec Ideal S1x1024 .f32) := by
    dsimp only [V, hostOps0]; after_results; rfl
  funext y
  show V m c main_v10 (((cfg0.win 9).blk t).view.emb y) = _
  rw [hv]
  have h : ((cfg0.win 9).blk t).view.emb y = y := by
    obtain ⟨e0, e1⟩ := (idx_weights t).2.2.2.2.2.1
    funext a; apply Fin.ext
    match a with
    | ⟨0, _⟩ => show win0_9.index t (0 : Fin 2) * 1 + 1 * (y 0).val = (y 0).val; rw [e0]; omega
    | ⟨1, _⟩ => show win0_9.index t (1 : Fin 2) * 1024 + 1 * (y 1).val = (y 1).val; rw [e1]; omega
  rw [h]

theorem blk10 (c : Dev nD) (t : Fin cfg0.N) : iblk m c 10 t = (truncf (F := Ideal) .bf16 (m ((c : Thread nD τ).loc main_arg10)) bitsLt_bf16_f32 : FVec Ideal S8x1024 .bf16) := by
  have hv : (V m c main_v4 : S8x1024.Idx → EReal) = (truncf (F := Ideal) .bf16 (m ((c : Thread nD τ).loc main_arg10)) bitsLt_bf16_f32 : FVec Ideal S8x1024 .bf16) := by
    dsimp only [V, hostOps0]; after_results
  funext y
  show V m c main_v4 (((cfg0.win 10).blk t).view.emb y) = _
  rw [hv]
  have h : ((cfg0.win 10).blk t).view.emb y = y := by
    obtain ⟨e0, e1⟩ := (idx_weights t).2.2.2.2.2.2.1
    funext a; apply Fin.ext
    match a with
    | ⟨0, _⟩ => show win0_10.index t (0 : Fin 2) * 8 + 1 * (y 0).val = (y 0).val; rw [e0]; omega
    | ⟨1, _⟩ => show win0_10.index t (1 : Fin 2) * 1024 + 1 * (y 1).val = (y 1).val; rw [e1]; omega
  rw [h]

theorem blk11 (c : Dev nD) (t : Fin cfg0.N) : iblk m c 11 t = (truncf (F := Ideal) .bf16 (m ((c : Thread nD τ).loc main_arg11)) bitsLt_bf16_f32 : FVec Ideal S256x1024 .bf16) := by
  have hv : (V m c main_v5 : S256x1024.Idx → EReal) = (truncf (F := Ideal) .bf16 (m ((c : Thread nD τ).loc main_arg11)) bitsLt_bf16_f32 : FVec Ideal S256x1024 .bf16) := by
    dsimp only [V, hostOps0]; after_results
  funext y
  show V m c main_v5 (((cfg0.win 11).blk t).view.emb y) = _
  rw [hv]
  have h : ((cfg0.win 11).blk t).view.emb y = y := by
    obtain ⟨e0, e1⟩ := (idx_weights t).2.2.2.2.2.2.2.1
    funext a; apply Fin.ext
    match a with
    | ⟨0, _⟩ => show win0_11.index t (0 : Fin 2) * 256 + 1 * (y 0).val = (y 0).val; rw [e0]; omega
    | ⟨1, _⟩ => show win0_11.index t (1 : Fin 2) * 1024 + 1 * (y 1).val = (y 1).val; rw [e1]; omega
  rw [h]

theorem blk12 (c : Dev nD) (t : Fin cfg0.N) : iblk m c 12 t = (shapeCast S1x1024 (m ((c : Thread nD τ).loc main_arg12)) shapeCasts_S1024_S1x1024 : FVec Ideal S1x1024 .f32) := by
  have hv : (V m c main_v11 : S1x1024.Idx → EReal) = (shapeCast S1x1024 (m ((c : Thread nD τ).loc main_arg12)) shapeCasts_S1024_S1x1024 : FVec Ideal S1x1024 .f32) := by
    dsimp only [V, hostOps0]; after_results; rfl
  funext y
  show V m c main_v11 (((cfg0.win 12).blk t).view.emb y) = _
  rw [hv]
  have h : ((cfg0.win 12).blk t).view.emb y = y := by
    obtain ⟨e0, e1⟩ := (idx_weights t).2.2.2.2.2.2.2.2.1
    funext a; apply Fin.ext
    match a with
    | ⟨0, _⟩ => show win0_12.index t (0 : Fin 2) * 1 + 1 * (y 0).val = (y 0).val; rw [e0]; omega
    | ⟨1, _⟩ => show win0_12.index t (1 : Fin 2) * 1024 + 1 * (y 1).val = (y 1).val; rw [e1]; omega
  rw [h]

theorem blk13 (c : Dev nD) (t : Fin cfg0.N) : iblk m c 13 t = (truncf (F := Ideal) .bf16 (m ((c : Thread nD τ).loc main_arg13)) bitsLt_bf16_f32 : FVec Ideal S256x256 .bf16) := by
  have hv : (V m c main_v6 : S256x256.Idx → EReal) = (truncf (F := Ideal) .bf16 (m ((c : Thread nD τ).loc main_arg13)) bitsLt_bf16_f32 : FVec Ideal S256x256 .bf16) := by
    dsimp only [V, hostOps0]; after_results
  funext y
  show V m c main_v6 (((cfg0.win 13).blk t).view.emb y) = _
  rw [hv]
  have h : ((cfg0.win 13).blk t).view.emb y = y := by
    obtain ⟨e0, e1⟩ := (idx_weights t).2.2.2.2.2.2.2.2.2.1
    funext a; apply Fin.ext
    match a with
    | ⟨0, _⟩ => show win0_13.index t (0 : Fin 2) * 256 + 1 * (y 0).val = (y 0).val; rw [e0]; omega
    | ⟨1, _⟩ => show win0_13.index t (1 : Fin 2) * 256 + 1 * (y 1).val = (y 1).val; rw [e1]; omega
  rw [h]

theorem blk14 (c : Dev nD) (t : Fin cfg0.N) : iblk m c 14 t = (shapeCast S1x256 (m ((c : Thread nD τ).loc main_arg14)) shapeCasts_S256_S1x256 : FVec Ideal S1x256 .f32) := by
  have hv : (V m c main_v12 : S1x256.Idx → EReal) = (shapeCast S1x256 (m ((c : Thread nD τ).loc main_arg14)) shapeCasts_S256_S1x256 : FVec Ideal S1x256 .f32) := by
    dsimp only [V, hostOps0]; after_results; rfl
  funext y
  show V m c main_v12 (((cfg0.win 14).blk t).view.emb y) = _
  rw [hv]
  have h : ((cfg0.win 14).blk t).view.emb y = y := by
    obtain ⟨e0, e1⟩ := (idx_weights t).2.2.2.2.2.2.2.2.2.2.1
    funext a; apply Fin.ext
    match a with
    | ⟨0, _⟩ => show win0_14.index t (0 : Fin 2) * 1 + 1 * (y 0).val = (y 0).val; rw [e0]; omega
    | ⟨1, _⟩ => show win0_14.index t (1 : Fin 2) * 256 + 1 * (y 1).val = (y 1).val; rw [e1]; omega
  rw [h]

theorem blk15 (c : Dev nD) (t : Fin cfg0.N) : iblk m c 15 t = (truncf (F := Ideal) .bf16 (m ((c : Thread nD τ).loc main_arg15)) bitsLt_bf16_f32 : FVec Ideal S256x8 .bf16) := by
  have hv : (V m c main_v7 : S256x8.Idx → EReal) = (truncf (F := Ideal) .bf16 (m ((c : Thread nD τ).loc main_arg15)) bitsLt_bf16_f32 : FVec Ideal S256x8 .bf16) := by
    dsimp only [V, hostOps0]; after_results
  funext y
  show V m c main_v7 (((cfg0.win 15).blk t).view.emb y) = _
  rw [hv]
  have h : ((cfg0.win 15).blk t).view.emb y = y := by
    obtain ⟨e0, e1⟩ := (idx_weights t).2.2.2.2.2.2.2.2.2.2.2.1
    funext a; apply Fin.ext
    match a with
    | ⟨0, _⟩ => show win0_15.index t (0 : Fin 2) * 256 + 1 * (y 0).val = (y 0).val; rw [e0]; omega
    | ⟨1, _⟩ => show win0_15.index t (1 : Fin 2) * 8 + 1 * (y 1).val = (y 1).val; rw [e1]; omega
  rw [h]

theorem blk16 (c : Dev nD) (t : Fin cfg0.N) : iblk m c 16 t = (shapeCast S1x8 (m ((c : Thread nD τ).loc main_arg16)) shapeCasts_S8_S1x8 : FVec Ideal S1x8 .f32) := by
  have hv : (V m c main_v13 : S1x8.Idx → EReal) = (shapeCast S1x8 (m ((c : Thread nD τ).loc main_arg16)) shapeCasts_S8_S1x8 : FVec Ideal S1x8 .f32) := by
    dsimp only [V, hostOps0]; after_results; rfl
  funext y
  show V m c main_v13 (((cfg0.win 16).blk t).view.emb y) = _
  rw [hv]
  have h : ((cfg0.win 16).blk t).view.emb y = y := by
    obtain ⟨e0, e1⟩ := (idx_weights t).2.2.2.2.2.2.2.2.2.2.2.2.1
    funext a; apply Fin.ext
    match a with
    | ⟨0, _⟩ => show win0_16.index t (0 : Fin 2) * 1 + 1 * (y 0).val = (y 0).val; rw [e0]; omega
    | ⟨1, _⟩ => show win0_16.index t (1 : Fin 2) * 8 + 1 * (y 1).val = (y 1).val; rw [e1]; omega
  rw [h]

theorem blk17 (c : Dev nD) (t : Fin cfg0.N) : iblk m c 17 t = (truncf (F := Ideal) .bf16 (m ((c : Thread nD τ).loc main_arg17)) bitsLt_bf16_f32 : FVec Ideal S256x8 .bf16) := by
  have hv : (V m c main_v8 : S256x8.Idx → EReal) = (truncf (F := Ideal) .bf16 (m ((c : Thread nD τ).loc main_arg17)) bitsLt_bf16_f32 : FVec Ideal S256x8 .bf16) := by
    dsimp only [V, hostOps0]; after_results
  funext y
  show V m c main_v8 (((cfg0.win 17).blk t).view.emb y) = _
  rw [hv]
  have h : ((cfg0.win 17).blk t).view.emb y = y := by
    obtain ⟨e0, e1⟩ := (idx_weights t).2.2.2.2.2.2.2.2.2.2.2.2.2.1
    funext a; apply Fin.ext
    match a with
    | ⟨0, _⟩ => show win0_17.index t (0 : Fin 2) * 256 + 1 * (y 0).val = (y 0).val; rw [e0]; omega
    | ⟨1, _⟩ => show win0_17.index t (1 : Fin 2) * 8 + 1 * (y 1).val = (y 1).val; rw [e1]; omega
  rw [h]

theorem blk18 (c : Dev nD) (t : Fin cfg0.N) : iblk m c 18 t = (shapeCast S1x8 (m ((c : Thread nD τ).loc main_arg18)) shapeCasts_S8_S1x8 : FVec Ideal S1x8 .f32) := by
  have hv : (V m c main_v14 : S1x8.Idx → EReal) = (shapeCast S1x8 (m ((c : Thread nD τ).loc main_arg18)) shapeCasts_S8_S1x8 : FVec Ideal S1x8 .f32) := by
    dsimp only [V, hostOps0]; after_results; rfl
  funext y
  show V m c main_v14 (((cfg0.win 18).blk t).view.emb y) = _
  rw [hv]
  have h : ((cfg0.win 18).blk t).view.emb y = y := by
    obtain ⟨e0, e1⟩ := (idx_weights t).2.2.2.2.2.2.2.2.2.2.2.2.2.2
    funext a; apply Fin.ext
    match a with
    | ⟨0, _⟩ => show win0_18.index t (0 : Fin 2) * 1 + 1 * (y 0).val = (y 0).val; rw [e0]; omega
    | ⟨1, _⟩ => show win0_18.index t (1 : Fin 2) * 8 + 1 * (y 1).val = (y 1).val; rw [e1]; omega
  rw [h]

/-- The parameters read off rounded weights and recast biases are those read off the arrays themselves. -/
theorem KP_host (W4 : FVec Ideal S1x1024 .f32) (W5 : FVec Ideal S256x1024 .f32) (B6 : FVec Ideal S1024 .f32)
    (W7 : FVec Ideal S64x1024 .f32) (W8 : FVec Ideal S256x1024 .f32) (B9 : FVec Ideal S1024 .f32)
    (W10 : FVec Ideal S8x1024 .f32) (W11 : FVec Ideal S256x1024 .f32) (B12 : FVec Ideal S1024 .f32)
    (W13 : FVec Ideal S256x256 .f32) (B14 : FVec Ideal S256 .f32) (W15 : FVec Ideal S256x8 .f32) (B16 : FVec Ideal S8 .f32)
    (W17 : FVec Ideal S256x8 .f32) (B18 : FVec Ideal S8 .f32) :
    KP (truncf (F := Ideal) .bf16 W4 bitsLt_bf16_f32) (truncf (F := Ideal) .bf16 W5 bitsLt_bf16_f32) (shapeCast S1x1024 B6 shapeCasts_S1024_S1x1024)
        (truncf (F := Ideal) .bf16 W7 bitsLt_bf16_f32) (truncf (F := Ideal) .bf16 W8 bitsLt_bf16_f32) (shapeCast S1x1024 B9 shapeCasts_S1024_S1x1024)
        (truncf (F := Ideal) .bf16 W10 bitsLt_bf16_f32) (truncf (F := Ideal) .bf16 W11 bitsLt_bf16_f32) (shapeCast S1x1024 B12 shapeCasts_S1024_S1x1024)
        (truncf (F := Ideal) .bf16 W13 bitsLt_bf16_f32) (shapeCast S1x256 B14 shapeCasts_S256_S1x256)
        (truncf (F := Ideal) .bf16 W15 bitsLt_bf16_f32) (shapeCast S1x8 B16 shapeCasts_S8_S1x8)
        (truncf (F := Ideal) .bf16 W17 bitsLt_bf16_f32) (shapeCast S1x8 B18 shapeCasts_S8_S1x8)
      = hostParams W4 W5 B6 W7 W8 B9 W10 W11 B12 W13 B14 W15 B16 W17 B18 := by
  unfold KP hostParams
  simp only [shapeCast_a_1a_apply]
  rfl

theorem KP_blocks (c : Dev nD) (t : Fin cfg0.N) : KP (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) = HP m c := by
  rw [blk4 m c t, blk5 m c t, blk6 m c t, blk7 m c t, blk8 m c t, blk9 m c t, blk10 m c t, blk11 m c t, blk12 m c t, blk13 m c t, blk14 m c t, blk15 m c t, blk16 m c t, blk17 m c t, blk18 m c t]
  exact KP_host _ _ _ _ _ _ _ _ _ _ _ _ _ _ _

/-! ## What each point writes back, and the arrays after the run -/

/-- Window 19's staging buffer after the body is the body's value `bOut` of the blocks. -/
theorem out19_eq (x0 : Vec Ideal S512x72 .f32) (x1 : Vec Ideal S512x2 .f32) (x2 x3 : Vec Ideal S512x256 .f32) (x4 : Vec Ideal S1x1024 .bf16) (x5 : Vec Ideal S256x1024 .bf16) (x6 : Vec Ideal S1x1024 .f32) (x7 : Vec Ideal S64x1024 .bf16) (x8 : Vec Ideal S256x1024 .bf16) (x9 : Vec Ideal S1x1024 .f32) (x10 : Vec Ideal S8x1024 .bf16) (x11 : Vec Ideal S256x1024 .bf16) (x12 : Vec Ideal S1x1024 .f32) (x13 : Vec Ideal S256x256 .bf16) (x14 : Vec Ideal S1x256 .f32) (x15 : Vec Ideal S256x8 .bf16) (x16 : Vec Ideal S1x8 .f32) (x17 : Vec Ideal S256x8 .bf16) (x18 : Vec Ideal S1x8 .f32) : out0_19 (F := Ideal) x0 x1 x2 x3 x4 x5 x6 x7 x8 x9 x10 x11 x12 x13 x14 x15 x16 x17 x18 = bOut x0 x1 x2 x3 x4 x5 x6 x7 x8 x9 x13 x14 x15 x16 x17 x18 := by
  unfold out0_19
  rw [View.canon_unit_zero hz]
  simp only [View.ld_unit_zero (S := S512x72) hz, View.ld_unit_zero (S := S512x2) hz, View.ld_unit_zero (S := S512x256) hz, View.ld_unit_zero (S := S1x1024) hz, View.ld_unit_zero (S := S256x1024) hz, View.ld_unit_zero (S := S64x1024) hz, View.ld_unit_zero (S := S8x1024) hz, View.ld_unit_zero (S := S256x256) hz, View.ld_unit_zero (S := S1x256) hz, View.ld_unit_zero (S := S256x8) hz, View.ld_unit_zero (S := S1x8) hz]
  rfl

/-- What point `t` writes back to the array of window 19 is block `t` of the row-by-row array. -/
theorem flushed19_eq (c : Dev nD) (t : Fin cfg0.N) :
    (dats m 0 c).flushed 19 t = ((cfg0.win 19).blk t).view.read (Elt Ideal) (GOut (A := 32768) (HP m c) (m ((c : Thread nD τ).loc main_arg0)) (m ((c : Thread nD τ).loc main_arg1)) (m ((c : Thread nD τ).loc main_arg2)) (m ((c : Thread nD τ).loc main_arg3))) := by
  show (cfg0.win 19).cut (grid0.coords t) ((dats m 0 c).after 19 t) = _
  rw [after0_19, out19_eq]
  funext j
  obtain ⟨p, q, rfl⟩ : ∃ (p : Fin 512) (q : Fin 16), j = ix2 p q := ⟨j 0, j 1, eq_ix2 j⟩
  have ht : t.val < 64 := t.isLt
  have hr : t.val * 512 + p.val < 32768 := by have := p.isLt; omega
  have he : ((cfg0.win 19).blk t).view.emb (ix2 p q) = ix2 (⟨t.val * 512 + p.val, hr⟩ : Fin 32768) q := by
    obtain ⟨e0, e1⟩ := (idx_rows t).2.2.2.2.1
    funext a; apply Fin.ext
    match a with
    | ⟨0, _⟩ => show win0_19.index t (0 : Fin 2) * 512 + 1 * p.val = t.val * 512 + p.val; rw [e0]; omega
    | ⟨1, _⟩ => show win0_19.index t (1 : Fin 2) * 16 + 1 * q.val = q.val; rw [e1]; omega
  show bOut (iblk m c 0 t) (iblk m c 1 t) (iblk m c 2 t) (iblk m c 3 t) (iblk m c 4 t) (iblk m c 5 t) (iblk m c 6 t) (iblk m c 7 t) (iblk m c 8 t) (iblk m c 9 t) (iblk m c 13 t) (iblk m c 14 t) (iblk m c 15 t) (iblk m c 16 t) (iblk m c 17 t) (iblk m c 18 t) (ix2 p q) = (GOut (A := 32768) (HP m c) (m ((c : Thread nD τ).loc main_arg0)) (m ((c : Thread nD τ).loc main_arg1)) (m ((c : Thread nD τ).loc main_arg2)) (m ((c : Thread nD τ).loc main_arg3))) (((cfg0.win 19).blk t).view.emb (ix2 p q))
  rw [he]
  refine (rowOut (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) p q).trans ?_
  rw [KP_blocks m c t, rowBlk0 m c t p hr, rowBlk1 m c t p hr, rowBlk2 m c t p hr, rowBlk3 m c t p hr]
  rfl

theorem mem_blk19 (t : Fin cfg0.N) (i : S32768x16.Idx) :
    i ∈ ((cfg0.win 19).blk t).view.set ↔ ∀ a : Fin 2, win0_19.index t a * S512x16.size a ≤ (i a).val ∧ (i a).val < win0_19.index t a * S512x16.size a + S512x16.size a := by
  show i ∈ ((View.whole main_v15_0).slice (win0_19.rect t)).set ↔ _
  rw [View.set_slice_whole, Rect.mem_set_unit]
  exact Iff.rfl

/-- The 64 blocks of 512 rows tile the array. -/
theorem cover19 (i : S32768x16.Idx) : ∃ t : Fin cfg0.N, (cfg0.win 19).flush t = true ∧ i ∈ ((cfg0.win 19).blk t).view.set := by
  have hi0 : (i 0).val < 32768 := (i 0).isLt
  have hi1 : (i 1).val < 16 := (i 1).isLt
  let t : Fin cfg0.N := ⟨(i 0).val / 512, by show (i 0).val / 512 < 64; omega⟩
  obtain ⟨e0, e1⟩ := (idx_rows t).2.2.2.2.1
  have e0' : win0_19.index t (0 : Fin 2) = (i 0).val / 512 := e0
  refine ⟨t, flush0_19 t, ?_⟩
  rw [mem_blk19]
  intro a
  match a with
  | ⟨0, _⟩ => show win0_19.index t (0 : Fin 2) * 512 ≤ (i 0).val ∧ (i 0).val < win0_19.index t (0 : Fin 2) * 512 + 512; omega
  | ⟨1, _⟩ => show win0_19.index t (1 : Fin 2) * 16 ≤ (i 1).val ∧ (i 1).val < win0_19.index t (1 : Fin 2) * 16 + 16; omega

/-- The array of window 19 after the run. -/
theorem final19 (c : Dev nD) : (dats m 0 c).arrAt 19 cfg0.N = (GOut (A := 32768) (HP m c) (m ((c : Thread nD τ).loc main_arg0)) (m ((c : Thread nD τ).loc main_arg1)) (m ((c : Thread nD τ).loc main_arg2)) (m ((c : Thread nD τ).loc main_arg3))) :=
  (dats m 0 c).arrAt_eq_of_cover 19 _ (fun t _ => flushed19_eq m c t) (cover19)

/-- Window 20's staging buffer after the body is the body's value `bH3s` of the blocks. -/
theorem out20_eq (x0 : Vec Ideal S512x72 .f32) (x1 : Vec Ideal S512x2 .f32) (x2 x3 : Vec Ideal S512x256 .f32) (x4 : Vec Ideal S1x1024 .bf16) (x5 : Vec Ideal S256x1024 .bf16) (x6 : Vec Ideal S1x1024 .f32) (x7 : Vec Ideal S64x1024 .bf16) (x8 : Vec Ideal S256x1024 .bf16) (x9 : Vec Ideal S1x1024 .f32) (x10 : Vec Ideal S8x1024 .bf16) (x11 : Vec Ideal S256x1024 .bf16) (x12 : Vec Ideal S1x1024 .f32) (x13 : Vec Ideal S256x256 .bf16) (x14 : Vec Ideal S1x256 .f32) (x15 : Vec Ideal S256x8 .bf16) (x16 : Vec Ideal S1x8 .f32) (x17 : Vec Ideal S256x8 .bf16) (x18 : Vec Ideal S1x8 .f32) : out0_20 (F := Ideal) x0 x1 x2 x3 x4 x5 x6 x7 x8 x9 x10 x11 x12 x13 x14 x15 x16 x17 x18 = bH3s x0 x1 x2 x3 x4 x5 x6 x7 x8 x9 x10 x11 x12 := by
  unfold out0_20
  rw [View.canon_unit_zero hz]
  simp only [View.ld_unit_zero (S := S512x72) hz, View.ld_unit_zero (S := S512x2) hz, View.ld_unit_zero (S := S512x256) hz, View.ld_unit_zero (S := S1x1024) hz, View.ld_unit_zero (S := S256x1024) hz, View.ld_unit_zero (S := S64x1024) hz, View.ld_unit_zero (S := S8x1024) hz, View.ld_unit_zero (S := S256x256) hz, View.ld_unit_zero (S := S1x256) hz, View.ld_unit_zero (S := S256x8) hz, View.ld_unit_zero (S := S1x8) hz]
  rfl

/-- What point `t` writes back to the array of window 20 is block `t` of the row-by-row array. -/
theorem flushed20_eq (c : Dev nD) (t : Fin cfg0.N) :
    (dats m 0 c).flushed 20 t = ((cfg0.win 20).blk t).view.read (Elt Ideal) (GH (A := 32768) (HP m c) (m ((c : Thread nD τ).loc main_arg0)) (m ((c : Thread nD τ).loc main_arg1)) (m ((c : Thread nD τ).loc main_arg2)) (m ((c : Thread nD τ).loc main_arg3))) := by
  show (cfg0.win 20).cut (grid0.coords t) ((dats m 0 c).after 20 t) = _
  rw [after0_20, out20_eq]
  funext j
  obtain ⟨p, q, rfl⟩ : ∃ (p : Fin 512) (q : Fin 256), j = ix2 p q := ⟨j 0, j 1, eq_ix2 j⟩
  have ht : t.val < 64 := t.isLt
  have hr : t.val * 512 + p.val < 32768 := by have := p.isLt; omega
  have he : ((cfg0.win 20).blk t).view.emb (ix2 p q) = ix2 (⟨t.val * 512 + p.val, hr⟩ : Fin 32768) q := by
    obtain ⟨e0, e1⟩ := (idx_rows t).2.2.2.2.2.1
    funext a; apply Fin.ext
    match a with
    | ⟨0, _⟩ => show win0_20.index t (0 : Fin 2) * 512 + 1 * p.val = t.val * 512 + p.val; rw [e0]; omega
    | ⟨1, _⟩ => show win0_20.index t (1 : Fin 2) * 256 + 1 * q.val = q.val; rw [e1]; omega
  show bH3s (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 p q) = (GH (A := 32768) (HP m c) (m ((c : Thread nD τ).loc main_arg0)) (m ((c : Thread nD τ).loc main_arg1)) (m ((c : Thread nD τ).loc main_arg2)) (m ((c : Thread nD τ).loc main_arg3))) (((cfg0.win 20).blk t).view.emb (ix2 p q))
  rw [he]
  refine (congrFun (rowH3s (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) p) q).trans ?_
  rw [KP_blocks m c t, rowBlk0 m c t p hr, rowBlk1 m c t p hr, rowBlk2 m c t p hr, rowBlk3 m c t p hr]
  rfl

theorem mem_blk20 (t : Fin cfg0.N) (i : S32768x256.Idx) :
    i ∈ ((cfg0.win 20).blk t).view.set ↔ ∀ a : Fin 2, win0_20.index t a * S512x256.size a ≤ (i a).val ∧ (i a).val < win0_20.index t a * S512x256.size a + S512x256.size a := by
  show i ∈ ((View.whole main_v15_1).slice (win0_20.rect t)).set ↔ _
  rw [View.set_slice_whole, Rect.mem_set_unit]
  exact Iff.rfl

/-- The 64 blocks of 512 rows tile the array. -/
theorem cover20 (i : S32768x256.Idx) : ∃ t : Fin cfg0.N, (cfg0.win 20).flush t = true ∧ i ∈ ((cfg0.win 20).blk t).view.set := by
  have hi0 : (i 0).val < 32768 := (i 0).isLt
  have hi1 : (i 1).val < 256 := (i 1).isLt
  let t : Fin cfg0.N := ⟨(i 0).val / 512, by show (i 0).val / 512 < 64; omega⟩
  obtain ⟨e0, e1⟩ := (idx_rows t).2.2.2.2.2.1
  have e0' : win0_20.index t (0 : Fin 2) = (i 0).val / 512 := e0
  refine ⟨t, flush0_20 t, ?_⟩
  rw [mem_blk20]
  intro a
  match a with
  | ⟨0, _⟩ => show win0_20.index t (0 : Fin 2) * 512 ≤ (i 0).val ∧ (i 0).val < win0_20.index t (0 : Fin 2) * 512 + 512; omega
  | ⟨1, _⟩ => show win0_20.index t (1 : Fin 2) * 256 ≤ (i 1).val ∧ (i 1).val < win0_20.index t (1 : Fin 2) * 256 + 256; omega

/-- The array of window 20 after the run. -/
theorem final20 (c : Dev nD) : (dats m 0 c).arrAt 20 cfg0.N = (GH (A := 32768) (HP m c) (m ((c : Thread nD τ).loc main_arg0)) (m ((c : Thread nD τ).loc main_arg1)) (m ((c : Thread nD τ).loc main_arg2)) (m ((c : Thread nD τ).loc main_arg3))) :=
  (dats m 0 c).arrAt_eq_of_cover 20 _ (fun t _ => flushed20_eq m c t) (cover20)

/-- Window 21's staging buffer after the body is the body's value `bC3s` of the blocks. -/
theorem out21_eq (x0 : Vec Ideal S512x72 .f32) (x1 : Vec Ideal S512x2 .f32) (x2 x3 : Vec Ideal S512x256 .f32) (x4 : Vec Ideal S1x1024 .bf16) (x5 : Vec Ideal S256x1024 .bf16) (x6 : Vec Ideal S1x1024 .f32) (x7 : Vec Ideal S64x1024 .bf16) (x8 : Vec Ideal S256x1024 .bf16) (x9 : Vec Ideal S1x1024 .f32) (x10 : Vec Ideal S8x1024 .bf16) (x11 : Vec Ideal S256x1024 .bf16) (x12 : Vec Ideal S1x1024 .f32) (x13 : Vec Ideal S256x256 .bf16) (x14 : Vec Ideal S1x256 .f32) (x15 : Vec Ideal S256x8 .bf16) (x16 : Vec Ideal S1x8 .f32) (x17 : Vec Ideal S256x8 .bf16) (x18 : Vec Ideal S1x8 .f32) : out0_21 (F := Ideal) x0 x1 x2 x3 x4 x5 x6 x7 x8 x9 x10 x11 x12 x13 x14 x15 x16 x17 x18 = bC3s x0 x1 x2 x3 x4 x5 x6 x7 x8 x9 x10 x11 x12 := by
  unfold out0_21
  rw [View.canon_unit_zero hz]
  simp only [View.ld_unit_zero (S := S512x72) hz, View.ld_unit_zero (S := S512x2) hz, View.ld_unit_zero (S := S512x256) hz, View.ld_unit_zero (S := S1x1024) hz, View.ld_unit_zero (S := S256x1024) hz, View.ld_unit_zero (S := S64x1024) hz, View.ld_unit_zero (S := S8x1024) hz, View.ld_unit_zero (S := S256x256) hz, View.ld_unit_zero (S := S1x256) hz, View.ld_unit_zero (S := S256x8) hz, View.ld_unit_zero (S := S1x8) hz]
  rfl

/-- What point `t` writes back to the array of window 21 is block `t` of the row-by-row array. -/
theorem flushed21_eq (c : Dev nD) (t : Fin cfg0.N) :
    (dats m 0 c).flushed 21 t = ((cfg0.win 21).blk t).view.read (Elt Ideal) (GC (A := 32768) (HP m c) (m ((c : Thread nD τ).loc main_arg0)) (m ((c : Thread nD τ).loc main_arg1)) (m ((c : Thread nD τ).loc main_arg2)) (m ((c : Thread nD τ).loc main_arg3))) := by
  show (cfg0.win 21).cut (grid0.coords t) ((dats m 0 c).after 21 t) = _
  rw [after0_21, out21_eq]
  funext j
  obtain ⟨p, q, rfl⟩ : ∃ (p : Fin 512) (q : Fin 256), j = ix2 p q := ⟨j 0, j 1, eq_ix2 j⟩
  have ht : t.val < 64 := t.isLt
  have hr : t.val * 512 + p.val < 32768 := by have := p.isLt; omega
  have he : ((cfg0.win 21).blk t).view.emb (ix2 p q) = ix2 (⟨t.val * 512 + p.val, hr⟩ : Fin 32768) q := by
    obtain ⟨e0, e1⟩ := (idx_rows t).2.2.2.2.2.2
    funext a; apply Fin.ext
    match a with
    | ⟨0, _⟩ => show win0_21.index t (0 : Fin 2) * 512 + 1 * p.val = t.val * 512 + p.val; rw [e0]; omega
    | ⟨1, _⟩ => show win0_21.index t (1 : Fin 2) * 256 + 1 * q.val = q.val; rw [e1]; omega
  show bC3s (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 p q) = (GC (A := 32768) (HP m c) (m ((c : Thread nD τ).loc main_arg0)) (m ((c : Thread nD τ).loc main_arg1)) (m ((c : Thread nD τ).loc main_arg2)) (m ((c : Thread nD τ).loc main_arg3))) (((cfg0.win 21).blk t).view.emb (ix2 p q))
  rw [he]
  refine (congrFun (rowC3s (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) p) q).trans ?_
  rw [KP_blocks m c t, rowBlk0 m c t p hr, rowBlk1 m c t p hr, rowBlk2 m c t p hr, rowBlk3 m c t p hr]
  rfl

theorem mem_blk21 (t : Fin cfg0.N) (i : S32768x256.Idx) :
    i ∈ ((cfg0.win 21).blk t).view.set ↔ ∀ a : Fin 2, win0_21.index t a * S512x256.size a ≤ (i a).val ∧ (i a).val < win0_21.index t a * S512x256.size a + S512x256.size a := by
  show i ∈ ((View.whole main_v15_2).slice (win0_21.rect t)).set ↔ _
  rw [View.set_slice_whole, Rect.mem_set_unit]
  exact Iff.rfl

/-- The 64 blocks of 512 rows tile the array. -/
theorem cover21 (i : S32768x256.Idx) : ∃ t : Fin cfg0.N, (cfg0.win 21).flush t = true ∧ i ∈ ((cfg0.win 21).blk t).view.set := by
  have hi0 : (i 0).val < 32768 := (i 0).isLt
  have hi1 : (i 1).val < 256 := (i 1).isLt
  let t : Fin cfg0.N := ⟨(i 0).val / 512, by show (i 0).val / 512 < 64; omega⟩
  obtain ⟨e0, e1⟩ := (idx_rows t).2.2.2.2.2.2
  have e0' : win0_21.index t (0 : Fin 2) = (i 0).val / 512 := e0
  refine ⟨t, flush0_21 t, ?_⟩
  rw [mem_blk21]
  intro a
  match a with
  | ⟨0, _⟩ => show win0_21.index t (0 : Fin 2) * 512 ≤ (i 0).val ∧ (i 0).val < win0_21.index t (0 : Fin 2) * 512 + 512; omega
  | ⟨1, _⟩ => show win0_21.index t (1 : Fin 2) * 256 ≤ (i 1).val ∧ (i 1).val < win0_21.index t (1 : Fin 2) * 256 + 256; omega

/-- The array of window 21 after the run. -/
theorem final21 (c : Dev nD) : (dats m 0 c).arrAt 21 cfg0.N = (GC (A := 32768) (HP m c) (m ((c : Thread nD τ).loc main_arg0)) (m ((c : Thread nD τ).loc main_arg1)) (m ((c : Thread nD τ).loc main_arg2)) (m ((c : Thread nD τ).loc main_arg3))) :=
  (dats m 0 c).arrAt_eq_of_cover 21 _ (fun t _ => flushed21_eq m c t) (cover21)

/-- Every weakly fair execution of the kernel's program ends with the three result arrays at the row-by-row arrays of the
    argument arrays. -/
theorem run : θ_run defs (onTc (τ := τ) (main (F := Ideal))) ⟨m, fun _ => 0, ρ⟩ fun r => ∀ c : Dev nD,
      r.2.mem ((c : Thread nD τ).loc main_v15_0) = (GOut (A := 32768) (HP m c) (m ((c : Thread nD τ).loc main_arg0)) (m ((c : Thread nD τ).loc main_arg1)) (m ((c : Thread nD τ).loc main_arg2)) (m ((c : Thread nD τ).loc main_arg3)))
      ∧ r.2.mem ((c : Thread nD τ).loc main_v15_1) = (GH (A := 32768) (HP m c) (m ((c : Thread nD τ).loc main_arg0)) (m ((c : Thread nD τ).loc main_arg1)) (m ((c : Thread nD τ).loc main_arg2)) (m ((c : Thread nD τ).loc main_arg3)))
      ∧ r.2.mem ((c : Thread nD τ).loc main_v15_2) = (GC (A := 32768) (HP m c) (m ((c : Thread nD τ).loc main_arg0)) (m ((c : Thread nD τ).loc main_arg1)) (m ((c : Thread nD τ).loc main_arg2)) (m ((c : Thread nD τ).loc main_arg3))) :=
  (θ_run defs _ _).mono (fun r h c => ⟨((h c).1 19).trans (final19 m c), ((h c).1 20).trans (final20 m c),
      ((h c).1 21).trans (final21 m c)⟩)
    (run_main m ρ)

end Cert.KernelIdeal.Blocks

end
-- ==== Proof.RefRun.lean ====
/-
  The reference program's run as one straight line of host operations.

  @main of the reference is printed in four consecutive windows and calls three module-local functions: `elu`
  (seven times; it calls `_where`, the choice between a scalar broadcast and a tensor, and `_where_0`, the choice
  between two tensors) and `softplus` (once). A call means the callee's body run on the call's own buffers, so the
  whole of @main is a sequence of 293 tensor operations, each reading buffers written earlier (or arguments) and
  writing one buffer of its own. Here that sequence is written out — in six consecutive pieces, three recurrent
  layers, the two blends between them and the read-out — and proved to be @main (`main_eq`); the library's theorem
  on straight lines then gives the run (`run_main`): every fair execution ends, each buffer holding the fold of the
  operations over the launch contents. No operation writes one of the nineteen argument buffers (`arg_kept`):
  each writes a buffer of index at least 19, the arguments are the buffers 0 … 18.
-/
import proofs.«162006_j48043504173109_1_alg».proof.ReferenceIdeal
import Idealize.ShloMosaic.Lib.StableHlo.Run

noncomputable section

namespace Cert.ReferenceIdeal.RefRun

open Idealize.ShloMosaic Idealize.ShloMosaic.StableHlo Idealize.SL.Sem Cert.ReferenceIdeal

/-! ## Lists in pieces -/

section Lists

variable {nD : Nat} {τ : Topo} {sig : RefSig} {Val : EltTy → Type}

/-- The fold over a concatenation is the fold over the second piece from the fold over the first. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A property of every element of two lists holds of every element of their concatenation. -/
theorem forall_append {α : Type} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

/-- An operation writes one buffer, of index at least `n`. -/
def WritesFrom (n : Nat) (op : HloOp τ sig Val) : Prop :=
  ∃ y : Ref sig .tc, n ≤ y.idx.val ∧ op.writes = {Proc.devRef .tc y}

/-- A line of operations each writing a buffer of index at least `n` leaves every buffer of smaller index as it was. -/
theorem after_of_writesFrom {n : Nat} (ops : List (HloOp τ sig Val)) (V : Valuation τ sig Val)
    (h : ops.Forall (WritesFrom n)) {r : Ref sig .tc} (hr : r.idx.val < n) :
    after ops V (Proc.devRef .tc r) = V (Proc.devRef .tc r) :=
  after_of_forall_not_mem ops V fun op hop hb => by
    obtain ⟨y, hy, hw⟩ := List.forall_iff_forall_mem.mp h op hop
    rw [hw, Finset.mem_singleton] at hb
    have e : r = y := Proc.devRef_injective _ hb
    subst e
    exact absurd hy (Nat.not_le.mpr hr)

end Lists

/-! ## The signature scopes nothing -/

theorem scopedRefs_eq : (Finset.univ.filter fun b : Ref sig .tc => b.isScoped) = ∅ := by decide
theorem scopedSems_eq : (Finset.univ.filter fun sm : SemLoc sig => sm.isScoped .tc) = ∅ := by decide

variable {F : FTy → Type} [FloatOps F] [Facts]
open Facts₀ Facts

/-! ## The operations, in program order -/

/-- The first recurrent layer. The three column blocks of the input row (columns 0–63, 64–71 and column 0), the gate
    pre-activations `0·W₄ + h·W₅ + b₆` (a zero column times the one-row weight, plus the previous hidden state times
    its weight, plus the bias row broadcast down the rows), cut into four 256-wide gates; the forget and input gates
    `1 / (1 + exp (-x))`, the candidate `elu` of the third gate, the new cell `f · c + i · elu g`, the output gate and the
    new hidden state `o · elu c'`. Each `elu x` is fifteen operations: two comparisons of `x` with a broadcast zero,
    `x` kept where it is not positive (else zero), `exp − 1` of that, times a broadcast one, and the choice of `x`
    itself where it is positive. -/
abbrev opsLstm1 : List (HloOp τ sig (Elt F)) :=
  [ StableHlo.unary main_arg0 main_v0 ((extractStridedSlice S32768x64 ![0, 0] · slices_S32768x72_S32768x64_0_0) : (⟨S32768x72, .f32⟩ : BufTy).Contents (Elt F) → (⟨S32768x64, .f32⟩ : BufTy).Contents (Elt F)),
    StableHlo.unary main_arg0 main_v1 ((extractStridedSlice S32768x8 ![0, 64] · slices_S32768x72_S32768x8_0_64) : (⟨S32768x72, .f32⟩ : BufTy).Contents (Elt F) → (⟨S32768x8, .f32⟩ : BufTy).Contents (Elt F)),
    StableHlo.unary main_arg0 main_v2 ((extractStridedSlice S32768x1 ![0, 0] · slices_S32768x72_S32768x1_0_0) : (⟨S32768x72, .f32⟩ : BufTy).Contents (Elt F) → (⟨S32768x1, .f32⟩ : BufTy).Contents (Elt F)),
    StableHlo.nullary main_cst (constant S_ .f32 0x00000000#32),
    StableHlo.unary main_cst main_v3 (broadcastInDim S32768x1 ![] bcast_S_S32768x1 : (⟨S_, .f32⟩ : BufTy).Contents (Elt F) → (⟨S32768x1, .f32⟩ : BufTy).Contents (Elt F)),
    StableHlo.binary main_v3 main_arg4 main_v4 ((fun l r => Host.dotGeneral dot_S32768x1_S1x1024_S32768x1024_1_0_0_1_n_n none l r) : (⟨S32768x1, .f32⟩ : BufTy).Contents (Elt F) → (⟨S1x1024, .f32⟩ : BufTy).Contents (Elt F) → (⟨S32768x1024, .f32⟩ : BufTy).Contents (Elt F)),
    StableHlo.binary main_arg2 main_arg5 main_v5 ((fun l r => Host.dotGeneral dot_S32768x256_S256x1024_S32768x1024_1_0_0_1_n_n none l r) : (⟨S32768x256, .f32⟩ : BufTy).Contents (Elt F) → (⟨S256x1024, .f32⟩ : BufTy).Contents (Elt F) → (⟨S32768x1024, .f32⟩ : BufTy).Contents (Elt F)),
    StableHlo.binary main_v4 main_v5 main_v6 (addf : (⟨S32768x1024, .f32⟩ : BufTy).Contents (Elt F) → (⟨S32768x1024, .f32⟩ : BufTy).Contents (Elt F) → (⟨S32768x1024, .f32⟩ : BufTy).Contents (Elt F)),
    StableHlo.unary main_arg6 main_v7 (broadcastInDim S1x1024 ![1] bcast_S1024_S1x1024_1 : (⟨S1024, .f32⟩ : BufTy).Contents (Elt F) → (⟨S1x1024, .f32⟩ : BufTy).Contents (Elt F)),
    StableHlo.unary main_v7 main_v8 (broadcastInDim S32768x1024 ![0, 1] bcast_S1x1024_S32768x1024_0_1 : (⟨S1x1024, .f32⟩ : BufTy).Contents (Elt F) → (⟨S32768x1024, .f32⟩ : BufTy).Contents (Elt F)),
    StableHlo.binary main_v6 main_v8 main_v9 (addf : (⟨S32768x1024, .f32⟩ : BufTy).Contents (Elt F) → (⟨S32768x1024, .f32⟩ : BufTy).Contents (Elt F) → (⟨S32768x1024, .f32⟩ : BufTy).Contents (Elt F)),
    StableHlo.unary main_v9 main_v10 ((extractStridedSlice S32768x256 ![0, 0] · slices_S32768x1024_S32768x256_0_0) : (⟨S32768x1024, .f32⟩ : BufTy).Contents (Elt F) → (⟨S32768x256, .f32⟩ : BufTy).Contents (Elt F)),
    StableHlo.unary main_v9 main_v11 ((extractStridedSlice S32768x256 ![0, 256] · slices_S32768x1024_S32768x256_0_256) : (⟨S32768x1024, .f32⟩ : BufTy).Contents (Elt F) → (⟨S32768x256, .f32⟩ : BufTy).Contents (Elt F)),
    StableHlo.unary main_v9 main_v12 ((extractStridedSlice S32768x256 ![0, 512] · slices_S32768x1024_S32768x256_0_512) : (⟨S32768x1024, .f32⟩ : BufTy).Contents (Elt F) → (⟨S32768x256, .f32⟩ : BufTy).Contents (Elt F)),
    StableHlo.unary main_v9 main_v13 ((extractStridedSlice S32768x256 ![0, 768] · slices_S32768x1024_S32768x256_0_768) : (⟨S32768x1024, .f32⟩ : BufTy).Contents (Elt F) → (⟨S32768x256, .f32⟩ : BufTy).Contents (Elt F)),
    StableHlo.unary main_v11 main_v14 (Host.negf : (⟨S32768x256, .f32⟩ : BufTy).Contents (Elt F) → (⟨S32768x256, .f32⟩ : BufTy).Contents (Elt F)),
    StableHlo.unary main_v14 main_v15 (Host.exp : (⟨S32768x256, .f32⟩ : BufTy).Contents (Elt F) → (⟨S32768x256, .f32⟩ : BufTy).Contents (Elt F)),
    StableHlo.nullary main_cst_0 (constant S_ .f32 0x3F800000#32),
    StableHlo.unary main_cst_0 main_v16 (broadcastInDim S32768x256 ![] bcast_S_S32768x256 : (⟨S_, .f32⟩ : BufTy).Contents (Elt F) → (⟨S32768x256, .f32⟩ : BufTy).Contents (Elt F)),
    StableHlo.binary main_v16 main_v15 main_v17 (addf : (⟨S32768x256, .f32⟩ : BufTy).Contents (Elt F) → (⟨S32768x256, .f32⟩ : BufTy).Contents (Elt F) → (⟨S32768x256, .f32⟩ : BufTy).Contents (Elt F)),
    StableHlo.nullary main_cst_1 (constant S_ .f32 0x3F800000#32),
    StableHlo.unary main_cst_1 main_v18 (broadcastInDim S32768x256 ![] bcast_S_S32768x256 : (⟨S_, .f32⟩ : BufTy).Contents (Elt F) → (⟨S32768x256, .f32⟩ : BufTy).Contents (Elt F)),
    StableHlo.binary main_v18 main_v17 main_v19 (Host.divf : (⟨S32768x256, .f32⟩ : BufTy).Contents (Elt F) → (⟨S32768x256, .f32⟩ : BufTy).Contents (Elt F) → (⟨S32768x256, .f32⟩ : BufTy).Contents (Elt F)),
    StableHlo.binary main_v19 main_arg3 main_v20 (mulf : (⟨S32768x256, .f32⟩ : BufTy).Contents (Elt F) → (⟨S32768x256, .f32⟩ : BufTy).Contents (Elt F) → (⟨S32768x256, .f32⟩ : BufTy).Contents (Elt F)),
    StableHlo.unary main_v10 main_v21 (Host.negf : (⟨S32768x256, .f32⟩ : BufTy).Contents (Elt F) → (⟨S32768x256, .f32⟩ : BufTy).Contents (Elt F)),
    StableHlo.unary main_v21 main_v22 (Host.exp : (⟨S32768x256, .f32⟩ : BufTy).Contents (Elt F) → (⟨S32768x256, .f32⟩ : BufTy).Contents (Elt F)),
    StableHlo.nullary main_cst_2 (constant S_ .f32 0x3F800000#32),
    StableHlo.unary main_cst_2 main_v23 (broadcastInDim S32768x256 ![] bcast_S_S32768x256 : (⟨S_, .f32⟩ : BufTy).Contents (Elt F) → (⟨S32768x256, .f32⟩ : BufTy).Contents (Elt F)),
    StableHlo.binary main_v23 main_v22 main_v24 (addf : (⟨S32768x256, .f32⟩ : BufTy).Contents (Elt F) → (⟨S32768x256, .f32⟩ : BufTy).Contents (Elt F) → (⟨S32768x256, .f32⟩ : BufTy).Contents (Elt F)),
    StableHlo.nullary main_cst_3 (constant S_ .f32 0x3F800000#32),
    StableHlo.unary main_cst_3 main_v25 (broadcastInDim S32768x256 ![] bcast_S_S32768x256 : (⟨S_, .f32⟩ : BufTy).Contents (Elt F) → (⟨S32768x256, .f32⟩ : BufTy).Contents (Elt F)),
    StableHlo.binary main_v25 main_v24 main_v26 (Host.divf : (⟨S32768x256, .f32⟩ : BufTy).Contents (Elt F) → (⟨S32768x256, .f32⟩ : BufTy).Contents (Elt F) → (⟨S32768x256, .f32⟩ : BufTy).Contents (Elt F)),
    StableHlo.TRef.nullary main_call0.cst (constant S_ .f32 0x00000000#32),
    StableHlo.TRef.unary main_call0.cst main_call0.v0 (broadcastInDim S32768x256 ![] bcast_S_S32768x256),
    StableHlo.TRef.binary (.of main_v12 : StableHlo.TRef sig ⟨S32768x256, .f32⟩) main_call0.v0 main_call0.v1 (cmpf .ogt),
    StableHlo.TRef.nullary main_call0.cst_0 (constant S_ .f32 0x00000000#32),
    StableHlo.TRef.unary main_call0.cst_0 main_call0.v2 (broadcastInDim S32768x256 ![] bcast_S_S32768x256),
    StableHlo.TRef.binary (.of main_v12 : StableHlo.TRef sig ⟨S32768x256, .f32⟩) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S32768x256 ![] bcast_S_S32768x256),
    StableHlo.TRef.ternary main_call0.v3 main_call0.call0.v1 (.of main_v12 : StableHlo.TRef sig ⟨S32768x256, .f32⟩) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S32768x256 ![] bcast_S_S32768x256),
    StableHlo.TRef.binary main_call0.v6 main_call0.v5 main_call0.v7 mulf,
    StableHlo.TRef.ternary main_call0.v1 (.of main_v12 : StableHlo.TRef sig ⟨S32768x256, .f32⟩) main_call0.v7 main_call0.call1.v0 select,
    StableHlo.binary main_v26 main_v27 main_v28 (mulf : (⟨S32768x256, .f32⟩ : BufTy).Contents (Elt F) → (⟨S32768x256, .f32⟩ : BufTy).Contents (Elt F) → (⟨S32768x256, .f32⟩ : BufTy).Contents (Elt F)),
    StableHlo.binary main_v20 main_v28 main_v29 (addf : (⟨S32768x256, .f32⟩ : BufTy).Contents (Elt F) → (⟨S32768x256, .f32⟩ : BufTy).Contents (Elt F) → (⟨S32768x256, .f32⟩ : BufTy).Contents (Elt F)),
    StableHlo.unary main_v13 main_v30 (Host.negf : (⟨S32768x256, .f32⟩ : BufTy).Contents (Elt F) → (⟨S32768x256, .f32⟩ : BufTy).Contents (Elt F)),
    StableHlo.unary main_v30 main_v31 (Host.exp : (⟨S32768x256, .f32⟩ : BufTy).Contents (Elt F) → (⟨S32768x256, .f32⟩ : BufTy).Contents (Elt F)),
    StableHlo.nullary main_cst_4 (constant S_ .f32 0x3F800000#32),
    StableHlo.unary main_cst_4 main_v32 (broadcastInDim S32768x256 ![] bcast_S_S32768x256 : (⟨S_, .f32⟩ : BufTy).Contents (Elt F) → (⟨S32768x256, .f32⟩ : BufTy).Contents (Elt F)),
    StableHlo.binary main_v32 main_v31 main_v33 (addf : (⟨S32768x256, .f32⟩ : BufTy).Contents (Elt F) → (⟨S32768x256, .f32⟩ : BufTy).Contents (Elt F) → (⟨S32768x256, .f32⟩ : BufTy).Contents (Elt F)),
    StableHlo.nullary main_cst_5 (constant S_ .f32 0x3F800000#32),
    StableHlo.unary main_cst_5 main_v34 (broadcastInDim S32768x256 ![] bcast_S_S32768x256 : (⟨S_, .f32⟩ : BufTy).Contents (Elt F) → (⟨S32768x256, .f32⟩ : BufTy).Contents (Elt F)),
    StableHlo.binary main_v34 main_v33 main_v35 (Host.divf : (⟨S32768x256, .f32⟩ : BufTy).Contents (Elt F) → (⟨S32768x256, .f32⟩ : BufTy).Contents (Elt F) → (⟨S32768x256, .f32⟩ : BufTy).Contents (Elt F)),
    StableHlo.TRef.nullary main_call1.cst (constant S_ .f32 0x00000000#32),
    StableHlo.TRef.unary main_call1.cst main_call1.v0 (broadcastInDim S32768x256 ![] bcast_S_S32768x256),
    StableHlo.TRef.binary (.of main_v29 : StableHlo.TRef sig ⟨S32768x256, .f32⟩) main_call1.v0 main_call1.v1 (cmpf .ogt),
    StableHlo.TRef.nullary main_call1.cst_0 (constant S_ .f32 0x00000000#32),
    StableHlo.TRef.unary main_call1.cst_0 main_call1.v2 (broadcastInDim S32768x256 ![] bcast_S_S32768x256),
    StableHlo.TRef.binary (.of main_v29 : StableHlo.TRef sig ⟨S32768x256, .f32⟩) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S32768x256 ![] bcast_S_S32768x256),
    StableHlo.TRef.ternary main_call1.v3 main_call1.call0.v1 (.of main_v29 : StableHlo.TRef sig ⟨S32768x256, .f32⟩) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S32768x256 ![] bcast_S_S32768x256),
    StableHlo.TRef.binary main_call1.v6 main_call1.v5 main_call1.v7 mulf,
    StableHlo.TRef.ternary main_call1.v1 (.of main_v29 : StableHlo.TRef sig ⟨S32768x256, .f32⟩) main_call1.v7 main_call1.call1.v0 select,
    StableHlo.binary main_v35 main_v36 main_v37 (mulf : (⟨S32768x256, .f32⟩ : BufTy).Contents (Elt F) → (⟨S32768x256, .f32⟩ : BufTy).Contents (Elt F) → (⟨S32768x256, .f32⟩ : BufTy).Contents (Elt F)) ]

/-- The second recurrent layer, of the same shape: pre-activations `x₀ · W₇ + h₁ · W₈ + b₉` (the first column block of
    the input and the first layer's hidden state), the four gates, the new cell from the first layer's cell, and
    the hidden state `o · elu c'`. -/
abbrev opsLstm2 : List (HloOp τ sig (Elt F)) :=
  [ StableHlo.binary main_v0 main_arg7 main_v38 ((fun l r => Host.dotGeneral dot_S32768x64_S64x1024_S32768x1024_1_0_0_1_n_n none l r) : (⟨S32768x64, .f32⟩ : BufTy).Contents (Elt F) → (⟨S64x1024, .f32⟩ : BufTy).Contents (Elt F) → (⟨S32768x1024, .f32⟩ : BufTy).Contents (Elt F)),
    StableHlo.binary main_v37 main_arg8 main_v39 ((fun l r => Host.dotGeneral dot_S32768x256_S256x1024_S32768x1024_1_0_0_1_n_n none l r) : (⟨S32768x256, .f32⟩ : BufTy).Contents (Elt F) → (⟨S256x1024, .f32⟩ : BufTy).Contents (Elt F) → (⟨S32768x1024, .f32⟩ : BufTy).Contents (Elt F)),
    StableHlo.binary main_v38 main_v39 main_v40 (addf : (⟨S32768x1024, .f32⟩ : BufTy).Contents (Elt F) → (⟨S32768x1024, .f32⟩ : BufTy).Contents (Elt F) → (⟨S32768x1024, .f32⟩ : BufTy).Contents (Elt F)),
    StableHlo.unary main_arg9 main_v41 (broadcastInDim S1x1024 ![1] bcast_S1024_S1x1024_1 : (⟨S1024, .f32⟩ : BufTy).Contents (Elt F) → (⟨S1x1024, .f32⟩ : BufTy).Contents (Elt F)),
    StableHlo.unary main_v41 main_v42 (broadcastInDim S32768x1024 ![0, 1] bcast_S1x1024_S32768x1024_0_1 : (⟨S1x1024, .f32⟩ : BufTy).Contents (Elt F) → (⟨S32768x1024, .f32⟩ : BufTy).Contents (Elt F)),
    StableHlo.binary main_v40 main_v42 main_v43 (addf : (⟨S32768x1024, .f32⟩ : BufTy).Contents (Elt F) → (⟨S32768x1024, .f32⟩ : BufTy).Contents (Elt F) → (⟨S32768x1024, .f32⟩ : BufTy).Contents (Elt F)),
    StableHlo.unary main_v43 main_v44 ((extractStridedSlice S32768x256 ![0, 0] · slices_S32768x1024_S32768x256_0_0) : (⟨S32768x1024, .f32⟩ : BufTy).Contents (Elt F) → (⟨S32768x256, .f32⟩ : BufTy).Contents (Elt F)),
    StableHlo.unary main_v43 main_v45 ((extractStridedSlice S32768x256 ![0, 256] · slices_S32768x1024_S32768x256_0_256) : (⟨S32768x1024, .f32⟩ : BufTy).Contents (Elt F) → (⟨S32768x256, .f32⟩ : BufTy).Contents (Elt F)),
    StableHlo.unary main_v43 main_v46 ((extractStridedSlice S32768x256 ![0, 512] · slices_S32768x1024_S32768x256_0_512) : (⟨S32768x1024, .f32⟩ : BufTy).Contents (Elt F) → (⟨S32768x256, .f32⟩ : BufTy).Contents (Elt F)),
    StableHlo.unary main_v43 main_v47 ((extractStridedSlice S32768x256 ![0, 768] · slices_S32768x1024_S32768x256_0_768) : (⟨S32768x1024, .f32⟩ : BufTy).Contents (Elt F) → (⟨S32768x256, .f32⟩ : BufTy).Contents (Elt F)),
    StableHlo.unary main_v45 main_v48 (Host.negf : (⟨S32768x256, .f32⟩ : BufTy).Contents (Elt F) → (⟨S32768x256, .f32⟩ : BufTy).Contents (Elt F)),
    StableHlo.unary main_v48 main_v49 (Host.exp : (⟨S32768x256, .f32⟩ : BufTy).Contents (Elt F) → (⟨S32768x256, .f32⟩ : BufTy).Contents (Elt F)),
    StableHlo.nullary main_cst_6 (constant S_ .f32 0x3F800000#32),
    StableHlo.unary main_cst_6 main_v50 (broadcastInDim S32768x256 ![] bcast_S_S32768x256 : (⟨S_, .f32⟩ : BufTy).Contents (Elt F) → (⟨S32768x256, .f32⟩ : BufTy).Contents (Elt F)),
    StableHlo.binary main_v50 main_v49 main_v51 (addf : (⟨S32768x256, .f32⟩ : BufTy).Contents (Elt F) → (⟨S32768x256, .f32⟩ : BufTy).Contents (Elt F) → (⟨S32768x256, .f32⟩ : BufTy).Contents (Elt F)),
    StableHlo.nullary main_cst_7 (constant S_ .f32 0x3F800000#32),
    StableHlo.unary main_cst_7 main_v52 (broadcastInDim S32768x256 ![] bcast_S_S32768x256 : (⟨S_, .f32⟩ : BufTy).Contents (Elt F) → (⟨S32768x256, .f32⟩ : BufTy).Contents (Elt F)),
    StableHlo.binary main_v52 main_v51 main_v53 (Host.divf : (⟨S32768x256, .f32⟩ : BufTy).Contents (Elt F) → (⟨S32768x256, .f32⟩ : BufTy).Contents (Elt F) → (⟨S32768x256, .f32⟩ : BufTy).Contents (Elt F)),
    StableHlo.binary main_v53 main_v29 main_v54 (mulf : (⟨S32768x256, .f32⟩ : BufTy).Contents (Elt F) → (⟨S32768x256, .f32⟩ : BufTy).Contents (Elt F) → (⟨S32768x256, .f32⟩ : BufTy).Contents (Elt F)),
    StableHlo.unary main_v44 main_v55 (Host.negf : (⟨S32768x256, .f32⟩ : BufTy).Contents (Elt F) → (⟨S32768x256, .f32⟩ : BufTy).Contents (Elt F)),
    StableHlo.unary main_v55 main_v56 (Host.exp : (⟨S32768x256, .f32⟩ : BufTy).Contents (Elt F) → (⟨S32768x256, .f32⟩ : BufTy).Contents (Elt F)),
    StableHlo.nullary main_cst_8 (constant S_ .f32 0x3F800000#32),
    StableHlo.unary main_cst_8 main_v57 (broadcastInDim S32768x256 ![] bcast_S_S32768x256 : (⟨S_, .f32⟩ : BufTy).Contents (Elt F) → (⟨S32768x256, .f32⟩ : BufTy).Contents (Elt F)),
    StableHlo.binary main_v57 main_v56 main_v58 (addf : (⟨S32768x256, .f32⟩ : BufTy).Contents (Elt F) → (⟨S32768x256, .f32⟩ : BufTy).Contents (Elt F) → (⟨S32768x256, .f32⟩ : BufTy).Contents (Elt F)),
    StableHlo.nullary main_cst_9 (constant S_ .f32 0x3F800000#32),
    StableHlo.unary main_cst_9 main_v59 (broadcastInDim S32768x256 ![] bcast_S_S32768x256 : (⟨S_, .f32⟩ : BufTy).Contents (Elt F) → (⟨S32768x256, .f32⟩ : BufTy).Contents (Elt F)),
    StableHlo.binary main_v59 main_v58 main_v60 (Host.divf : (⟨S32768x256, .f32⟩ : BufTy).Contents (Elt F) → (⟨S32768x256, .f32⟩ : BufTy).Contents (Elt F) → (⟨S32768x256, .f32⟩ : BufTy).Contents (Elt F)),
    StableHlo.TRef.nullary main_call2.cst (constant S_ .f32 0x00000000#32),
    StableHlo.TRef.unary main_call2.cst main_call2.v0 (broadcastInDim S32768x256 ![] bcast_S_S32768x256),
    StableHlo.TRef.binary (.of main_v46 : StableHlo.TRef sig ⟨S32768x256, .f32⟩) main_call2.v0 main_call2.v1 (cmpf .ogt),
    StableHlo.TRef.nullary main_call2.cst_0 (constant S_ .f32 0x00000000#32),
    StableHlo.TRef.unary main_call2.cst_0 main_call2.v2 (broadcastInDim S32768x256 ![] bcast_S_S32768x256),
    StableHlo.TRef.binary (.of main_v46 : StableHlo.TRef sig ⟨S32768x256, .f32⟩) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S32768x256 ![] bcast_S_S32768x256),
    StableHlo.TRef.ternary main_call2.v3 main_call2.call0.v1 (.of main_v46 : StableHlo.TRef sig ⟨S32768x256, .f32⟩) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S32768x256 ![] bcast_S_S32768x256),
    StableHlo.TRef.binary main_call2.v6 main_call2.v5 main_call2.v7 mulf,
    StableHlo.TRef.ternary main_call2.v1 (.of main_v46 : StableHlo.TRef sig ⟨S32768x256, .f32⟩) main_call2.v7 main_call2.call1.v0 select,
    StableHlo.binary main_v60 main_v61 main_v62 (mulf : (⟨S32768x256, .f32⟩ : BufTy).Contents (Elt F) → (⟨S32768x256, .f32⟩ : BufTy).Contents (Elt F) → (⟨S32768x256, .f32⟩ : BufTy).Contents (Elt F)),
    StableHlo.binary main_v54 main_v62 main_v63 (addf : (⟨S32768x256, .f32⟩ : BufTy).Contents (Elt F) → (⟨S32768x256, .f32⟩ : BufTy).Contents (Elt F) → (⟨S32768x256, .f32⟩ : BufTy).Contents (Elt F)),
    StableHlo.unary main_v47 main_v64 (Host.negf : (⟨S32768x256, .f32⟩ : BufTy).Contents (Elt F) → (⟨S32768x256, .f32⟩ : BufTy).Contents (Elt F)),
    StableHlo.unary main_v64 main_v65 (Host.exp : (⟨S32768x256, .f32⟩ : BufTy).Contents (Elt F) → (⟨S32768x256, .f32⟩ : BufTy).Contents (Elt F)),
    StableHlo.nullary main_cst_10 (constant S_ .f32 0x3F800000#32),
    StableHlo.unary main_cst_10 main_v66 (broadcastInDim S32768x256 ![] bcast_S_S32768x256 : (⟨S_, .f32⟩ : BufTy).Contents (Elt F) → (⟨S32768x256, .f32⟩ : BufTy).Contents (Elt F)),
    StableHlo.binary main_v66 main_v65 main_v67 (addf : (⟨S32768x256, .f32⟩ : BufTy).Contents (Elt F) → (⟨S32768x256, .f32⟩ : BufTy).Contents (Elt F) → (⟨S32768x256, .f32⟩ : BufTy).Contents (Elt F)),
    StableHlo.nullary main_cst_11 (constant S_ .f32 0x3F800000#32),
    StableHlo.unary main_cst_11 main_v68 (broadcastInDim S32768x256 ![] bcast_S_S32768x256 : (⟨S_, .f32⟩ : BufTy).Contents (Elt F) → (⟨S32768x256, .f32⟩ : BufTy).Contents (Elt F)),
    StableHlo.binary main_v68 main_v67 main_v69 (Host.divf : (⟨S32768x256, .f32⟩ : BufTy).Contents (Elt F) → (⟨S32768x256, .f32⟩ : BufTy).Contents (Elt F) → (⟨S32768x256, .f32⟩ : BufTy).Contents (Elt F)),
    StableHlo.TRef.nullary main_call3.cst (constant S_ .f32 0x00000000#32),
    StableHlo.TRef.unary main_call3.cst main_call3.v0 (broadcastInDim S32768x256 ![] bcast_S_S32768x256),
    StableHlo.TRef.binary (.of main_v63 : StableHlo.TRef sig ⟨S32768x256, .f32⟩) main_call3.v0 main_call3.v1 (cmpf .ogt),
    StableHlo.TRef.nullary main_call3.cst_0 (constant S_ .f32 0x00000000#32),
    StableHlo.TRef.unary main_call3.cst_0 main_call3.v2 (broadcastInDim S32768x256 ![] bcast_S_S32768x256),
    StableHlo.TRef.binary (.of main_v63 : StableHlo.TRef sig ⟨S32768x256, .f32⟩) main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S32768x256 ![] bcast_S_S32768x256),
    StableHlo.TRef.ternary main_call3.v3 main_call3.call0.v1 (.of main_v63 : StableHlo.TRef sig ⟨S32768x256, .f32⟩) main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S32768x256 ![] bcast_S_S32768x256),
    StableHlo.TRef.binary main_call3.v6 main_call3.v5 main_call3.v7 mulf,
    StableHlo.TRef.ternary main_call3.v1 (.of main_v63 : StableHlo.TRef sig ⟨S32768x256, .f32⟩) main_call3.v7 main_call3.call1.v0 select,
    StableHlo.binary main_v69 main_v70 main_v71 (mulf : (⟨S32768x256, .f32⟩ : BufTy).Contents (Elt F) → (⟨S32768x256, .f32⟩ : BufTy).Contents (Elt F) → (⟨S32768x256, .f32⟩ : BufTy).Contents (Elt F)) ]

/-- The first mask column `m` of the second argument, and the two convex blends by it: hidden state
    `h₁ · (1 − m) + m · h₂` and cell `c₁ · (1 − m) + m · c₂`, the column broadcast across the 256 features. -/
abbrev opsBlend2 : List (HloOp τ sig (Elt F)) :=
  [ StableHlo.unary main_arg1 main_v72 ((extractStridedSlice S32768x1 ![0, 0] · slices_S32768x2_S32768x1_0_0) : (⟨S32768x2, .f32⟩ : BufTy).Contents (Elt F) → (⟨S32768x1, .f32⟩ : BufTy).Contents (Elt F)),
    StableHlo.nullary main_cst_12 (constant S_ .f32 0x3F800000#32),
    StableHlo.unary main_cst_12 main_v73 (broadcastInDim S32768x1 ![] bcast_S_S32768x1 : (⟨S_, .f32⟩ : BufTy).Contents (Elt F) → (⟨S32768x1, .f32⟩ : BufTy).Contents (Elt F)),
    StableHlo.binary main_v73 main_v72 main_v74 (subf : (⟨S32768x1, .f32⟩ : BufTy).Contents (Elt F) → (⟨S32768x1, .f32⟩ : BufTy).Contents (Elt F) → (⟨S32768x1, .f32⟩ : BufTy).Contents (Elt F)),
    StableHlo.unary main_v74 main_v75 (broadcastInDim S32768x256 ![0, 1] bcast_S32768x1_S32768x256_0_1 : (⟨S32768x1, .f32⟩ : BufTy).Contents (Elt F) → (⟨S32768x256, .f32⟩ : BufTy).Contents (Elt F)),
    StableHlo.binary main_v37 main_v75 main_v76 (mulf : (⟨S32768x256, .f32⟩ : BufTy).Contents (Elt F) → (⟨S32768x256, .f32⟩ : BufTy).Contents (Elt F) → (⟨S32768x256, .f32⟩ : BufTy).Contents (Elt F)),
    StableHlo.unary main_v72 main_v77 (broadcastInDim S32768x256 ![0, 1] bcast_S32768x1_S32768x256_0_1 : (⟨S32768x1, .f32⟩ : BufTy).Contents (Elt F) → (⟨S32768x256, .f32⟩ : BufTy).Contents (Elt F)),
    StableHlo.binary main_v77 main_v71 main_v78 (mulf : (⟨S32768x256, .f32⟩ : BufTy).Contents (Elt F) → (⟨S32768x256, .f32⟩ : BufTy).Contents (Elt F) → (⟨S32768x256, .f32⟩ : BufTy).Contents (Elt F)),
    StableHlo.binary main_v76 main_v78 main_v79 (addf : (⟨S32768x256, .f32⟩ : BufTy).Contents (Elt F) → (⟨S32768x256, .f32⟩ : BufTy).Contents (Elt F) → (⟨S32768x256, .f32⟩ : BufTy).Contents (Elt F)),
    StableHlo.nullary main_cst_13 (constant S_ .f32 0x3F800000#32),
    StableHlo.unary main_cst_13 main_v80 (broadcastInDim S32768x1 ![] bcast_S_S32768x1 : (⟨S_, .f32⟩ : BufTy).Contents (Elt F) → (⟨S32768x1, .f32⟩ : BufTy).Contents (Elt F)),
    StableHlo.binary main_v80 main_v72 main_v81 (subf : (⟨S32768x1, .f32⟩ : BufTy).Contents (Elt F) → (⟨S32768x1, .f32⟩ : BufTy).Contents (Elt F) → (⟨S32768x1, .f32⟩ : BufTy).Contents (Elt F)),
    StableHlo.unary main_v81 main_v82 (broadcastInDim S32768x256 ![0, 1] bcast_S32768x1_S32768x256_0_1 : (⟨S32768x1, .f32⟩ : BufTy).Contents (Elt F) → (⟨S32768x256, .f32⟩ : BufTy).Contents (Elt F)),
    StableHlo.binary main_v29 main_v82 main_v83 (mulf : (⟨S32768x256, .f32⟩ : BufTy).Contents (Elt F) → (⟨S32768x256, .f32⟩ : BufTy).Contents (Elt F) → (⟨S32768x256, .f32⟩ : BufTy).Contents (Elt F)),
    StableHlo.unary main_v72 main_v84 (broadcastInDim S32768x256 ![0, 1] bcast_S32768x1_S32768x256_0_1 : (⟨S32768x1, .f32⟩ : BufTy).Contents (Elt F) → (⟨S32768x256, .f32⟩ : BufTy).Contents (Elt F)),
    StableHlo.binary main_v84 main_v63 main_v85 (mulf : (⟨S32768x256, .f32⟩ : BufTy).Contents (Elt F) → (⟨S32768x256, .f32⟩ : BufTy).Contents (Elt F) → (⟨S32768x256, .f32⟩ : BufTy).Contents (Elt F)),
    StableHlo.binary main_v83 main_v85 main_v86 (addf : (⟨S32768x256, .f32⟩ : BufTy).Contents (Elt F) → (⟨S32768x256, .f32⟩ : BufTy).Contents (Elt F) → (⟨S32768x256, .f32⟩ : BufTy).Contents (Elt F)) ]

/-- The third recurrent layer: pre-activations `x₁ · W₁₀ + h · W₁₁ + b₁₂` (the second column block of the input and the
    blended hidden state), the four gates, the new cell from the blended cell, and the hidden state. -/
abbrev opsLstm3 : List (HloOp τ sig (Elt F)) :=
  [ StableHlo.binary main_v1 main_arg10 main_v87 ((fun l r => Host.dotGeneral dot_S32768x8_S8x1024_S32768x1024_1_0_0_1_n_n none l r) : (⟨S32768x8, .f32⟩ : BufTy).Contents (Elt F) → (⟨S8x1024, .f32⟩ : BufTy).Contents (Elt F) → (⟨S32768x1024, .f32⟩ : BufTy).Contents (Elt F)),
    StableHlo.binary main_v79 main_arg11 main_v88 ((fun l r => Host.dotGeneral dot_S32768x256_S256x1024_S32768x1024_1_0_0_1_n_n none l r) : (⟨S32768x256, .f32⟩ : BufTy).Contents (Elt F) → (⟨S256x1024, .f32⟩ : BufTy).Contents (Elt F) → (⟨S32768x1024, .f32⟩ : BufTy).Contents (Elt F)),
    StableHlo.binary main_v87 main_v88 main_v89 (addf : (⟨S32768x1024, .f32⟩ : BufTy).Contents (Elt F) → (⟨S32768x1024, .f32⟩ : BufTy).Contents (Elt F) → (⟨S32768x1024, .f32⟩ : BufTy).Contents (Elt F)),
    StableHlo.unary main_arg12 main_v90 (broadcastInDim S1x1024 ![1] bcast_S1024_S1x1024_1 : (⟨S1024, .f32⟩ : BufTy).Contents (Elt F) → (⟨S1x1024, .f32⟩ : BufTy).Contents (Elt F)),
    StableHlo.unary main_v90 main_v91 (broadcastInDim S32768x1024 ![0, 1] bcast_S1x1024_S32768x1024_0_1 : (⟨S1x1024, .f32⟩ : BufTy).Contents (Elt F) → (⟨S32768x1024, .f32⟩ : BufTy).Contents (Elt F)),
    StableHlo.binary main_v89 main_v91 main_v92 (addf : (⟨S32768x1024, .f32⟩ : BufTy).Contents (Elt F) → (⟨S32768x1024, .f32⟩ : BufTy).Contents (Elt F) → (⟨S32768x1024, .f32⟩ : BufTy).Contents (Elt F)),
    StableHlo.unary main_v92 main_v93 ((extractStridedSlice S32768x256 ![0, 0] · slices_S32768x1024_S32768x256_0_0) : (⟨S32768x1024, .f32⟩ : BufTy).Contents (Elt F) → (⟨S32768x256, .f32⟩ : BufTy).Contents (Elt F)),
    StableHlo.unary main_v92 main_v94 ((extractStridedSlice S32768x256 ![0, 256] · slices_S32768x1024_S32768x256_0_256) : (⟨S32768x1024, .f32⟩ : BufTy).Contents (Elt F) → (⟨S32768x256, .f32⟩ : BufTy).Contents (Elt F)),
    StableHlo.unary main_v92 main_v95 ((extractStridedSlice S32768x256 ![0, 512] · slices_S32768x1024_S32768x256_0_512) : (⟨S32768x1024, .f32⟩ : BufTy).Contents (Elt F) → (⟨S32768x256, .f32⟩ : BufTy).Contents (Elt F)),
    StableHlo.unary main_v92 main_v96 ((extractStridedSlice S32768x256 ![0, 768] · slices_S32768x1024_S32768x256_0_768) : (⟨S32768x1024, .f32⟩ : BufTy).Contents (Elt F) → (⟨S32768x256, .f32⟩ : BufTy).Contents (Elt F)),
    StableHlo.unary main_v94 main_v97 (Host.negf : (⟨S32768x256, .f32⟩ : BufTy).Contents (Elt F) → (⟨S32768x256, .f32⟩ : BufTy).Contents (Elt F)),
    StableHlo.unary main_v97 main_v98 (Host.exp : (⟨S32768x256, .f32⟩ : BufTy).Contents (Elt F) → (⟨S32768x256, .f32⟩ : BufTy).Contents (Elt F)),
    StableHlo.nullary main_cst_14 (constant S_ .f32 0x3F800000#32),
    StableHlo.unary main_cst_14 main_v99 (broadcastInDim S32768x256 ![] bcast_S_S32768x256 : (⟨S_, .f32⟩ : BufTy).Contents (Elt F) → (⟨S32768x256, .f32⟩ : BufTy).Contents (Elt F)),
    StableHlo.binary main_v99 main_v98 main_v100 (addf : (⟨S32768x256, .f32⟩ : BufTy).Contents (Elt F) → (⟨S32768x256, .f32⟩ : BufTy).Contents (Elt F) → (⟨S32768x256, .f32⟩ : BufTy).Contents (Elt F)),
    StableHlo.nullary main_cst_15 (constant S_ .f32 0x3F800000#32),
    StableHlo.unary main_cst_15 main_v101 (broadcastInDim S32768x256 ![] bcast_S_S32768x256 : (⟨S_, .f32⟩ : BufTy).Contents (Elt F) → (⟨S32768x256, .f32⟩ : BufTy).Contents (Elt F)),
    StableHlo.binary main_v101 main_v100 main_v102 (Host.divf : (⟨S32768x256, .f32⟩ : BufTy).Contents (Elt F) → (⟨S32768x256, .f32⟩ : BufTy).Contents (Elt F) → (⟨S32768x256, .f32⟩ : BufTy).Contents (Elt F)),
    StableHlo.binary main_v102 main_v86 main_v103 (mulf : (⟨S32768x256, .f32⟩ : BufTy).Contents (Elt F) → (⟨S32768x256, .f32⟩ : BufTy).Contents (Elt F) → (⟨S32768x256, .f32⟩ : BufTy).Contents (Elt F)),
    StableHlo.unary main_v93 main_v104 (Host.negf : (⟨S32768x256, .f32⟩ : BufTy).Contents (Elt F) → (⟨S32768x256, .f32⟩ : BufTy).Contents (Elt F)),
    StableHlo.unary main_v104 main_v105 (Host.exp : (⟨S32768x256, .f32⟩ : BufTy).Contents (Elt F) → (⟨S32768x256, .f32⟩ : BufTy).Contents (Elt F)),
    StableHlo.nullary main_cst_16 (constant S_ .f32 0x3F800000#32),
    StableHlo.unary main_cst_16 main_v106 (broadcastInDim S32768x256 ![] bcast_S_S32768x256 : (⟨S_, .f32⟩ : BufTy).Contents (Elt F) → (⟨S32768x256, .f32⟩ : BufTy).Contents (Elt F)),
    StableHlo.binary main_v106 main_v105 main_v107 (addf : (⟨S32768x256, .f32⟩ : BufTy).Contents (Elt F) → (⟨S32768x256, .f32⟩ : BufTy).Contents (Elt F) → (⟨S32768x256, .f32⟩ : BufTy).Contents (Elt F)),
    StableHlo.nullary main_cst_17 (constant S_ .f32 0x3F800000#32),
    StableHlo.unary main_cst_17 main_v108 (broadcastInDim S32768x256 ![] bcast_S_S32768x256 : (⟨S_, .f32⟩ : BufTy).Contents (Elt F) → (⟨S32768x256, .f32⟩ : BufTy).Contents (Elt F)),
    StableHlo.binary main_v108 main_v107 main_v109 (Host.divf : (⟨S32768x256, .f32⟩ : BufTy).Contents (Elt F) → (⟨S32768x256, .f32⟩ : BufTy).Contents (Elt F) → (⟨S32768x256, .f32⟩ : BufTy).Contents (Elt F)),
    StableHlo.TRef.nullary main_call4.cst (constant S_ .f32 0x00000000#32),
    StableHlo.TRef.unary main_call4.cst main_call4.v0 (broadcastInDim S32768x256 ![] bcast_S_S32768x256),
    StableHlo.TRef.binary (.of main_v95 : StableHlo.TRef sig ⟨S32768x256, .f32⟩) main_call4.v0 main_call4.v1 (cmpf .ogt),
    StableHlo.TRef.nullary main_call4.cst_0 (constant S_ .f32 0x00000000#32),
    StableHlo.TRef.unary main_call4.cst_0 main_call4.v2 (broadcastInDim S32768x256 ![] bcast_S_S32768x256),
    StableHlo.TRef.binary (.of main_v95 : StableHlo.TRef sig ⟨S32768x256, .f32⟩) main_call4.v2 main_call4.v3 (cmpf .ogt),
    StableHlo.TRef.nullary main_call4.cst_1 (constant S_ .f32 0x00000000#32),
    StableHlo.TRef.unary main_call4.cst_1 main_call4.call0.v0 id,
    StableHlo.TRef.unary main_call4.call0.v0 main_call4.call0.v1 (broadcastInDim S32768x256 ![] bcast_S_S32768x256),
    StableHlo.TRef.ternary main_call4.v3 main_call4.call0.v1 (.of main_v95 : StableHlo.TRef sig ⟨S32768x256, .f32⟩) main_call4.call0.v2 select,
    StableHlo.TRef.unary main_call4.call0.v2 main_call4.v5 Host.expm1,
    StableHlo.TRef.nullary main_call4.cst_2 (constant S_ .f32 0x3F800000#32),
    StableHlo.TRef.unary main_call4.cst_2 main_call4.v6 (broadcastInDim S32768x256 ![] bcast_S_S32768x256),
    StableHlo.TRef.binary main_call4.v6 main_call4.v5 main_call4.v7 mulf,
    StableHlo.TRef.ternary main_call4.v1 (.of main_v95 : StableHlo.TRef sig ⟨S32768x256, .f32⟩) main_call4.v7 main_call4.call1.v0 select,
    StableHlo.binary main_v109 main_v110 main_v111 (mulf : (⟨S32768x256, .f32⟩ : BufTy).Contents (Elt F) → (⟨S32768x256, .f32⟩ : BufTy).Contents (Elt F) → (⟨S32768x256, .f32⟩ : BufTy).Contents (Elt F)),
    StableHlo.binary main_v103 main_v111 main_v112 (addf : (⟨S32768x256, .f32⟩ : BufTy).Contents (Elt F) → (⟨S32768x256, .f32⟩ : BufTy).Contents (Elt F) → (⟨S32768x256, .f32⟩ : BufTy).Contents (Elt F)),
    StableHlo.unary main_v96 main_v113 (Host.negf : (⟨S32768x256, .f32⟩ : BufTy).Contents (Elt F) → (⟨S32768x256, .f32⟩ : BufTy).Contents (Elt F)),
    StableHlo.unary main_v113 main_v114 (Host.exp : (⟨S32768x256, .f32⟩ : BufTy).Contents (Elt F) → (⟨S32768x256, .f32⟩ : BufTy).Contents (Elt F)),
    StableHlo.nullary main_cst_18 (constant S_ .f32 0x3F800000#32),
    StableHlo.unary main_cst_18 main_v115 (broadcastInDim S32768x256 ![] bcast_S_S32768x256 : (⟨S_, .f32⟩ : BufTy).Contents (Elt F) → (⟨S32768x256, .f32⟩ : BufTy).Contents (Elt F)),
    StableHlo.binary main_v115 main_v114 main_v116 (addf : (⟨S32768x256, .f32⟩ : BufTy).Contents (Elt F) → (⟨S32768x256, .f32⟩ : BufTy).Contents (Elt F) → (⟨S32768x256, .f32⟩ : BufTy).Contents (Elt F)),
    StableHlo.nullary main_cst_19 (constant S_ .f32 0x3F800000#32),
    StableHlo.unary main_cst_19 main_v117 (broadcastInDim S32768x256 ![] bcast_S_S32768x256 : (⟨S_, .f32⟩ : BufTy).Contents (Elt F) → (⟨S32768x256, .f32⟩ : BufTy).Contents (Elt F)),
    StableHlo.binary main_v117 main_v116 main_v118 (Host.divf : (⟨S32768x256, .f32⟩ : BufTy).Contents (Elt F) → (⟨S32768x256, .f32⟩ : BufTy).Contents (Elt F) → (⟨S32768x256, .f32⟩ : BufTy).Contents (Elt F)),
    StableHlo.TRef.nullary main_call5.cst (constant S_ .f32 0x00000000#32),
    StableHlo.TRef.unary main_call5.cst main_call5.v0 (broadcastInDim S32768x256 ![] bcast_S_S32768x256),
    StableHlo.TRef.binary (.of main_v112 : StableHlo.TRef sig ⟨S32768x256, .f32⟩) main_call5.v0 main_call5.v1 (cmpf .ogt),
    StableHlo.TRef.nullary main_call5.cst_0 (constant S_ .f32 0x00000000#32),
    StableHlo.TRef.unary main_call5.cst_0 main_call5.v2 (broadcastInDim S32768x256 ![] bcast_S_S32768x256),
    StableHlo.TRef.binary (.of main_v112 : StableHlo.TRef sig ⟨S32768x256, .f32⟩) main_call5.v2 main_call5.v3 (cmpf .ogt),
    StableHlo.TRef.nullary main_call5.cst_1 (constant S_ .f32 0x00000000#32),
    StableHlo.TRef.unary main_call5.cst_1 main_call5.call0.v0 id,
    StableHlo.TRef.unary main_call5.call0.v0 main_call5.call0.v1 (broadcastInDim S32768x256 ![] bcast_S_S32768x256),
    StableHlo.TRef.ternary main_call5.v3 main_call5.call0.v1 (.of main_v112 : StableHlo.TRef sig ⟨S32768x256, .f32⟩) main_call5.call0.v2 select,
    StableHlo.TRef.unary main_call5.call0.v2 main_call5.v5 Host.expm1,
    StableHlo.TRef.nullary main_call5.cst_2 (constant S_ .f32 0x3F800000#32),
    StableHlo.TRef.unary main_call5.cst_2 main_call5.v6 (broadcastInDim S32768x256 ![] bcast_S_S32768x256),
    StableHlo.TRef.binary main_call5.v6 main_call5.v5 main_call5.v7 mulf,
    StableHlo.TRef.ternary main_call5.v1 (.of main_v112 : StableHlo.TRef sig ⟨S32768x256, .f32⟩) main_call5.v7 main_call5.call1.v0 select,
    StableHlo.binary main_v118 main_v119 main_v120 (mulf : (⟨S32768x256, .f32⟩ : BufTy).Contents (Elt F) → (⟨S32768x256, .f32⟩ : BufTy).Contents (Elt F) → (⟨S32768x256, .f32⟩ : BufTy).Contents (Elt F)) ]

/-- The second mask column `m'`, the blends by it of the blended state with the third layer's (hidden and cell), and
    once more the blend by `m` of the first two layers' hidden states, its products in the other order. -/
abbrev opsBlend3 : List (HloOp τ sig (Elt F)) :=
  [ StableHlo.unary main_arg1 main_v121 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_20 (constant S_ .f32 0x3F800000#32),
    StableHlo.unary main_cst_20 main_v122 (broadcastInDim S32768x1 ![] bcast_S_S32768x1 : (⟨S_, .f32⟩ : BufTy).Contents (Elt F) → (⟨S32768x1, .f32⟩ : BufTy).Contents (Elt F)),
    StableHlo.binary main_v122 main_v121 main_v123 (subf : (⟨S32768x1, .f32⟩ : BufTy).Contents (Elt F) → (⟨S32768x1, .f32⟩ : BufTy).Contents (Elt F) → (⟨S32768x1, .f32⟩ : BufTy).Contents (Elt F)),
    StableHlo.unary main_v123 main_v124 (broadcastInDim S32768x256 ![0, 1] bcast_S32768x1_S32768x256_0_1 : (⟨S32768x1, .f32⟩ : BufTy).Contents (Elt F) → (⟨S32768x256, .f32⟩ : BufTy).Contents (Elt F)),
    StableHlo.binary main_v79 main_v124 main_v125 (mulf : (⟨S32768x256, .f32⟩ : BufTy).Contents (Elt F) → (⟨S32768x256, .f32⟩ : BufTy).Contents (Elt F) → (⟨S32768x256, .f32⟩ : BufTy).Contents (Elt F)),
    StableHlo.unary main_v121 main_v126 (broadcastInDim S32768x256 ![0, 1] bcast_S32768x1_S32768x256_0_1 : (⟨S32768x1, .f32⟩ : BufTy).Contents (Elt F) → (⟨S32768x256, .f32⟩ : BufTy).Contents (Elt F)),
    StableHlo.binary main_v126 main_v120 main_v127 (mulf : (⟨S32768x256, .f32⟩ : BufTy).Contents (Elt F) → (⟨S32768x256, .f32⟩ : BufTy).Contents (Elt F) → (⟨S32768x256, .f32⟩ : BufTy).Contents (Elt F)),
    StableHlo.binary main_v125 main_v127 main_v128 (addf : (⟨S32768x256, .f32⟩ : BufTy).Contents (Elt F) → (⟨S32768x256, .f32⟩ : BufTy).Contents (Elt F) → (⟨S32768x256, .f32⟩ : BufTy).Contents (Elt F)),
    StableHlo.nullary main_cst_21 (constant S_ .f32 0x3F800000#32),
    StableHlo.unary main_cst_21 main_v129 (broadcastInDim S32768x1 ![] bcast_S_S32768x1 : (⟨S_, .f32⟩ : BufTy).Contents (Elt F) → (⟨S32768x1, .f32⟩ : BufTy).Contents (Elt F)),
    StableHlo.binary main_v129 main_v121 main_v130 (subf : (⟨S32768x1, .f32⟩ : BufTy).Contents (Elt F) → (⟨S32768x1, .f32⟩ : BufTy).Contents (Elt F) → (⟨S32768x1, .f32⟩ : BufTy).Contents (Elt F)),
    StableHlo.unary main_v130 main_v131 (broadcastInDim S32768x256 ![0, 1] bcast_S32768x1_S32768x256_0_1 : (⟨S32768x1, .f32⟩ : BufTy).Contents (Elt F) → (⟨S32768x256, .f32⟩ : BufTy).Contents (Elt F)),
    StableHlo.binary main_v86 main_v131 main_v132 (mulf : (⟨S32768x256, .f32⟩ : BufTy).Contents (Elt F) → (⟨S32768x256, .f32⟩ : BufTy).Contents (Elt F) → (⟨S32768x256, .f32⟩ : BufTy).Contents (Elt F)),
    StableHlo.unary main_v121 main_v133 (broadcastInDim S32768x256 ![0, 1] bcast_S32768x1_S32768x256_0_1 : (⟨S32768x1, .f32⟩ : BufTy).Contents (Elt F) → (⟨S32768x256, .f32⟩ : BufTy).Contents (Elt F)),
    StableHlo.binary main_v133 main_v112 main_v134 (mulf : (⟨S32768x256, .f32⟩ : BufTy).Contents (Elt F) → (⟨S32768x256, .f32⟩ : BufTy).Contents (Elt F) → (⟨S32768x256, .f32⟩ : BufTy).Contents (Elt F)),
    StableHlo.binary main_v132 main_v134 main_v135 (addf : (⟨S32768x256, .f32⟩ : BufTy).Contents (Elt F) → (⟨S32768x256, .f32⟩ : BufTy).Contents (Elt F) → (⟨S32768x256, .f32⟩ : BufTy).Contents (Elt F)),
    StableHlo.nullary main_cst_22 (constant S_ .f32 0x3F800000#32),
    StableHlo.unary main_cst_22 main_v136 (broadcastInDim S32768x1 ![] bcast_S_S32768x1 : (⟨S_, .f32⟩ : BufTy).Contents (Elt F) → (⟨S32768x1, .f32⟩ : BufTy).Contents (Elt F)),
    StableHlo.binary main_v136 main_v72 main_v137 (subf : (⟨S32768x1, .f32⟩ : BufTy).Contents (Elt F) → (⟨S32768x1, .f32⟩ : BufTy).Contents (Elt F) → (⟨S32768x1, .f32⟩ : BufTy).Contents (Elt F)),
    StableHlo.unary main_v137 main_v138 (broadcastInDim S32768x256 ![0, 1] bcast_S32768x1_S32768x256_0_1 : (⟨S32768x1, .f32⟩ : BufTy).Contents (Elt F) → (⟨S32768x256, .f32⟩ : BufTy).Contents (Elt F)),
    StableHlo.binary main_v138 main_v37 main_v139 (mulf : (⟨S32768x256, .f32⟩ : BufTy).Contents (Elt F) → (⟨S32768x256, .f32⟩ : BufTy).Contents (Elt F) → (⟨S32768x256, .f32⟩ : BufTy).Contents (Elt F)),
    StableHlo.unary main_v72 main_v140 (broadcastInDim S32768x256 ![0, 1] bcast_S32768x1_S32768x256_0_1 : (⟨S32768x1, .f32⟩ : BufTy).Contents (Elt F) → (⟨S32768x256, .f32⟩ : BufTy).Contents (Elt F)),
    StableHlo.binary main_v140 main_v71 main_v141 (mulf : (⟨S32768x256, .f32⟩ : BufTy).Contents (Elt F) → (⟨S32768x256, .f32⟩ : BufTy).Contents (Elt F) → (⟨S32768x256, .f32⟩ : BufTy).Contents (Elt F)),
    StableHlo.binary main_v139 main_v141 main_v142 (addf : (⟨S32768x256, .f32⟩ : BufTy).Contents (Elt F) → (⟨S32768x256, .f32⟩ : BufTy).Contents (Elt F) → (⟨S32768x256, .f32⟩ : BufTy).Contents (Elt F)) ]

/-- The read-out: `elu` of the affine image `· W₁₃ + b₁₄` of that last blend; its two affine images into eight columns
    each (`W₁₅, b₁₆` and `W₁₇, b₁₈`); `softplus` of the second — fourteen operations: `max x 0 + log1p (exp (-|x − 0|))`,
    or `x + 0` where `x − 0` is not a number — and the two joined side by side into sixteen columns. -/
abbrev opsDecoder : List (HloOp τ sig (Elt F)) :=
  [ StableHlo.binary main_v142 main_arg13 main_v143 ((fun l r => Host.dotGeneral dot_S32768x256_S256x256_S32768x256_1_0_0_1_n_n none l r) : (⟨S32768x256, .f32⟩ : BufTy).Contents (Elt F) → (⟨S256x256, .f32⟩ : BufTy).Contents (Elt F) → (⟨S32768x256, .f32⟩ : BufTy).Contents (Elt F)),
    StableHlo.unary main_arg14 main_v144 (broadcastInDim S1x256 ![1] bcast_S256_S1x256_1 : (⟨S256, .f32⟩ : BufTy).Contents (Elt F) → (⟨S1x256, .f32⟩ : BufTy).Contents (Elt F)),
    StableHlo.unary main_v144 main_v145 (broadcastInDim S32768x256 ![0, 1] bcast_S1x256_S32768x256_0_1 : (⟨S1x256, .f32⟩ : BufTy).Contents (Elt F) → (⟨S32768x256, .f32⟩ : BufTy).Contents (Elt F)),
    StableHlo.binary main_v143 main_v145 main_v146 (addf : (⟨S32768x256, .f32⟩ : BufTy).Contents (Elt F) → (⟨S32768x256, .f32⟩ : BufTy).Contents (Elt F) → (⟨S32768x256, .f32⟩ : BufTy).Contents (Elt F)),
    StableHlo.TRef.nullary main_call6.cst (constant S_ .f32 0x00000000#32),
    StableHlo.TRef.unary main_call6.cst main_call6.v0 (broadcastInDim S32768x256 ![] bcast_S_S32768x256),
    StableHlo.TRef.binary (.of main_v146 : StableHlo.TRef sig ⟨S32768x256, .f32⟩) main_call6.v0 main_call6.v1 (cmpf .ogt),
    StableHlo.TRef.nullary main_call6.cst_0 (constant S_ .f32 0x00000000#32),
    StableHlo.TRef.unary main_call6.cst_0 main_call6.v2 (broadcastInDim S32768x256 ![] bcast_S_S32768x256),
    StableHlo.TRef.binary (.of main_v146 : StableHlo.TRef sig ⟨S32768x256, .f32⟩) main_call6.v2 main_call6.v3 (cmpf .ogt),
    StableHlo.TRef.nullary main_call6.cst_1 (constant S_ .f32 0x00000000#32),
    StableHlo.TRef.unary main_call6.cst_1 main_call6.call0.v0 id,
    StableHlo.TRef.unary main_call6.call0.v0 main_call6.call0.v1 (broadcastInDim S32768x256 ![] bcast_S_S32768x256),
    StableHlo.TRef.ternary main_call6.v3 main_call6.call0.v1 (.of main_v146 : StableHlo.TRef sig ⟨S32768x256, .f32⟩) main_call6.call0.v2 select,
    StableHlo.TRef.unary main_call6.call0.v2 main_call6.v5 Host.expm1,
    StableHlo.TRef.nullary main_call6.cst_2 (constant S_ .f32 0x3F800000#32),
    StableHlo.TRef.unary main_call6.cst_2 main_call6.v6 (broadcastInDim S32768x256 ![] bcast_S_S32768x256),
    StableHlo.TRef.binary main_call6.v6 main_call6.v5 main_call6.v7 mulf,
    StableHlo.TRef.ternary main_call6.v1 (.of main_v146 : StableHlo.TRef sig ⟨S32768x256, .f32⟩) main_call6.v7 main_call6.call1.v0 select,
    StableHlo.binary main_v147 main_arg15 main_v148 ((fun l r => Host.dotGeneral dot_S32768x256_S256x8_S32768x8_1_0_0_1_n_n none l r) : (⟨S32768x256, .f32⟩ : BufTy).Contents (Elt F) → (⟨S256x8, .f32⟩ : BufTy).Contents (Elt F) → (⟨S32768x8, .f32⟩ : BufTy).Contents (Elt F)),
    StableHlo.unary main_arg16 main_v149 (broadcastInDim S1x8 ![1] bcast_S8_S1x8_1 : (⟨S8, .f32⟩ : BufTy).Contents (Elt F) → (⟨S1x8, .f32⟩ : BufTy).Contents (Elt F)),
    StableHlo.unary main_v149 main_v150 (broadcastInDim S32768x8 ![0, 1] bcast_S1x8_S32768x8_0_1 : (⟨S1x8, .f32⟩ : BufTy).Contents (Elt F) → (⟨S32768x8, .f32⟩ : BufTy).Contents (Elt F)),
    StableHlo.binary main_v148 main_v150 main_v151 (addf : (⟨S32768x8, .f32⟩ : BufTy).Contents (Elt F) → (⟨S32768x8, .f32⟩ : BufTy).Contents (Elt F) → (⟨S32768x8, .f32⟩ : BufTy).Contents (Elt F)),
    StableHlo.binary main_v147 main_arg17 main_v152 ((fun l r => Host.dotGeneral dot_S32768x256_S256x8_S32768x8_1_0_0_1_n_n none l r) : (⟨S32768x256, .f32⟩ : BufTy).Contents (Elt F) → (⟨S256x8, .f32⟩ : BufTy).Contents (Elt F) → (⟨S32768x8, .f32⟩ : BufTy).Contents (Elt F)),
    StableHlo.unary main_arg18 main_v153 (broadcastInDim S1x8 ![1] bcast_S8_S1x8_1 : (⟨S8, .f32⟩ : BufTy).Contents (Elt F) → (⟨S1x8, .f32⟩ : BufTy).Contents (Elt F)),
    StableHlo.unary main_v153 main_v154 (broadcastInDim S32768x8 ![0, 1] bcast_S1x8_S32768x8_0_1 : (⟨S1x8, .f32⟩ : BufTy).Contents (Elt F) → (⟨S32768x8, .f32⟩ : BufTy).Contents (Elt F)),
    StableHlo.binary main_v152 main_v154 main_v155 (addf : (⟨S32768x8, .f32⟩ : BufTy).Contents (Elt F) → (⟨S32768x8, .f32⟩ : BufTy).Contents (Elt F) → (⟨S32768x8, .f32⟩ : BufTy).Contents (Elt F)),
    StableHlo.TRef.nullary main_call7.cst (constant S_ .f32 0x00000000#32),
    StableHlo.TRef.unary main_call7.cst main_call7.v0 (broadcastInDim S32768x8 ![] bcast_S_S32768x8),
    StableHlo.TRef.binary (.of main_v155 : StableHlo.TRef sig ⟨S32768x8, .f32⟩) main_call7.v0 main_call7.v1 maximumf,
    StableHlo.TRef.unary main_call7.cst main_call7.v2 (broadcastInDim S32768x8 ![] bcast_S_S32768x8),
    StableHlo.TRef.binary (.of main_v155 : StableHlo.TRef sig ⟨S32768x8, .f32⟩) main_call7.v2 main_call7.v3 subf,
    StableHlo.TRef.binary main_call7.v3 main_call7.v3 main_call7.v4 (cmpf .une),
    StableHlo.TRef.unary main_call7.cst main_call7.v5 (broadcastInDim S32768x8 ![] bcast_S_S32768x8),
    StableHlo.TRef.binary (.of main_v155 : StableHlo.TRef sig ⟨S32768x8, .f32⟩) main_call7.v5 main_call7.v6 addf,
    StableHlo.TRef.unary main_call7.v3 main_call7.v7 Host.absf,
    StableHlo.TRef.unary main_call7.v7 main_call7.v8 Host.negf,
    StableHlo.TRef.unary main_call7.v8 main_call7.v9 Host.exp,
    StableHlo.TRef.unary main_call7.v9 main_call7.v10 Host.log1p,
    StableHlo.TRef.binary main_call7.v1 main_call7.v10 main_call7.v11 addf,
    StableHlo.TRef.ternary main_call7.v4 main_call7.v6 main_call7.v11 main_call7.v12 select,
    StableHlo.binary main_v151 main_v156 main_v157 ((fun a b => concatenate S32768x16 1 [⟨S32768x8, a⟩, ⟨S32768x8, b⟩] concatenates_S32768x8_S32768x8_S32768x16_d1) : (⟨S32768x8, .f32⟩ : BufTy).Contents (Elt F) → (⟨S32768x8, .f32⟩ : BufTy).Contents (Elt F) → (⟨S32768x16, .f32⟩ : BufTy).Contents (Elt F)) ]

/-- @main's operations: the six pieces in order. -/
abbrev ops : List (HloOp τ sig (Elt F)) :=
  opsLstm1 ++ (opsLstm2 ++ (opsBlend2 ++ (opsLstm3 ++ (opsBlend3 ++ opsDecoder))))

/-! ## The same operations, cut where the printed program is cut

@main is printed as four windows run in order; the operations of each, the calls unfolded. -/

/-- The operations of the first window. -/
abbrev window0 : List (HloOp τ sig (Elt F)) :=
  [ StableHlo.unary main_arg0 main_v0 ((extractStridedSlice S32768x64 ![0, 0] · slices_S32768x72_S32768x64_0_0) : (⟨S32768x72, .f32⟩ : BufTy).Contents (Elt F) → (⟨S32768x64, .f32⟩ : BufTy).Contents (Elt F)),
    StableHlo.unary main_arg0 main_v1 ((extractStridedSlice S32768x8 ![0, 64] · slices_S32768x72_S32768x8_0_64) : (⟨S32768x72, .f32⟩ : BufTy).Contents (Elt F) → (⟨S32768x8, .f32⟩ : BufTy).Contents (Elt F)),
    StableHlo.unary main_arg0 main_v2 ((extractStridedSlice S32768x1 ![0, 0] · slices_S32768x72_S32768x1_0_0) : (⟨S32768x72, .f32⟩ : BufTy).Contents (Elt F) → (⟨S32768x1, .f32⟩ : BufTy).Contents (Elt F)),
    StableHlo.nullary main_cst (constant S_ .f32 0x00000000#32),
    StableHlo.unary main_cst main_v3 (broadcastInDim S32768x1 ![] bcast_S_S32768x1 : (⟨S_, .f32⟩ : BufTy).Contents (Elt F) → (⟨S32768x1, .f32⟩ : BufTy).Contents (Elt F)),
    StableHlo.binary main_v3 main_arg4 main_v4 ((fun l r => Host.dotGeneral dot_S32768x1_S1x1024_S32768x1024_1_0_0_1_n_n none l r) : (⟨S32768x1, .f32⟩ : BufTy).Contents (Elt F) → (⟨S1x1024, .f32⟩ : BufTy).Contents (Elt F) → (⟨S32768x1024, .f32⟩ : BufTy).Contents (Elt F)),
    StableHlo.binary main_arg2 main_arg5 main_v5 ((fun l r => Host.dotGeneral dot_S32768x256_S256x1024_S32768x1024_1_0_0_1_n_n none l r) : (⟨S32768x256, .f32⟩ : BufTy).Contents (Elt F) → (⟨S256x1024, .f32⟩ : BufTy).Contents (Elt F) → (⟨S32768x1024, .f32⟩ : BufTy).Contents (Elt F)),
    StableHlo.binary main_v4 main_v5 main_v6 (addf : (⟨S32768x1024, .f32⟩ : BufTy).Contents (Elt F) → (⟨S32768x1024, .f32⟩ : BufTy).Contents (Elt F) → (⟨S32768x1024, .f32⟩ : BufTy).Contents (Elt F)),
    StableHlo.unary main_arg6 main_v7 (broadcastInDim S1x1024 ![1] bcast_S1024_S1x1024_1 : (⟨S1024, .f32⟩ : BufTy).Contents (Elt F) → (⟨S1x1024, .f32⟩ : BufTy).Contents (Elt F)),
    StableHlo.unary main_v7 main_v8 (broadcastInDim S32768x1024 ![0, 1] bcast_S1x1024_S32768x1024_0_1 : (⟨S1x1024, .f32⟩ : BufTy).Contents (Elt F) → (⟨S32768x1024, .f32⟩ : BufTy).Contents (Elt F)),
    StableHlo.binary main_v6 main_v8 main_v9 (addf : (⟨S32768x1024, .f32⟩ : BufTy).Contents (Elt F) → (⟨S32768x1024, .f32⟩ : BufTy).Contents (Elt F) → (⟨S32768x1024, .f32⟩ : BufTy).Contents (Elt F)),
    StableHlo.unary main_v9 main_v10 ((extractStridedSlice S32768x256 ![0, 0] · slices_S32768x1024_S32768x256_0_0) : (⟨S32768x1024, .f32⟩ : BufTy).Contents (Elt F) → (⟨S32768x256, .f32⟩ : BufTy).Contents (Elt F)),
    StableHlo.unary main_v9 main_v11 ((extractStridedSlice S32768x256 ![0, 256] · slices_S32768x1024_S32768x256_0_256) : (⟨S32768x1024, .f32⟩ : BufTy).Contents (Elt F) → (⟨S32768x256, .f32⟩ : BufTy).Contents (Elt F)),
    StableHlo.unary main_v9 main_v12 ((extractStridedSlice S32768x256 ![0, 512] · slices_S32768x1024_S32768x256_0_512) : (⟨S32768x1024, .f32⟩ : BufTy).Contents (Elt F) → (⟨S32768x256, .f32⟩ : BufTy).Contents (Elt F)),
    StableHlo.unary main_v9 main_v13 ((extractStridedSlice S32768x256 ![0, 768] · slices_S32768x1024_S32768x256_0_768) : (⟨S32768x1024, .f32⟩ : BufTy).Contents (Elt F) → (⟨S32768x256, .f32⟩ : BufTy).Contents (Elt F)),
    StableHlo.unary main_v11 main_v14 (Host.negf : (⟨S32768x256, .f32⟩ : BufTy).Contents (Elt F) → (⟨S32768x256, .f32⟩ : BufTy).Contents (Elt F)),
    StableHlo.unary main_v14 main_v15 (Host.exp : (⟨S32768x256, .f32⟩ : BufTy).Contents (Elt F) → (⟨S32768x256, .f32⟩ : BufTy).Contents (Elt F)),
    StableHlo.nullary main_cst_0 (constant S_ .f32 0x3F800000#32),
    StableHlo.unary main_cst_0 main_v16 (broadcastInDim S32768x256 ![] bcast_S_S32768x256 : (⟨S_, .f32⟩ : BufTy).Contents (Elt F) → (⟨S32768x256, .f32⟩ : BufTy).Contents (Elt F)),
    StableHlo.binary main_v16 main_v15 main_v17 (addf : (⟨S32768x256, .f32⟩ : BufTy).Contents (Elt F) → (⟨S32768x256, .f32⟩ : BufTy).Contents (Elt F) → (⟨S32768x256, .f32⟩ : BufTy).Contents (Elt F)),
    StableHlo.nullary main_cst_1 (constant S_ .f32 0x3F800000#32),
    StableHlo.unary main_cst_1 main_v18 (broadcastInDim S32768x256 ![] bcast_S_S32768x256 : (⟨S_, .f32⟩ : BufTy).Contents (Elt F) → (⟨S32768x256, .f32⟩ : BufTy).Contents (Elt F)),
    StableHlo.binary main_v18 main_v17 main_v19 (Host.divf : (⟨S32768x256, .f32⟩ : BufTy).Contents (Elt F) → (⟨S32768x256, .f32⟩ : BufTy).Contents (Elt F) → (⟨S32768x256, .f32⟩ : BufTy).Contents (Elt F)),
    StableHlo.binary main_v19 main_arg3 main_v20 (mulf : (⟨S32768x256, .f32⟩ : BufTy).Contents (Elt F) → (⟨S32768x256, .f32⟩ : BufTy).Contents (Elt F) → (⟨S32768x256, .f32⟩ : BufTy).Contents (Elt F)),
    StableHlo.unary main_v10 main_v21 (Host.negf : (⟨S32768x256, .f32⟩ : BufTy).Contents (Elt F) → (⟨S32768x256, .f32⟩ : BufTy).Contents (Elt F)),
    StableHlo.unary main_v21 main_v22 (Host.exp : (⟨S32768x256, .f32⟩ : BufTy).Contents (Elt F) → (⟨S32768x256, .f32⟩ : BufTy).Contents (Elt F)),
    StableHlo.nullary main_cst_2 (constant S_ .f32 0x3F800000#32),
    StableHlo.unary main_cst_2 main_v23 (broadcastInDim S32768x256 ![] bcast_S_S32768x256 : (⟨S_, .f32⟩ : BufTy).Contents (Elt F) → (⟨S32768x256, .f32⟩ : BufTy).Contents (Elt F)),
    StableHlo.binary main_v23 main_v22 main_v24 (addf : (⟨S32768x256, .f32⟩ : BufTy).Contents (Elt F) → (⟨S32768x256, .f32⟩ : BufTy).Contents (Elt F) → (⟨S32768x256, .f32⟩ : BufTy).Contents (Elt F)),
    StableHlo.nullary main_cst_3 (constant S_ .f32 0x3F800000#32),
    StableHlo.unary main_cst_3 main_v25 (broadcastInDim S32768x256 ![] bcast_S_S32768x256 : (⟨S_, .f32⟩ : BufTy).Contents (Elt F) → (⟨S32768x256, .f32⟩ : BufTy).Contents (Elt F)),
    StableHlo.binary main_v25 main_v24 main_v26 (Host.divf : (⟨S32768x256, .f32⟩ : BufTy).Contents (Elt F) → (⟨S32768x256, .f32⟩ : BufTy).Contents (Elt F) → (⟨S32768x256, .f32⟩ : BufTy).Contents (Elt F)),
    StableHlo.TRef.nullary main_call0.cst (constant S_ .f32 0x00000000#32),
    StableHlo.TRef.unary main_call0.cst main_call0.v0 (broadcastInDim S32768x256 ![] bcast_S_S32768x256),
    StableHlo.TRef.binary (.of main_v12 : StableHlo.TRef sig ⟨S32768x256, .f32⟩) main_call0.v0 main_call0.v1 (cmpf .ogt),
    StableHlo.TRef.nullary main_call0.cst_0 (constant S_ .f32 0x00000000#32),
    StableHlo.TRef.unary main_call0.cst_0 main_call0.v2 (broadcastInDim S32768x256 ![] bcast_S_S32768x256),
    StableHlo.TRef.binary (.of main_v12 : StableHlo.TRef sig ⟨S32768x256, .f32⟩) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S32768x256 ![] bcast_S_S32768x256),
    StableHlo.TRef.ternary main_call0.v3 main_call0.call0.v1 (.of main_v12 : StableHlo.TRef sig ⟨S32768x256, .f32⟩) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S32768x256 ![] bcast_S_S32768x256),
    StableHlo.TRef.binary main_call0.v6 main_call0.v5 main_call0.v7 mulf,
    StableHlo.TRef.ternary main_call0.v1 (.of main_v12 : StableHlo.TRef sig ⟨S32768x256, .f32⟩) main_call0.v7 main_call0.call1.v0 select,
    StableHlo.binary main_v26 main_v27 main_v28 (mulf : (⟨S32768x256, .f32⟩ : BufTy).Contents (Elt F) → (⟨S32768x256, .f32⟩ : BufTy).Contents (Elt F) → (⟨S32768x256, .f32⟩ : BufTy).Contents (Elt F)),
    StableHlo.binary main_v20 main_v28 main_v29 (addf : (⟨S32768x256, .f32⟩ : BufTy).Contents (Elt F) → (⟨S32768x256, .f32⟩ : BufTy).Contents (Elt F) → (⟨S32768x256, .f32⟩ : BufTy).Contents (Elt F)),
    StableHlo.unary main_v13 main_v30 (Host.negf : (⟨S32768x256, .f32⟩ : BufTy).Contents (Elt F) → (⟨S32768x256, .f32⟩ : BufTy).Contents (Elt F)),
    StableHlo.unary main_v30 main_v31 (Host.exp : (⟨S32768x256, .f32⟩ : BufTy).Contents (Elt F) → (⟨S32768x256, .f32⟩ : BufTy).Contents (Elt F)),
    StableHlo.nullary main_cst_4 (constant S_ .f32 0x3F800000#32),
    StableHlo.unary main_cst_4 main_v32 (broadcastInDim S32768x256 ![] bcast_S_S32768x256 : (⟨S_, .f32⟩ : BufTy).Contents (Elt F) → (⟨S32768x256, .f32⟩ : BufTy).Contents (Elt F)),
    StableHlo.binary main_v32 main_v31 main_v33 (addf : (⟨S32768x256, .f32⟩ : BufTy).Contents (Elt F) → (⟨S32768x256, .f32⟩ : BufTy).Contents (Elt F) → (⟨S32768x256, .f32⟩ : BufTy).Contents (Elt F)),
    StableHlo.nullary main_cst_5 (constant S_ .f32 0x3F800000#32),
    StableHlo.unary main_cst_5 main_v34 (broadcastInDim S32768x256 ![] bcast_S_S32768x256 : (⟨S_, .f32⟩ : BufTy).Contents (Elt F) → (⟨S32768x256, .f32⟩ : BufTy).Contents (Elt F)),
    StableHlo.binary main_v34 main_v33 main_v35 (Host.divf : (⟨S32768x256, .f32⟩ : BufTy).Contents (Elt F) → (⟨S32768x256, .f32⟩ : BufTy).Contents (Elt F) → (⟨S32768x256, .f32⟩ : BufTy).Contents (Elt F)),
    StableHlo.TRef.nullary main_call1.cst (constant S_ .f32 0x00000000#32),
    StableHlo.TRef.unary main_call1.cst main_call1.v0 (broadcastInDim S32768x256 ![] bcast_S_S32768x256),
    StableHlo.TRef.binary (.of main_v29 : StableHlo.TRef sig ⟨S32768x256, .f32⟩) main_call1.v0 main_call1.v1 (cmpf .ogt),
    StableHlo.TRef.nullary main_call1.cst_0 (constant S_ .f32 0x00000000#32),
    StableHlo.TRef.unary main_call1.cst_0 main_call1.v2 (broadcastInDim S32768x256 ![] bcast_S_S32768x256),
    StableHlo.TRef.binary (.of main_v29 : StableHlo.TRef sig ⟨S32768x256, .f32⟩) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S32768x256 ![] bcast_S_S32768x256),
    StableHlo.TRef.ternary main_call1.v3 main_call1.call0.v1 (.of main_v29 : StableHlo.TRef sig ⟨S32768x256, .f32⟩) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S32768x256 ![] bcast_S_S32768x256),
    StableHlo.TRef.binary main_call1.v6 main_call1.v5 main_call1.v7 mulf,
    StableHlo.TRef.ternary main_call1.v1 (.of main_v29 : StableHlo.TRef sig ⟨S32768x256, .f32⟩) main_call1.v7 main_call1.call1.v0 select,
    StableHlo.binary main_v35 main_v36 main_v37 (mulf : (⟨S32768x256, .f32⟩ : BufTy).Contents (Elt F) → (⟨S32768x256, .f32⟩ : BufTy).Contents (Elt F) → (⟨S32768x256, .f32⟩ : BufTy).Contents (Elt F)),
    StableHlo.binary main_v0 main_arg7 main_v38 ((fun l r => Host.dotGeneral dot_S32768x64_S64x1024_S32768x1024_1_0_0_1_n_n none l r) : (⟨S32768x64, .f32⟩ : BufTy).Contents (Elt F) → (⟨S64x1024, .f32⟩ : BufTy).Contents (Elt F) → (⟨S32768x1024, .f32⟩ : BufTy).Contents (Elt F)),
    StableHlo.binary main_v37 main_arg8 main_v39 ((fun l r => Host.dotGeneral dot_S32768x256_S256x1024_S32768x1024_1_0_0_1_n_n none l r) : (⟨S32768x256, .f32⟩ : BufTy).Contents (Elt F) → (⟨S256x1024, .f32⟩ : BufTy).Contents (Elt F) → (⟨S32768x1024, .f32⟩ : BufTy).Contents (Elt F)),
    StableHlo.binary main_v38 main_v39 main_v40 (addf : (⟨S32768x1024, .f32⟩ : BufTy).Contents (Elt F) → (⟨S32768x1024, .f32⟩ : BufTy).Contents (Elt F) → (⟨S32768x1024, .f32⟩ : BufTy).Contents (Elt F)),
    StableHlo.unary main_arg9 main_v41 (broadcastInDim S1x1024 ![1] bcast_S1024_S1x1024_1 : (⟨S1024, .f32⟩ : BufTy).Contents (Elt F) → (⟨S1x1024, .f32⟩ : BufTy).Contents (Elt F)),
    StableHlo.unary main_v41 main_v42 (broadcastInDim S32768x1024 ![0, 1] bcast_S1x1024_S32768x1024_0_1 : (⟨S1x1024, .f32⟩ : BufTy).Contents (Elt F) → (⟨S32768x1024, .f32⟩ : BufTy).Contents (Elt F)),
    StableHlo.binary main_v40 main_v42 main_v43 (addf : (⟨S32768x1024, .f32⟩ : BufTy).Contents (Elt F) → (⟨S32768x1024, .f32⟩ : BufTy).Contents (Elt F) → (⟨S32768x1024, .f32⟩ : BufTy).Contents (Elt F)),
    StableHlo.unary main_v43 main_v44 ((extractStridedSlice S32768x256 ![0, 0] · slices_S32768x1024_S32768x256_0_0) : (⟨S32768x1024, .f32⟩ : BufTy).Contents (Elt F) → (⟨S32768x256, .f32⟩ : BufTy).Contents (Elt F)),
    StableHlo.unary main_v43 main_v45 ((extractStridedSlice S32768x256 ![0, 256] · slices_S32768x1024_S32768x256_0_256) : (⟨S32768x1024, .f32⟩ : BufTy).Contents (Elt F) → (⟨S32768x256, .f32⟩ : BufTy).Contents (Elt F)),
    StableHlo.unary main_v43 main_v46 ((extractStridedSlice S32768x256 ![0, 512] · slices_S32768x1024_S32768x256_0_512) : (⟨S32768x1024, .f32⟩ : BufTy).Contents (Elt F) → (⟨S32768x256, .f32⟩ : BufTy).Contents (Elt F)),
    StableHlo.unary main_v43 main_v47 ((extractStridedSlice S32768x256 ![0, 768] · slices_S32768x1024_S32768x256_0_768) : (⟨S32768x1024, .f32⟩ : BufTy).Contents (Elt F) → (⟨S32768x256, .f32⟩ : BufTy).Contents (Elt F)),
    StableHlo.unary main_v45 main_v48 (Host.negf : (⟨S32768x256, .f32⟩ : BufTy).Contents (Elt F) → (⟨S32768x256, .f32⟩ : BufTy).Contents (Elt F)),
    StableHlo.unary main_v48 main_v49 (Host.exp : (⟨S32768x256, .f32⟩ : BufTy).Contents (Elt F) → (⟨S32768x256, .f32⟩ : BufTy).Contents (Elt F)),
    StableHlo.nullary main_cst_6 (constant S_ .f32 0x3F800000#32),
    StableHlo.unary main_cst_6 main_v50 (broadcastInDim S32768x256 ![] bcast_S_S32768x256 : (⟨S_, .f32⟩ : BufTy).Contents (Elt F) → (⟨S32768x256, .f32⟩ : BufTy).Contents (Elt F)),
    StableHlo.binary main_v50 main_v49 main_v51 (addf : (⟨S32768x256, .f32⟩ : BufTy).Contents (Elt F) → (⟨S32768x256, .f32⟩ : BufTy).Contents (Elt F) → (⟨S32768x256, .f32⟩ : BufTy).Contents (Elt F)) ]

/-- The operations of the second window. -/
abbrev window1 : List (HloOp τ sig (Elt F)) :=
  [ StableHlo.nullary main_cst_7 (constant S_ .f32 0x3F800000#32),
    StableHlo.unary main_cst_7 main_v52 (broadcastInDim S32768x256 ![] bcast_S_S32768x256 : (⟨S_, .f32⟩ : BufTy).Contents (Elt F) → (⟨S32768x256, .f32⟩ : BufTy).Contents (Elt F)),
    StableHlo.binary main_v52 main_v51 main_v53 (Host.divf : (⟨S32768x256, .f32⟩ : BufTy).Contents (Elt F) → (⟨S32768x256, .f32⟩ : BufTy).Contents (Elt F) → (⟨S32768x256, .f32⟩ : BufTy).Contents (Elt F)),
    StableHlo.binary main_v53 main_v29 main_v54 (mulf : (⟨S32768x256, .f32⟩ : BufTy).Contents (Elt F) → (⟨S32768x256, .f32⟩ : BufTy).Contents (Elt F) → (⟨S32768x256, .f32⟩ : BufTy).Contents (Elt F)),
    StableHlo.unary main_v44 main_v55 (Host.negf : (⟨S32768x256, .f32⟩ : BufTy).Contents (Elt F) → (⟨S32768x256, .f32⟩ : BufTy).Contents (Elt F)),
    StableHlo.unary main_v55 main_v56 (Host.exp : (⟨S32768x256, .f32⟩ : BufTy).Contents (Elt F) → (⟨S32768x256, .f32⟩ : BufTy).Contents (Elt F)),
    StableHlo.nullary main_cst_8 (constant S_ .f32 0x3F800000#32),
    StableHlo.unary main_cst_8 main_v57 (broadcastInDim S32768x256 ![] bcast_S_S32768x256 : (⟨S_, .f32⟩ : BufTy).Contents (Elt F) → (⟨S32768x256, .f32⟩ : BufTy).Contents (Elt F)),
    StableHlo.binary main_v57 main_v56 main_v58 (addf : (⟨S32768x256, .f32⟩ : BufTy).Contents (Elt F) → (⟨S32768x256, .f32⟩ : BufTy).Contents (Elt F) → (⟨S32768x256, .f32⟩ : BufTy).Contents (Elt F)),
    StableHlo.nullary main_cst_9 (constant S_ .f32 0x3F800000#32),
    StableHlo.unary main_cst_9 main_v59 (broadcastInDim S32768x256 ![] bcast_S_S32768x256 : (⟨S_, .f32⟩ : BufTy).Contents (Elt F) → (⟨S32768x256, .f32⟩ : BufTy).Contents (Elt F)),
    StableHlo.binary main_v59 main_v58 main_v60 (Host.divf : (⟨S32768x256, .f32⟩ : BufTy).Contents (Elt F) → (⟨S32768x256, .f32⟩ : BufTy).Contents (Elt F) → (⟨S32768x256, .f32⟩ : BufTy).Contents (Elt F)),
    StableHlo.TRef.nullary main_call2.cst (constant S_ .f32 0x00000000#32),
    StableHlo.TRef.unary main_call2.cst main_call2.v0 (broadcastInDim S32768x256 ![] bcast_S_S32768x256),
    StableHlo.TRef.binary (.of main_v46 : StableHlo.TRef sig ⟨S32768x256, .f32⟩) main_call2.v0 main_call2.v1 (cmpf .ogt),
    StableHlo.TRef.nullary main_call2.cst_0 (constant S_ .f32 0x00000000#32),
    StableHlo.TRef.unary main_call2.cst_0 main_call2.v2 (broadcastInDim S32768x256 ![] bcast_S_S32768x256),
    StableHlo.TRef.binary (.of main_v46 : StableHlo.TRef sig ⟨S32768x256, .f32⟩) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S32768x256 ![] bcast_S_S32768x256),
    StableHlo.TRef.ternary main_call2.v3 main_call2.call0.v1 (.of main_v46 : StableHlo.TRef sig ⟨S32768x256, .f32⟩) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S32768x256 ![] bcast_S_S32768x256),
    StableHlo.TRef.binary main_call2.v6 main_call2.v5 main_call2.v7 mulf,
    StableHlo.TRef.ternary main_call2.v1 (.of main_v46 : StableHlo.TRef sig ⟨S32768x256, .f32⟩) main_call2.v7 main_call2.call1.v0 select,
    StableHlo.binary main_v60 main_v61 main_v62 (mulf : (⟨S32768x256, .f32⟩ : BufTy).Contents (Elt F) → (⟨S32768x256, .f32⟩ : BufTy).Contents (Elt F) → (⟨S32768x256, .f32⟩ : BufTy).Contents (Elt F)),
    StableHlo.binary main_v54 main_v62 main_v63 (addf : (⟨S32768x256, .f32⟩ : BufTy).Contents (Elt F) → (⟨S32768x256, .f32⟩ : BufTy).Contents (Elt F) → (⟨S32768x256, .f32⟩ : BufTy).Contents (Elt F)),
    StableHlo.unary main_v47 main_v64 (Host.negf : (⟨S32768x256, .f32⟩ : BufTy).Contents (Elt F) → (⟨S32768x256, .f32⟩ : BufTy).Contents (Elt F)),
    StableHlo.unary main_v64 main_v65 (Host.exp : (⟨S32768x256, .f32⟩ : BufTy).Contents (Elt F) → (⟨S32768x256, .f32⟩ : BufTy).Contents (Elt F)),
    StableHlo.nullary main_cst_10 (constant S_ .f32 0x3F800000#32),
    StableHlo.unary main_cst_10 main_v66 (broadcastInDim S32768x256 ![] bcast_S_S32768x256 : (⟨S_, .f32⟩ : BufTy).Contents (Elt F) → (⟨S32768x256, .f32⟩ : BufTy).Contents (Elt F)),
    StableHlo.binary main_v66 main_v65 main_v67 (addf : (⟨S32768x256, .f32⟩ : BufTy).Contents (Elt F) → (⟨S32768x256, .f32⟩ : BufTy).Contents (Elt F) → (⟨S32768x256, .f32⟩ : BufTy).Contents (Elt F)),
    StableHlo.nullary main_cst_11 (constant S_ .f32 0x3F800000#32),
    StableHlo.unary main_cst_11 main_v68 (broadcastInDim S32768x256 ![] bcast_S_S32768x256 : (⟨S_, .f32⟩ : BufTy).Contents (Elt F) → (⟨S32768x256, .f32⟩ : BufTy).Contents (Elt F)),
    StableHlo.binary main_v68 main_v67 main_v69 (Host.divf : (⟨S32768x256, .f32⟩ : BufTy).Contents (Elt F) → (⟨S32768x256, .f32⟩ : BufTy).Contents (Elt F) → (⟨S32768x256, .f32⟩ : BufTy).Contents (Elt F)),
    StableHlo.TRef.nullary main_call3.cst (constant S_ .f32 0x00000000#32),
    StableHlo.TRef.unary main_call3.cst main_call3.v0 (broadcastInDim S32768x256 ![] bcast_S_S32768x256),
    StableHlo.TRef.binary (.of main_v63 : StableHlo.TRef sig ⟨S32768x256, .f32⟩) main_call3.v0 main_call3.v1 (cmpf .ogt),
    StableHlo.TRef.nullary main_call3.cst_0 (constant S_ .f32 0x00000000#32),
    StableHlo.TRef.unary main_call3.cst_0 main_call3.v2 (broadcastInDim S32768x256 ![] bcast_S_S32768x256),
    StableHlo.TRef.binary (.of main_v63 : StableHlo.TRef sig ⟨S32768x256, .f32⟩) main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S32768x256 ![] bcast_S_S32768x256),
    StableHlo.TRef.ternary main_call3.v3 main_call3.call0.v1 (.of main_v63 : StableHlo.TRef sig ⟨S32768x256, .f32⟩) main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S32768x256 ![] bcast_S_S32768x256),
    StableHlo.TRef.binary main_call3.v6 main_call3.v5 main_call3.v7 mulf,
    StableHlo.TRef.ternary main_call3.v1 (.of main_v63 : StableHlo.TRef sig ⟨S32768x256, .f32⟩) main_call3.v7 main_call3.call1.v0 select,
    StableHlo.binary main_v69 main_v70 main_v71 (mulf : (⟨S32768x256, .f32⟩ : BufTy).Contents (Elt F) → (⟨S32768x256, .f32⟩ : BufTy).Contents (Elt F) → (⟨S32768x256, .f32⟩ : BufTy).Contents (Elt F)),
    StableHlo.unary main_arg1 main_v72 ((extractStridedSlice S32768x1 ![0, 0] · slices_S32768x2_S32768x1_0_0) : (⟨S32768x2, .f32⟩ : BufTy).Contents (Elt F) → (⟨S32768x1, .f32⟩ : BufTy).Contents (Elt F)),
    StableHlo.nullary main_cst_12 (constant S_ .f32 0x3F800000#32),
    StableHlo.unary main_cst_12 main_v73 (broadcastInDim S32768x1 ![] bcast_S_S32768x1 : (⟨S_, .f32⟩ : BufTy).Contents (Elt F) → (⟨S32768x1, .f32⟩ : BufTy).Contents (Elt F)),
    StableHlo.binary main_v73 main_v72 main_v74 (subf : (⟨S32768x1, .f32⟩ : BufTy).Contents (Elt F) → (⟨S32768x1, .f32⟩ : BufTy).Contents (Elt F) → (⟨S32768x1, .f32⟩ : BufTy).Contents (Elt F)),
    StableHlo.unary main_v74 main_v75 (broadcastInDim S32768x256 ![0, 1] bcast_S32768x1_S32768x256_0_1 : (⟨S32768x1, .f32⟩ : BufTy).Contents (Elt F) → (⟨S32768x256, .f32⟩ : BufTy).Contents (Elt F)),
    StableHlo.binary main_v37 main_v75 main_v76 (mulf : (⟨S32768x256, .f32⟩ : BufTy).Contents (Elt F) → (⟨S32768x256, .f32⟩ : BufTy).Contents (Elt F) → (⟨S32768x256, .f32⟩ : BufTy).Contents (Elt F)),
    StableHlo.unary main_v72 main_v77 (broadcastInDim S32768x256 ![0, 1] bcast_S32768x1_S32768x256_0_1 : (⟨S32768x1, .f32⟩ : BufTy).Contents (Elt F) → (⟨S32768x256, .f32⟩ : BufTy).Contents (Elt F)),
    StableHlo.binary main_v77 main_v71 main_v78 (mulf : (⟨S32768x256, .f32⟩ : BufTy).Contents (Elt F) → (⟨S32768x256, .f32⟩ : BufTy).Contents (Elt F) → (⟨S32768x256, .f32⟩ : BufTy).Contents (Elt F)),
    StableHlo.binary main_v76 main_v78 main_v79 (addf : (⟨S32768x256, .f32⟩ : BufTy).Contents (Elt F) → (⟨S32768x256, .f32⟩ : BufTy).Contents (Elt F) → (⟨S32768x256, .f32⟩ : BufTy).Contents (Elt F)),
    StableHlo.nullary main_cst_13 (constant S_ .f32 0x3F800000#32),
    StableHlo.unary main_cst_13 main_v80 (broadcastInDim S32768x1 ![] bcast_S_S32768x1 : (⟨S_, .f32⟩ : BufTy).Contents (Elt F) → (⟨S32768x1, .f32⟩ : BufTy).Contents (Elt F)),
    StableHlo.binary main_v80 main_v72 main_v81 (subf : (⟨S32768x1, .f32⟩ : BufTy).Contents (Elt F) → (⟨S32768x1, .f32⟩ : BufTy).Contents (Elt F) → (⟨S32768x1, .f32⟩ : BufTy).Contents (Elt F)),
    StableHlo.unary main_v81 main_v82 (broadcastInDim S32768x256 ![0, 1] bcast_S32768x1_S32768x256_0_1 : (⟨S32768x1, .f32⟩ : BufTy).Contents (Elt F) → (⟨S32768x256, .f32⟩ : BufTy).Contents (Elt F)),
    StableHlo.binary main_v29 main_v82 main_v83 (mulf : (⟨S32768x256, .f32⟩ : BufTy).Contents (Elt F) → (⟨S32768x256, .f32⟩ : BufTy).Contents (Elt F) → (⟨S32768x256, .f32⟩ : BufTy).Contents (Elt F)),
    StableHlo.unary main_v72 main_v84 (broadcastInDim S32768x256 ![0, 1] bcast_S32768x1_S32768x256_0_1 : (⟨S32768x1, .f32⟩ : BufTy).Contents (Elt F) → (⟨S32768x256, .f32⟩ : BufTy).Contents (Elt F)),
    StableHlo.binary main_v84 main_v63 main_v85 (mulf : (⟨S32768x256, .f32⟩ : BufTy).Contents (Elt F) → (⟨S32768x256, .f32⟩ : BufTy).Contents (Elt F) → (⟨S32768x256, .f32⟩ : BufTy).Contents (Elt F)),
    StableHlo.binary main_v83 main_v85 main_v86 (addf : (⟨S32768x256, .f32⟩ : BufTy).Contents (Elt F) → (⟨S32768x256, .f32⟩ : BufTy).Contents (Elt F) → (⟨S32768x256, .f32⟩ : BufTy).Contents (Elt F)),
    StableHlo.binary main_v1 main_arg10 main_v87 ((fun l r => Host.dotGeneral dot_S32768x8_S8x1024_S32768x1024_1_0_0_1_n_n none l r) : (⟨S32768x8, .f32⟩ : BufTy).Contents (Elt F) → (⟨S8x1024, .f32⟩ : BufTy).Contents (Elt F) → (⟨S32768x1024, .f32⟩ : BufTy).Contents (Elt F)),
    StableHlo.binary main_v79 main_arg11 main_v88 ((fun l r => Host.dotGeneral dot_S32768x256_S256x1024_S32768x1024_1_0_0_1_n_n none l r) : (⟨S32768x256, .f32⟩ : BufTy).Contents (Elt F) → (⟨S256x1024, .f32⟩ : BufTy).Contents (Elt F) → (⟨S32768x1024, .f32⟩ : BufTy).Contents (Elt F)),
    StableHlo.binary main_v87 main_v88 main_v89 (addf : (⟨S32768x1024, .f32⟩ : BufTy).Contents (Elt F) → (⟨S32768x1024, .f32⟩ : BufTy).Contents (Elt F) → (⟨S32768x1024, .f32⟩ : BufTy).Contents (Elt F)),
    StableHlo.unary main_arg12 main_v90 (broadcastInDim S1x1024 ![1] bcast_S1024_S1x1024_1 : (⟨S1024, .f32⟩ : BufTy).Contents (Elt F) → (⟨S1x1024, .f32⟩ : BufTy).Contents (Elt F)),
    StableHlo.unary main_v90 main_v91 (broadcastInDim S32768x1024 ![0, 1] bcast_S1x1024_S32768x1024_0_1 : (⟨S1x1024, .f32⟩ : BufTy).Contents (Elt F) → (⟨S32768x1024, .f32⟩ : BufTy).Contents (Elt F)),
    StableHlo.binary main_v89 main_v91 main_v92 (addf : (⟨S32768x1024, .f32⟩ : BufTy).Contents (Elt F) → (⟨S32768x1024, .f32⟩ : BufTy).Contents (Elt F) → (⟨S32768x1024, .f32⟩ : BufTy).Contents (Elt F)),
    StableHlo.unary main_v92 main_v93 ((extractStridedSlice S32768x256 ![0, 0] · slices_S32768x1024_S32768x256_0_0) : (⟨S32768x1024, .f32⟩ : BufTy).Contents (Elt F) → (⟨S32768x256, .f32⟩ : BufTy).Contents (Elt F)),
    StableHlo.unary main_v92 main_v94 ((extractStridedSlice S32768x256 ![0, 256] · slices_S32768x1024_S32768x256_0_256) : (⟨S32768x1024, .f32⟩ : BufTy).Contents (Elt F) → (⟨S32768x256, .f32⟩ : BufTy).Contents (Elt F)),
    StableHlo.unary main_v92 main_v95 ((extractStridedSlice S32768x256 ![0, 512] · slices_S32768x1024_S32768x256_0_512) : (⟨S32768x1024, .f32⟩ : BufTy).Contents (Elt F) → (⟨S32768x256, .f32⟩ : BufTy).Contents (Elt F)),
    StableHlo.unary main_v92 main_v96 ((extractStridedSlice S32768x256 ![0, 768] · slices_S32768x1024_S32768x256_0_768) : (⟨S32768x1024, .f32⟩ : BufTy).Contents (Elt F) → (⟨S32768x256, .f32⟩ : BufTy).Contents (Elt F)),
    StableHlo.unary main_v94 main_v97 (Host.negf : (⟨S32768x256, .f32⟩ : BufTy).Contents (Elt F) → (⟨S32768x256, .f32⟩ : BufTy).Contents (Elt F)),
    StableHlo.unary main_v97 main_v98 (Host.exp : (⟨S32768x256, .f32⟩ : BufTy).Contents (Elt F) → (⟨S32768x256, .f32⟩ : BufTy).Contents (Elt F)),
    StableHlo.nullary main_cst_14 (constant S_ .f32 0x3F800000#32),
    StableHlo.unary main_cst_14 main_v99 (broadcastInDim S32768x256 ![] bcast_S_S32768x256 : (⟨S_, .f32⟩ : BufTy).Contents (Elt F) → (⟨S32768x256, .f32⟩ : BufTy).Contents (Elt F)),
    StableHlo.binary main_v99 main_v98 main_v100 (addf : (⟨S32768x256, .f32⟩ : BufTy).Contents (Elt F) → (⟨S32768x256, .f32⟩ : BufTy).Contents (Elt F) → (⟨S32768x256, .f32⟩ : BufTy).Contents (Elt F)),
    StableHlo.nullary main_cst_15 (constant S_ .f32 0x3F800000#32),
    StableHlo.unary main_cst_15 main_v101 (broadcastInDim S32768x256 ![] bcast_S_S32768x256 : (⟨S_, .f32⟩ : BufTy).Contents (Elt F) → (⟨S32768x256, .f32⟩ : BufTy).Contents (Elt F)),
    StableHlo.binary main_v101 main_v100 main_v102 (Host.divf : (⟨S32768x256, .f32⟩ : BufTy).Contents (Elt F) → (⟨S32768x256, .f32⟩ : BufTy).Contents (Elt F) → (⟨S32768x256, .f32⟩ : BufTy).Contents (Elt F)) ]

/-- The operations of the third window. -/
abbrev window2 : List (HloOp τ sig (Elt F)) :=
  [ StableHlo.binary main_v102 main_v86 main_v103 (mulf : (⟨S32768x256, .f32⟩ : BufTy).Contents (Elt F) → (⟨S32768x256, .f32⟩ : BufTy).Contents (Elt F) → (⟨S32768x256, .f32⟩ : BufTy).Contents (Elt F)),
    StableHlo.unary main_v93 main_v104 (Host.negf : (⟨S32768x256, .f32⟩ : BufTy).Contents (Elt F) → (⟨S32768x256, .f32⟩ : BufTy).Contents (Elt F)),
    StableHlo.unary main_v104 main_v105 (Host.exp : (⟨S32768x256, .f32⟩ : BufTy).Contents (Elt F) → (⟨S32768x256, .f32⟩ : BufTy).Contents (Elt F)),
    StableHlo.nullary main_cst_16 (constant S_ .f32 0x3F800000#32),
    StableHlo.unary main_cst_16 main_v106 (broadcastInDim S32768x256 ![] bcast_S_S32768x256 : (⟨S_, .f32⟩ : BufTy).Contents (Elt F) → (⟨S32768x256, .f32⟩ : BufTy).Contents (Elt F)),
    StableHlo.binary main_v106 main_v105 main_v107 (addf : (⟨S32768x256, .f32⟩ : BufTy).Contents (Elt F) → (⟨S32768x256, .f32⟩ : BufTy).Contents (Elt F) → (⟨S32768x256, .f32⟩ : BufTy).Contents (Elt F)),
    StableHlo.nullary main_cst_17 (constant S_ .f32 0x3F800000#32),
    StableHlo.unary main_cst_17 main_v108 (broadcastInDim S32768x256 ![] bcast_S_S32768x256 : (⟨S_, .f32⟩ : BufTy).Contents (Elt F) → (⟨S32768x256, .f32⟩ : BufTy).Contents (Elt F)),
    StableHlo.binary main_v108 main_v107 main_v109 (Host.divf : (⟨S32768x256, .f32⟩ : BufTy).Contents (Elt F) → (⟨S32768x256, .f32⟩ : BufTy).Contents (Elt F) → (⟨S32768x256, .f32⟩ : BufTy).Contents (Elt F)),
    StableHlo.TRef.nullary main_call4.cst (constant S_ .f32 0x00000000#32),
    StableHlo.TRef.unary main_call4.cst main_call4.v0 (broadcastInDim S32768x256 ![] bcast_S_S32768x256),
    StableHlo.TRef.binary (.of main_v95 : StableHlo.TRef sig ⟨S32768x256, .f32⟩) main_call4.v0 main_call4.v1 (cmpf .ogt),
    StableHlo.TRef.nullary main_call4.cst_0 (constant S_ .f32 0x00000000#32),
    StableHlo.TRef.unary main_call4.cst_0 main_call4.v2 (broadcastInDim S32768x256 ![] bcast_S_S32768x256),
    StableHlo.TRef.binary (.of main_v95 : StableHlo.TRef sig ⟨S32768x256, .f32⟩) main_call4.v2 main_call4.v3 (cmpf .ogt),
    StableHlo.TRef.nullary main_call4.cst_1 (constant S_ .f32 0x00000000#32),
    StableHlo.TRef.unary main_call4.cst_1 main_call4.call0.v0 id,
    StableHlo.TRef.unary main_call4.call0.v0 main_call4.call0.v1 (broadcastInDim S32768x256 ![] bcast_S_S32768x256),
    StableHlo.TRef.ternary main_call4.v3 main_call4.call0.v1 (.of main_v95 : StableHlo.TRef sig ⟨S32768x256, .f32⟩) main_call4.call0.v2 select,
    StableHlo.TRef.unary main_call4.call0.v2 main_call4.v5 Host.expm1,
    StableHlo.TRef.nullary main_call4.cst_2 (constant S_ .f32 0x3F800000#32),
    StableHlo.TRef.unary main_call4.cst_2 main_call4.v6 (broadcastInDim S32768x256 ![] bcast_S_S32768x256),
    StableHlo.TRef.binary main_call4.v6 main_call4.v5 main_call4.v7 mulf,
    StableHlo.TRef.ternary main_call4.v1 (.of main_v95 : StableHlo.TRef sig ⟨S32768x256, .f32⟩) main_call4.v7 main_call4.call1.v0 select,
    StableHlo.binary main_v109 main_v110 main_v111 (mulf : (⟨S32768x256, .f32⟩ : BufTy).Contents (Elt F) → (⟨S32768x256, .f32⟩ : BufTy).Contents (Elt F) → (⟨S32768x256, .f32⟩ : BufTy).Contents (Elt F)),
    StableHlo.binary main_v103 main_v111 main_v112 (addf : (⟨S32768x256, .f32⟩ : BufTy).Contents (Elt F) → (⟨S32768x256, .f32⟩ : BufTy).Contents (Elt F) → (⟨S32768x256, .f32⟩ : BufTy).Contents (Elt F)),
    StableHlo.unary main_v96 main_v113 (Host.negf : (⟨S32768x256, .f32⟩ : BufTy).Contents (Elt F) → (⟨S32768x256, .f32⟩ : BufTy).Contents (Elt F)),
    StableHlo.unary main_v113 main_v114 (Host.exp : (⟨S32768x256, .f32⟩ : BufTy).Contents (Elt F) → (⟨S32768x256, .f32⟩ : BufTy).Contents (Elt F)),
    StableHlo.nullary main_cst_18 (constant S_ .f32 0x3F800000#32),
    StableHlo.unary main_cst_18 main_v115 (broadcastInDim S32768x256 ![] bcast_S_S32768x256 : (⟨S_, .f32⟩ : BufTy).Contents (Elt F) → (⟨S32768x256, .f32⟩ : BufTy).Contents (Elt F)),
    StableHlo.binary main_v115 main_v114 main_v116 (addf : (⟨S32768x256, .f32⟩ : BufTy).Contents (Elt F) → (⟨S32768x256, .f32⟩ : BufTy).Contents (Elt F) → (⟨S32768x256, .f32⟩ : BufTy).Contents (Elt F)),
    StableHlo.nullary main_cst_19 (constant S_ .f32 0x3F800000#32),
    StableHlo.unary main_cst_19 main_v117 (broadcastInDim S32768x256 ![] bcast_S_S32768x256 : (⟨S_, .f32⟩ : BufTy).Contents (Elt F) → (⟨S32768x256, .f32⟩ : BufTy).Contents (Elt F)),
    StableHlo.binary main_v117 main_v116 main_v118 (Host.divf : (⟨S32768x256, .f32⟩ : BufTy).Contents (Elt F) → (⟨S32768x256, .f32⟩ : BufTy).Contents (Elt F) → (⟨S32768x256, .f32⟩ : BufTy).Contents (Elt F)),
    StableHlo.TRef.nullary main_call5.cst (constant S_ .f32 0x00000000#32),
    StableHlo.TRef.unary main_call5.cst main_call5.v0 (broadcastInDim S32768x256 ![] bcast_S_S32768x256),
    StableHlo.TRef.binary (.of main_v112 : StableHlo.TRef sig ⟨S32768x256, .f32⟩) main_call5.v0 main_call5.v1 (cmpf .ogt),
    StableHlo.TRef.nullary main_call5.cst_0 (constant S_ .f32 0x00000000#32),
    StableHlo.TRef.unary main_call5.cst_0 main_call5.v2 (broadcastInDim S32768x256 ![] bcast_S_S32768x256),
    StableHlo.TRef.binary (.of main_v112 : StableHlo.TRef sig ⟨S32768x256, .f32⟩) main_call5.v2 main_call5.v3 (cmpf .ogt),
    StableHlo.TRef.nullary main_call5.cst_1 (constant S_ .f32 0x00000000#32),
    StableHlo.TRef.unary main_call5.cst_1 main_call5.call0.v0 id,
    StableHlo.TRef.unary main_call5.call0.v0 main_call5.call0.v1 (broadcastInDim S32768x256 ![] bcast_S_S32768x256),
    StableHlo.TRef.ternary main_call5.v3 main_call5.call0.v1 (.of main_v112 : StableHlo.TRef sig ⟨S32768x256, .f32⟩) main_call5.call0.v2 select,
    StableHlo.TRef.unary main_call5.call0.v2 main_call5.v5 Host.expm1,
    StableHlo.TRef.nullary main_call5.cst_2 (constant S_ .f32 0x3F800000#32),
    StableHlo.TRef.unary main_call5.cst_2 main_call5.v6 (broadcastInDim S32768x256 ![] bcast_S_S32768x256),
    StableHlo.TRef.binary main_call5.v6 main_call5.v5 main_call5.v7 mulf,
    StableHlo.TRef.ternary main_call5.v1 (.of main_v112 : StableHlo.TRef sig ⟨S32768x256, .f32⟩) main_call5.v7 main_call5.call1.v0 select,
    StableHlo.binary main_v118 main_v119 main_v120 (mulf : (⟨S32768x256, .f32⟩ : BufTy).Contents (Elt F) → (⟨S32768x256, .f32⟩ : BufTy).Contents (Elt F) → (⟨S32768x256, .f32⟩ : BufTy).Contents (Elt F)),
    StableHlo.unary main_arg1 main_v121 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_20 (constant S_ .f32 0x3F800000#32),
    StableHlo.unary main_cst_20 main_v122 (broadcastInDim S32768x1 ![] bcast_S_S32768x1 : (⟨S_, .f32⟩ : BufTy).Contents (Elt F) → (⟨S32768x1, .f32⟩ : BufTy).Contents (Elt F)),
    StableHlo.binary main_v122 main_v121 main_v123 (subf : (⟨S32768x1, .f32⟩ : BufTy).Contents (Elt F) → (⟨S32768x1, .f32⟩ : BufTy).Contents (Elt F) → (⟨S32768x1, .f32⟩ : BufTy).Contents (Elt F)),
    StableHlo.unary main_v123 main_v124 (broadcastInDim S32768x256 ![0, 1] bcast_S32768x1_S32768x256_0_1 : (⟨S32768x1, .f32⟩ : BufTy).Contents (Elt F) → (⟨S32768x256, .f32⟩ : BufTy).Contents (Elt F)),
    StableHlo.binary main_v79 main_v124 main_v125 (mulf : (⟨S32768x256, .f32⟩ : BufTy).Contents (Elt F) → (⟨S32768x256, .f32⟩ : BufTy).Contents (Elt F) → (⟨S32768x256, .f32⟩ : BufTy).Contents (Elt F)),
    StableHlo.unary main_v121 main_v126 (broadcastInDim S32768x256 ![0, 1] bcast_S32768x1_S32768x256_0_1 : (⟨S32768x1, .f32⟩ : BufTy).Contents (Elt F) → (⟨S32768x256, .f32⟩ : BufTy).Contents (Elt F)),
    StableHlo.binary main_v126 main_v120 main_v127 (mulf : (⟨S32768x256, .f32⟩ : BufTy).Contents (Elt F) → (⟨S32768x256, .f32⟩ : BufTy).Contents (Elt F) → (⟨S32768x256, .f32⟩ : BufTy).Contents (Elt F)),
    StableHlo.binary main_v125 main_v127 main_v128 (addf : (⟨S32768x256, .f32⟩ : BufTy).Contents (Elt F) → (⟨S32768x256, .f32⟩ : BufTy).Contents (Elt F) → (⟨S32768x256, .f32⟩ : BufTy).Contents (Elt F)),
    StableHlo.nullary main_cst_21 (constant S_ .f32 0x3F800000#32),
    StableHlo.unary main_cst_21 main_v129 (broadcastInDim S32768x1 ![] bcast_S_S32768x1 : (⟨S_, .f32⟩ : BufTy).Contents (Elt F) → (⟨S32768x1, .f32⟩ : BufTy).Contents (Elt F)),
    StableHlo.binary main_v129 main_v121 main_v130 (subf : (⟨S32768x1, .f32⟩ : BufTy).Contents (Elt F) → (⟨S32768x1, .f32⟩ : BufTy).Contents (Elt F) → (⟨S32768x1, .f32⟩ : BufTy).Contents (Elt F)),
    StableHlo.unary main_v130 main_v131 (broadcastInDim S32768x256 ![0, 1] bcast_S32768x1_S32768x256_0_1 : (⟨S32768x1, .f32⟩ : BufTy).Contents (Elt F) → (⟨S32768x256, .f32⟩ : BufTy).Contents (Elt F)),
    StableHlo.binary main_v86 main_v131 main_v132 (mulf : (⟨S32768x256, .f32⟩ : BufTy).Contents (Elt F) → (⟨S32768x256, .f32⟩ : BufTy).Contents (Elt F) → (⟨S32768x256, .f32⟩ : BufTy).Contents (Elt F)),
    StableHlo.unary main_v121 main_v133 (broadcastInDim S32768x256 ![0, 1] bcast_S32768x1_S32768x256_0_1 : (⟨S32768x1, .f32⟩ : BufTy).Contents (Elt F) → (⟨S32768x256, .f32⟩ : BufTy).Contents (Elt F)),
    StableHlo.binary main_v133 main_v112 main_v134 (mulf : (⟨S32768x256, .f32⟩ : BufTy).Contents (Elt F) → (⟨S32768x256, .f32⟩ : BufTy).Contents (Elt F) → (⟨S32768x256, .f32⟩ : BufTy).Contents (Elt F)),
    StableHlo.binary main_v132 main_v134 main_v135 (addf : (⟨S32768x256, .f32⟩ : BufTy).Contents (Elt F) → (⟨S32768x256, .f32⟩ : BufTy).Contents (Elt F) → (⟨S32768x256, .f32⟩ : BufTy).Contents (Elt F)),
    StableHlo.nullary main_cst_22 (constant S_ .f32 0x3F800000#32),
    StableHlo.unary main_cst_22 main_v136 (broadcastInDim S32768x1 ![] bcast_S_S32768x1 : (⟨S_, .f32⟩ : BufTy).Contents (Elt F) → (⟨S32768x1, .f32⟩ : BufTy).Contents (Elt F)),
    StableHlo.binary main_v136 main_v72 main_v137 (subf : (⟨S32768x1, .f32⟩ : BufTy).Contents (Elt F) → (⟨S32768x1, .f32⟩ : BufTy).Contents (Elt F) → (⟨S32768x1, .f32⟩ : BufTy).Contents (Elt F)),
    StableHlo.unary main_v137 main_v138 (broadcastInDim S32768x256 ![0, 1] bcast_S32768x1_S32768x256_0_1 : (⟨S32768x1, .f32⟩ : BufTy).Contents (Elt F) → (⟨S32768x256, .f32⟩ : BufTy).Contents (Elt F)),
    StableHlo.binary main_v138 main_v37 main_v139 (mulf : (⟨S32768x256, .f32⟩ : BufTy).Contents (Elt F) → (⟨S32768x256, .f32⟩ : BufTy).Contents (Elt F) → (⟨S32768x256, .f32⟩ : BufTy).Contents (Elt F)),
    StableHlo.unary main_v72 main_v140 (broadcastInDim S32768x256 ![0, 1] bcast_S32768x1_S32768x256_0_1 : (⟨S32768x1, .f32⟩ : BufTy).Contents (Elt F) → (⟨S32768x256, .f32⟩ : BufTy).Contents (Elt F)),
    StableHlo.binary main_v140 main_v71 main_v141 (mulf : (⟨S32768x256, .f32⟩ : BufTy).Contents (Elt F) → (⟨S32768x256, .f32⟩ : BufTy).Contents (Elt F) → (⟨S32768x256, .f32⟩ : BufTy).Contents (Elt F)),
    StableHlo.binary main_v139 main_v141 main_v142 (addf : (⟨S32768x256, .f32⟩ : BufTy).Contents (Elt F) → (⟨S32768x256, .f32⟩ : BufTy).Contents (Elt F) → (⟨S32768x256, .f32⟩ : BufTy).Contents (Elt F)),
    StableHlo.binary main_v142 main_arg13 main_v143 ((fun l r => Host.dotGeneral dot_S32768x256_S256x256_S32768x256_1_0_0_1_n_n none l r) : (⟨S32768x256, .f32⟩ : BufTy).Contents (Elt F) → (⟨S256x256, .f32⟩ : BufTy).Contents (Elt F) → (⟨S32768x256, .f32⟩ : BufTy).Contents (Elt F)),
    StableHlo.unary main_arg14 main_v144 (broadcastInDim S1x256 ![1] bcast_S256_S1x256_1 : (⟨S256, .f32⟩ : BufTy).Contents (Elt F) → (⟨S1x256, .f32⟩ : BufTy).Contents (Elt F)),
    StableHlo.unary main_v144 main_v145 (broadcastInDim S32768x256 ![0, 1] bcast_S1x256_S32768x256_0_1 : (⟨S1x256, .f32⟩ : BufTy).Contents (Elt F) → (⟨S32768x256, .f32⟩ : BufTy).Contents (Elt F)),
    StableHlo.binary main_v143 main_v145 main_v146 (addf : (⟨S32768x256, .f32⟩ : BufTy).Contents (Elt F) → (⟨S32768x256, .f32⟩ : BufTy).Contents (Elt F) → (⟨S32768x256, .f32⟩ : BufTy).Contents (Elt F)),
    StableHlo.TRef.nullary main_call6.cst (constant S_ .f32 0x00000000#32),
    StableHlo.TRef.unary main_call6.cst main_call6.v0 (broadcastInDim S32768x256 ![] bcast_S_S32768x256),
    StableHlo.TRef.binary (.of main_v146 : StableHlo.TRef sig ⟨S32768x256, .f32⟩) main_call6.v0 main_call6.v1 (cmpf .ogt),
    StableHlo.TRef.nullary main_call6.cst_0 (constant S_ .f32 0x00000000#32),
    StableHlo.TRef.unary main_call6.cst_0 main_call6.v2 (broadcastInDim S32768x256 ![] bcast_S_S32768x256),
    StableHlo.TRef.binary (.of main_v146 : StableHlo.TRef sig ⟨S32768x256, .f32⟩) main_call6.v2 main_call6.v3 (cmpf .ogt),
    StableHlo.TRef.nullary main_call6.cst_1 (constant S_ .f32 0x00000000#32),
    StableHlo.TRef.unary main_call6.cst_1 main_call6.call0.v0 id,
    StableHlo.TRef.unary main_call6.call0.v0 main_call6.call0.v1 (broadcastInDim S32768x256 ![] bcast_S_S32768x256),
    StableHlo.TRef.ternary main_call6.v3 main_call6.call0.v1 (.of main_v146 : StableHlo.TRef sig ⟨S32768x256, .f32⟩) main_call6.call0.v2 select,
    StableHlo.TRef.unary main_call6.call0.v2 main_call6.v5 Host.expm1,
    StableHlo.TRef.nullary main_call6.cst_2 (constant S_ .f32 0x3F800000#32),
    StableHlo.TRef.unary main_call6.cst_2 main_call6.v6 (broadcastInDim S32768x256 ![] bcast_S_S32768x256),
    StableHlo.TRef.binary main_call6.v6 main_call6.v5 main_call6.v7 mulf,
    StableHlo.TRef.ternary main_call6.v1 (.of main_v146 : StableHlo.TRef sig ⟨S32768x256, .f32⟩) main_call6.v7 main_call6.call1.v0 select,
    StableHlo.binary main_v147 main_arg15 main_v148 ((fun l r => Host.dotGeneral dot_S32768x256_S256x8_S32768x8_1_0_0_1_n_n none l r) : (⟨S32768x256, .f32⟩ : BufTy).Contents (Elt F) → (⟨S256x8, .f32⟩ : BufTy).Contents (Elt F) → (⟨S32768x8, .f32⟩ : BufTy).Contents (Elt F)),
    StableHlo.unary main_arg16 main_v149 (broadcastInDim S1x8 ![1] bcast_S8_S1x8_1 : (⟨S8, .f32⟩ : BufTy).Contents (Elt F) → (⟨S1x8, .f32⟩ : BufTy).Contents (Elt F)),
    StableHlo.unary main_v149 main_v150 (broadcastInDim S32768x8 ![0, 1] bcast_S1x8_S32768x8_0_1 : (⟨S1x8, .f32⟩ : BufTy).Contents (Elt F) → (⟨S32768x8, .f32⟩ : BufTy).Contents (Elt F)),
    StableHlo.binary main_v148 main_v150 main_v151 (addf : (⟨S32768x8, .f32⟩ : BufTy).Contents (Elt F) → (⟨S32768x8, .f32⟩ : BufTy).Contents (Elt F) → (⟨S32768x8, .f32⟩ : BufTy).Contents (Elt F)),
    StableHlo.binary main_v147 main_arg17 main_v152 ((fun l r => Host.dotGeneral dot_S32768x256_S256x8_S32768x8_1_0_0_1_n_n none l r) : (⟨S32768x256, .f32⟩ : BufTy).Contents (Elt F) → (⟨S256x8, .f32⟩ : BufTy).Contents (Elt F) → (⟨S32768x8, .f32⟩ : BufTy).Contents (Elt F)),
    StableHlo.unary main_arg18 main_v153 (broadcastInDim S1x8 ![1] bcast_S8_S1x8_1 : (⟨S8, .f32⟩ : BufTy).Contents (Elt F) → (⟨S1x8, .f32⟩ : BufTy).Contents (Elt F)),
    StableHlo.unary main_v153 main_v154 (broadcastInDim S32768x8 ![0, 1] bcast_S1x8_S32768x8_0_1 : (⟨S1x8, .f32⟩ : BufTy).Contents (Elt F) → (⟨S32768x8, .f32⟩ : BufTy).Contents (Elt F)),
    StableHlo.binary main_v152 main_v154 main_v155 (addf : (⟨S32768x8, .f32⟩ : BufTy).Contents (Elt F) → (⟨S32768x8, .f32⟩ : BufTy).Contents (Elt F) → (⟨S32768x8, .f32⟩ : BufTy).Contents (Elt F)) ]

/-- The operations of the fourth window. -/
abbrev window3 : List (HloOp τ sig (Elt F)) :=
  [ StableHlo.TRef.nullary main_call7.cst (constant S_ .f32 0x00000000#32),
    StableHlo.TRef.unary main_call7.cst main_call7.v0 (broadcastInDim S32768x8 ![] bcast_S_S32768x8),
    StableHlo.TRef.binary (.of main_v155 : StableHlo.TRef sig ⟨S32768x8, .f32⟩) main_call7.v0 main_call7.v1 maximumf,
    StableHlo.TRef.unary main_call7.cst main_call7.v2 (broadcastInDim S32768x8 ![] bcast_S_S32768x8),
    StableHlo.TRef.binary (.of main_v155 : StableHlo.TRef sig ⟨S32768x8, .f32⟩) main_call7.v2 main_call7.v3 subf,
    StableHlo.TRef.binary main_call7.v3 main_call7.v3 main_call7.v4 (cmpf .une),
    StableHlo.TRef.unary main_call7.cst main_call7.v5 (broadcastInDim S32768x8 ![] bcast_S_S32768x8),
    StableHlo.TRef.binary (.of main_v155 : StableHlo.TRef sig ⟨S32768x8, .f32⟩) main_call7.v5 main_call7.v6 addf,
    StableHlo.TRef.unary main_call7.v3 main_call7.v7 Host.absf,
    StableHlo.TRef.unary main_call7.v7 main_call7.v8 Host.negf,
    StableHlo.TRef.unary main_call7.v8 main_call7.v9 Host.exp,
    StableHlo.TRef.unary main_call7.v9 main_call7.v10 Host.log1p,
    StableHlo.TRef.binary main_call7.v1 main_call7.v10 main_call7.v11 addf,
    StableHlo.TRef.ternary main_call7.v4 main_call7.v6 main_call7.v11 main_call7.v12 select,
    StableHlo.binary main_v151 main_v156 main_v157 ((fun a b => concatenate S32768x16 1 [⟨S32768x8, a⟩, ⟨S32768x8, b⟩] concatenates_S32768x8_S32768x8_S32768x16_d1) : (⟨S32768x8, .f32⟩ : BufTy).Contents (Elt F) → (⟨S32768x8, .f32⟩ : BufTy).Contents (Elt F) → (⟨S32768x16, .f32⟩ : BufTy).Contents (Elt F)) ]

/-- The two cuttings are of one list. -/
theorem windows_eq : (window0 ++ (window1 ++ (window2 ++ window3)) : List (HloOp τ sig (Elt F))) = ops := by
  simp only [window0, window1, window2, window3, ops, opsLstm1, opsLstm2, opsBlend2, opsLstm3, opsBlend3, opsDecoder,
    List.cons_append, List.nil_append]

/-! ## @main is that line

Each window is a chain of steps once the callees' definitions unfold at their calls and sequencing is
reassociated; the windows in order are the line of their concatenation. -/

set_option maxRecDepth 8192 in
set_option maxHeartbeats 4000000 in
theorem main_part0_eq (c : Dev nD) : main_part0 (F := F) c = seq window0 := by
  simp only [main_part0, fn_elu.body, fn_where.body, fn_where_0.body, fn_softplus.body, seq, bind_assoc, pure_bind]
  rfl

set_option maxRecDepth 8192 in
set_option maxHeartbeats 4000000 in
theorem main_part1_eq (c : Dev nD) : main_part1 (F := F) c = seq window1 := by
  simp only [main_part1, fn_elu.body, fn_where.body, fn_where_0.body, fn_softplus.body, seq, bind_assoc, pure_bind]
  rfl

set_option maxRecDepth 8192 in
set_option maxHeartbeats 4000000 in
theorem main_part2_eq (c : Dev nD) : main_part2 (F := F) c = seq window2 := by
  simp only [main_part2, fn_elu.body, fn_where.body, fn_where_0.body, fn_softplus.body, seq, bind_assoc, pure_bind]
  rfl

set_option maxRecDepth 8192 in
set_option maxHeartbeats 4000000 in
theorem main_part3_eq (c : Dev nD) : main_part3 (F := F) c = seq window3 := by
  simp only [main_part3, fn_elu.body, fn_where.body, fn_where_0.body, fn_softplus.body, seq, bind_assoc, pure_bind]

/-- @main is the straight line of its operations. -/
theorem main_eq (c : Dev nD) : main (F := F) c = seq ops := by
  rw [← windows_eq, seq_append, seq_append, seq_append, ← main_part0_eq c, ← main_part1_eq c, ← main_part2_eq c,
    ← main_part3_eq c]
  rfl

/-! ## The side conditions of the run -/

set_option maxRecDepth 8192 in
theorem opsLstm1_sub : (opsLstm1 : List (HloOp τ sig (Elt F))).Forall fun op => op.bufs ⊆ tcRefs τ sig :=
  ⟨unary_bufs_sub .., unary_bufs_sub .., unary_bufs_sub .., nullary_bufs_sub .., unary_bufs_sub .., binary_bufs_sub ..,
    binary_bufs_sub .., binary_bufs_sub .., unary_bufs_sub .., unary_bufs_sub .., binary_bufs_sub .., unary_bufs_sub ..,
    unary_bufs_sub .., unary_bufs_sub .., unary_bufs_sub .., unary_bufs_sub .., unary_bufs_sub .., nullary_bufs_sub ..,
    unary_bufs_sub .., binary_bufs_sub .., nullary_bufs_sub .., unary_bufs_sub .., binary_bufs_sub .., binary_bufs_sub ..,
    unary_bufs_sub .., unary_bufs_sub .., nullary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., binary_bufs_sub .., nullary_bufs_sub .., unary_bufs_sub .., unary_bufs_sub .., ternary_bufs_sub ..,
    unary_bufs_sub .., nullary_bufs_sub .., unary_bufs_sub .., binary_bufs_sub .., ternary_bufs_sub .., binary_bufs_sub ..,
    binary_bufs_sub .., unary_bufs_sub .., unary_bufs_sub .., nullary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., unary_bufs_sub ..,
    ternary_bufs_sub .., unary_bufs_sub .., nullary_bufs_sub .., unary_bufs_sub .., binary_bufs_sub .., ternary_bufs_sub ..,
    binary_bufs_sub ..⟩

set_option maxRecDepth 8192 in
theorem opsLstm2_sub : (opsLstm2 : List (HloOp τ sig (Elt F))).Forall fun op => op.bufs ⊆ tcRefs τ sig :=
  ⟨binary_bufs_sub .., binary_bufs_sub .., binary_bufs_sub .., unary_bufs_sub .., unary_bufs_sub .., binary_bufs_sub ..,
    unary_bufs_sub .., unary_bufs_sub .., unary_bufs_sub .., unary_bufs_sub .., unary_bufs_sub .., unary_bufs_sub ..,
    nullary_bufs_sub .., unary_bufs_sub .., binary_bufs_sub .., nullary_bufs_sub .., unary_bufs_sub .., binary_bufs_sub ..,
    binary_bufs_sub .., unary_bufs_sub .., unary_bufs_sub .., nullary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., unary_bufs_sub ..,
    ternary_bufs_sub .., unary_bufs_sub .., nullary_bufs_sub .., unary_bufs_sub .., binary_bufs_sub .., ternary_bufs_sub ..,
    binary_bufs_sub .., binary_bufs_sub .., unary_bufs_sub .., unary_bufs_sub .., nullary_bufs_sub .., unary_bufs_sub ..,
    binary_bufs_sub .., nullary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    unary_bufs_sub .., ternary_bufs_sub .., unary_bufs_sub .., nullary_bufs_sub .., unary_bufs_sub .., binary_bufs_sub ..,
    ternary_bufs_sub .., binary_bufs_sub ..⟩

set_option maxRecDepth 8192 in
theorem opsBlend2_sub : (opsBlend2 : List (HloOp τ sig (Elt F))).Forall fun op => op.bufs ⊆ tcRefs τ sig :=
  ⟨unary_bufs_sub .., nullary_bufs_sub .., unary_bufs_sub .., binary_bufs_sub .., unary_bufs_sub .., binary_bufs_sub ..,
    unary_bufs_sub .., binary_bufs_sub .., binary_bufs_sub .., nullary_bufs_sub .., unary_bufs_sub .., binary_bufs_sub ..,
    unary_bufs_sub .., binary_bufs_sub .., unary_bufs_sub .., binary_bufs_sub .., binary_bufs_sub ..⟩

set_option maxRecDepth 8192 in
theorem opsLstm3_sub : (opsLstm3 : List (HloOp τ sig (Elt F))).Forall fun op => op.bufs ⊆ tcRefs τ sig :=
  ⟨binary_bufs_sub .., binary_bufs_sub .., binary_bufs_sub .., unary_bufs_sub .., unary_bufs_sub .., binary_bufs_sub ..,
    unary_bufs_sub .., unary_bufs_sub .., unary_bufs_sub .., unary_bufs_sub .., unary_bufs_sub .., unary_bufs_sub ..,
    nullary_bufs_sub .., unary_bufs_sub .., binary_bufs_sub .., nullary_bufs_sub .., unary_bufs_sub .., binary_bufs_sub ..,
    binary_bufs_sub .., unary_bufs_sub .., unary_bufs_sub .., nullary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., unary_bufs_sub ..,
    ternary_bufs_sub .., unary_bufs_sub .., nullary_bufs_sub .., unary_bufs_sub .., binary_bufs_sub .., ternary_bufs_sub ..,
    binary_bufs_sub .., binary_bufs_sub .., unary_bufs_sub .., unary_bufs_sub .., nullary_bufs_sub .., unary_bufs_sub ..,
    binary_bufs_sub .., nullary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    unary_bufs_sub .., ternary_bufs_sub .., unary_bufs_sub .., nullary_bufs_sub .., unary_bufs_sub .., binary_bufs_sub ..,
    ternary_bufs_sub .., binary_bufs_sub ..⟩

set_option maxRecDepth 8192 in
theorem opsBlend3_sub : (opsBlend3 : List (HloOp τ sig (Elt F))).Forall fun op => op.bufs ⊆ tcRefs τ sig :=
  ⟨unary_bufs_sub .., nullary_bufs_sub .., unary_bufs_sub .., binary_bufs_sub .., unary_bufs_sub .., binary_bufs_sub ..,
    unary_bufs_sub .., binary_bufs_sub .., binary_bufs_sub .., nullary_bufs_sub .., unary_bufs_sub .., binary_bufs_sub ..,
    unary_bufs_sub .., binary_bufs_sub .., unary_bufs_sub .., binary_bufs_sub .., binary_bufs_sub .., nullary_bufs_sub ..,
    unary_bufs_sub .., binary_bufs_sub .., unary_bufs_sub .., binary_bufs_sub .., unary_bufs_sub .., binary_bufs_sub ..,
    binary_bufs_sub ..⟩

set_option maxRecDepth 8192 in
theorem opsDecoder_sub : (opsDecoder : List (HloOp τ sig (Elt F))).Forall fun op => op.bufs ⊆ tcRefs τ sig :=
  ⟨binary_bufs_sub .., unary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    unary_bufs_sub .., ternary_bufs_sub .., unary_bufs_sub .., nullary_bufs_sub .., unary_bufs_sub .., binary_bufs_sub ..,
    ternary_bufs_sub .., binary_bufs_sub .., unary_bufs_sub .., unary_bufs_sub .., binary_bufs_sub .., binary_bufs_sub ..,
    unary_bufs_sub .., unary_bufs_sub .., binary_bufs_sub .., nullary_bufs_sub .., unary_bufs_sub .., binary_bufs_sub ..,
    unary_bufs_sub .., binary_bufs_sub .., binary_bufs_sub .., unary_bufs_sub .., binary_bufs_sub .., unary_bufs_sub ..,
    unary_bufs_sub .., unary_bufs_sub .., unary_bufs_sub .., binary_bufs_sub .., ternary_bufs_sub .., binary_bufs_sub ..⟩

/-- Every operation touches TensorCore references only. -/
theorem ops_sub : (ops : List (HloOp τ sig (Elt F))).Forall fun op => op.bufs ⊆ tcRefs τ sig :=
  forall_append opsLstm1_sub (forall_append opsLstm2_sub (forall_append opsBlend2_sub (forall_append opsLstm3_sub
    (forall_append opsBlend3_sub opsDecoder_sub))))

set_option maxRecDepth 8192 in
theorem opsLstm1_fresh : (opsLstm1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl⟩

set_option maxRecDepth 8192 in
theorem opsLstm2_fresh : (opsLstm2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
theorem opsBlend2_fresh : (opsBlend2 : List (HloOp τ sig (Elt F))).Forall fun op => op.fresh = ∅ :=
  ⟨rfl, rfl, rfl, rfl, rfl, rfl, rfl, rfl, rfl, rfl, rfl, rfl, rfl, rfl, rfl, rfl, rfl⟩

set_option maxRecDepth 8192 in
theorem opsLstm3_fresh : (opsLstm3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
theorem opsBlend3_fresh : (opsBlend3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl⟩

set_option maxRecDepth 8192 in
theorem opsDecoder_fresh : (opsDecoder : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl⟩

/-- Every operation determines its results. -/
theorem ops_fresh : (ops : List (HloOp τ sig (Elt F))).Forall fun op => op.fresh = ∅ :=
  forall_append opsLstm1_fresh (forall_append opsLstm2_fresh (forall_append opsBlend2_fresh (forall_append opsLstm3_fresh
    (forall_append opsBlend3_fresh opsDecoder_fresh))))

/-- For any float values, from any memory with zero counters: every weakly fair execution of @main on the
    TensorCores terminates, and every final state has each TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.mp ops_fresh)

/-! ## The arguments are kept

The arguments are the buffers of index 0 … 18; each operation writes the one buffer of its value, of index 19 or more. -/

set_option maxRecDepth 8192 in
theorem opsLstm1_writes : (opsLstm1 : List (HloOp τ sig (Elt F))).Forall (WritesFrom 19) :=
  ⟨⟨main_v0, by decide, rfl⟩, ⟨main_v1, by decide, rfl⟩, ⟨main_v2, by decide, rfl⟩, ⟨main_cst, by decide, rfl⟩,
    ⟨main_v3, by decide, rfl⟩, ⟨main_v4, by decide, rfl⟩, ⟨main_v5, by decide, rfl⟩, ⟨main_v6, by decide, rfl⟩,
    ⟨main_v7, by decide, rfl⟩, ⟨main_v8, by decide, rfl⟩, ⟨main_v9, by decide, rfl⟩, ⟨main_v10, by decide, rfl⟩,
    ⟨main_v11, by decide, rfl⟩, ⟨main_v12, by decide, rfl⟩, ⟨main_v13, by decide, rfl⟩, ⟨main_v14, by decide, rfl⟩,
    ⟨main_v15, by decide, rfl⟩, ⟨main_cst_0, by decide, rfl⟩, ⟨main_v16, by decide, rfl⟩, ⟨main_v17, by decide, rfl⟩,
    ⟨main_cst_1, by decide, rfl⟩, ⟨main_v18, by decide, rfl⟩, ⟨main_v19, by decide, rfl⟩, ⟨main_v20, by decide, rfl⟩,
    ⟨main_v21, by decide, rfl⟩, ⟨main_v22, by decide, rfl⟩, ⟨main_cst_2, by decide, rfl⟩, ⟨main_v23, by decide, rfl⟩,
    ⟨main_v24, by decide, rfl⟩, ⟨main_cst_3, by decide, rfl⟩, ⟨main_v25, by decide, rfl⟩, ⟨main_v26, by decide, rfl⟩,
    ⟨main_call0.cst.ref, by decide, rfl⟩, ⟨main_call0.v0.ref, by decide, rfl⟩, ⟨main_call0.v1.ref, by decide, rfl⟩, ⟨main_call0.cst_0.ref, by decide, rfl⟩,
    ⟨main_call0.v2.ref, by decide, rfl⟩, ⟨main_call0.v3.ref, by decide, rfl⟩, ⟨main_call0.cst_1.ref, by decide, rfl⟩, ⟨main_call0.call0.v0.ref, by decide, rfl⟩,
    ⟨main_call0.call0.v1.ref, by decide, rfl⟩, ⟨main_call0.call0.v2.ref, by decide, rfl⟩, ⟨main_call0.v5.ref, by decide, rfl⟩, ⟨main_call0.cst_2.ref, by decide, rfl⟩,
    ⟨main_call0.v6.ref, by decide, rfl⟩, ⟨main_call0.v7.ref, by decide, rfl⟩, ⟨main_call0.call1.v0.ref, by decide, rfl⟩, ⟨main_v28, by decide, rfl⟩,
    ⟨main_v29, by decide, rfl⟩, ⟨main_v30, by decide, rfl⟩, ⟨main_v31, by decide, rfl⟩, ⟨main_cst_4, by decide, rfl⟩,
    ⟨main_v32, by decide, rfl⟩, ⟨main_v33, by decide, rfl⟩, ⟨main_cst_5, by decide, rfl⟩, ⟨main_v34, by decide, rfl⟩,
    ⟨main_v35, by decide, rfl⟩, ⟨main_call1.cst.ref, by decide, rfl⟩, ⟨main_call1.v0.ref, by decide, rfl⟩, ⟨main_call1.v1.ref, by decide, rfl⟩,
    ⟨main_call1.cst_0.ref, by decide, rfl⟩, ⟨main_call1.v2.ref, by decide, rfl⟩, ⟨main_call1.v3.ref, by decide, rfl⟩, ⟨main_call1.cst_1.ref, by decide, rfl⟩,
    ⟨main_call1.call0.v0.ref, by decide, rfl⟩, ⟨main_call1.call0.v1.ref, by decide, rfl⟩, ⟨main_call1.call0.v2.ref, by decide, rfl⟩, ⟨main_call1.v5.ref, by decide, rfl⟩,
    ⟨main_call1.cst_2.ref, by decide, rfl⟩, ⟨main_call1.v6.ref, by decide, rfl⟩, ⟨main_call1.v7.ref, by decide, rfl⟩, ⟨main_call1.call1.v0.ref, by decide, rfl⟩,
    ⟨main_v37, by decide, rfl⟩⟩

set_option maxRecDepth 8192 in
theorem opsLstm2_writes : (opsLstm2 : List (HloOp τ sig (Elt F))).Forall (WritesFrom 19) :=
  ⟨⟨main_v38, by decide, rfl⟩, ⟨main_v39, by decide, rfl⟩, ⟨main_v40, by decide, rfl⟩, ⟨main_v41, by decide, rfl⟩,
    ⟨main_v42, by decide, rfl⟩, ⟨main_v43, by decide, rfl⟩, ⟨main_v44, by decide, rfl⟩, ⟨main_v45, by decide, rfl⟩,
    ⟨main_v46, by decide, rfl⟩, ⟨main_v47, by decide, rfl⟩, ⟨main_v48, by decide, rfl⟩, ⟨main_v49, by decide, rfl⟩,
    ⟨main_cst_6, by decide, rfl⟩, ⟨main_v50, by decide, rfl⟩, ⟨main_v51, by decide, rfl⟩, ⟨main_cst_7, by decide, rfl⟩,
    ⟨main_v52, by decide, rfl⟩, ⟨main_v53, by decide, rfl⟩, ⟨main_v54, by decide, rfl⟩, ⟨main_v55, by decide, rfl⟩,
    ⟨main_v56, by decide, rfl⟩, ⟨main_cst_8, by decide, rfl⟩, ⟨main_v57, by decide, rfl⟩, ⟨main_v58, by decide, rfl⟩,
    ⟨main_cst_9, by decide, rfl⟩, ⟨main_v59, by decide, rfl⟩, ⟨main_v60, by decide, rfl⟩, ⟨main_call2.cst.ref, by decide, rfl⟩,
    ⟨main_call2.v0.ref, by decide, rfl⟩, ⟨main_call2.v1.ref, by decide, rfl⟩, ⟨main_call2.cst_0.ref, by decide, rfl⟩, ⟨main_call2.v2.ref, by decide, rfl⟩,
    ⟨main_call2.v3.ref, by decide, rfl⟩, ⟨main_call2.cst_1.ref, by decide, rfl⟩, ⟨main_call2.call0.v0.ref, by decide, rfl⟩, ⟨main_call2.call0.v1.ref, by decide, rfl⟩,
    ⟨main_call2.call0.v2.ref, by decide, rfl⟩, ⟨main_call2.v5.ref, by decide, rfl⟩, ⟨main_call2.cst_2.ref, by decide, rfl⟩, ⟨main_call2.v6.ref, by decide, rfl⟩,
    ⟨main_call2.v7.ref, by decide, rfl⟩, ⟨main_call2.call1.v0.ref, by decide, rfl⟩, ⟨main_v62, by decide, rfl⟩, ⟨main_v63, by decide, rfl⟩,
    ⟨main_v64, by decide, rfl⟩, ⟨main_v65, by decide, rfl⟩, ⟨main_cst_10, by decide, rfl⟩, ⟨main_v66, by decide, rfl⟩,
    ⟨main_v67, by decide, rfl⟩, ⟨main_cst_11, by decide, rfl⟩, ⟨main_v68, by decide, rfl⟩, ⟨main_v69, by decide, rfl⟩,
    ⟨main_call3.cst.ref, by decide, rfl⟩, ⟨main_call3.v0.ref, by decide, rfl⟩, ⟨main_call3.v1.ref, by decide, rfl⟩, ⟨main_call3.cst_0.ref, by decide, rfl⟩,
    ⟨main_call3.v2.ref, by decide, rfl⟩, ⟨main_call3.v3.ref, by decide, rfl⟩, ⟨main_call3.cst_1.ref, by decide, rfl⟩, ⟨main_call3.call0.v0.ref, by decide, rfl⟩,
    ⟨main_call3.call0.v1.ref, by decide, rfl⟩, ⟨main_call3.call0.v2.ref, by decide, rfl⟩, ⟨main_call3.v5.ref, by decide, rfl⟩, ⟨main_call3.cst_2.ref, by decide, rfl⟩,
    ⟨main_call3.v6.ref, by decide, rfl⟩, ⟨main_call3.v7.ref, by decide, rfl⟩, ⟨main_call3.call1.v0.ref, by decide, rfl⟩, ⟨main_v71, by decide, rfl⟩⟩

set_option maxRecDepth 8192 in
theorem opsBlend2_writes : (opsBlend2 : List (HloOp τ sig (Elt F))).Forall (WritesFrom 19) :=
  ⟨⟨main_v72, by decide, rfl⟩, ⟨main_cst_12, by decide, rfl⟩, ⟨main_v73, by decide, rfl⟩, ⟨main_v74, by decide, rfl⟩,
    ⟨main_v75, by decide, rfl⟩, ⟨main_v76, by decide, rfl⟩, ⟨main_v77, by decide, rfl⟩, ⟨main_v78, by decide, rfl⟩,
    ⟨main_v79, by decide, rfl⟩, ⟨main_cst_13, by decide, rfl⟩, ⟨main_v80, by decide, rfl⟩, ⟨main_v81, by decide, rfl⟩,
    ⟨main_v82, by decide, rfl⟩, ⟨main_v83, by decide, rfl⟩, ⟨main_v84, by decide, rfl⟩, ⟨main_v85, by decide, rfl⟩,
    ⟨main_v86, by decide, rfl⟩⟩

set_option maxRecDepth 8192 in
theorem opsLstm3_writes : (opsLstm3 : List (HloOp τ sig (Elt F))).Forall (WritesFrom 19) :=
  ⟨⟨main_v87, by decide, rfl⟩, ⟨main_v88, by decide, rfl⟩, ⟨main_v89, by decide, rfl⟩, ⟨main_v90, by decide, rfl⟩,
    ⟨main_v91, by decide, rfl⟩, ⟨main_v92, by decide, rfl⟩, ⟨main_v93, by decide, rfl⟩, ⟨main_v94, by decide, rfl⟩,
    ⟨main_v95, by decide, rfl⟩, ⟨main_v96, by decide, rfl⟩, ⟨main_v97, by decide, rfl⟩, ⟨main_v98, by decide, rfl⟩,
    ⟨main_cst_14, by decide, rfl⟩, ⟨main_v99, by decide, rfl⟩, ⟨main_v100, by decide, rfl⟩, ⟨main_cst_15, by decide, rfl⟩,
    ⟨main_v101, by decide, rfl⟩, ⟨main_v102, by decide, rfl⟩, ⟨main_v103, by decide, rfl⟩, ⟨main_v104, by decide, rfl⟩,
    ⟨main_v105, by decide, rfl⟩, ⟨main_cst_16, by decide, rfl⟩, ⟨main_v106, by decide, rfl⟩, ⟨main_v107, by decide, rfl⟩,
    ⟨main_cst_17, by decide, rfl⟩, ⟨main_v108, by decide, rfl⟩, ⟨main_v109, by decide, rfl⟩, ⟨main_call4.cst.ref, by decide, rfl⟩,
    ⟨main_call4.v0.ref, by decide, rfl⟩, ⟨main_call4.v1.ref, by decide, rfl⟩, ⟨main_call4.cst_0.ref, by decide, rfl⟩, ⟨main_call4.v2.ref, by decide, rfl⟩,
    ⟨main_call4.v3.ref, by decide, rfl⟩, ⟨main_call4.cst_1.ref, by decide, rfl⟩, ⟨main_call4.call0.v0.ref, by decide, rfl⟩, ⟨main_call4.call0.v1.ref, by decide, rfl⟩,
    ⟨main_call4.call0.v2.ref, by decide, rfl⟩, ⟨main_call4.v5.ref, by decide, rfl⟩, ⟨main_call4.cst_2.ref, by decide, rfl⟩, ⟨main_call4.v6.ref, by decide, rfl⟩,
    ⟨main_call4.v7.ref, by decide, rfl⟩, ⟨main_call4.call1.v0.ref, by decide, rfl⟩, ⟨main_v111, by decide, rfl⟩, ⟨main_v112, by decide, rfl⟩,
    ⟨main_v113, by decide, rfl⟩, ⟨main_v114, by decide, rfl⟩, ⟨main_cst_18, by decide, rfl⟩, ⟨main_v115, by decide, rfl⟩,
    ⟨main_v116, by decide, rfl⟩, ⟨main_cst_19, by decide, rfl⟩, ⟨main_v117, by decide, rfl⟩, ⟨main_v118, by decide, rfl⟩,
    ⟨main_call5.cst.ref, by decide, rfl⟩, ⟨main_call5.v0.ref, by decide, rfl⟩, ⟨main_call5.v1.ref, by decide, rfl⟩, ⟨main_call5.cst_0.ref, by decide, rfl⟩,
    ⟨main_call5.v2.ref, by decide, rfl⟩, ⟨main_call5.v3.ref, by decide, rfl⟩, ⟨main_call5.cst_1.ref, by decide, rfl⟩, ⟨main_call5.call0.v0.ref, by decide, rfl⟩,
    ⟨main_call5.call0.v1.ref, by decide, rfl⟩, ⟨main_call5.call0.v2.ref, by decide, rfl⟩, ⟨main_call5.v5.ref, by decide, rfl⟩, ⟨main_call5.cst_2.ref, by decide, rfl⟩,
    ⟨main_call5.v6.ref, by decide, rfl⟩, ⟨main_call5.v7.ref, by decide, rfl⟩, ⟨main_call5.call1.v0.ref, by decide, rfl⟩, ⟨main_v120, by decide, rfl⟩⟩

set_option maxRecDepth 8192 in
theorem opsBlend3_writes : (opsBlend3 : List (HloOp τ sig (Elt F))).Forall (WritesFrom 19) :=
  ⟨⟨main_v121, by decide, rfl⟩, ⟨main_cst_20, by decide, rfl⟩, ⟨main_v122, by decide, rfl⟩, ⟨main_v123, by decide, rfl⟩,
    ⟨main_v124, by decide, rfl⟩, ⟨main_v125, by decide, rfl⟩, ⟨main_v126, by decide, rfl⟩, ⟨main_v127, by decide, rfl⟩,
    ⟨main_v128, by decide, rfl⟩, ⟨main_cst_21, by decide, rfl⟩, ⟨main_v129, by decide, rfl⟩, ⟨main_v130, by decide, rfl⟩,
    ⟨main_v131, by decide, rfl⟩, ⟨main_v132, by decide, rfl⟩, ⟨main_v133, by decide, rfl⟩, ⟨main_v134, by decide, rfl⟩,
    ⟨main_v135, by decide, rfl⟩, ⟨main_cst_22, by decide, rfl⟩, ⟨main_v136, by decide, rfl⟩, ⟨main_v137, by decide, rfl⟩,
    ⟨main_v138, by decide, rfl⟩, ⟨main_v139, by decide, rfl⟩, ⟨main_v140, by decide, rfl⟩, ⟨main_v141, by decide, rfl⟩,
    ⟨main_v142, by decide, rfl⟩⟩

set_option maxRecDepth 8192 in
theorem opsDecoder_writes : (opsDecoder : List (HloOp τ sig (Elt F))).Forall (WritesFrom 19) :=
  ⟨⟨main_v143, by decide, rfl⟩, ⟨main_v144, by decide, rfl⟩, ⟨main_v145, by decide, rfl⟩, ⟨main_v146, by decide, rfl⟩,
    ⟨main_call6.cst.ref, by decide, rfl⟩, ⟨main_call6.v0.ref, by decide, rfl⟩, ⟨main_call6.v1.ref, by decide, rfl⟩, ⟨main_call6.cst_0.ref, by decide, rfl⟩,
    ⟨main_call6.v2.ref, by decide, rfl⟩, ⟨main_call6.v3.ref, by decide, rfl⟩, ⟨main_call6.cst_1.ref, by decide, rfl⟩, ⟨main_call6.call0.v0.ref, by decide, rfl⟩,
    ⟨main_call6.call0.v1.ref, by decide, rfl⟩, ⟨main_call6.call0.v2.ref, by decide, rfl⟩, ⟨main_call6.v5.ref, by decide, rfl⟩, ⟨main_call6.cst_2.ref, by decide, rfl⟩,
    ⟨main_call6.v6.ref, by decide, rfl⟩, ⟨main_call6.v7.ref, by decide, rfl⟩, ⟨main_call6.call1.v0.ref, by decide, rfl⟩, ⟨main_v148, by decide, rfl⟩,
    ⟨main_v149, by decide, rfl⟩, ⟨main_v150, by decide, rfl⟩, ⟨main_v151, by decide, rfl⟩, ⟨main_v152, by decide, rfl⟩,
    ⟨main_v153, by decide, rfl⟩, ⟨main_v154, by decide, rfl⟩, ⟨main_v155, by decide, rfl⟩, ⟨main_call7.cst.ref, by decide, rfl⟩,
    ⟨main_call7.v0.ref, by decide, rfl⟩, ⟨main_call7.v1.ref, by decide, rfl⟩, ⟨main_call7.v2.ref, by decide, rfl⟩, ⟨main_call7.v3.ref, by decide, rfl⟩,
    ⟨main_call7.v4.ref, by decide, rfl⟩, ⟨main_call7.v5.ref, by decide, rfl⟩, ⟨main_call7.v6.ref, by decide, rfl⟩, ⟨main_call7.v7.ref, by decide, rfl⟩,
    ⟨main_call7.v8.ref, by decide, rfl⟩, ⟨main_call7.v9.ref, by decide, rfl⟩, ⟨main_call7.v10.ref, by decide, rfl⟩, ⟨main_call7.v11.ref, by decide, rfl⟩,
    ⟨main_call7.v12.ref, by decide, rfl⟩, ⟨main_v157, by decide, rfl⟩⟩

theorem ops_writes : (ops : List (HloOp τ sig (Elt F))).Forall (WritesFrom 19) :=
  forall_append opsLstm1_writes (forall_append opsLstm2_writes (forall_append opsBlend2_writes (forall_append opsLstm3_writes
    (forall_append opsBlend3_writes opsDecoder_writes))))

/-- A buffer of index below 19 holds after the whole line what it held before. -/
theorem kept (V : Valuation τ sig (Elt F)) {b : Ref sig .tc} (hb : b.idx.val < 19) :
    after ops V (Proc.devRef .tc b) = V (Proc.devRef .tc b) :=
  after_of_writesFrom ops V ops_writes hb

/-- Each of the nineteen arguments holds after the whole line what it held before. -/
theorem arg_kept (V : Valuation τ sig (Elt F)) (b : Ref sig .tc)
    (hb : b ∈ [main_arg0, main_arg1, main_arg2, main_arg3, main_arg4, main_arg5, main_arg6, main_arg7, main_arg8, main_arg9,
      main_arg10, main_arg11, main_arg12, main_arg13, main_arg14, main_arg15, main_arg16, main_arg17, main_arg18]) :
    after ops V (Proc.devRef .tc b) = V (Proc.devRef .tc b) :=
  kept V ((by decide : ∀ r ∈ [main_arg0, main_arg1, main_arg2, main_arg3, main_arg4, main_arg5, main_arg6, main_arg7, main_arg8,
      main_arg9, main_arg10, main_arg11, main_arg12, main_arg13, main_arg14, main_arg15, main_arg16, main_arg17, main_arg18],
      (r : Ref sig .tc).idx.val < 19) b hb)

end Cert.ReferenceIdeal.RefRun

end
-- ==== Proof.RefValue.lean ====
/-
  What the reference program computes, read off its run: each of its three results is, row by row, the one function of the
  row of the data, of the flags and of the two states that the specification names.

  The program is a line of 293 tensor operations in six consecutive pieces. For each piece, from any contents of the buffers,
  the buffers later pieces read are closed terms in the host's spellings of the layer (pre-activations, gates, cell and hidden
  state), of the gated blend and of the read-out, applied to the buffers the piece reads; a piece writes only buffers of its own
  index range, so everything written before it, and every argument, passes through it unchanged. Read at a row, each closed
  term is the specification's function of that row; the pieces are then composed in order.
-/
import proofs.«162006_j48043504173109_1_alg».proof.Proof.RefRun
import proofs.«162006_j48043504173109_1_alg».proof.Proof.LibLstmRows
import proofs.«162006_j48043504173109_1_alg».proof.Proof.LibGaussHead
import proofs.«162006_j48043504173109_1_alg».proof.Proof.Spec

noncomputable section

namespace Cert.ReferenceIdeal.RefValue

open Idealize.ShloMosaic Idealize.ShloMosaic.StableHlo Idealize.ShloMosaic.ValueIdx Idealize.ShloMosaic.LstmRows
  Idealize.ShloMosaic.GaussHead Idealize.SL.Sem Cert.ReferenceIdeal Cert.ReferenceIdeal.RefRun

variable [Facts]
open Facts₀ Facts

/-- The contents of a buffer, at the type of the vector it holds. -/
local notation:max W "⟪" b ", " s "⟫" => (W (Proc.devRef Proc.tc b) : FVec Ideal s FTy.f32)

/-! ## Each piece writes buffers of its own index range

The buffers are numbered in program order, the nineteen arguments first: the six pieces write the buffers of index 19 … 91,
92 … 159, 160 … 176, 177 … 244, 245 … 269 and 270 … 311. A buffer of smaller index than a piece's first passes through it. -/

set_option maxRecDepth 8192 in
theorem opsLstm2_from : (opsLstm2 : List (HloOp τ sig (Elt Ideal))).Forall (WritesFrom 92) :=
  ⟨⟨main_v38, by decide, rfl⟩, ⟨main_v39, by decide, rfl⟩, ⟨main_v40, by decide, rfl⟩, ⟨main_v41, by decide, rfl⟩,
    ⟨main_v42, by decide, rfl⟩, ⟨main_v43, by decide, rfl⟩, ⟨main_v44, by decide, rfl⟩, ⟨main_v45, by decide, rfl⟩,
    ⟨main_v46, by decide, rfl⟩, ⟨main_v47, by decide, rfl⟩, ⟨main_v48, by decide, rfl⟩, ⟨main_v49, by decide, rfl⟩,
    ⟨main_cst_6, by decide, rfl⟩, ⟨main_v50, by decide, rfl⟩, ⟨main_v51, by decide, rfl⟩, ⟨main_cst_7, by decide, rfl⟩,
    ⟨main_v52, by decide, rfl⟩, ⟨main_v53, by decide, rfl⟩, ⟨main_v54, by decide, rfl⟩, ⟨main_v55, by decide, rfl⟩,
    ⟨main_v56, by decide, rfl⟩, ⟨main_cst_8, by decide, rfl⟩, ⟨main_v57, by decide, rfl⟩, ⟨main_v58, by decide, rfl⟩,
    ⟨main_cst_9, by decide, rfl⟩, ⟨main_v59, by decide, rfl⟩, ⟨main_v60, by decide, rfl⟩, ⟨main_call2.cst.ref, by decide, rfl⟩,
    ⟨main_call2.v0.ref, by decide, rfl⟩, ⟨main_call2.v1.ref, by decide, rfl⟩, ⟨main_call2.cst_0.ref, by decide, rfl⟩, ⟨main_call2.v2.ref, by decide, rfl⟩,
    ⟨main_call2.v3.ref, by decide, rfl⟩, ⟨main_call2.cst_1.ref, by decide, rfl⟩, ⟨main_call2.call0.v0.ref, by decide, rfl⟩, ⟨main_call2.call0.v1.ref, by decide, rfl⟩,
    ⟨main_call2.call0.v2.ref, by decide, rfl⟩, ⟨main_call2.v5.ref, by decide, rfl⟩, ⟨main_call2.cst_2.ref, by decide, rfl⟩, ⟨main_call2.v6.ref, by decide, rfl⟩,
    ⟨main_call2.v7.ref, by decide, rfl⟩, ⟨main_call2.call1.v0.ref, by decide, rfl⟩, ⟨main_v62, by decide, rfl⟩, ⟨main_v63, by decide, rfl⟩,
    ⟨main_v64, by decide, rfl⟩, ⟨main_v65, by decide, rfl⟩, ⟨main_cst_10, by decide, rfl⟩, ⟨main_v66, by decide, rfl⟩,
    ⟨main_v67, by decide, rfl⟩, ⟨main_cst_11, by decide, rfl⟩, ⟨main_v68, by decide, rfl⟩, ⟨main_v69, by decide, rfl⟩,
    ⟨main_call3.cst.ref, by decide, rfl⟩, ⟨main_call3.v0.ref, by decide, rfl⟩, ⟨main_call3.v1.ref, by decide, rfl⟩, ⟨main_call3.cst_0.ref, by decide, rfl⟩,
    ⟨main_call3.v2.ref, by decide, rfl⟩, ⟨main_call3.v3.ref, by decide, rfl⟩, ⟨main_call3.cst_1.ref, by decide, rfl⟩, ⟨main_call3.call0.v0.ref, by decide, rfl⟩,
    ⟨main_call3.call0.v1.ref, by decide, rfl⟩, ⟨main_call3.call0.v2.ref, by decide, rfl⟩, ⟨main_call3.v5.ref, by decide, rfl⟩, ⟨main_call3.cst_2.ref, by decide, rfl⟩,
    ⟨main_call3.v6.ref, by decide, rfl⟩, ⟨main_call3.v7.ref, by decide, rfl⟩, ⟨main_call3.call1.v0.ref, by decide, rfl⟩, ⟨main_v71, by decide, rfl⟩⟩

/-- A buffer of index below 92 passes through this piece. -/
theorem opsLstm2_keeps (W : Valuation τ sig (Elt Ideal)) {b : Ref sig .tc} (hb : b.idx.val < 92) :
    after opsLstm2 W (Proc.devRef .tc b) = W (Proc.devRef .tc b) :=
  after_of_writesFrom opsLstm2 W opsLstm2_from hb

set_option maxRecDepth 8192 in
theorem opsBlend2_from : (opsBlend2 : List (HloOp τ sig (Elt Ideal))).Forall (WritesFrom 160) :=
  ⟨⟨main_v72, by decide, rfl⟩, ⟨main_cst_12, by decide, rfl⟩, ⟨main_v73, by decide, rfl⟩, ⟨main_v74, by decide, rfl⟩,
    ⟨main_v75, by decide, rfl⟩, ⟨main_v76, by decide, rfl⟩, ⟨main_v77, by decide, rfl⟩, ⟨main_v78, by decide, rfl⟩,
    ⟨main_v79, by decide, rfl⟩, ⟨main_cst_13, by decide, rfl⟩, ⟨main_v80, by decide, rfl⟩, ⟨main_v81, by decide, rfl⟩,
    ⟨main_v82, by decide, rfl⟩, ⟨main_v83, by decide, rfl⟩, ⟨main_v84, by decide, rfl⟩, ⟨main_v85, by decide, rfl⟩,
    ⟨main_v86, by decide, rfl⟩⟩

/-- A buffer of index below 160 passes through this piece. -/
theorem opsBlend2_keeps (W : Valuation τ sig (Elt Ideal)) {b : Ref sig .tc} (hb : b.idx.val < 160) :
    after opsBlend2 W (Proc.devRef .tc b) = W (Proc.devRef .tc b) :=
  after_of_writesFrom opsBlend2 W opsBlend2_from hb

set_option maxRecDepth 8192 in
theorem opsLstm3_from : (opsLstm3 : List (HloOp τ sig (Elt Ideal))).Forall (WritesFrom 177) :=
  ⟨⟨main_v87, by decide, rfl⟩, ⟨main_v88, by decide, rfl⟩, ⟨main_v89, by decide, rfl⟩, ⟨main_v90, by decide, rfl⟩,
    ⟨main_v91, by decide, rfl⟩, ⟨main_v92, by decide, rfl⟩, ⟨main_v93, by decide, rfl⟩, ⟨main_v94, by decide, rfl⟩,
    ⟨main_v95, by decide, rfl⟩, ⟨main_v96, by decide, rfl⟩, ⟨main_v97, by decide, rfl⟩, ⟨main_v98, by decide, rfl⟩,
    ⟨main_cst_14, by decide, rfl⟩, ⟨main_v99, by decide, rfl⟩, ⟨main_v100, by decide, rfl⟩, ⟨main_cst_15, by decide, rfl⟩,
    ⟨main_v101, by decide, rfl⟩, ⟨main_v102, by decide, rfl⟩, ⟨main_v103, by decide, rfl⟩, ⟨main_v104, by decide, rfl⟩,
    ⟨main_v105, by decide, rfl⟩, ⟨main_cst_16, by decide, rfl⟩, ⟨main_v106, by decide, rfl⟩, ⟨main_v107, by decide, rfl⟩,
    ⟨main_cst_17, by decide, rfl⟩, ⟨main_v108, by decide, rfl⟩, ⟨main_v109, by decide, rfl⟩, ⟨main_call4.cst.ref, by decide, rfl⟩,
    ⟨main_call4.v0.ref, by decide, rfl⟩, ⟨main_call4.v1.ref, by decide, rfl⟩, ⟨main_call4.cst_0.ref, by decide, rfl⟩, ⟨main_call4.v2.ref, by decide, rfl⟩,
    ⟨main_call4.v3.ref, by decide, rfl⟩, ⟨main_call4.cst_1.ref, by decide, rfl⟩, ⟨main_call4.call0.v0.ref, by decide, rfl⟩, ⟨main_call4.call0.v1.ref, by decide, rfl⟩,
    ⟨main_call4.call0.v2.ref, by decide, rfl⟩, ⟨main_call4.v5.ref, by decide, rfl⟩, ⟨main_call4.cst_2.ref, by decide, rfl⟩, ⟨main_call4.v6.ref, by decide, rfl⟩,
    ⟨main_call4.v7.ref, by decide, rfl⟩, ⟨main_call4.call1.v0.ref, by decide, rfl⟩, ⟨main_v111, by decide, rfl⟩, ⟨main_v112, by decide, rfl⟩,
    ⟨main_v113, by decide, rfl⟩, ⟨main_v114, by decide, rfl⟩, ⟨main_cst_18, by decide, rfl⟩, ⟨main_v115, by decide, rfl⟩,
    ⟨main_v116, by decide, rfl⟩, ⟨main_cst_19, by decide, rfl⟩, ⟨main_v117, by decide, rfl⟩, ⟨main_v118, by decide, rfl⟩,
    ⟨main_call5.cst.ref, by decide, rfl⟩, ⟨main_call5.v0.ref, by decide, rfl⟩, ⟨main_call5.v1.ref, by decide, rfl⟩, ⟨main_call5.cst_0.ref, by decide, rfl⟩,
    ⟨main_call5.v2.ref, by decide, rfl⟩, ⟨main_call5.v3.ref, by decide, rfl⟩, ⟨main_call5.cst_1.ref, by decide, rfl⟩, ⟨main_call5.call0.v0.ref, by decide, rfl⟩,
    ⟨main_call5.call0.v1.ref, by decide, rfl⟩, ⟨main_call5.call0.v2.ref, by decide, rfl⟩, ⟨main_call5.v5.ref, by decide, rfl⟩, ⟨main_call5.cst_2.ref, by decide, rfl⟩,
    ⟨main_call5.v6.ref, by decide, rfl⟩, ⟨main_call5.v7.ref, by decide, rfl⟩, ⟨main_call5.call1.v0.ref, by decide, rfl⟩, ⟨main_v120, by decide, rfl⟩⟩

/-- A buffer of index below 177 passes through this piece. -/
theorem opsLstm3_keeps (W : Valuation τ sig (Elt Ideal)) {b : Ref sig .tc} (hb : b.idx.val < 177) :
    after opsLstm3 W (Proc.devRef .tc b) = W (Proc.devRef .tc b) :=
  after_of_writesFrom opsLstm3 W opsLstm3_from hb

set_option maxRecDepth 8192 in
theorem opsBlend3_from : (opsBlend3 : List (HloOp τ sig (Elt Ideal))).Forall (WritesFrom 245) :=
  ⟨⟨main_v121, by decide, rfl⟩, ⟨main_cst_20, by decide, rfl⟩, ⟨main_v122, by decide, rfl⟩, ⟨main_v123, by decide, rfl⟩,
    ⟨main_v124, by decide, rfl⟩, ⟨main_v125, by decide, rfl⟩, ⟨main_v126, by decide, rfl⟩, ⟨main_v127, by decide, rfl⟩,
    ⟨main_v128, by decide, rfl⟩, ⟨main_cst_21, by decide, rfl⟩, ⟨main_v129, by decide, rfl⟩, ⟨main_v130, by decide, rfl⟩,
    ⟨main_v131, by decide, rfl⟩, ⟨main_v132, by decide, rfl⟩, ⟨main_v133, by decide, rfl⟩, ⟨main_v134, by decide, rfl⟩,
    ⟨main_v135, by decide, rfl⟩, ⟨main_cst_22, by decide, rfl⟩, ⟨main_v136, by decide, rfl⟩, ⟨main_v137, by decide, rfl⟩,
    ⟨main_v138, by decide, rfl⟩, ⟨main_v139, by decide, rfl⟩, ⟨main_v140, by decide, rfl⟩, ⟨main_v141, by decide, rfl⟩,
    ⟨main_v142, by decide, rfl⟩⟩

/-- A buffer of index below 245 passes through this piece. -/
theorem opsBlend3_keeps (W : Valuation τ sig (Elt Ideal)) {b : Ref sig .tc} (hb : b.idx.val < 245) :
    after opsBlend3 W (Proc.devRef .tc b) = W (Proc.devRef .tc b) :=
  after_of_writesFrom opsBlend3 W opsBlend3_from hb

set_option maxRecDepth 8192 in
theorem opsDecoder_from : (opsDecoder : List (HloOp τ sig (Elt Ideal))).Forall (WritesFrom 270) :=
  ⟨⟨main_v143, by decide, rfl⟩, ⟨main_v144, by decide, rfl⟩, ⟨main_v145, by decide, rfl⟩, ⟨main_v146, by decide, rfl⟩,
    ⟨main_call6.cst.ref, by decide, rfl⟩, ⟨main_call6.v0.ref, by decide, rfl⟩, ⟨main_call6.v1.ref, by decide, rfl⟩, ⟨main_call6.cst_0.ref, by decide, rfl⟩,
    ⟨main_call6.v2.ref, by decide, rfl⟩, ⟨main_call6.v3.ref, by decide, rfl⟩, ⟨main_call6.cst_1.ref, by decide, rfl⟩, ⟨main_call6.call0.v0.ref, by decide, rfl⟩,
    ⟨main_call6.call0.v1.ref, by decide, rfl⟩, ⟨main_call6.call0.v2.ref, by decide, rfl⟩, ⟨main_call6.v5.ref, by decide, rfl⟩, ⟨main_call6.cst_2.ref, by decide, rfl⟩,
    ⟨main_call6.v6.ref, by decide, rfl⟩, ⟨main_call6.v7.ref, by decide, rfl⟩, ⟨main_call6.call1.v0.ref, by decide, rfl⟩, ⟨main_v148, by decide, rfl⟩,
    ⟨main_v149, by decide, rfl⟩, ⟨main_v150, by decide, rfl⟩, ⟨main_v151, by decide, rfl⟩, ⟨main_v152, by decide, rfl⟩,
    ⟨main_v153, by decide, rfl⟩, ⟨main_v154, by decide, rfl⟩, ⟨main_v155, by decide, rfl⟩, ⟨main_call7.cst.ref, by decide, rfl⟩,
    ⟨main_call7.v0.ref, by decide, rfl⟩, ⟨main_call7.v1.ref, by decide, rfl⟩, ⟨main_call7.v2.ref, by decide, rfl⟩, ⟨main_call7.v3.ref, by decide, rfl⟩,
    ⟨main_call7.v4.ref, by decide, rfl⟩, ⟨main_call7.v5.ref, by decide, rfl⟩, ⟨main_call7.v6.ref, by decide, rfl⟩, ⟨main_call7.v7.ref, by decide, rfl⟩,
    ⟨main_call7.v8.ref, by decide, rfl⟩, ⟨main_call7.v9.ref, by decide, rfl⟩, ⟨main_call7.v10.ref, by decide, rfl⟩, ⟨main_call7.v11.ref, by decide, rfl⟩,
    ⟨main_call7.v12.ref, by decide, rfl⟩, ⟨main_v157, by decide, rfl⟩⟩

/-- A buffer of index below 270 passes through this piece. -/
theorem opsDecoder_keeps (W : Valuation τ sig (Elt Ideal)) {b : Ref sig .tc} (hb : b.idx.val < 270) :
    after opsDecoder W (Proc.devRef .tc b) = W (Proc.devRef .tc b) :=
  after_of_writesFrom opsDecoder W opsDecoder_from hb

/-- A buffer of index below 19 passes through the first piece. -/
theorem opsLstm1_keeps (W : Valuation τ sig (Elt Ideal)) {b : Ref sig .tc} (hb : b.idx.val < 19) :
    after opsLstm1 W (Proc.devRef .tc b) = W (Proc.devRef .tc b) :=
  after_of_writesFrom opsLstm1 W opsLstm1_writes hb

/-! ## The pieces' closed terms

From any contents `W` of the buffers: what a piece leaves in each buffer that a later piece, or the caller, reads. -/

set_option maxRecDepth 8192 in
set_option maxHeartbeats 4000000 in
/-- The 64 input columns of the data. -/
theorem lstm1_x0 (W : Valuation τ sig (Elt Ideal)) :
    (after opsLstm1 W (Proc.devRef .tc main_v0) : FVec Ideal S32768x64 .f32)
      = extractStridedSlice S32768x64 ![0, 0] W⟪main_arg0, S32768x72⟫ slices_S32768x72_S32768x64_0_0 := by
  after_results_simp <;> rfl

set_option maxRecDepth 8192 in
set_option maxHeartbeats 4000000 in
/-- The 8 observation columns of the data. -/
theorem lstm1_x1 (W : Valuation τ sig (Elt Ideal)) :
    (after opsLstm1 W (Proc.devRef .tc main_v1) : FVec Ideal S32768x8 .f32)
      = extractStridedSlice S32768x8 ![0, 64] W⟪main_arg0, S32768x72⟫ slices_S32768x72_S32768x8_0_64 := by
  after_results_simp <;> rfl

set_option maxRecDepth 8192 in
set_option maxHeartbeats 4000000 in
/-- The first layer's cell state: from a zero input column and the two state arguments. -/
theorem lstm1_c (W : Valuation τ sig (Elt Ideal)) :
    (after opsLstm1 W (Proc.devRef .tc main_v29) : FVec Ideal S32768x256 .f32)
      = cH bcast_S_S32768x256 0 256 512 slices_S32768x1024_S32768x256_0_0 slices_S32768x1024_S32768x256_0_256
      slices_S32768x1024_S32768x256_0_512
      (zH dot_S32768x1_S1x1024_S32768x1024_1_0_0_1_n_n dot_S32768x256_S256x1024_S32768x1024_1_0_0_1_n_n bcast_S1024_S1x1024_1 bcast_S1x1024_S32768x1024_0_1
        (broadcastInDim S32768x1 ![] bcast_S_S32768x1 (constant S_ .f32 0x00000000#32)) W⟪main_arg2, S32768x256⟫
        W⟪main_arg4, S1x1024⟫ W⟪main_arg5, S256x1024⟫ W⟪main_arg6, S1024⟫)
      W⟪main_arg3, S32768x256⟫ := by
  after_results_simp <;> rfl

set_option maxRecDepth 8192 in
set_option maxHeartbeats 4000000 in
/-- The first layer's hidden state. -/
theorem lstm1_h (W : Valuation τ sig (Elt Ideal)) :
    (after opsLstm1 W (Proc.devRef .tc main_v37) : FVec Ideal S32768x256 .f32)
      = hH bcast_S_S32768x256 768 slices_S32768x1024_S32768x256_0_768
      (zH dot_S32768x1_S1x1024_S32768x1024_1_0_0_1_n_n dot_S32768x256_S256x1024_S32768x1024_1_0_0_1_n_n bcast_S1024_S1x1024_1 bcast_S1x1024_S32768x1024_0_1
        (broadcastInDim S32768x1 ![] bcast_S_S32768x1 (constant S_ .f32 0x00000000#32)) W⟪main_arg2, S32768x256⟫
        W⟪main_arg4, S1x1024⟫ W⟪main_arg5, S256x1024⟫ W⟪main_arg6, S1024⟫)
      (cH bcast_S_S32768x256 0 256 512 slices_S32768x1024_S32768x256_0_0 slices_S32768x1024_S32768x256_0_256
      slices_S32768x1024_S32768x256_0_512
      (zH dot_S32768x1_S1x1024_S32768x1024_1_0_0_1_n_n dot_S32768x256_S256x1024_S32768x1024_1_0_0_1_n_n bcast_S1024_S1x1024_1 bcast_S1x1024_S32768x1024_0_1
        (broadcastInDim S32768x1 ![] bcast_S_S32768x1 (constant S_ .f32 0x00000000#32)) W⟪main_arg2, S32768x256⟫
        W⟪main_arg4, S1x1024⟫ W⟪main_arg5, S256x1024⟫ W⟪main_arg6, S1024⟫)
      W⟪main_arg3, S32768x256⟫) := by
  after_results_simp <;> rfl

set_option maxRecDepth 8192 in
set_option maxHeartbeats 4000000 in
/-- The second layer's cell state: from the input columns and the first layer's states. -/
theorem lstm2_c (W : Valuation τ sig (Elt Ideal)) :
    (after opsLstm2 W (Proc.devRef .tc main_v63) : FVec Ideal S32768x256 .f32)
      = cH bcast_S_S32768x256 0 256 512 slices_S32768x1024_S32768x256_0_0 slices_S32768x1024_S32768x256_0_256
      slices_S32768x1024_S32768x256_0_512
      (zH dot_S32768x64_S64x1024_S32768x1024_1_0_0_1_n_n dot_S32768x256_S256x1024_S32768x1024_1_0_0_1_n_n bcast_S1024_S1x1024_1 bcast_S1x1024_S32768x1024_0_1
        W⟪main_v0, S32768x64⟫ W⟪main_v37, S32768x256⟫
        W⟪main_arg7, S64x1024⟫ W⟪main_arg8, S256x1024⟫ W⟪main_arg9, S1024⟫)
      W⟪main_v29, S32768x256⟫ := by
  after_results_simp <;> rfl

set_option maxRecDepth 8192 in
set_option maxHeartbeats 4000000 in
/-- The second layer's hidden state. -/
theorem lstm2_h (W : Valuation τ sig (Elt Ideal)) :
    (after opsLstm2 W (Proc.devRef .tc main_v71) : FVec Ideal S32768x256 .f32)
      = hH bcast_S_S32768x256 768 slices_S32768x1024_S32768x256_0_768
      (zH dot_S32768x64_S64x1024_S32768x1024_1_0_0_1_n_n dot_S32768x256_S256x1024_S32768x1024_1_0_0_1_n_n bcast_S1024_S1x1024_1 bcast_S1x1024_S32768x1024_0_1
        W⟪main_v0, S32768x64⟫ W⟪main_v37, S32768x256⟫
        W⟪main_arg7, S64x1024⟫ W⟪main_arg8, S256x1024⟫ W⟪main_arg9, S1024⟫)
      (cH bcast_S_S32768x256 0 256 512 slices_S32768x1024_S32768x256_0_0 slices_S32768x1024_S32768x256_0_256
      slices_S32768x1024_S32768x256_0_512
      (zH dot_S32768x64_S64x1024_S32768x1024_1_0_0_1_n_n dot_S32768x256_S256x1024_S32768x1024_1_0_0_1_n_n bcast_S1024_S1x1024_1 bcast_S1x1024_S32768x1024_0_1
        W⟪main_v0, S32768x64⟫ W⟪main_v37, S32768x256⟫
        W⟪main_arg7, S64x1024⟫ W⟪main_arg8, S256x1024⟫ W⟪main_arg9, S1024⟫)
      W⟪main_v29, S32768x256⟫) := by
  after_results_simp <;> rfl

set_option maxRecDepth 8192 in
set_option maxHeartbeats 4000000 in
/-- The first column of the flags. -/
theorem blend2_k (W : Valuation τ sig (Elt Ideal)) :
    (after opsBlend2 W (Proc.devRef .tc main_v72) : FVec Ideal S32768x1 .f32)
      = extractStridedSlice S32768x1 ![0, 0] W⟪main_arg1, S32768x2⟫ slices_S32768x2_S32768x1_0_0 := by
  after_results_simp <;> rfl

set_option maxRecDepth 8192 in
set_option maxHeartbeats 4000000 in
/-- The first two layers' hidden states blended by the first flag. -/
theorem blend2_h (W : Valuation τ sig (Elt Ideal)) :
    (after opsBlend2 W (Proc.devRef .tc main_v79) : FVec Ideal S32768x256 .f32)
      = blendH bcast_S_S32768x1 bcast_S32768x1_S32768x256_0_1 W⟪main_v37, S32768x256⟫ W⟪main_v71, S32768x256⟫
      (extractStridedSlice S32768x1 ![0, 0] W⟪main_arg1, S32768x2⟫ slices_S32768x2_S32768x1_0_0) := by
  after_results_simp <;> rfl

set_option maxRecDepth 8192 in
set_option maxHeartbeats 4000000 in
/-- The first two layers' cell states blended by the first flag. -/
theorem blend2_c (W : Valuation τ sig (Elt Ideal)) :
    (after opsBlend2 W (Proc.devRef .tc main_v86) : FVec Ideal S32768x256 .f32)
      = blendH bcast_S_S32768x1 bcast_S32768x1_S32768x256_0_1 W⟪main_v29, S32768x256⟫ W⟪main_v63, S32768x256⟫
      (extractStridedSlice S32768x1 ![0, 0] W⟪main_arg1, S32768x2⟫ slices_S32768x2_S32768x1_0_0) := by
  after_results_simp <;> rfl

set_option maxRecDepth 8192 in
set_option maxHeartbeats 4000000 in
/-- The third layer's cell state: from the observation columns and the blended states. -/
theorem lstm3_c (W : Valuation τ sig (Elt Ideal)) :
    (after opsLstm3 W (Proc.devRef .tc main_v112) : FVec Ideal S32768x256 .f32)
      = cH bcast_S_S32768x256 0 256 512 slices_S32768x1024_S32768x256_0_0 slices_S32768x1024_S32768x256_0_256
      slices_S32768x1024_S32768x256_0_512
      (zH dot_S32768x8_S8x1024_S32768x1024_1_0_0_1_n_n dot_S32768x256_S256x1024_S32768x1024_1_0_0_1_n_n bcast_S1024_S1x1024_1 bcast_S1x1024_S32768x1024_0_1
        W⟪main_v1, S32768x8⟫ W⟪main_v79, S32768x256⟫
        W⟪main_arg10, S8x1024⟫ W⟪main_arg11, S256x1024⟫ W⟪main_arg12, S1024⟫)
      W⟪main_v86, S32768x256⟫ := by
  after_results_simp <;> rfl

set_option maxRecDepth 8192 in
set_option maxHeartbeats 4000000 in
/-- The third layer's hidden state. -/
theorem lstm3_h (W : Valuation τ sig (Elt Ideal)) :
    (after opsLstm3 W (Proc.devRef .tc main_v120) : FVec Ideal S32768x256 .f32)
      = hH bcast_S_S32768x256 768 slices_S32768x1024_S32768x256_0_768
      (zH dot_S32768x8_S8x1024_S32768x1024_1_0_0_1_n_n dot_S32768x256_S256x1024_S32768x1024_1_0_0_1_n_n bcast_S1024_S1x1024_1 bcast_S1x1024_S32768x1024_0_1
        W⟪main_v1, S32768x8⟫ W⟪main_v79, S32768x256⟫
        W⟪main_arg10, S8x1024⟫ W⟪main_arg11, S256x1024⟫ W⟪main_arg12, S1024⟫)
      (cH bcast_S_S32768x256 0 256 512 slices_S32768x1024_S32768x256_0_0 slices_S32768x1024_S32768x256_0_256
      slices_S32768x1024_S32768x256_0_512
      (zH dot_S32768x8_S8x1024_S32768x1024_1_0_0_1_n_n dot_S32768x256_S256x1024_S32768x1024_1_0_0_1_n_n bcast_S1024_S1x1024_1 bcast_S1x1024_S32768x1024_0_1
        W⟪main_v1, S32768x8⟫ W⟪main_v79, S32768x256⟫
        W⟪main_arg10, S8x1024⟫ W⟪main_arg11, S256x1024⟫ W⟪main_arg12, S1024⟫)
      W⟪main_v86, S32768x256⟫) := by
  after_results_simp <;> rfl

set_option maxRecDepth 8192 in
set_option maxHeartbeats 4000000 in
/-- The hidden state returned: the blended state and the third layer's, blended by the second flag. -/
theorem blend3_h (W : Valuation τ sig (Elt Ideal)) :
    (after opsBlend3 W (Proc.devRef .tc main_v128) : FVec Ideal S32768x256 .f32)
      = blendH bcast_S_S32768x1 bcast_S32768x1_S32768x256_0_1 W⟪main_v79, S32768x256⟫ W⟪main_v120, S32768x256⟫
      (extractStridedSlice S32768x1 ![0, 1] W⟪main_arg1, S32768x2⟫ slices_S32768x2_S32768x1_0_1) := by
  after_results_simp <;> rfl

set_option maxRecDepth 8192 in
set_option maxHeartbeats 4000000 in
/-- The cell state returned. -/
theorem blend3_c (W : Valuation τ sig (Elt Ideal)) :
    (after opsBlend3 W (Proc.devRef .tc main_v135) : FVec Ideal S32768x256 .f32)
      = blendH bcast_S_S32768x1 bcast_S32768x1_S32768x256_0_1 W⟪main_v86, S32768x256⟫ W⟪main_v112, S32768x256⟫
      (extractStridedSlice S32768x1 ![0, 1] W⟪main_arg1, S32768x2⟫ slices_S32768x2_S32768x1_0_1) := by
  after_results_simp <;> rfl

set_option maxRecDepth 8192 in
set_option maxHeartbeats 4000000 in
/-- What the read-out reads: the first two layers' hidden states blended by the first flag, the first product's factors in the other order. -/
theorem blend3_mix (W : Valuation τ sig (Elt Ideal)) :
    (after opsBlend3 W (Proc.devRef .tc main_v142) : FVec Ideal S32768x256 .f32)
      = blendLH bcast_S_S32768x1 bcast_S32768x1_S32768x256_0_1 W⟪main_v37, S32768x256⟫ W⟪main_v71, S32768x256⟫
      W⟪main_v72, S32768x1⟫ := by
  after_results_simp <;> rfl

set_option maxRecDepth 8192 in
set_option maxHeartbeats 4000000 in
/-- The read-out (its last operation lays two buffers side by side: the fold is computed at each of the two separately): the mean layer beside the softplus of the deviation layer, both of the exponential linear unit of a dense layer. -/
theorem decoder_out (W : Valuation τ sig (Elt Ideal)) :
    (after opsDecoder W (Proc.devRef .tc main_v157) : FVec Ideal S32768x16 .f32)
      = concatenate S32768x16 1
      [⟨S32768x8, (denseH dot_S32768x256_S256x8_S32768x8_1_0_0_1_n_n bcast_S8_S1x8_1 bcast_S1x8_S32768x8_0_1
      (eluH bcast_S_S32768x256
        (denseH dot_S32768x256_S256x256_S32768x256_1_0_0_1_n_n bcast_S256_S1x256_1 bcast_S1x256_S32768x256_0_1
          W⟪main_v142, S32768x256⟫ W⟪main_arg13, S256x256⟫ W⟪main_arg14, S256⟫))
      W⟪main_arg15, S256x8⟫ W⟪main_arg16, S8⟫)⟩,
       ⟨S32768x8, (softplusH bcast_S_S32768x8
      (denseH dot_S32768x256_S256x8_S32768x8_1_0_0_1_n_n bcast_S8_S1x8_1 bcast_S1x8_S32768x8_0_1
      (eluH bcast_S_S32768x256
        (denseH dot_S32768x256_S256x256_S32768x256_1_0_0_1_n_n bcast_S256_S1x256_1 bcast_S1x256_S32768x256_0_1
          W⟪main_v142, S32768x256⟫ W⟪main_arg13, S256x256⟫ W⟪main_arg14, S256⟫))
      W⟪main_arg17, S256x8⟫ W⟪main_arg18, S8⟫))⟩]
      concatenates_S32768x8_S32768x8_S32768x16_d1 := by
  after_results_simp
  refine congrArg₂ (fun a b : FVec Ideal S32768x8 .f32 =>
    concatenate S32768x16 1 [⟨S32768x8, a⟩, ⟨S32768x8, b⟩] concatenates_S32768x8_S32768x8_S32768x16_d1) ?_ ?_
  · after_results_simp <;> rfl
  · after_results_simp <;> rfl

/-! ## The closed terms read at a row

Row `r` of each of the host's spellings, as the specification's function of the rows `r` of what it is applied to. -/

section Rows

open Cert.Spec

variable {A : ℕ}

/-- A layer's cell state at a row: the new cell from the row's pre-activations and the row of the old cell. -/
theorem cH_row {K : ℕ} {d1 : DotDims ⟨2, ![A, K]⟩ ⟨2, ![K, 1024]⟩ ⟨2, ![A, 1024]⟩}
    {d2 : DotDims ⟨2, ![A, 256]⟩ ⟨2, ![256, 1024]⟩ ⟨2, ![A, 1024]⟩}
    (hd1 : d1 = DotDims.plain A K 1024) (hd2 : d2 = DotDims.plain A 256 1024)
    (h1 : (⟨1, ![1024]⟩ : Shape).BroadcastsInDim ⟨2, ![1, 1024]⟩ ![1])
    (h2 : (⟨2, ![1, 1024]⟩ : Shape).BroadcastsInDim ⟨2, ![A, 1024]⟩ ![0, 1])
    (h0 : (⟨0, ![]⟩ : Shape).BroadcastsInDim ⟨2, ![A, 256]⟩ ![])
    (si : (⟨2, ![A, 1024]⟩ : Shape).Slices ![0, 0] ⟨2, ![A, 256]⟩)
    (sf : (⟨2, ![A, 1024]⟩ : Shape).Slices ![0, 256] ⟨2, ![A, 256]⟩)
    (sg : (⟨2, ![A, 1024]⟩ : Shape).Slices ![0, 512] ⟨2, ![A, 256]⟩)
    (X : FVec Ideal ⟨2, ![A, K]⟩ .f32) (Hh : FVec Ideal ⟨2, ![A, 256]⟩ .f32)
    (Wk : FVec Ideal ⟨2, ![K, 1024]⟩ .f32) (Wr : FVec Ideal ⟨2, ![256, 1024]⟩ .f32) (b : FVec Ideal ⟨1, ![1024]⟩ .f32)
    (C : FVec Ideal ⟨2, ![A, 256]⟩ .f32) (r : Fin A) :
    rowAt (cH h0 0 256 512 si sf sg (zH d1 d2 h1 h2 X Hh Wk Wr b) C) r
      = newC (pre (rowAt X r) (rowAt Hh r) (fun k j => Wk (ix2 k j)) (fun k j => Wr (ix2 k j)) (fun j => b (ix1 j)))
          (rowAt C r) := by
  funext q
  have hq := q.isLt
  refine (cH_apply h0 0 256 512 si sf sg _ C r q (by omega) (by omega) (by omega)).trans ?_
  rw [zH_apply hd1 hd2, zH_apply hd1 hd2, zH_apply hd1 hd2]
  rfl

/-- A layer's hidden state at a row: the new hidden state from the row's pre-activations and the row of the new cell. -/
theorem hH_row {K : ℕ} {d1 : DotDims ⟨2, ![A, K]⟩ ⟨2, ![K, 1024]⟩ ⟨2, ![A, 1024]⟩}
    {d2 : DotDims ⟨2, ![A, 256]⟩ ⟨2, ![256, 1024]⟩ ⟨2, ![A, 1024]⟩}
    (hd1 : d1 = DotDims.plain A K 1024) (hd2 : d2 = DotDims.plain A 256 1024)
    (h1 : (⟨1, ![1024]⟩ : Shape).BroadcastsInDim ⟨2, ![1, 1024]⟩ ![1])
    (h2 : (⟨2, ![1, 1024]⟩ : Shape).BroadcastsInDim ⟨2, ![A, 1024]⟩ ![0, 1])
    (h0 : (⟨0, ![]⟩ : Shape).BroadcastsInDim ⟨2, ![A, 256]⟩ ![])
    (so : (⟨2, ![A, 1024]⟩ : Shape).Slices ![0, 768] ⟨2, ![A, 256]⟩)
    (X : FVec Ideal ⟨2, ![A, K]⟩ .f32) (Hh : FVec Ideal ⟨2, ![A, 256]⟩ .f32)
    (Wk : FVec Ideal ⟨2, ![K, 1024]⟩ .f32) (Wr : FVec Ideal ⟨2, ![256, 1024]⟩ .f32) (b : FVec Ideal ⟨1, ![1024]⟩ .f32)
    (C' : FVec Ideal ⟨2, ![A, 256]⟩ .f32) (r : Fin A) :
    rowAt (hH h0 768 so (zH d1 d2 h1 h2 X Hh Wk Wr b) C') r
      = newH (pre (rowAt X r) (rowAt Hh r) (fun k j => Wk (ix2 k j)) (fun k j => Wr (ix2 k j)) (fun j => b (ix1 j)))
          (rowAt C' r) := by
  funext q
  have hq := q.isLt
  refine (hH_apply h0 768 so _ C' r q (by omega)).trans ?_
  rw [zH_apply hd1 hd2]
  rfl

/-- The zero column the first layer multiplies its one-row input weights by, at a row. -/
theorem zeroColumn_row (h01 : (⟨0, ![]⟩ : Shape).BroadcastsInDim ⟨2, ![A, 1]⟩ ![]) (r : Fin A) :
    rowAt (broadcastInDim ⟨2, ![A, 1]⟩ ![] h01 (constant (F := Ideal) ⟨0, ![]⟩ .f32 0x00000000#32)) r = fun _ => zeroW :=
  rfl

/-- A column range of an array at a row: that range of the row. -/
theorem colRange_row {n H : ℕ} (o : ℕ) (X : FVec Ideal ⟨2, ![A, n]⟩ .f32)
    (hs : (⟨2, ![A, n]⟩ : Shape).Slices ![0, o] ⟨2, ![A, H]⟩) (ho : o + H ≤ n) (r : Fin A) :
    rowAt (extractStridedSlice ⟨2, ![A, H]⟩ ![0, o] X hs) r
      = fun k : Fin H => rowAt X r ⟨o + k.val, by have := k.isLt; omega⟩ := by
  funext k
  exact colRange_apply o X hs r k _

/-- The gated blend at a row. -/
theorem blendH_row {H : ℕ} (h01 : (⟨0, ![]⟩ : Shape).BroadcastsInDim ⟨2, ![A, 1]⟩ ![])
    (hb : (⟨2, ![A, 1]⟩ : Shape).BroadcastsInDim ⟨2, ![A, H]⟩ ![0, 1]) (a b : FVec Ideal ⟨2, ![A, H]⟩ .f32)
    (k : FVec Ideal ⟨2, ![A, 1]⟩ .f32) (r : Fin A) :
    rowAt (blendH h01 hb a b k) r = fun q => blend (rowAt a r q) (rowAt b r q) (k (ix2 r (0 : Fin 1))) := by
  funext q
  exact blendH_apply h01 hb a b k r q

/-- The gated blend with the first product's factors in the other order, at a row. -/
theorem blendLH_row {H : ℕ} (h01 : (⟨0, ![]⟩ : Shape).BroadcastsInDim ⟨2, ![A, 1]⟩ ![])
    (hb : (⟨2, ![A, 1]⟩ : Shape).BroadcastsInDim ⟨2, ![A, H]⟩ ![0, 1]) (a b : FVec Ideal ⟨2, ![A, H]⟩ .f32)
    (k : FVec Ideal ⟨2, ![A, 1]⟩ .f32) (r : Fin A) :
    rowAt (blendLH h01 hb a b k) r = fun q => blendL (rowAt a r q) (rowAt b r q) (k (ix2 r (0 : Fin 1))) := by
  funext q
  exact blendLH_apply h01 hb a b k r q

/-- A dense layer at a row. -/
theorem denseH_row {K M : ℕ} {d : DotDims ⟨2, ![A, K]⟩ ⟨2, ![K, M]⟩ ⟨2, ![A, M]⟩} (hd : d = DotDims.plain A K M)
    (h1 : (⟨1, ![M]⟩ : Shape).BroadcastsInDim ⟨2, ![1, M]⟩ ![1])
    (h2 : (⟨2, ![1, M]⟩ : Shape).BroadcastsInDim ⟨2, ![A, M]⟩ ![0, 1])
    (X : FVec Ideal ⟨2, ![A, K]⟩ .f32) (Wt : FVec Ideal ⟨2, ![K, M]⟩ .f32) (b : FVec Ideal ⟨1, ![M]⟩ .f32) (r : Fin A) :
    rowAt (denseH d h1 h2 X Wt b) r = fun j => dense (rowAt X r) (fun k => Wt (ix2 k j)) (b (ix1 j)) := by
  funext j
  exact denseH_apply hd h1 h2 X Wt b r j

/-- The exponential linear unit of an array at a row. -/
theorem eluH_row {n : ℕ} (h0 : (⟨0, ![]⟩ : Shape).BroadcastsInDim ⟨2, ![A, n]⟩ ![]) (X : FVec Ideal ⟨2, ![A, n]⟩ .f32)
    (r : Fin A) : rowAt (eluH h0 X) r = fun j => elu (rowAt X r j) := by
  funext j
  exact eluH_apply h0 X (ix2 r j)

/-- The softplus of an array at a row. -/
theorem softplusH_row {n : ℕ} (h0 : (⟨0, ![]⟩ : Shape).BroadcastsInDim ⟨2, ![A, n]⟩ ![]) (X : FVec Ideal ⟨2, ![A, n]⟩ .f32)
    (r : Fin A) : rowAt (softplusH h0 X) r = fun j => softplus (rowAt X r j) := by
  funext j
  exact softplusH_apply h0 X (ix2 r j)

/-- Two arrays side by side at a row: the two rows side by side. -/
theorem sideBySide_row {M M' : ℕ} (X₁ : FVec Ideal ⟨2, ![A, M]⟩ .f32) (X₂ : FVec Ideal ⟨2, ![A, M']⟩ .f32)
    (hcat : Shape.Concatenates [(⟨2, ![A, M]⟩ : Shape), ⟨2, ![A, M']⟩] ⟨2, ![A, M + M']⟩ 1) (r : Fin A) :
    rowAt (concatenate ⟨2, ![A, M + M']⟩ 1 [⟨⟨2, ![A, M]⟩, X₁⟩, ⟨⟨2, ![A, M']⟩, X₂⟩] hcat) r
      = Fin.addCases (rowAt X₁ r) (rowAt X₂ r) := by
  funext q
  exact sideBySide_apply X₁ X₂ hcat r q

/-- An array is the array of its rows. -/
theorem eq_rows {n : ℕ} (f : Row 72 → Row 2 → Row 256 → Row 256 → Row n) (D : FVec Ideal ⟨2, ![A, 72]⟩ .f32)
    (Fl : FVec Ideal ⟨2, ![A, 2]⟩ .f32) (H0 C0 : FVec Ideal ⟨2, ![A, 256]⟩ .f32) (X : FVec Ideal ⟨2, ![A, n]⟩ .f32)
    (h : ∀ r : Fin A, rowAt X r = f (rowAt D r) (rowAt Fl r) (rowAt H0 r) (rowAt C0 r)) :
    X = rows f D Fl H0 C0 := by
  funext i
  obtain ⟨r, q, rfl⟩ : ∃ (r : Fin A) (q : Fin n), i = ix2 r q := ⟨i 0, i 1, eq_ix2 i⟩
  rw [rows_ix2]
  exact congrFun (h r) q

end Rows

/-! ## The pieces in order

The contents after the first piece, the first two, … from contents `V` at launch. -/

local notation "W₁[" V "]" => after opsLstm1 V
local notation "W₂[" V "]" => after opsLstm2 (after opsLstm1 V)
local notation "W₃[" V "]" => after opsBlend2 (after opsLstm2 (after opsLstm1 V))
local notation "W₄[" V "]" => after opsLstm3 (after opsBlend2 (after opsLstm2 (after opsLstm1 V)))
local notation "W₅[" V "]" => after opsBlend3 (after opsLstm3 (after opsBlend2 (after opsLstm2 (after opsLstm1 V))))
local notation "W₆[" V "]" =>
  after opsDecoder (after opsBlend3 (after opsLstm3 (after opsBlend2 (after opsLstm2 (after opsLstm1 V)))))

/-- The whole line is its six pieces run in order. -/
theorem after_ops (V : Valuation τ sig (Elt Ideal)) : after ops V = W₆[V] := by
  simp only [ops, RefRun.after_append]

section Carry

variable (V : Valuation τ sig (Elt Ideal)) {b : Ref sig .tc}

/-! A buffer written before a piece passes through it. -/
theorem pass2 (hb : b.idx.val < 92) : (W₂[V]) (Proc.devRef .tc b) = (W₁[V]) (Proc.devRef .tc b) := opsLstm2_keeps _ hb
theorem pass3 (hb : b.idx.val < 160) : (W₃[V]) (Proc.devRef .tc b) = (W₂[V]) (Proc.devRef .tc b) := opsBlend2_keeps _ hb
theorem pass4 (hb : b.idx.val < 177) : (W₄[V]) (Proc.devRef .tc b) = (W₃[V]) (Proc.devRef .tc b) := opsLstm3_keeps _ hb
theorem pass5 (hb : b.idx.val < 245) : (W₅[V]) (Proc.devRef .tc b) = (W₄[V]) (Proc.devRef .tc b) := opsBlend3_keeps _ hb
theorem pass6 (hb : b.idx.val < 270) : (W₆[V]) (Proc.devRef .tc b) = (W₅[V]) (Proc.devRef .tc b) := opsDecoder_keeps _ hb

/-! An argument passes through every piece. -/
theorem keep1 (hb : b.idx.val < 19) : (W₁[V]) (Proc.devRef .tc b) = V (Proc.devRef .tc b) := opsLstm1_keeps V hb
theorem keep2 (hb : b.idx.val < 19) : (W₂[V]) (Proc.devRef .tc b) = V (Proc.devRef .tc b) :=
  (pass2 V (by omega)).trans (keep1 V hb)
theorem keep3 (hb : b.idx.val < 19) : (W₃[V]) (Proc.devRef .tc b) = V (Proc.devRef .tc b) :=
  (pass3 V (by omega)).trans (keep2 V hb)
theorem keep4 (hb : b.idx.val < 19) : (W₄[V]) (Proc.devRef .tc b) = V (Proc.devRef .tc b) :=
  (pass4 V (by omega)).trans (keep3 V hb)
theorem keep5 (hb : b.idx.val < 19) : (W₅[V]) (Proc.devRef .tc b) = V (Proc.devRef .tc b) :=
  (pass5 V (by omega)).trans (keep4 V hb)

end Carry

/-! ## Row by row, the specification's functions -/

section Stages

open Cert.Spec

/-- The parameters the program is run with: read off its fifteen weight and bias arguments. -/
def P (V : Valuation τ sig (Elt Ideal)) : Cert.Spec.Params :=
  Cert.Spec.hostParams V⟪main_arg4, S1x1024⟫ V⟪main_arg5, S256x1024⟫ V⟪main_arg6, S1024⟫ V⟪main_arg7, S64x1024⟫
    V⟪main_arg8, S256x1024⟫ V⟪main_arg9, S1024⟫ V⟪main_arg10, S8x1024⟫ V⟪main_arg11, S256x1024⟫ V⟪main_arg12, S1024⟫
    V⟪main_arg13, S256x256⟫ V⟪main_arg14, S256⟫ V⟪main_arg15, S256x8⟫ V⟪main_arg16, S8⟫ V⟪main_arg17, S256x8⟫
    V⟪main_arg18, S8⟫

variable (V : Valuation τ sig (Elt Ideal)) (r : Fin 32768)

theorem row1_x0 : rowAt (W₁[V])⟪main_v0, S32768x64⟫ r = inputs (rowAt V⟪main_arg0, S32768x72⟫ r) := by
  rw [lstm1_x0]
  exact colRange_row 0 _ _ (by omega) r

theorem row1_x1 : rowAt (W₁[V])⟪main_v1, S32768x8⟫ r = obs (rowAt V⟪main_arg0, S32768x72⟫ r) := by
  rw [lstm1_x1]
  exact colRange_row 64 _ _ (by omega) r

theorem row1_c : rowAt (W₁[V])⟪main_v29, S32768x256⟫ r
      = c1 (P V) (rowAt V⟪main_arg0, S32768x72⟫ r) (rowAt V⟪main_arg1, S32768x2⟫ r)
        (rowAt V⟪main_arg2, S32768x256⟫ r) (rowAt V⟪main_arg3, S32768x256⟫ r) := by
  rw [lstm1_c]
  exact cH_row (d1 := dot_S32768x1_S1x1024_S32768x1024_1_0_0_1_n_n) (d2 := dot_S32768x256_S256x1024_S32768x1024_1_0_0_1_n_n) rfl rfl _ _ _ _ _ _ _ _ _ _ _ _ r

theorem row1_h : rowAt (W₁[V])⟪main_v37, S32768x256⟫ r
      = h1 (P V) (rowAt V⟪main_arg0, S32768x72⟫ r) (rowAt V⟪main_arg1, S32768x2⟫ r)
        (rowAt V⟪main_arg2, S32768x256⟫ r) (rowAt V⟪main_arg3, S32768x256⟫ r) := by
  rw [lstm1_h]
  refine (hH_row (d1 := dot_S32768x1_S1x1024_S32768x1024_1_0_0_1_n_n) (d2 := dot_S32768x256_S256x1024_S32768x1024_1_0_0_1_n_n) rfl rfl _ _ _ _ _ _ _ _ _ _ r).trans ?_
  rw [cH_row (d1 := dot_S32768x1_S1x1024_S32768x1024_1_0_0_1_n_n) (d2 := dot_S32768x256_S256x1024_S32768x1024_1_0_0_1_n_n) rfl rfl]
  rfl

theorem row2_c : rowAt (W₂[V])⟪main_v63, S32768x256⟫ r
      = c2 (P V) (rowAt V⟪main_arg0, S32768x72⟫ r) (rowAt V⟪main_arg1, S32768x2⟫ r)
        (rowAt V⟪main_arg2, S32768x256⟫ r) (rowAt V⟪main_arg3, S32768x256⟫ r) := by
  rw [lstm2_c, cH_row (d1 := dot_S32768x64_S64x1024_S32768x1024_1_0_0_1_n_n) (d2 := dot_S32768x256_S256x1024_S32768x1024_1_0_0_1_n_n) rfl rfl, row1_x0 V r, row1_h V r, row1_c V r,
    keep1 V (b := main_arg7) (by decide), keep1 V (b := main_arg8) (by decide), keep1 V (b := main_arg9) (by decide)]
  rfl

theorem row2_h : rowAt (W₂[V])⟪main_v71, S32768x256⟫ r
      = h2 (P V) (rowAt V⟪main_arg0, S32768x72⟫ r) (rowAt V⟪main_arg1, S32768x2⟫ r)
        (rowAt V⟪main_arg2, S32768x256⟫ r) (rowAt V⟪main_arg3, S32768x256⟫ r) := by
  rw [lstm2_h, hH_row (d1 := dot_S32768x64_S64x1024_S32768x1024_1_0_0_1_n_n) (d2 := dot_S32768x256_S256x1024_S32768x1024_1_0_0_1_n_n) rfl rfl, cH_row (d1 := dot_S32768x64_S64x1024_S32768x1024_1_0_0_1_n_n) (d2 := dot_S32768x256_S256x1024_S32768x1024_1_0_0_1_n_n) rfl rfl,
    row1_x0 V r, row1_h V r, row1_c V r,
    keep1 V (b := main_arg7) (by decide), keep1 V (b := main_arg8) (by decide), keep1 V (b := main_arg9) (by decide)]
  rfl

/-- The first flag of the row, as the third piece leaves it. -/
theorem row3_k : (W₃[V])⟪main_v72, S32768x1⟫ (ix2 r (0 : Fin 1)) = (rowAt V⟪main_arg1, S32768x2⟫ r) ⟨0, by omega⟩ := by
  rw [blend2_k, keep2 V (b := main_arg1) (by decide)]
  exact flagColumn_apply 0 _ _ r 0 (by omega)

theorem row3_h : rowAt (W₃[V])⟪main_v79, S32768x256⟫ r
      = h2s (P V) (rowAt V⟪main_arg0, S32768x72⟫ r) (rowAt V⟪main_arg1, S32768x2⟫ r)
        (rowAt V⟪main_arg2, S32768x256⟫ r) (rowAt V⟪main_arg3, S32768x256⟫ r) := by
  rw [blend2_h, blendH_row, pass2 V (b := main_v37) (by decide), row1_h V r, row2_h V r, keep2 V (b := main_arg1) (by decide),
    flagColumn_apply 0 _ _ r (0 : Fin 1) (by omega : 0 < 2)]
  rfl

theorem row3_c : rowAt (W₃[V])⟪main_v86, S32768x256⟫ r
      = c2s (P V) (rowAt V⟪main_arg0, S32768x72⟫ r) (rowAt V⟪main_arg1, S32768x2⟫ r)
        (rowAt V⟪main_arg2, S32768x256⟫ r) (rowAt V⟪main_arg3, S32768x256⟫ r) := by
  rw [blend2_c, blendH_row, pass2 V (b := main_v29) (by decide), row1_c V r, row2_c V r, keep2 V (b := main_arg1) (by decide),
    flagColumn_apply 0 _ _ r (0 : Fin 1) (by omega : 0 < 2)]
  rfl

theorem row4_c : rowAt (W₄[V])⟪main_v112, S32768x256⟫ r
      = c3 (P V) (rowAt V⟪main_arg0, S32768x72⟫ r) (rowAt V⟪main_arg1, S32768x2⟫ r)
        (rowAt V⟪main_arg2, S32768x256⟫ r) (rowAt V⟪main_arg3, S32768x256⟫ r) := by
  rw [lstm3_c, cH_row (d1 := dot_S32768x8_S8x1024_S32768x1024_1_0_0_1_n_n) (d2 := dot_S32768x256_S256x1024_S32768x1024_1_0_0_1_n_n) rfl rfl, pass3 V (b := main_v1) (by decide), pass2 V (b := main_v1) (by decide), row1_x1 V r,
    row3_h V r, row3_c V r, keep3 V (b := main_arg10) (by decide), keep3 V (b := main_arg11) (by decide), keep3 V (b := main_arg12) (by decide)]
  rfl

theorem row4_h : rowAt (W₄[V])⟪main_v120, S32768x256⟫ r
      = h3 (P V) (rowAt V⟪main_arg0, S32768x72⟫ r) (rowAt V⟪main_arg1, S32768x2⟫ r)
        (rowAt V⟪main_arg2, S32768x256⟫ r) (rowAt V⟪main_arg3, S32768x256⟫ r) := by
  rw [lstm3_h, hH_row (d1 := dot_S32768x8_S8x1024_S32768x1024_1_0_0_1_n_n) (d2 := dot_S32768x256_S256x1024_S32768x1024_1_0_0_1_n_n) rfl rfl, cH_row (d1 := dot_S32768x8_S8x1024_S32768x1024_1_0_0_1_n_n) (d2 := dot_S32768x256_S256x1024_S32768x1024_1_0_0_1_n_n) rfl rfl,
    pass3 V (b := main_v1) (by decide), pass2 V (b := main_v1) (by decide), row1_x1 V r,
    row3_h V r, row3_c V r, keep3 V (b := main_arg10) (by decide), keep3 V (b := main_arg11) (by decide), keep3 V (b := main_arg12) (by decide)]
  rfl

theorem row5_h : rowAt (W₅[V])⟪main_v128, S32768x256⟫ r
      = h3s (P V) (rowAt V⟪main_arg0, S32768x72⟫ r) (rowAt V⟪main_arg1, S32768x2⟫ r)
        (rowAt V⟪main_arg2, S32768x256⟫ r) (rowAt V⟪main_arg3, S32768x256⟫ r) := by
  rw [blend3_h, blendH_row, pass4 V (b := main_v79) (by decide), row3_h V r, row4_h V r, keep4 V (b := main_arg1) (by decide),
    flagColumn_apply 1 _ _ r (0 : Fin 1) (by omega : 1 < 2)]
  rfl

theorem row5_c : rowAt (W₅[V])⟪main_v135, S32768x256⟫ r
      = c3s (P V) (rowAt V⟪main_arg0, S32768x72⟫ r) (rowAt V⟪main_arg1, S32768x2⟫ r)
        (rowAt V⟪main_arg2, S32768x256⟫ r) (rowAt V⟪main_arg3, S32768x256⟫ r) := by
  rw [blend3_c, blendH_row, pass4 V (b := main_v86) (by decide), row3_c V r, row4_c V r, keep4 V (b := main_arg1) (by decide),
    flagColumn_apply 1 _ _ r (0 : Fin 1) (by omega : 1 < 2)]
  rfl

theorem row5_mix : rowAt (W₅[V])⟪main_v142, S32768x256⟫ r
      = mix (P V) (rowAt V⟪main_arg0, S32768x72⟫ r) (rowAt V⟪main_arg1, S32768x2⟫ r)
        (rowAt V⟪main_arg2, S32768x256⟫ r) (rowAt V⟪main_arg3, S32768x256⟫ r) := by
  rw [blend3_mix, blendLH_row, pass4 V (b := main_v37) (by decide), pass3 V (b := main_v37) (by decide), pass2 V (b := main_v37) (by decide), row1_h V r,
    pass4 V (b := main_v71) (by decide), pass3 V (b := main_v71) (by decide), row2_h V r, pass4 V (b := main_v72) (by decide), row3_k V r]
  rfl

theorem row6_out : rowAt (W₆[V])⟪main_v157, S32768x16⟫ r
      = out (P V) (rowAt V⟪main_arg0, S32768x72⟫ r) (rowAt V⟪main_arg1, S32768x2⟫ r)
        (rowAt V⟪main_arg2, S32768x256⟫ r) (rowAt V⟪main_arg3, S32768x256⟫ r) := by
  rw [decoder_out]
  refine (sideBySide_row (M := 8) (M' := 8) _ _ _ r).trans ?_
  rw [softplusH_row, denseH_row (d := dot_S32768x256_S256x8_S32768x8_1_0_0_1_n_n) rfl, denseH_row (d := dot_S32768x256_S256x8_S32768x8_1_0_0_1_n_n) rfl, eluH_row,
    denseH_row (d := dot_S32768x256_S256x256_S32768x256_1_0_0_1_n_n) rfl, row5_mix V r,
    keep5 V (b := main_arg13) (by decide), keep5 V (b := main_arg14) (by decide), keep5 V (b := main_arg15) (by decide), keep5 V (b := main_arg16) (by decide),
    keep5 V (b := main_arg17) (by decide), keep5 V (b := main_arg18) (by decide)]
  rfl

end Stages

/-! ## The three results -/

/-- The read-out the program returns is the specification's, row by row. -/
theorem ref_out (V : Valuation τ sig (Elt Ideal)) :
    (after RefRun.ops V (Proc.devRef .tc main_v157) : FVec Ideal S32768x16 .f32)
      = Cert.Spec.GOut (A := 32768) (P V) V⟪main_arg0, S32768x72⟫ V⟪main_arg1, S32768x2⟫ V⟪main_arg2, S32768x256⟫
          V⟪main_arg3, S32768x256⟫ := by
  rw [after_ops]
  exact eq_rows _ _ _ _ _ _ fun r => row6_out V r

/-- The hidden state the program returns is the specification's, row by row. -/
theorem ref_h (V : Valuation τ sig (Elt Ideal)) :
    (after RefRun.ops V (Proc.devRef .tc main_v128) : FVec Ideal S32768x256 .f32)
      = Cert.Spec.GH (A := 32768) (P V) V⟪main_arg0, S32768x72⟫ V⟪main_arg1, S32768x2⟫ V⟪main_arg2, S32768x256⟫
          V⟪main_arg3, S32768x256⟫ := by
  rw [after_ops, pass6 V (b := main_v128) (by decide)]
  exact eq_rows _ _ _ _ _ _ fun r => row5_h V r

/-- The cell state the program returns is the specification's, row by row. -/
theorem ref_c (V : Valuation τ sig (Elt Ideal)) :
    (after RefRun.ops V (Proc.devRef .tc main_v135) : FVec Ideal S32768x256 .f32)
      = Cert.Spec.GC (A := 32768) (P V) V⟪main_arg0, S32768x72⟫ V⟪main_arg1, S32768x2⟫ V⟪main_arg2, S32768x256⟫
          V⟪main_arg3, S32768x256⟫ := by
  rw [after_ops, pass6 V (b := main_v135) (by decide)]
  exact eq_rows _ _ _ _ _ _ fun r => row5_c V r

end Cert.ReferenceIdeal.RefValue

end
-- ==== Proof.lean ====
/-
  The certificate of the cell kernel against its reference. Both programs compute, for every row of the batch independently,
  three steps of a long short-term memory cell with two flag-gated blends and a small Gaussian head (Proof/Spec.lean states the
  row function; nothing in it needs the inputs to be finite, so the precondition is never opened).
  The kernel's side: its frame is the generated one; its three result arrays are read off the generated frame run block by
  block (Proof/KernelPay.lean: the body on one block of 512 rows, entry by entry; Proof/KernelBlocks.lean: the 64 blocks tile the
  arrays). The reference's side: its program is a straight line of host operations once its outlined functions are unfolded at
  their calls (Proof/RefRun.lean), and each result of that line, read entry by entry, is the same row function
  (Proof/RefValue.lean). The idealization rewrote nothing, so `preserves` has no conjunct.
-/
import proofs.«162006_j48043504173109_1_alg».proof.Defs
import proofs.«162006_j48043504173109_1_alg».proof.Proof.Gen.Kernel
import proofs.«162006_j48043504173109_1_alg».proof.Proof.Gen.Kernel.Frame
import proofs.«162006_j48043504173109_1_alg».proof.Proof.Gen.KernelIdeal
import proofs.«162006_j48043504173109_1_alg».proof.Proof.Gen.KernelIdeal.Frame
import proofs.«162006_j48043504173109_1_alg».proof.Proof.Gen.ReferenceIdeal
import proofs.«162006_j48043504173109_1_alg».proof.Proof.Gen.Pre_finite_inputs
import proofs.«162006_j48043504173109_1_alg».proof.Proof.LibFold
import proofs.«162006_j48043504173109_1_alg».proof.Proof.KernelBlocks
import proofs.«162006_j48043504173109_1_alg».proof.Proof.RefRun
import proofs.«162006_j48043504173109_1_alg».proof.Proof.RefValue
import Idealize.ShloMosaic.Adequacy
import Idealize.ShloMosaic.Init

set_option maxRecDepth 16384

noncomputable section

namespace Cert.Proof

open Idealize.ShloMosaic Idealize.ShloMosaic.StableHlo Idealize.SL.Sem Idealize.ShloMosaic.TcCoe

theorem frame_k : Cert.frame_Kernel := fun m ρ _ => Cert.Kernel.Gen.frame m ρ

theorem frame_ki : Cert.frame_KernelIdeal := fun m ρ _ => Cert.KernelIdeal.Gen.frame m ρ

/-- The reference's straight line writes none of its argument arrays. -/
theorem frame_ri : Cert.frame_ReferenceIdeal := fun m ρ _ =>
  (θ_run Cert.ReferenceIdeal.defs _ _).mono (fun r h c =>
    ⟨(h c Cert.ReferenceIdeal.main_arg0).trans (Cert.ReferenceIdeal.RefRun.arg_kept (F := Ideal) _ Cert.ReferenceIdeal.main_arg0 (by decide)),
      (h c Cert.ReferenceIdeal.main_arg1).trans (Cert.ReferenceIdeal.RefRun.arg_kept (F := Ideal) _ Cert.ReferenceIdeal.main_arg1 (by decide)),
      (h c Cert.ReferenceIdeal.main_arg2).trans (Cert.ReferenceIdeal.RefRun.arg_kept (F := Ideal) _ Cert.ReferenceIdeal.main_arg2 (by decide)),
      (h c Cert.ReferenceIdeal.main_arg3).trans (Cert.ReferenceIdeal.RefRun.arg_kept (F := Ideal) _ Cert.ReferenceIdeal.main_arg3 (by decide)),
      (h c Cert.ReferenceIdeal.main_arg4).trans (Cert.ReferenceIdeal.RefRun.arg_kept (F := Ideal) _ Cert.ReferenceIdeal.main_arg4 (by decide)),
      (h c Cert.ReferenceIdeal.main_arg5).trans (Cert.ReferenceIdeal.RefRun.arg_kept (F := Ideal) _ Cert.ReferenceIdeal.main_arg5 (by decide)),
      (h c Cert.ReferenceIdeal.main_arg6).trans (Cert.ReferenceIdeal.RefRun.arg_kept (F := Ideal) _ Cert.ReferenceIdeal.main_arg6 (by decide)),
      (h c Cert.ReferenceIdeal.main_arg7).trans (Cert.ReferenceIdeal.RefRun.arg_kept (F := Ideal) _ Cert.ReferenceIdeal.main_arg7 (by decide)),
      (h c Cert.ReferenceIdeal.main_arg8).trans (Cert.ReferenceIdeal.RefRun.arg_kept (F := Ideal) _ Cert.ReferenceIdeal.main_arg8 (by decide)),
      (h c Cert.ReferenceIdeal.main_arg9).trans (Cert.ReferenceIdeal.RefRun.arg_kept (F := Ideal) _ Cert.ReferenceIdeal.main_arg9 (by decide)),
      (h c Cert.ReferenceIdeal.main_arg10).trans (Cert.ReferenceIdeal.RefRun.arg_kept (F := Ideal) _ Cert.ReferenceIdeal.main_arg10 (by decide)),
      (h c Cert.ReferenceIdeal.main_arg11).trans (Cert.ReferenceIdeal.RefRun.arg_kept (F := Ideal) _ Cert.ReferenceIdeal.main_arg11 (by decide)),
      (h c Cert.ReferenceIdeal.main_arg12).trans (Cert.ReferenceIdeal.RefRun.arg_kept (F := Ideal) _ Cert.ReferenceIdeal.main_arg12 (by decide)),
      (h c Cert.ReferenceIdeal.main_arg13).trans (Cert.ReferenceIdeal.RefRun.arg_kept (F := Ideal) _ Cert.ReferenceIdeal.main_arg13 (by decide)),
      (h c Cert.ReferenceIdeal.main_arg14).trans (Cert.ReferenceIdeal.RefRun.arg_kept (F := Ideal) _ Cert.ReferenceIdeal.main_arg14 (by decide)),
      (h c Cert.ReferenceIdeal.main_arg15).trans (Cert.ReferenceIdeal.RefRun.arg_kept (F := Ideal) _ Cert.ReferenceIdeal.main_arg15 (by decide)),
      (h c Cert.ReferenceIdeal.main_arg16).trans (Cert.ReferenceIdeal.RefRun.arg_kept (F := Ideal) _ Cert.ReferenceIdeal.main_arg16 (by decide)),
      (h c Cert.ReferenceIdeal.main_arg17).trans (Cert.ReferenceIdeal.RefRun.arg_kept (F := Ideal) _ Cert.ReferenceIdeal.main_arg17 (by decide)),
      (h c Cert.ReferenceIdeal.main_arg18).trans (Cert.ReferenceIdeal.RefRun.arg_kept (F := Ideal) _ Cert.ReferenceIdeal.main_arg18 (by decide))⟩)
    (Cert.ReferenceIdeal.RefRun.run_main (F := Ideal) m ρ)

/-- Arrays that agree entry for entry give the same row-by-row arrays. -/
theorem agree_G (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) :
    (Cert.Spec.GOut (A := 32768) (Cert.Spec.hostParams (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18))) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))) = (Cert.Spec.GOut (A := 32768) (Cert.Spec.hostParams (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
    ∧ (Cert.Spec.GH (A := 32768) (Cert.Spec.hostParams (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18))) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))) = (Cert.Spec.GH (A := 32768) (Cert.Spec.hostParams (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
    ∧ (Cert.Spec.GC (A := 32768) (Cert.Spec.hostParams (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18))) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))) = (Cert.Spec.GC (A := 32768) (Cert.Spec.hostParams (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) := by
  obtain ⟨a0, a1, a2, a3, a4, a5, a6, a7, a8, a9, a10, a11, a12, a13, a14, a15, a16, a17, a18⟩ := hag
  rw [a0, a1, a2, a3, a4, a5, a6, a7, a8, a9, a10, a11, a12, a13, a14, a15, a16, a17, a18]
  exact ⟨rfl, rfl, rfl⟩

theorem algebraic : Cert.algebraic_KernelIdeal_ReferenceIdeal := by
  intro m ρ m' ρ' _ hagree
  refine ⟨_, _, _, (θ_run Cert.KernelIdeal.defs _ _).mono (fun r h c => ⟨(h.1 c).1, (h.1 c).2.1, (h.1 c).2.2, h.2 c⟩)
    (Idealize.ShloMosaic.Fold.run_and _ _ _ (Cert.KernelIdeal.Blocks.run m ρ) (Cert.KernelIdeal.Gen.frame m ρ)), ?_⟩
  refine (θ_run Cert.ReferenceIdeal.defs _ _).mono (fun r h c => ?_) (Cert.ReferenceIdeal.RefRun.run_main (F := Ideal) m' ρ')
  obtain ⟨e0, e1, e2⟩ := agree_G m m' c (hagree c)
  refine ⟨((h c Cert.ReferenceIdeal.main_v157).trans (Cert.ReferenceIdeal.RefValue.ref_out _)).trans e0,
    ((h c Cert.ReferenceIdeal.main_v128).trans (Cert.ReferenceIdeal.RefValue.ref_h _)).trans e1,
    ((h c Cert.ReferenceIdeal.main_v135).trans (Cert.ReferenceIdeal.RefValue.ref_c _)).trans e2,
      (h c Cert.ReferenceIdeal.main_arg0).trans (Cert.ReferenceIdeal.RefRun.arg_kept (F := Ideal) _ Cert.ReferenceIdeal.main_arg0 (by decide)),
      (h c Cert.ReferenceIdeal.main_arg1).trans (Cert.ReferenceIdeal.RefRun.arg_kept (F := Ideal) _ Cert.ReferenceIdeal.main_arg1 (by decide)),
      (h c Cert.ReferenceIdeal.main_arg2).trans (Cert.ReferenceIdeal.RefRun.arg_kept (F := Ideal) _ Cert.ReferenceIdeal.main_arg2 (by decide)),
      (h c Cert.ReferenceIdeal.main_arg3).trans (Cert.ReferenceIdeal.RefRun.arg_kept (F := Ideal) _ Cert.ReferenceIdeal.main_arg3 (by decide)),
      (h c Cert.ReferenceIdeal.main_arg4).trans (Cert.ReferenceIdeal.RefRun.arg_kept (F := Ideal) _ Cert.ReferenceIdeal.main_arg4 (by decide)),
      (h c Cert.ReferenceIdeal.main_arg5).trans (Cert.ReferenceIdeal.RefRun.arg_kept (F := Ideal) _ Cert.ReferenceIdeal.main_arg5 (by decide)),
      (h c Cert.ReferenceIdeal.main_arg6).trans (Cert.ReferenceIdeal.RefRun.arg_kept (F := Ideal) _ Cert.ReferenceIdeal.main_arg6 (by decide)),
      (h c Cert.ReferenceIdeal.main_arg7).trans (Cert.ReferenceIdeal.RefRun.arg_kept (F := Ideal) _ Cert.ReferenceIdeal.main_arg7 (by decide)),
      (h c Cert.ReferenceIdeal.main_arg8).trans (Cert.ReferenceIdeal.RefRun.arg_kept (F := Ideal) _ Cert.ReferenceIdeal.main_arg8 (by decide)),
      (h c Cert.ReferenceIdeal.main_arg9).trans (Cert.ReferenceIdeal.RefRun.arg_kept (F := Ideal) _ Cert.ReferenceIdeal.main_arg9 (by decide)),
      (h c Cert.ReferenceIdeal.main_arg10).trans (Cert.ReferenceIdeal.RefRun.arg_kept (F := Ideal) _ Cert.ReferenceIdeal.main_arg10 (by decide)),
      (h c Cert.ReferenceIdeal.main_arg11).trans (Cert.ReferenceIdeal.RefRun.arg_kept (F := Ideal) _ Cert.ReferenceIdeal.main_arg11 (by decide)),
      (h c Cert.ReferenceIdeal.main_arg12).trans (Cert.ReferenceIdeal.RefRun.arg_kept (F := Ideal) _ Cert.ReferenceIdeal.main_arg12 (by decide)),
      (h c Cert.ReferenceIdeal.main_arg13).trans (Cert.ReferenceIdeal.RefRun.arg_kept (F := Ideal) _ Cert.ReferenceIdeal.main_arg13 (by decide)),
      (h c Cert.ReferenceIdeal.main_arg14).trans (Cert.ReferenceIdeal.RefRun.arg_kept (F := Ideal) _ Cert.ReferenceIdeal.main_arg14 (by decide)),
      (h c Cert.ReferenceIdeal.main_arg15).trans (Cert.ReferenceIdeal.RefRun.arg_kept (F := Ideal) _ Cert.ReferenceIdeal.main_arg15 (by decide)),
      (h c Cert.ReferenceIdeal.main_arg16).trans (Cert.ReferenceIdeal.RefRun.arg_kept (F := Ideal) _ Cert.ReferenceIdeal.main_arg16 (by decide)),
      (h c Cert.ReferenceIdeal.main_arg17).trans (Cert.ReferenceIdeal.RefRun.arg_kept (F := Ideal) _ Cert.ReferenceIdeal.main_arg17 (by decide)),
      (h c Cert.ReferenceIdeal.main_arg18).trans (Cert.ReferenceIdeal.RefRun.arg_kept (F := Ideal) _ Cert.ReferenceIdeal.main_arg18 (by decide))⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
